-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x114 : Shape := ⟨2, ![50000, 114]⟩
abbrev S2x800000 : Shape := ⟨2, ![2, 800000]⟩
abbrev S50000 : Shape := ⟨1, ![50000]⟩
abbrev S114x198 : Shape := ⟨2, ![114, 198]⟩
abbrev S198 : Shape := ⟨1, ![198]⟩
abbrev S198x198 : Shape := ⟨2, ![198, 198]⟩
abbrev S198x64 : Shape := ⟨2, ![198, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x2 : Shape := ⟨2, ![8, 2]⟩
abbrev S2 : Shape := ⟨1, ![2]⟩
abbrev S_ : Shape := ⟨0, ![]⟩

class Facts : Prop where
  bcast_S_S50000x114 : S_.BroadcastsInDim S50000x114 (![] : Fin 0 → Fin S50000x114.rank)
  reducesTo_S50000x114_S_d0_1 : S50000x114.ReducesTo [0, 1] S_
  h_S_ : 0 < S_.numel
  bcast_S_S114x198 : S_.BroadcastsInDim S114x198 (![] : Fin 0 → Fin S114x198.rank)
  reducesTo_S114x198_S_d0_1 : S114x198.ReducesTo [0, 1] S_
  bcast_S_S198 : S_.BroadcastsInDim S198 (![] : Fin 0 → Fin S198.rank)
  reducesTo_S198_S_d0 : S198.ReducesTo [0] S_
  bcast_S_S198x198 : S_.BroadcastsInDim S198x198 (![] : Fin 0 → Fin S198x198.rank)
  reducesTo_S198x198_S_d0_1 : S198x198.ReducesTo [0, 1] S_
  bcast_S_S198x64 : S_.BroadcastsInDim S198x64 (![] : Fin 0 → Fin S198x64.rank)
  reducesTo_S198x64_S_d0_1 : S198x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x2 : S_.BroadcastsInDim S8x2 (![] : Fin 0 → Fin S8x2.rank)
  reducesTo_S8x2_S_d0_1 : S8x2.ReducesTo [0, 1] S_
  bcast_S_S2 : S_.BroadcastsInDim S2 (![] : Fin 0 → Fin S2.rank)
  reducesTo_S2_S_d0 : S2.ReducesTo [0] S_

variable [Facts]

def fn_part7 {F : FTy → Type} [FloatOps F] (main_v118 : IVec S_ 1) (main_v119 : FVec F S2 .f32) : IVec S_ 1 :=
  let main_cst_46 : FVec F S_ .f32 := constant S_ .f32 0x7F800000#32
  let main_v120 : FVec F S2 .f32 := broadcastInDim S2 ![] bcast_S_S2 main_cst_46
  let main_v121 : IVec S2 1 := cmpf .olt main_v119 main_v120
  let main_c_47 : IVec S_ 1 := constantI S_ 1 1#1
  let main_v122 : IVec S_ 1 := (fun x v => Host.reduce IntOp.andi x v reducesTo_S2_S_d0 h_S_) main_v121 main_c_47
  let main_v123 : IVec S_ 1 := andi main_v118 main_v122
  main_v123

def fn_part6 {F : FTy → Type} [FloatOps F] (main_arg23 : FVec F S16x8 .f32) (main_arg24 : FVec F S8 .f32) (main_arg25 : FVec F S8x2 .f32) (main_arg26 : FVec F S2 .f32) (main_v98 : IVec S_ 1) (main_v101 : IVec S16 1) (main_c_39 : IVec S_ 1) : IVec S_ 1 :=
  let main_v102 : IVec S_ 1 := (fun x v => Host.reduce IntOp.andi x v reducesTo_S16_S_d0 h_S_) main_v101 main_c_39
  let main_v103 : IVec S_ 1 := andi main_v98 main_v102
  let main_v104 : FVec F S16x8 .f32 := Host.absf main_arg23
  let main_cst_40 : FVec F S_ .f32 := constant S_ .f32 0x7F800000#32
  let main_v105 : FVec F S16x8 .f32 := broadcastInDim S16x8 ![] bcast_S_S16x8 main_cst_40
  let main_v106 : IVec S16x8 1 := cmpf .olt main_v104 main_v105
  let main_c_41 : IVec S_ 1 := constantI S_ 1 1#1
  let main_v107 : IVec S_ 1 := (fun x v => Host.reduce IntOp.andi x v reducesTo_S16x8_S_d0_1 h_S_) main_v106 main_c_41
  let main_v108 : IVec S_ 1 := andi main_v103 main_v107
  let main_v109 : FVec F S8 .f32 := Host.absf main_arg24
  let main_cst_42 : FVec F S_ .f32 := constant S_ .f32 0x7F800000#32
  let main_v110 : FVec F S8 .f32 := broadcastInDim S8 ![] bcast_S_S8 main_cst_42
  let main_v111 : IVec S8 1 := cmpf .olt main_v109 main_v110
  let main_c_43 : IVec S_ 1 := constantI S_ 1 1#1
  let main_v112 : IVec S_ 1 := (fun x v => Host.reduce IntOp.andi x v reducesTo_S8_S_d0 h_S_) main_v111 main_c_43
  let main_v113 : IVec S_ 1 := andi main_v108 main_v112
  let main_v114 : FVec F S8x2 .f32 := Host.absf main_arg25
  let main_cst_44 : FVec F S_ .f32 := constant S_ .f32 0x7F800000#32
  let main_v115 : FVec F S8x2 .f32 := broadcastInDim S8x2 ![] bcast_S_S8x2 main_cst_44
  let main_v116 : IVec S8x2 1 := cmpf .olt main_v114 main_v115
  let main_c_45 : IVec S_ 1 := constantI S_ 1 1#1
  let main_v117 : IVec S_ 1 := (fun x v => Host.reduce IntOp.andi x v reducesTo_S8x2_S_d0_1 h_S_) main_v116 main_c_45
  let main_v118 : IVec S_ 1 := andi main_v113 main_v117
  let main_v119 : FVec F S2 .f32 := Host.absf main_arg26
  fn_part7 (F := F) main_v118 main_v119

def fn_part5 {F : FTy → Type} [FloatOps F] (main_arg20 : FVec F S32 .f32) (main_arg21 : FVec F S32x16 .f32) (main_arg22 : FVec F S16 .f32) (main_arg23 : FVec F S16x8 .f32) (main_arg24 : FVec F S8 .f32) (main_arg25 : FVec F S8x2 .f32) (main_arg26 : FVec F S2 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x16 .f32 := Host.absf main_arg21
  let main_cst_36 : FVec F S_ .f32 := constant S_ .f32 0x7F800000#32
  let main_v95 : FVec F S32x16 .f32 := broadcastInDim S32x16 ![] bcast_S_S32x16 main_cst_36
  let main_v96 : IVec S32x16 1 := cmpf .olt main_v94 main_v95
  let main_c_37 : IVec S_ 1 := constantI S_ 1 1#1
  let main_v97 : IVec S_ 1 := (fun x v => Host.reduce IntOp.andi x v reducesTo_S32x16_S_d0_1 h_S_) main_v96 main_c_37
  let main_v98 : IVec S_ 1 := andi main_v93 main_v97
  let main_v99 : FVec F S16 .f32 := Host.absf main_arg22
  let main_cst_38 : FVec F S_ .f32 := constant S_ .f32 0x7F800000#32
  let main_v100 : FVec F S16 .f32 := broadcastInDim S16 ![] bcast_S_S16 main_cst_38
  let main_v101 : IVec S16 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S32 .f32) (main_arg17 : FVec F S32x32 .f32) (main_arg18 : FVec F S32 .f32) (main_arg19 : FVec F S32 .f32) (main_arg20 : FVec F S32 .f32) (main_arg21 : FVec F S32x16 .f32) (main_arg22 : FVec F S16 .f32) (main_arg23 : FVec F S16x8 .f32) (main_arg24 : FVec F S8 .f32) (main_arg25 : FVec F S8x2 .f32) (main_arg26 : FVec F S2 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x32 .f32 := Host.absf main_arg17
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg18
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S64 .f32) (main_arg14 : FVec F S64 .f32) (main_arg15 : FVec F S64x32 .f32) (main_arg16 : FVec F S32 .f32) (main_arg17 : FVec F S32x32 .f32) (main_arg18 : FVec F S32 .f32) (main_arg19 : FVec F S32 .f32) (main_arg20 : FVec F S32 .f32) (main_arg21 : FVec F S32x16 .f32) (main_arg22 : FVec F S16 .f32) (main_arg23 : FVec F S16x8 .f32) (main_arg24 : FVec F S8 .f32) (main_arg25 : FVec F S8x2 .f32) (main_arg26 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg15
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S198x64 .f32) (main_arg10 : FVec F S64 .f32) (main_arg11 : FVec F S64x64 .f32) (main_arg12 : FVec F S64 .f32) (main_arg13 : FVec F S64 .f32) (main_arg14 : FVec F S64 .f32) (main_arg15 : FVec F S64x32 .f32) (main_arg16 : FVec F S32 .f32) (main_arg17 : FVec F S32x32 .f32) (main_arg18 : FVec F S32 .f32) (main_arg19 : FVec F S32 .f32) (main_arg20 : FVec F S32 .f32) (main_arg21 : FVec F S32x16 .f32) (main_arg22 : FVec F S16 .f32) (main_arg23 : FVec F S16x8 .f32) (main_arg24 : FVec F S8 .f32) (main_arg25 : FVec F S8x2 .f32) (main_arg26 : FVec F S2 .f32) (main_v33 : IVec S_ 1) : IVec S_ 1 :=
  let main_v34 : FVec F S198x64 .f32 := Host.absf main_arg9
  let main_cst_12 : FVec F S_ .f32 := constant S_ .f32 0x7F800000#32
  let main_v35 : FVec F S198x64 .f32 := broadcastInDim S198x64 ![] bcast_S_S198x64 main_cst_12
  let main_v36 : IVec S198x64 1 := cmpf .olt main_v34 main_v35
  let main_c_13 : IVec S_ 1 := constantI S_ 1 1#1
  let main_v37 : IVec S_ 1 := (fun x v => Host.reduce IntOp.andi x v reducesTo_S198x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S198 .f32) (main_arg7 : FVec F S198 .f32) (main_arg8 : FVec F S198 .f32) (main_arg9 : FVec F S198x64 .f32) (main_arg10 : FVec F S64 .f32) (main_arg11 : FVec F S64x64 .f32) (main_arg12 : FVec F S64 .f32) (main_arg13 : FVec F S64 .f32) (main_arg14 : FVec F S64 .f32) (main_arg15 : FVec F S64x32 .f32) (main_arg16 : FVec F S32 .f32) (main_arg17 : FVec F S32x32 .f32) (main_arg18 : FVec F S32 .f32) (main_arg19 : FVec F S32 .f32) (main_arg20 : FVec F S32 .f32) (main_arg21 : FVec F S32x16 .f32) (main_arg22 : FVec F S16 .f32) (main_arg23 : FVec F S16x8 .f32) (main_arg24 : FVec F S8 .f32) (main_arg25 : FVec F S8x2 .f32) (main_arg26 : FVec F S2 .f32) (main_v13 : IVec S_ 1) (main_v16 : IVec S198x198 1) : IVec S_ 1 :=
  let main_c_5 : IVec S_ 1 := constantI S_ 1 1#1
  let main_v17 : IVec S_ 1 := (fun x v => Host.reduce IntOp.andi x v reducesTo_S198x198_S_d0_1 h_S_) main_v16 main_c_5
  let main_v18 : IVec S_ 1 := andi main_v13 main_v17
  let main_v19 : FVec F S198 .f32 := Host.absf main_arg6
  let main_cst_6 : FVec F S_ .f32 := constant S_ .f32 0x7F800000#32
  let main_v20 : FVec F S198 .f32 := broadcastInDim S198 ![] bcast_S_S198 main_cst_6
  let main_v21 : IVec S198 1 := cmpf .olt main_v19 main_v20
  let main_c_7 : IVec S_ 1 := constantI S_ 1 1#1
  let main_v22 : IVec S_ 1 := (fun x v => Host.reduce IntOp.andi x v reducesTo_S198_S_d0 h_S_) main_v21 main_c_7
  let main_v23 : IVec S_ 1 := andi main_v18 main_v22
  let main_v24 : FVec F S198 .f32 := Host.absf main_arg7
  let main_cst_8 : FVec F S_ .f32 := constant S_ .f32 0x7F800000#32
  let main_v25 : FVec F S198 .f32 := broadcastInDim S198 ![] bcast_S_S198 main_cst_8
  let main_v26 : IVec S198 1 := cmpf .olt main_v24 main_v25
  let main_c_9 : IVec S_ 1 := constantI S_ 1 1#1
  let main_v27 : IVec S_ 1 := (fun x v => Host.reduce IntOp.andi x v reducesTo_S198_S_d0 h_S_) main_v26 main_c_9
  let main_v28 : IVec S_ 1 := andi main_v23 main_v27
  let main_v29 : FVec F S198 .f32 := Host.absf main_arg8
  let main_cst_10 : FVec F S_ .f32 := constant S_ .f32 0x7F800000#32
  let main_v30 : FVec F S198 .f32 := broadcastInDim S198 ![] bcast_S_S198 main_cst_10
  let main_v31 : IVec S198 1 := cmpf .olt main_v29 main_v30
  let main_c_11 : IVec S_ 1 := constantI S_ 1 1#1
  let main_v32 : IVec S_ 1 := (fun x v => Host.reduce IntOp.andi x v reducesTo_S198_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S50000x114 .f32) (main_arg1 : IVec S2x800000 32) (main_arg2 : IVec S50000 32) (main_arg3 : FVec F S114x198 .f32) (main_arg4 : FVec F S198 .f32) (main_arg5 : FVec F S198x198 .f32) (main_arg6 : FVec F S198 .f32) (main_arg7 : FVec F S198 .f32) (main_arg8 : FVec F S198 .f32) (main_arg9 : FVec F S198x64 .f32) (main_arg10 : FVec F S64 .f32) (main_arg11 : FVec F S64x64 .f32) (main_arg12 : FVec F S64 .f32) (main_arg13 : FVec F S64 .f32) (main_arg14 : FVec F S64 .f32) (main_arg15 : FVec F S64x32 .f32) (main_arg16 : FVec F S32 .f32) (main_arg17 : FVec F S32x32 .f32) (main_arg18 : FVec F S32 .f32) (main_arg19 : FVec F S32 .f32) (main_arg20 : FVec F S32 .f32) (main_arg21 : FVec F S32x16 .f32) (main_arg22 : FVec F S16 .f32) (main_arg23 : FVec F S16x8 .f32) (main_arg24 : FVec F S8 .f32) (main_arg25 : FVec F S8x2 .f32) (main_arg26 : FVec F S2 .f32) : IVec S_ 1 :=
  let main_v0 : FVec F S50000x114 .f32 := Host.absf main_arg0
  let main_cst : FVec F S_ .f32 := constant S_ .f32 0x7F800000#32
  let main_v1 : FVec F S50000x114 .f32 := broadcastInDim S50000x114 ![] bcast_S_S50000x114 main_cst
  let main_v2 : IVec S50000x114 1 := cmpf .olt main_v0 main_v1
  let main_c : IVec S_ 1 := constantI S_ 1 1#1
  let main_v3 : IVec S_ 1 := (fun x v => Host.reduce IntOp.andi x v reducesTo_S50000x114_S_d0_1 h_S_) main_v2 main_c
  let main_v4 : FVec F S114x198 .f32 := Host.absf main_arg3
  let main_cst_0 : FVec F S_ .f32 := constant S_ .f32 0x7F800000#32
  let main_v5 : FVec F S114x198 .f32 := broadcastInDim S114x198 ![] bcast_S_S114x198 main_cst_0
  let main_v6 : IVec S114x198 1 := cmpf .olt main_v4 main_v5
  let main_c_1 : IVec S_ 1 := constantI S_ 1 1#1
  let main_v7 : IVec S_ 1 := (fun x v => Host.reduce IntOp.andi x v reducesTo_S114x198_S_d0_1 h_S_) main_v6 main_c_1
  let main_v8 : IVec S_ 1 := andi main_v3 main_v7
  let main_v9 : FVec F S198 .f32 := Host.absf main_arg4
  let main_cst_2 : FVec F S_ .f32 := constant S_ .f32 0x7F800000#32
  let main_v10 : FVec F S198 .f32 := broadcastInDim S198 ![] bcast_S_S198 main_cst_2
  let main_v11 : IVec S198 1 := cmpf .olt main_v9 main_v10
  let main_c_3 : IVec S_ 1 := constantI S_ 1 1#1
  let main_v12 : IVec S_ 1 := (fun x v => Host.reduce IntOp.andi x v reducesTo_S198_S_d0 h_S_) main_v11 main_c_3
  let main_v13 : IVec S_ 1 := andi main_v8 main_v12
  let main_v14 : FVec F S198x198 .f32 := Host.absf main_arg5
  let main_cst_4 : FVec F S_ .f32 := constant S_ .f32 0x7F800000#32
  let main_v15 : FVec F S198x198 .f32 := broadcastInDim S198x198 ![] bcast_S_S198x198 main_cst_4
  let main_v16 : IVec S198x198 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S50000x114 : Shape := ⟨2, ![50000, 114]⟩
abbrev S2x800000 : Shape := ⟨2, ![2, 800000]⟩
abbrev S50000 : Shape := ⟨1, ![50000]⟩
abbrev S114x198 : Shape := ⟨2, ![114, 198]⟩
abbrev S198 : Shape := ⟨1, ![198]⟩
abbrev S198x198 : Shape := ⟨2, ![198, 198]⟩
abbrev S198x64 : Shape := ⟨2, ![198, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x2 : Shape := ⟨2, ![8, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x114 : Shape := ⟨2, ![800000, 114]⟩
abbrev S1x198 : Shape := ⟨2, ![1, 198]⟩
abbrev S50000x198 : Shape := ⟨2, ![50000, 198]⟩
abbrev S2000x114 : Shape := ⟨2, ![2000, 114]⟩
abbrev S2000x198 : Shape := ⟨2, ![2000, 198]⟩
abbrev S800000x198 : Shape := ⟨2, ![800000, 198]⟩
abbrev S1x64 : Shape := ⟨2, ![1, 64]⟩
abbrev S50000x64 : Shape := ⟨2, ![50000, 64]⟩
abbrev S2000x64 : Shape := ⟨2, ![2000, 64]⟩
abbrev S800000x64 : Shape := ⟨2, ![800000, 64]⟩
abbrev S1x32 : Shape := ⟨2, ![1, 32]⟩
abbrev S50000x32 : Shape := ⟨2, ![50000, 32]⟩
abbrev S2000x32 : Shape := ⟨2, ![2000, 32]⟩
abbrev S1024x32 : Shape := ⟨2, ![1024, 32]⟩
abbrev S50000x1 : Shape := ⟨2, ![50000, 1]⟩
abbrev S1x16 : Shape := ⟨2, ![1, 16]⟩
abbrev S1x8 : Shape := ⟨2, ![1, 8]⟩
abbrev S1x2 : Shape := ⟨2, ![1, 2]⟩
abbrev S1024x2 : Shape := ⟨2, ![1024, 2]⟩
abbrev S1024x16 : Shape := ⟨2, ![1024, 16]⟩
abbrev S1024x8 : Shape := ⟨2, ![1024, 8]⟩

abbrev nBuf : Space → Nat
  | .hbm => 126
  | .vmem => 68
  | .smem => 0
  | _ => 0

abbrev bufTy : (tb : Table) → Fin (tcTables nBuf tb) → BufTy
  | .hbm, ⟨0, _⟩ => ⟨S50000x114, .f32⟩
  | .hbm, ⟨1, _⟩ => ⟨S2x800000, .i32⟩
  | .hbm, ⟨2, _⟩ => ⟨S50000, .i32⟩
  | .hbm, ⟨3, _⟩ => ⟨S114x198, .f32⟩
  | .hbm, ⟨4, _⟩ => ⟨S198, .f32⟩
  | .hbm, ⟨5, _⟩ => ⟨S198x198, .f32⟩
  | .hbm, ⟨6, _⟩ => ⟨S198, .f32⟩
  | .hbm, ⟨7, _⟩ => ⟨S198, .f32⟩
  | .hbm, ⟨8, _⟩ => ⟨S198, .f32⟩
  | .hbm, ⟨9, _⟩ => ⟨S198x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64x32, .f32⟩
  | .hbm, ⟨16, _⟩ => ⟨S32, .f32⟩
  | .hbm, ⟨17, _⟩ => ⟨S32x32, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S32x16, .f32⟩
  | .hbm, ⟨22, _⟩ => ⟨S16, .f32⟩
  | .hbm, ⟨23, _⟩ => ⟨S16x8, .f32⟩
  | .hbm, ⟨24, _⟩ => ⟨S8, .f32⟩
  | .hbm, ⟨25, _⟩ => ⟨S8x2, .f32⟩
  | .hbm, ⟨26, _⟩ => ⟨S2, .f32⟩
  | .hbm, ⟨27, _⟩ => ⟨S1x800000, .i32⟩
  | .hbm, ⟨28, _⟩ => ⟨S800000, .i32⟩
  | .hbm, ⟨29, _⟩ => ⟨S1x800000, .i32⟩
  | .hbm, ⟨30, _⟩ => ⟨S800000, .i32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x114, .f32⟩
  | .hbm, ⟨40, _⟩ => ⟨S_, .f32⟩
  | .hbm, ⟨41, _⟩ => ⟨S50000x114, .f32⟩
  | .hbm, ⟨42, _⟩ => ⟨S800000x1, .i32⟩
  | .hbm, ⟨43, _⟩ => ⟨S50000x114, .f32⟩
  | .hbm, ⟨44, _⟩ => ⟨S1x198, .f32⟩
  | .hbm, ⟨45, _⟩ => ⟨S1x198, .f32⟩
  | .hbm, ⟨46, _⟩ => ⟨S50000x198, .f32⟩
  | .hbm, ⟨47, _⟩ => ⟨S1x198, .f32⟩
  | .hbm, ⟨48, _⟩ => ⟨S1x198, .f32⟩
  | .hbm, ⟨49, _⟩ => ⟨S_, .f32⟩
  | .hbm, ⟨50, _⟩ => ⟨S1x198, .f32⟩
  | .hbm, ⟨51, _⟩ => ⟨S1x198, .f32⟩
  | .hbm, ⟨52, _⟩ => ⟨S_, .f32⟩
  | .hbm, ⟨53, _⟩ => ⟨S1x198, .f32⟩
  | .hbm, ⟨54, _⟩ => ⟨S1x198, .f32⟩
  | .hbm, ⟨55, _⟩ => ⟨S1x198, .f32⟩
  | .hbm, ⟨56, _⟩ => ⟨S1x198, .f32⟩
  | .hbm, ⟨57, _⟩ => ⟨S1x198, .f32⟩
  | .hbm, ⟨58, _⟩ => ⟨S1x198, .f32⟩
  | .hbm, ⟨59, _⟩ => ⟨S50000x198, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x198, .f32⟩
  | .hbm, ⟨69, _⟩ => ⟨S_, .f32⟩
  | .hbm, ⟨70, _⟩ => ⟨S50000x198, .f32⟩
  | .hbm, ⟨71, _⟩ => ⟨S800000x1, .i32⟩
  | .hbm, ⟨72, _⟩ => ⟨S50000x198, .f32⟩
  | .hbm, ⟨73, _⟩ => ⟨S1x64, .f32⟩
  | .hbm, ⟨74, _⟩ => ⟨S1x64, .f32⟩
  | .hbm, ⟨75, _⟩ => ⟨S50000x64, .f32⟩
  | .hbm, ⟨76, _⟩ => ⟨S1x64, .f32⟩
  | .hbm, ⟨77, _⟩ => ⟨S1x64, .f32⟩
  | .hbm, ⟨78, _⟩ => ⟨S_, .f32⟩
  | .hbm, ⟨79, _⟩ => ⟨S1x64, .f32⟩
  | .hbm, ⟨80, _⟩ => ⟨S1x64, .f32⟩
  | .hbm, ⟨81, _⟩ => ⟨S_, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S50000x64, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x64, .f32⟩
  | .hbm, ⟨98, _⟩ => ⟨S_, .f32⟩
  | .hbm, ⟨99, _⟩ => ⟨S50000x64, .f32⟩
  | .hbm, ⟨100, _⟩ => ⟨S800000x1, .i32⟩
  | .hbm, ⟨101, _⟩ => ⟨S50000x64, .f32⟩
  | .hbm, ⟨102, _⟩ => ⟨S1x32, .f32⟩
  | .hbm, ⟨103, _⟩ => ⟨S1x32, .f32⟩
  | .hbm, ⟨104, _⟩ => ⟨S50000x32, .f32⟩
  | .hbm, ⟨105, _⟩ => ⟨S1x32, .f32⟩
  | .hbm, ⟨106, _⟩ => ⟨S1x32, .f32⟩
  | .hbm, ⟨107, _⟩ => ⟨S_, .f32⟩
  | .hbm, ⟨108, _⟩ => ⟨S1x32, .f32⟩
  | .hbm, ⟨109, _⟩ => ⟨S1x32, .f32⟩
  | .hbm, ⟨110, _⟩ => ⟨S_, .f32⟩
  | .hbm, ⟨111, _⟩ => ⟨S1x32, .f32⟩
  | .hbm, ⟨112, _⟩ => ⟨S1x32, .f32⟩
  | .hbm, ⟨113, _⟩ => ⟨S1x32, .f32⟩
  | .hbm, ⟨114, _⟩ => ⟨S1x32, .f32⟩
  | .hbm, ⟨115, _⟩ => ⟨S1x32, .f32⟩
  | .hbm, ⟨116, _⟩ => ⟨S1x32, .f32⟩
  | .hbm, ⟨117, _⟩ => ⟨S50000x32, .f32⟩
  | .hbm, ⟨118, _⟩ => ⟨S_, .f32⟩
  | .hbm, ⟨119, _⟩ => ⟨S1024x32, .f32⟩
  | .hbm, ⟨120, _⟩ => ⟨S50000x1, .i32⟩
  | .hbm, ⟨121, _⟩ => ⟨S1024x32, .f32⟩
  | .hbm, ⟨122, _⟩ => ⟨S1x16, .f32⟩
  | .hbm, ⟨123, _⟩ => ⟨S1x8, .f32⟩
  | .hbm, ⟨124, _⟩ => ⟨S1x2, .f32⟩
  | .hbm, ⟨125, _⟩ => ⟨S1024x2, .f32⟩
  | .local _ .vmem, ⟨0, _⟩ => ⟨S2000x114, .f32⟩
  | .local _ .vmem, ⟨1, _⟩ => ⟨S2000x114, .f32⟩
  | .local _ .vmem, ⟨2, _⟩ => ⟨S2000x114, .f32⟩
  | .local _ .vmem, ⟨3, _⟩ => ⟨S2000x114, .f32⟩
  | .local _ .vmem, ⟨4, _⟩ => ⟨S114x198, .f32⟩
  | .local _ .vmem, ⟨5, _⟩ => ⟨S1x198, .f32⟩
  | .local _ .vmem, ⟨6, _⟩ => ⟨S198x198, .f32⟩
  | .local _ .vmem, ⟨7, _⟩ => ⟨S1x198, .f32⟩
  | .local _ .vmem, ⟨8, _⟩ => ⟨S2000x198, .f32⟩
  | .local _ .vmem, ⟨9, _⟩ => ⟨S2000x198, .f32⟩
  | .local _ .vmem, ⟨10, _⟩ => ⟨S1x198, .f32⟩
  | .local _ .vmem, ⟨11, _⟩ => ⟨S1x198, .f32⟩
  | .local _ .vmem, ⟨12, _⟩ => ⟨S2000x198, .f32⟩
  | .local _ .vmem, ⟨13, _⟩ => ⟨S2000x198, .f32⟩
  | .local _ .vmem, ⟨14, _⟩ => ⟨S1x198, .f32⟩
  | .local _ .vmem, ⟨15, _⟩ => ⟨S1x198, .f32⟩
  | .local _ .vmem, ⟨16, _⟩ => ⟨S1x198, .f32⟩
  | .local _ .vmem, ⟨17, _⟩ => ⟨S1x198, .f32⟩
  | .local _ .vmem, ⟨18, _⟩ => ⟨S2000x198, .f32⟩
  | .local _ .vmem, ⟨19, _⟩ => ⟨S2000x198, .f32⟩
  | .local _ .vmem, ⟨20, _⟩ => ⟨S2000x198, .f32⟩
  | .local _ .vmem, ⟨21, _⟩ => ⟨S2000x198, .f32⟩
  | .local _ .vmem, ⟨22, _⟩ => ⟨S2000x198, .f32⟩
  | .local _ .vmem, ⟨23, _⟩ => ⟨S2000x198, .f32⟩
  | .local _ .vmem, ⟨24, _⟩ => ⟨S198x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S1x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S64x32, .f32⟩
  | .local _ .vmem, ⟨45, _⟩ => ⟨S1x32, .f32⟩
  | .local _ .vmem, ⟨46, _⟩ => ⟨S32x32, .f32⟩
  | .local _ .vmem, ⟨47, _⟩ => ⟨S1x32, .f32⟩
  | .local _ .vmem, ⟨48, _⟩ => ⟨S2000x32, .f32⟩
  | .local _ .vmem, ⟨49, _⟩ => ⟨S2000x32, .f32⟩
  | .local _ .vmem, ⟨50, _⟩ => ⟨S1x32, .f32⟩
  | .local _ .vmem, ⟨51, _⟩ => ⟨S1x32, .f32⟩
  | .local _ .vmem, ⟨52, _⟩ => ⟨S2000x32, .f32⟩
  | .local _ .vmem, ⟨53, _⟩ => ⟨S2000x32, .f32⟩
  | .local _ .vmem, ⟨54, _⟩ => ⟨S1x32, .f32⟩
  | .local _ .vmem, ⟨55, _⟩ => ⟨S1x32, .f32⟩
  | .local _ .vmem, ⟨56, _⟩ => ⟨S1x32, .f32⟩
  | .local _ .vmem, ⟨57, _⟩ => ⟨S1x32, .f32⟩
  | .local _ .vmem, ⟨58, _⟩ => ⟨S2000x32, .f32⟩
  | .local _ .vmem, ⟨59, _⟩ => ⟨S2000x32, .f32⟩
  | .local _ .vmem, ⟨60, _⟩ => ⟨S1024x32, .f32⟩
  | .local _ .vmem, ⟨61, _⟩ => ⟨S32x16, .f32⟩
  | .local _ .vmem, ⟨62, _⟩ => ⟨S1x16, .f32⟩
  | .local _ .vmem, ⟨63, _⟩ => ⟨S16x8, .f32⟩
  | .local _ .vmem, ⟨64, _⟩ => ⟨S1x8, .f32⟩
  | .local _ .vmem, ⟨65, _⟩ => ⟨S8x2, .f32⟩
  | .local _ .vmem, ⟨66, _⟩ => ⟨S1x2, .f32⟩
  | .local _ .vmem, ⟨67, _⟩ => ⟨S1024x2, .f32⟩
  | _, _ => ⟨S50000x114, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16_0 : Ref sig .tc := ⟨.hbm, 46, rfl⟩
abbrev main_v16_1 : Ref sig .tc := ⟨.hbm, 47, rfl⟩
abbrev main_v16_2 : Ref sig .tc := ⟨.hbm, 48, rfl⟩
abbrev main_cst_1 : Ref sig .tc := ⟨.hbm, 49, rfl⟩
abbrev main_v17 : Ref sig .tc := ⟨.hbm, 50, rfl⟩
abbrev main_v18 : Ref sig .tc := ⟨.hbm, 51, rfl⟩
abbrev main_cst_2 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_3 : Ref sig .tc := ⟨.hbm, 60, rfl⟩
abbrev main_v26 : Ref sig .tc := ⟨.hbm, 61, rfl⟩
abbrev main_v27 : Ref sig .tc := ⟨.hbm, 62, rfl⟩
abbrev main_c_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_5 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38_0 : Ref sig .tc := ⟨.hbm, 75, rfl⟩
abbrev main_v38_1 : Ref sig .tc := ⟨.hbm, 76, rfl⟩
abbrev main_v38_2 : Ref sig .tc := ⟨.hbm, 77, rfl⟩
abbrev main_cst_6 : Ref sig .tc := ⟨.hbm, 78, rfl⟩
abbrev main_v39 : Ref sig .tc := ⟨.hbm, 79, rfl⟩
abbrev main_v40 : Ref sig .tc := ⟨.hbm, 80, rfl⟩
abbrev main_cst_7 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_c_8 : Ref sig .tc := ⟨.hbm, 89, rfl⟩
abbrev main_v48 : Ref sig .tc := ⟨.hbm, 90, rfl⟩
abbrev main_v49 : Ref sig .tc := ⟨.hbm, 91, rfl⟩
abbrev main_c_9 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_10 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60_0 : Ref sig .tc := ⟨.hbm, 104, rfl⟩
abbrev main_v60_1 : Ref sig .tc := ⟨.hbm, 105, rfl⟩
abbrev main_v60_2 : Ref sig .tc := ⟨.hbm, 106, rfl⟩
abbrev main_cst_11 : Ref sig .tc := ⟨.hbm, 107, rfl⟩
abbrev main_v61 : Ref sig .tc := ⟨.hbm, 108, rfl⟩
abbrev main_v62 : Ref sig .tc := ⟨.hbm, 109, rfl⟩
abbrev main_cst_12 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_13 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg6_0 : Ref sig .tc := ⟨.vmem, 66, rfl⟩
abbrev cc6_stg7_0 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem1_0 : DmaSem sig := 61
abbrev cc6_sem2_0 : DmaSem sig := 62
abbrev cc6_sem3_0 : DmaSem sig := 63
abbrev cc6_sem4_0 : DmaSem sig := 64
abbrev cc6_sem5_0 : DmaSem sig := 65
abbrev cc6_sem6_0 : DmaSem sig := 66
abbrev cc6_sem7_0 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x114 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x114 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S114x198 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x198 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S198x198 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x198 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x198 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x198 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x198 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x198 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x198 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x198 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x198 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x198 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x198 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x198 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x198 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S198x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x32 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x32 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1024x32 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S32x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S16x8 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x8 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S8x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x2 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1024x2 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x114 : S_.BroadcastsInDim S50000x114 (![] : Fin 0 → Fin S50000x114.rank)
  shapeCasts_S198_S1x198 : S198.ShapeCasts S1x198
  inb_S1x198_S1x198_0_0 : ∀ a, (![0, 0] : Fin 2 → Nat) a + S1x198.size a ≤ S1x198.size a
  h_S1x198 : 0 < S1x198.numel
  inb_S2000x114_S2000x114_0_0 : ∀ a, (![0, 0] : Fin 2 → Nat) a + S2000x114.size a ≤ S2000x114.size a
  h_S2000x114 : 0 < S2000x114.numel
  shapeCasts_S2000x114_S2000x114 : S2000x114.ShapeCasts S2000x114
  bitsLt_bf16_f32 : FTy.bits .bf16 < FTy.bits .f32
  inb_S114x198_S114x198_0_0 : ∀ a, (![0, 0] : Fin 2 → Nat) a + S114x198.size a ≤ S114x198.size a
  h_S114x198 : 0 < S114x198.numel
  shapeCasts_S1x198_S1x198 : S1x198.ShapeCasts S1x198
  broadcasts_S1x198_S2000x198 : S1x198.Broadcasts S2000x198
  inb_S198x198_S198x198_0_0 : ∀ a, (![0, 0] : Fin 2 → Nat) a + S198x198.size a ≤ S198x198.size a
  h_S198x198 : 0 < S198x198.numel
  inb_S2000x198_S2000x198_0_0 : ∀ a, (![0, 0] : Fin 2 → Nat) a + S2000x198.size a ≤ S2000x198.size a
  h_S2000x198 : 0 < S2000x198.numel
  reduces_S2000x198_S198 : S2000x198.Reduces [0] S198
  bcast_S_S1x198 : S_.BroadcastsInDim S1x198 (![] : Fin 0 → Fin S1x198.rank)
  shapeCasts_S2000x198_S2000x198 : S2000x198.ShapeCasts S2000x198
  bcast_S_S50000x198 : S_.BroadcastsInDim S50000x198 (![] : Fin 0 → Fin S50000x198.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S198x64_S198x64_0_0 : ∀ a, (![0, 0] : Fin 2 → Nat) a + S198x64.size a ≤ S198x64.size a
  h_S198x64 : 0 < S198x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  reduces_S2000x64_S64 : S2000x64.Reduces [0] S64
  bcast_S_S1x64 : S_.BroadcastsInDim S1x64 (![] : Fin 0 → Fin S1x64.rank)
  shapeCasts_S2000x64_S2000x64 : S2000x64.ShapeCasts S2000x64
  bcast_S_S50000x64 : S_.BroadcastsInDim S50000x64 (![] : Fin 0 → Fin S50000x64.rank)
  shapeCasts_S32_S1x32 : S32.ShapeCasts S1x32
  inb_S1x32_S1x32_0_0 : ∀ a, (![0, 0] : Fin 2 → Nat) a + S1x32.size a ≤ S1x32.size a
  h_S1x32 : 0 < S1x32.numel
  inb_S64x32_S64x32_0_0 : ∀ a, (![0, 0] : Fin 2 → Nat) a + S64x32.size a ≤ S64x32.size a
  h_S64x32 : 0 < S64x32.numel
  shapeCasts_S1x32_S1x32 : S1x32.ShapeCasts S1x32
  broadcasts_S1x32_S2000x32 : S1x32.Broadcasts S2000x32
  inb_S32x32_S32x32_0_0 : ∀ a, (![0, 0] : Fin 2 → Nat) a + S32x32.size a ≤ S32x32.size a
  h_S32x32 : 0 < S32x32.numel
  inb_S2000x32_S2000x32_0_0 : ∀ a, (![0, 0] : Fin 2 → Nat) a + S2000x32.size a ≤ S2000x32.size a
  h_S2000x32 : 0 < S2000x32.numel
  reduces_S2000x32_S32 : S2000x32.Reduces [0] S32
  bcast_S_S1x32 : S_.BroadcastsInDim S1x32 (![] : Fin 0 → Fin S1x32.rank)
  shapeCasts_S2000x32_S2000x32 : S2000x32.ShapeCasts S2000x32
  bcast_S_S1024x32 : S_.BroadcastsInDim S1024x32 (![] : Fin 0 → Fin S1024x32.rank)
  bcast_S50000_S50000x1_0 : S50000.BroadcastsInDim S50000x1 (![0] : Fin 1 → Fin S50000x1.rank)
  shapeCasts_S16_S1x16 : S16.ShapeCasts S1x16
  shapeCasts_S8_S1x8 : S8.ShapeCasts S1x8
  shapeCasts_S2_S1x2 : S2.ShapeCasts S1x2
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S8x2_S8x2_0_0 : ∀ a, (![0, 0] : Fin 2 → Nat) a + S8x2.size a ≤ S8x2.size a
  h_S8x2 : 0 < S8x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  gather_S50000x114_S800000x1_S800000x114_1_0_n_n_0_1_1114_wf : GatherDims.WF S50000x114 S800000x1 S800000x114 [1] [0] [] [0] [] 1 ![1, 114]
  scatter_S50000x114_S800000x1_S800000x114_1_0_0_1_wf : ScatterDims.WF S50000x114 S800000x1 S800000x114 [1] [0] [0] 1
  dot_S2000x114_S114x198_S2000x198_1_0_0_1_n_n_wf : DotDims.WF S2000x114 S114x198 S2000x198 [1] [0] [0] [1] [] []
  dot_S2000x198_S198x198_S2000x198_1_0_0_1_n_n_wf : DotDims.WF S2000x198 S198x198 S2000x198 [1] [0] [0] [1] [] []
  gather_S50000x198_S800000x1_S800000x198_1_0_n_n_0_1_1198_wf : GatherDims.WF S50000x198 S800000x1 S800000x198 [1] [0] [] [0] [] 1 ![1, 198]
  scatter_S50000x198_S800000x1_S800000x198_1_0_0_1_wf : ScatterDims.WF S50000x198 S800000x1 S800000x198 [1] [0] [0] 1
  dot_S2000x198_S198x64_S2000x64_1_0_0_1_n_n_wf : DotDims.WF S2000x198 S198x64 S2000x64 [1] [0] [0] [1] [] []
  dot_S2000x64_S64x64_S2000x64_1_0_0_1_n_n_wf : DotDims.WF S2000x64 S64x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x32_S2000x32_1_0_0_1_n_n_wf : DotDims.WF S2000x64 S64x32 S2000x32 [1] [0] [0] [1] [] []
  dot_S2000x32_S32x32_S2000x32_1_0_0_1_n_n_wf : DotDims.WF S2000x32 S32x32 S2000x32 [1] [0] [0] [1] [] []
  scatter_S1024x32_S50000x1_S50000x32_1_0_0_1_wf : ScatterDims.WF S1024x32 S50000x1 S50000x32 [1] [0] [0] 1
  dot_S1024x32_S32x16_S1024x16_1_0_0_1_n_n_wf : DotDims.WF S1024x32 S32x16 S1024x16 [1] [0] [0] [1] [] []
  dot_S1024x16_S16x8_S1024x8_1_0_0_1_n_n_wf : DotDims.WF S1024x16 S16x8 S1024x8 [1] [0] [0] [1] [] []
  dot_S1024x8_S8x2_S1024x2_1_0_0_1_n_n_wf : DotDims.WF S1024x8 S8x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x114.size a ≤ S50000x114.size a
  hwx0_0 : ∀ i : grid0.Coords, EltTy.bits .f32 = 32 ∨ (Rect.block (s := S50000x114) S2000x114.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x114.size a ≤ S50000x114.size a
  hwx0_1 : ∀ i : grid0.Coords, EltTy.bits .f32 = 32 ∨ (Rect.block (s := S50000x114) S2000x114.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S114x198.size a ≤ S114x198.size a
  hwx0_2 : ∀ i : grid0.Coords, EltTy.bits .f32 = 32 ∨ (Rect.block (s := S114x198) S114x198.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x198.size a ≤ S1x198.size a
  hwx0_3 : ∀ i : grid0.Coords, EltTy.bits .f32 = 32 ∨ (Rect.block (s := S1x198) S1x198.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S198x198.size a ≤ S198x198.size a
  hwx0_4 : ∀ i : grid0.Coords, EltTy.bits .f32 = 32 ∨ (Rect.block (s := S198x198) S198x198.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x198.size a ≤ S1x198.size a
  hwx0_5 : ∀ i : grid0.Coords, EltTy.bits .f32 = 32 ∨ (Rect.block (s := S1x198) S1x198.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x198.size a ≤ S50000x198.size a
  hwx0_6 : ∀ i : grid0.Coords, EltTy.bits .f32 = 32 ∨ (Rect.block (s := S50000x198) S2000x198.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x198.size a ≤ S1x198.size a
  hwx0_7 : ∀ i : grid0.Coords, EltTy.bits .f32 = 32 ∨ (Rect.block (s := S1x198) S1x198.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x198.size a ≤ S1x198.size a
  hwx0_8 : ∀ i : grid0.Coords, EltTy.bits .f32 = 32 ∨ (Rect.block (s := S1x198) S1x198.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x198.size a ≤ S50000x198.size a
  hwx1_0 : ∀ i : grid1.Coords, EltTy.bits .f32 = 32 ∨ (Rect.block (s := S50000x198) S2000x198.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x198.size a ≤ S1x198.size a
  hwx1_1 : ∀ i : grid1.Coords, EltTy.bits .f32 = 32 ∨ (Rect.block (s := S1x198) S1x198.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x198.size a ≤ S1x198.size a
  hwx1_2 : ∀ i : grid1.Coords, EltTy.bits .f32 = 32 ∨ (Rect.block (s := S1x198) S1x198.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x198.size a ≤ S1x198.size a
  hwx1_3 : ∀ i : grid1.Coords, EltTy.bits .f32 = 32 ∨ (Rect.block (s := S1x198) S1x198.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x198.size a ≤ S1x198.size a
  hwx1_4 : ∀ i : grid1.Coords, EltTy.bits .f32 = 32 ∨ (Rect.block (s := S1x198) S1x198.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x198.size a ≤ S50000x198.size a
  hwx1_5 : ∀ i : grid1.Coords, EltTy.bits .f32 = 32 ∨ (Rect.block (s := S50000x198) S2000x198.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x198.size a ≤ S50000x198.size a
  hwx2_0 : ∀ i : grid2.Coords, EltTy.bits .f32 = 32 ∨ (Rect.block (s := S50000x198) S2000x198.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x198.size a ≤ S50000x198.size a
  hwx2_1 : ∀ i : grid2.Coords, EltTy.bits .f32 = 32 ∨ (Rect.block (s := S50000x198) S2000x198.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S198x64.size a ≤ S198x64.size a
  hwx2_2 : ∀ i : grid2.Coords, EltTy.bits .f32 = 32 ∨ (Rect.block (s := S198x64) S198x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S50000x64.size a
  hwx2_6 : ∀ i : grid2.Coords, EltTy.bits .f32 = 32 ∨ (Rect.block (s := S50000x64) S2000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S50000x64.size a
  hwx3_5 : ∀ i : grid3.Coords, EltTy.bits .f32 = 32 ∨ (Rect.block (s := S50000x64) S2000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x32.size a ≤ S64x32.size a
  hwx4_2 : ∀ i : grid4.Coords, EltTy.bits .f32 = 32 ∨ (Rect.block (s := S64x32) S64x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x32.size a ≤ S32x32.size a
  hwx4_4 : ∀ i : grid4.Coords, EltTy.bits .f32 = 32 ∨ (Rect.block (s := S32x32) S32x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x32.size a ≤ S50000x32.size a
  hwx4_6 : ∀ i : grid4.Coords, EltTy.bits .f32 = 32 ∨ (Rect.block (s := S50000x32) S2000x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x32.size a ≤ S1x32.size a
  hwx4_7 : ∀ i : grid4.Coords, EltTy.bits .f32 = 32 ∨ (Rect.block (s := S1x32) S1x32.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x32.size a ≤ S1x32.size a
  hwx4_8 : ∀ i : grid4.Coords, EltTy.bits .f32 = 32 ∨ (Rect.block (s := S1x32) S1x32.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S50000x32.size a
  hwx5_0 : ∀ i : grid5.Coords, EltTy.bits .f32 = 32 ∨ (Rect.block (s := S50000x32) S2000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x32.size a ≤ S50000x32.size a
  hwx5_5 : ∀ i : grid5.Coords, EltTy.bits .f32 = 32 ∨ (Rect.block (s := S50000x32) S2000x32.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1024x32.size a ≤ S1024x32.size a
  hwx6_0 : ∀ i : grid6.Coords, EltTy.bits .f32 = 32 ∨ (Rect.block (s := S1024x32) S1024x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x16.size a ≤ S32x16.size a
  hwx6_1 : ∀ i : grid6.Coords, EltTy.bits .f32 = 32 ∨ (Rect.block (s := S32x16) S32x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x16.size a ≤ S1x16.size a
  hwx6_2 : ∀ i : grid6.Coords, EltTy.bits .f32 = 32 ∨ (Rect.block (s := S1x16) S1x16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S16x8.size a ≤ S16x8.size a
  hwx6_3 : ∀ i : grid6.Coords, EltTy.bits .f32 = 32 ∨ (Rect.block (s := S16x8) S16x8.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x8.size a ≤ S1x8.size a
  hwx6_4 : ∀ i : grid6.Coords, EltTy.bits .f32 = 32 ∨ (Rect.block (s := S1x8) S1x8.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S8x2.size a ≤ S8x2.size a
  hwx6_5 : ∀ i : grid6.Coords, EltTy.bits .f32 = 32 ∨ (Rect.block (s := S8x2) S8x2.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x2.size a ≤ S1x2.size a
  hwx6_6 : ∀ i : grid6.Coords, EltTy.bits .f32 = 32 ∨ (Rect.block (s := S1x2) S1x2.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1024x2.size a ≤ S1024x2.size a
  hwx6_7 : ∀ i : grid6.Coords, EltTy.bits .f32 = 32 ∨ (Rect.block (s := S1024x2) S1024x2.size (cc6_transform_7 i) (hinb6_7 i)).WholeWords (EltTy.packing .f32)

variable [Facts₀]

def gather_S50000x114_S800000x1_S800000x114_1_0_n_n_0_1_1114 : GatherDims S50000x114 S800000x1 S800000x114 where
  offsetDims := [1]
  collapsedSliceDims := [0]
  operandBatchingDims := []
  startIndicesBatchingDims := []
  startIndexMap := [0]
  indexVectorDim := 1
  sliceSizes := ![1, 114]
  wf := gather_S50000x114_S800000x1_S800000x114_1_0_n_n_0_1_1114_wf
def scatter_S50000x114_S800000x1_S800000x114_1_0_0_1 : ScatterDims S50000x114 S800000x1 S800000x114 where
  updateWindowDims := [1]
  insertedWindowDims := [0]
  scatterDimsToOperandDims := [0]
  indexVectorDim := 1
  wf := scatter_S50000x114_S800000x1_S800000x114_1_0_0_1_wf
def dot_S2000x114_S114x198_S2000x198_1_0_0_1_n_n : DotDims S2000x114 S114x198 S2000x198 where
  lhsContracting := [1]
  rhsContracting := [0]
  lhsNonContracting := [0]
  rhsNonContracting := [1]
  lhsBatch := []
  rhsBatch := []
  wf := dot_S2000x114_S114x198_S2000x198_1_0_0_1_n_n_wf
def dot_S2000x198_S198x198_S2000x198_1_0_0_1_n_n : DotDims S2000x198 S198x198 S2000x198 where
  lhsContracting := [1]
  rhsContracting := [0]
  lhsNonContracting := [0]
  rhsNonContracting := [1]
  lhsBatch := []
  rhsBatch := []
  wf := dot_S2000x198_S198x198_S2000x198_1_0_0_1_n_n_wf
def gather_S50000x198_S800000x1_S800000x198_1_0_n_n_0_1_1198 : GatherDims S50000x198 S800000x1 S800000x198 where
  offsetDims := [1]
  collapsedSliceDims := [0]
  operandBatchingDims := []
  startIndicesBatchingDims := []
  startIndexMap := [0]
  indexVectorDim := 1
  sliceSizes := ![1, 198]
  wf := gather_S50000x198_S800000x1_S800000x198_1_0_n_n_0_1_1198_wf
def scatter_S50000x198_S800000x1_S800000x198_1_0_0_1 : ScatterDims S50000x198 S800000x1 S800000x198 where
  updateWindowDims := [1]
  insertedWindowDims := [0]
  scatterDimsToOperandDims := [0]
  indexVectorDim := 1
  wf := scatter_S50000x198_S800000x1_S800000x198_1_0_0_1_wf
def dot_S2000x198_S198x64_S2000x64_1_0_0_1_n_n : DotDims S2000x198 S198x64 S2000x64 where
  lhsContracting := [1]
  rhsContracting := [0]
  lhsNonContracting := [0]
  rhsNonContracting := [1]
  lhsBatch := []
  rhsBatch := []
  wf := dot_S2000x198_S198x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def scatter_S1024x32_S50000x1_S50000x32_1_0_0_1 : ScatterDims S1024x32 S50000x1 S50000x32 where
  updateWindowDims := [1]
  insertedWindowDims := [0]
  scatterDimsToOperandDims := [0]
  indexVectorDim := 1
  wf := scatter_S1024x32_S50000x1_S50000x32_1_0_0_1_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x8_S1024x8_1_0_0_1_n_n : DotDims S1024x16 S16x8 S1024x8 where
  lhsContracting := [1]
  rhsContracting := [0]
  lhsNonContracting := [0]
  rhsNonContracting := [1]
  lhsBatch := []
  rhsBatch := []
  wf := dot_S1024x16_S16x8_S1024x8_1_0_0_1_n_n_wf
def dot_S1024x8_S8x2_S1024x2_1_0_0_1_n_n : DotDims S1024x8 S8x2 S1024x2 where
  lhsContracting := [1]
  rhsContracting := [0]
  lhsNonContracting := [0]
  rhsNonContracting := [1]
  lhsBatch := []
  rhsBatch := []
  wf := dot_S1024x8_S8x2_S1024x2_1_0_0_1_n_n_wf

abbrev win0_0 : Pipeline.Window sig grid0 :=
  Pipeline.Window.ofSpec (Memref.whole main_arg0) S2000x114.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x114.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S114x198.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x198.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S198x198.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x198.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S2000x198.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x198.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x198.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S2000x198.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x198.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x198.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x198.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x198.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S2000x198.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S2000x198.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x198.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S198x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38_0) S2000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v38_1) S1x64.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v38_2) S1x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v38_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v47) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S64x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S32x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v59) S1x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v60_0) S2000x32.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v60_1) S1x32.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v60_2) S1x32.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v60_0) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v68) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v69) S2000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v72) S1024x32.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S32x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v73) S1x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg23) S16x8.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v74) S1x8.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg25) S8x2.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v75) S1x2.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v76) S1024x2.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x114 : Shape := ⟨2, ![50000, 114]⟩
abbrev S2x800000 : Shape := ⟨2, ![2, 800000]⟩
abbrev S50000 : Shape := ⟨1, ![50000]⟩
abbrev S114x198 : Shape := ⟨2, ![114, 198]⟩
abbrev S198 : Shape := ⟨1, ![198]⟩
abbrev S198x198 : Shape := ⟨2, ![198, 198]⟩
abbrev S198x64 : Shape := ⟨2, ![198, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x2 : Shape := ⟨2, ![8, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x114 : Shape := ⟨2, ![800000, 114]⟩
abbrev S50000x198 : Shape := ⟨2, ![50000, 198]⟩
abbrev S1x198 : Shape := ⟨2, ![1, 198]⟩
abbrev S800000x198 : Shape := ⟨2, ![800000, 198]⟩
abbrev S50000x64 : Shape := ⟨2, ![50000, 64]⟩
abbrev S1x64 : Shape := ⟨2, ![1, 64]⟩
abbrev S800000x64 : Shape := ⟨2, ![800000, 64]⟩
abbrev S50000x32 : Shape := ⟨2, ![50000, 32]⟩
abbrev S1x32 : Shape := ⟨2, ![1, 32]⟩
abbrev S1024x32 : Shape := ⟨2, ![1024, 32]⟩
abbrev S50000x1 : Shape := ⟨2, ![50000, 1]⟩
abbrev S1024x16 : Shape := ⟨2, ![1024, 16]⟩
abbrev S1x16 : Shape := ⟨2, ![1, 16]⟩
abbrev S1024x8 : Shape := ⟨2, ![1024, 8]⟩
abbrev S1x8 : Shape := ⟨2, ![1, 8]⟩
abbrev S1024x2 : Shape := ⟨2, ![1024, 2]⟩
abbrev S1x2 : Shape := ⟨2, ![1, 2]⟩

abbrev nBuf : Space → Nat
  | .hbm => 269
  | .vmem => 0
  | .smem => 0
  | _ => 0

abbrev hbmTy0_0 (i : Nat) : BufTy := match i % 128 with
  | 0 => ⟨S50000x114, .f32⟩
  | 1 => ⟨S2x800000, .i32⟩
  | 2 => ⟨S50000, .i32⟩
  | 3 => ⟨S114x198, .f32⟩
  | 4 => ⟨S198, .f32⟩
  | 5 => ⟨S198x198, .f32⟩
  | 6 => ⟨S198, .f32⟩
  | 7 => ⟨S198, .f32⟩
  | 8 => ⟨S198, .f32⟩
  | 9 => ⟨S198x64, .f32⟩
  | 10 => ⟨S64, .f32⟩
  | 11 => ⟨S64x64, .f32⟩
  | 12 => ⟨S64, .f32⟩
  | 13 => ⟨S64, .f32⟩
  | 14 => ⟨S64, .f32⟩
  | 15 => ⟨S64x32, .f32⟩
  | 16 => ⟨S32, .f32⟩
  | 17 => ⟨S32x32, .f32⟩
  | 18 => ⟨S32, .f32⟩
  | 19 => ⟨S32, .f32⟩
  | 20 => ⟨S32, .f32⟩
  | 21 => ⟨S32x16, .f32⟩
  | 22 => ⟨S16, .f32⟩
  | 23 => ⟨S16x8, .f32⟩
  | 24 => ⟨S8, .f32⟩
  | 25 => ⟨S8x2, .f32⟩
  | 26 => ⟨S2, .f32⟩
  | 27 => ⟨S1x800000, .i32⟩
  | 28 => ⟨S800000, .i32⟩
  | 29 => ⟨S1x800000, .i32⟩
  | 30 => ⟨S800000, .i32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x114, .f32⟩
  | 40 => ⟨S_, .f32⟩
  | 41 => ⟨S50000x114, .f32⟩
  | 42 => ⟨S800000x1, .i32⟩
  | 43 => ⟨S50000x114, .f32⟩
  | 44 => ⟨S50000x114, .f32⟩
  | 45 => ⟨S50000x198, .f32⟩
  | 46 => ⟨S1x198, .f32⟩
  | 47 => ⟨S50000x198, .f32⟩
  | 48 => ⟨S50000x198, .f32⟩
  | 49 => ⟨S_, .f32⟩
  | 50 => ⟨S50000x198, .f32⟩
  | 51 => ⟨S50000x198, .f32⟩
  | 52 => ⟨S50000x198, .f32⟩
  | 53 => ⟨S1x198, .f32⟩
  | 54 => ⟨S50000x198, .f32⟩
  | 55 => ⟨S50000x198, .f32⟩
  | 56 => ⟨S_, .f32⟩
  | 57 => ⟨S50000x198, .f32⟩
  | 58 => ⟨S50000x198, .f32⟩
  | 59 => ⟨S_, .f32⟩
  | 60 => ⟨S198, .f32⟩
  | 61 => ⟨S_, .f32⟩
  | 62 => ⟨S198, .f32⟩
  | 63 => ⟨S198, .f32⟩
  | 64 => ⟨S_, .i32⟩
  | 65 => ⟨S_, .f32⟩
  | 66 => ⟨S198, .f32⟩
  | 67 => ⟨S1x198, .f32⟩
  | 68 => ⟨S_, .f32⟩
  | 69 => ⟨S1x198, .f32⟩
  | 70 => ⟨S1x198, .f32⟩
  | 71 => ⟨S50000x198, .f32⟩
  | 72 => ⟨S50000x198, .f32⟩
  | 73 => ⟨S50000x198, .f32⟩
  | 74 => ⟨S_, .f32⟩
  | 75 => ⟨S_, .f32⟩
  | 76 => ⟨S_, .f32⟩
  | 77 => ⟨S_, .f32⟩
  | 78 => ⟨S198, .f32⟩
  | 79 => ⟨S198, .f32⟩
  | 80 => ⟨S198, .f32⟩
  | 81 => ⟨S_, .f32⟩
  | 82 => ⟨S_, .i1⟩
  | 83 => ⟨S_, .f32⟩
  | 84 => ⟨S_, .f32⟩
  | 85 => ⟨S198, .f32⟩
  | 86 => ⟨S198, .f32⟩
  | 87 => ⟨S1x198, .f32⟩
  | 88 => ⟨S50000x198, .f32⟩
  | 89 => ⟨S50000x198, .f32⟩
  | 90 => ⟨S_, .f32⟩
  | 91 => ⟨S198, .f32⟩
  | 92 => ⟨S198, .f32⟩
  | 93 => ⟨S198, .f32⟩
  | 94 => ⟨S1x198, .f32⟩
  | 95 => ⟨S50000x198, .f32⟩
  | 96 => ⟨S50000x198, .f32⟩
  | 97 => ⟨S1x198, .f32⟩
  | 98 => ⟨S50000x198, .f32⟩
  | 99 => ⟨S50000x198, .f32⟩
  | 100 => ⟨S1x198, .f32⟩
  | 101 => ⟨S50000x198, .f32⟩
  | 102 => ⟨S50000x198, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x198, .f32⟩
  | 112 => ⟨S_, .f32⟩
  | 113 => ⟨S50000x198, .f32⟩
  | 114 => ⟨S800000x1, .i32⟩
  | 115 => ⟨S50000x198, .f32⟩
  | 116 => ⟨S50000x198, .f32⟩
  | 117 => ⟨S50000x64, .f32⟩
  | 118 => ⟨S1x64, .f32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S50000x64, .f32⟩
  | 125 => ⟨S1x64, .f32⟩
  | 126 => ⟨S50000x64, .f32⟩
  | 127 => ⟨S50000x64, .f32⟩
  | _ => ⟨S50000x114, .f32⟩

abbrev hbmTy0_1 (i : Nat) : BufTy := match i % 128 with
  | 0 => ⟨S_, .f32⟩
  | 1 => ⟨S50000x64, .f32⟩
  | 2 => ⟨S50000x64, .f32⟩
  | 3 => ⟨S_, .f32⟩
  | 4 => ⟨S64, .f32⟩
  | 5 => ⟨S_, .f32⟩
  | 6 => ⟨S64, .f32⟩
  | 7 => ⟨S64, .f32⟩
  | 8 => ⟨S_, .i32⟩
  | 9 => ⟨S_, .f32⟩
  | 10 => ⟨S64, .f32⟩
  | 11 => ⟨S1x64, .f32⟩
  | 12 => ⟨S_, .f32⟩
  | 13 => ⟨S1x64, .f32⟩
  | 14 => ⟨S1x64, .f32⟩
  | 15 => ⟨S50000x64, .f32⟩
  | 16 => ⟨S50000x64, .f32⟩
  | 17 => ⟨S50000x64, .f32⟩
  | 18 => ⟨S_, .f32⟩
  | 19 => ⟨S_, .f32⟩
  | 20 => ⟨S_, .f32⟩
  | 21 => ⟨S_, .f32⟩
  | 22 => ⟨S64, .f32⟩
  | 23 => ⟨S64, .f32⟩
  | 24 => ⟨S64, .f32⟩
  | 25 => ⟨S_, .f32⟩
  | 26 => ⟨S_, .i1⟩
  | 27 => ⟨S_, .f32⟩
  | 28 => ⟨S_, .f32⟩
  | 29 => ⟨S64, .f32⟩
  | 30 => ⟨S64, .f32⟩
  | 31 => ⟨S1x64, .f32⟩
  | 32 => ⟨S50000x64, .f32⟩
  | 33 => ⟨S50000x64, .f32⟩
  | 34 => ⟨S_, .f32⟩
  | 35 => ⟨S64, .f32⟩
  | 36 => ⟨S64, .f32⟩
  | 37 => ⟨S64, .f32⟩
  | 38 => ⟨S1x64, .f32⟩
  | 39 => ⟨S50000x64, .f32⟩
  | 40 => ⟨S50000x64, .f32⟩
  | 41 => ⟨S1x64, .f32⟩
  | 42 => ⟨S50000x64, .f32⟩
  | 43 => ⟨S50000x64, .f32⟩
  | 44 => ⟨S1x64, .f32⟩
  | 45 => ⟨S50000x64, .f32⟩
  | 46 => ⟨S50000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S50000x64, .f32⟩
  | 61 => ⟨S50000x32, .f32⟩
  | 62 => ⟨S1x32, .f32⟩
  | 63 => ⟨S50000x32, .f32⟩
  | 64 => ⟨S50000x32, .f32⟩
  | 65 => ⟨S_, .f32⟩
  | 66 => ⟨S50000x32, .f32⟩
  | 67 => ⟨S50000x32, .f32⟩
  | 68 => ⟨S50000x32, .f32⟩
  | 69 => ⟨S1x32, .f32⟩
  | 70 => ⟨S50000x32, .f32⟩
  | 71 => ⟨S50000x32, .f32⟩
  | 72 => ⟨S_, .f32⟩
  | 73 => ⟨S50000x32, .f32⟩
  | 74 => ⟨S50000x32, .f32⟩
  | 75 => ⟨S_, .f32⟩
  | 76 => ⟨S32, .f32⟩
  | 77 => ⟨S_, .f32⟩
  | 78 => ⟨S32, .f32⟩
  | 79 => ⟨S32, .f32⟩
  | 80 => ⟨S_, .i32⟩
  | 81 => ⟨S_, .f32⟩
  | 82 => ⟨S32, .f32⟩
  | 83 => ⟨S1x32, .f32⟩
  | 84 => ⟨S_, .f32⟩
  | 85 => ⟨S1x32, .f32⟩
  | 86 => ⟨S1x32, .f32⟩
  | 87 => ⟨S50000x32, .f32⟩
  | 88 => ⟨S50000x32, .f32⟩
  | 89 => ⟨S50000x32, .f32⟩
  | 90 => ⟨S_, .f32⟩
  | 91 => ⟨S_, .f32⟩
  | 92 => ⟨S_, .f32⟩
  | 93 => ⟨S_, .f32⟩
  | 94 => ⟨S32, .f32⟩
  | 95 => ⟨S32, .f32⟩
  | 96 => ⟨S32, .f32⟩
  | 97 => ⟨S_, .f32⟩
  | 98 => ⟨S_, .i1⟩
  | 99 => ⟨S_, .f32⟩
  | 100 => ⟨S_, .f32⟩
  | 101 => ⟨S32, .f32⟩
  | 102 => ⟨S32, .f32⟩
  | 103 => ⟨S1x32, .f32⟩
  | 104 => ⟨S50000x32, .f32⟩
  | 105 => ⟨S50000x32, .f32⟩
  | 106 => ⟨S_, .f32⟩
  | 107 => ⟨S32, .f32⟩
  | 108 => ⟨S32, .f32⟩
  | 109 => ⟨S32, .f32⟩
  | 110 => ⟨S1x32, .f32⟩
  | 111 => ⟨S50000x32, .f32⟩
  | 112 => ⟨S50000x32, .f32⟩
  | 113 => ⟨S1x32, .f32⟩
  | 114 => ⟨S50000x32, .f32⟩
  | 115 => ⟨S50000x32, .f32⟩
  | 116 => ⟨S1x32, .f32⟩
  | 117 => ⟨S50000x32, .f32⟩
  | 118 => ⟨S50000x32, .f32⟩
  | 119 => ⟨S_, .f32⟩
  | 120 => ⟨S1024x32, .f32⟩
  | 121 => ⟨S50000x1, .i32⟩
  | 122 => ⟨S1024x32, .f32⟩
  | 123 => ⟨S1024x16, .f32⟩
  | 124 => ⟨S1x16, .f32⟩
  | 125 => ⟨S1024x16, .f32⟩
  | 126 => ⟨S1024x16, .f32⟩
  | 127 => ⟨S_, .f32⟩
  | _ => ⟨S50000x114, .f32⟩

abbrev hbmTy0_2 (i : Nat) : BufTy := match i % 128 with
  | 0 => ⟨S1024x16, .f32⟩
  | 1 => ⟨S1024x16, .f32⟩
  | 2 => ⟨S1024x8, .f32⟩
  | 3 => ⟨S1x8, .f32⟩
  | 4 => ⟨S1024x8, .f32⟩
  | 5 => ⟨S1024x8, .f32⟩
  | 6 => ⟨S_, .f32⟩
  | 7 => ⟨S1024x8, .f32⟩
  | 8 => ⟨S1024x8, .f32⟩
  | 9 => ⟨S1024x2, .f32⟩
  | 10 => ⟨S1x2, .f32⟩
  | 11 => ⟨S1024x2, .f32⟩
  | 12 => ⟨S1024x2, .f32⟩
  | _ => ⟨S50000x114, .f32⟩

abbrev hbmTy (i : Nat) : BufTy := match i / 128 with
  | 0 => hbmTy0_0 i
  | 1 => hbmTy0_1 i
  | 2 => hbmTy0_2 i
  | _ => ⟨S50000x114, .f32⟩

abbrev bufTy : (tb : Table) → Fin (tcTables nBuf tb) → BufTy
  | .hbm, ⟨i, _⟩ => hbmTy i
  | _, _ => ⟨S50000x114, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call0_cst : Ref sig .tc := ⟨.hbm, 49, rfl⟩
abbrev main_call0_v0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_call1_cst : Ref sig .tc := ⟨.hbm, 56, rfl⟩
abbrev main_call1_v0 : Ref sig .tc := ⟨.hbm, 57, rfl⟩
abbrev main_v24 : Ref sig .tc := ⟨.hbm, 58, rfl⟩
abbrev main_cst_1 : Ref sig .tc := ⟨.hbm, 59, rfl⟩
abbrev main_v25 : Ref sig .tc := ⟨.hbm, 60, rfl⟩
abbrev main_cst_2 : Ref sig .tc := ⟨.hbm, 61, rfl⟩
abbrev main_v26 : Ref sig .tc := ⟨.hbm, 62, rfl⟩
abbrev main_v27 : Ref sig .tc := ⟨.hbm, 63, rfl⟩
abbrev main_c_3 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_cst_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_cst_1 : Ref sig .tc := ⟨.hbm, 75, rfl⟩
abbrev main_call2_v8 : Ref sig .tc := ⟨.hbm, 76, rfl⟩
abbrev main_call2_cst_2 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_cst_3 : Ref sig .tc := ⟨.hbm, 81, rfl⟩
abbrev main_call2_v12 : Ref sig .tc := ⟨.hbm, 82, rfl⟩
abbrev main_call2_cst_4 : Ref sig .tc := ⟨.hbm, 83, rfl⟩
abbrev main_call2_call0_v0 : Ref sig .tc := ⟨.hbm, 84, rfl⟩
abbrev main_call2_call0_v1 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_cst_4 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_c_5 : Ref sig .tc := ⟨.hbm, 103, rfl⟩
abbrev main_v44 : Ref sig .tc := ⟨.hbm, 104, rfl⟩
abbrev main_v45 : Ref sig .tc := ⟨.hbm, 105, rfl⟩
abbrev main_c_6 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_cst_7 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_call3_cst : Ref sig .tc := ⟨.hbm, 121, rfl⟩
abbrev main_call3_v0 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_call4_cst : Ref sig .tc := ⟨.hbm, 128, rfl⟩
abbrev main_call4_v0 : Ref sig .tc := ⟨.hbm, 129, rfl⟩
abbrev main_v64 : Ref sig .tc := ⟨.hbm, 130, rfl⟩
abbrev main_cst_8 : Ref sig .tc := ⟨.hbm, 131, rfl⟩
abbrev main_v65 : Ref sig .tc := ⟨.hbm, 132, rfl⟩
abbrev main_cst_9 : Ref sig .tc := ⟨.hbm, 133, rfl⟩
abbrev main_v66 : Ref sig .tc := ⟨.hbm, 134, rfl⟩
abbrev main_v67 : Ref sig .tc := ⟨.hbm, 135, rfl⟩
abbrev main_c_10 : Ref sig .tc := ⟨.hbm, 136, rfl⟩
abbrev main_call5_cst : Ref sig .tc := ⟨.hbm, 137, rfl⟩
abbrev main_call5_v0 : Ref sig .tc := ⟨.hbm, 138, rfl⟩
abbrev main_call5_v1 : Ref sig .tc := ⟨.hbm, 139, rfl⟩
abbrev main_call5_cst_0 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_v6 : Ref sig .tc := ⟨.hbm, 145, rfl⟩
abbrev main_call5_v7 : Ref sig .tc := ⟨.hbm, 146, rfl⟩
abbrev main_call5_cst_1 : Ref sig .tc := ⟨.hbm, 147, rfl⟩
abbrev main_call5_v8 : Ref sig .tc := ⟨.hbm, 148, rfl⟩
abbrev main_call5_cst_2 : Ref sig .tc := ⟨.hbm, 149, rfl⟩
abbrev main_call5_v9 : Ref sig .tc := ⟨.hbm, 150, rfl⟩
abbrev main_call5_v10 : Ref sig .tc := ⟨.hbm, 151, rfl⟩
abbrev main_call5_v11 : Ref sig .tc := ⟨.hbm, 152, rfl⟩
abbrev main_call5_cst_3 : Ref sig .tc := ⟨.hbm, 153, rfl⟩
abbrev main_call5_v12 : Ref sig .tc := ⟨.hbm, 154, rfl⟩
abbrev main_call5_cst_4 : Ref sig .tc := ⟨.hbm, 155, rfl⟩
abbrev main_call5_call0_v0 : Ref sig .tc := ⟨.hbm, 156, rfl⟩
abbrev main_call5_call0_v1 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_cst_11 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_c_12 : Ref sig .tc := ⟨.hbm, 175, rfl⟩
abbrev main_v84 : Ref sig .tc := ⟨.hbm, 176, rfl⟩
abbrev main_v85 : Ref sig .tc := ⟨.hbm, 177, rfl⟩
abbrev main_c_13 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_cst_14 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_call6_cst : Ref sig .tc := ⟨.hbm, 193, rfl⟩
abbrev main_call6_v0 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_call7_cst : Ref sig .tc := ⟨.hbm, 200, rfl⟩
abbrev main_call7_v0 : Ref sig .tc := ⟨.hbm, 201, rfl⟩
abbrev main_v104 : Ref sig .tc := ⟨.hbm, 202, rfl⟩
abbrev main_cst_15 : Ref sig .tc := ⟨.hbm, 203, rfl⟩
abbrev main_v105 : Ref sig .tc := ⟨.hbm, 204, rfl⟩
abbrev main_cst_16 : Ref sig .tc := ⟨.hbm, 205, rfl⟩
abbrev main_v106 : Ref sig .tc := ⟨.hbm, 206, rfl⟩
abbrev main_v107 : Ref sig .tc := ⟨.hbm, 207, rfl⟩
abbrev main_c_17 : Ref sig .tc := ⟨.hbm, 208, rfl⟩
abbrev main_call8_cst : Ref sig .tc := ⟨.hbm, 209, rfl⟩
abbrev main_call8_v0 : Ref sig .tc := ⟨.hbm, 210, rfl⟩
abbrev main_call8_v1 : Ref sig .tc := ⟨.hbm, 211, rfl⟩
abbrev main_call8_cst_0 : Ref sig .tc := ⟨.hbm, 212, rfl⟩
abbrev main_call8_v2 : Ref sig .tc := ⟨.hbm, 213, rfl⟩
abbrev main_call8_v3 : Ref sig .tc := ⟨.hbm, 214, rfl⟩
abbrev main_call8_v4 : Ref sig .tc := ⟨.hbm, 215, rfl⟩
abbrev main_call8_v5 : Ref sig .tc := ⟨.hbm, 216, rfl⟩
abbrev main_call8_v6 : Ref sig .tc := ⟨.hbm, 217, rfl⟩
abbrev main_call8_v7 : Ref sig .tc := ⟨.hbm, 218, rfl⟩
abbrev main_call8_cst_1 : Ref sig .tc := ⟨.hbm, 219, rfl⟩
abbrev main_call8_v8 : Ref sig .tc := ⟨.hbm, 220, rfl⟩
abbrev main_call8_cst_2 : Ref sig .tc := ⟨.hbm, 221, rfl⟩
abbrev main_call8_v9 : Ref sig .tc := ⟨.hbm, 222, rfl⟩
abbrev main_call8_v10 : Ref sig .tc := ⟨.hbm, 223, rfl⟩
abbrev main_call8_v11 : Ref sig .tc := ⟨.hbm, 224, rfl⟩
abbrev main_call8_cst_3 : Ref sig .tc := ⟨.hbm, 225, rfl⟩
abbrev main_call8_v12 : Ref sig .tc := ⟨.hbm, 226, rfl⟩
abbrev main_call8_cst_4 : Ref sig .tc := ⟨.hbm, 227, rfl⟩
abbrev main_call8_call0_v0 : Ref sig .tc := ⟨.hbm, 228, rfl⟩
abbrev main_call8_call0_v1 : Ref sig .tc := ⟨.hbm, 229, rfl⟩
abbrev main_v108 : Ref sig .tc := ⟨.hbm, 230, rfl⟩
abbrev main_v109 : Ref sig .tc := ⟨.hbm, 231, rfl⟩
abbrev main_v110 : Ref sig .tc := ⟨.hbm, 232, rfl⟩
abbrev main_v111 : Ref sig .tc := ⟨.hbm, 233, rfl⟩
abbrev main_cst_18 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_cst_19 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_call9_cst : Ref sig .tc := ⟨.hbm, 255, rfl⟩
abbrev main_call9_v0 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩
abbrev main_v134 : Ref sig .tc := ⟨.hbm, 260, rfl⟩
abbrev main_v135 : Ref sig .tc := ⟨.hbm, 261, rfl⟩
abbrev main_call10_cst : Ref sig .tc := ⟨.hbm, 262, rfl⟩
abbrev main_call10_v0 : Ref sig .tc := ⟨.hbm, 263, rfl⟩
abbrev main_v136 : Ref sig .tc := ⟨.hbm, 264, rfl⟩
abbrev main_v137 : Ref sig .tc := ⟨.hbm, 265, rfl⟩
abbrev main_v138 : Ref sig .tc := ⟨.hbm, 266, rfl⟩
abbrev main_v139 : Ref sig .tc := ⟨.hbm, 267, rfl⟩
abbrev main_v140 : Ref sig .tc := ⟨.hbm, 268, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x114 : S_.BroadcastsInDim S50000x114 (![] : Fin 0 → Fin S50000x114.rank)
  bcast_S198_S1x198_1 : S198.BroadcastsInDim S1x198 (![1] : Fin 1 → Fin S1x198.rank)
  bcast_S1x198_S50000x198_0_1 : S1x198.BroadcastsInDim S50000x198 (![0, 1] : Fin 2 → Fin S50000x198.rank)
  bcast_S_S50000x198 : S_.BroadcastsInDim S50000x198 (![] : Fin 0 → Fin S50000x198.rank)
  reducesTo_S50000x198_S198_d0 : S50000x198.ReducesTo [0] S198
  h_S_ : 0 < S_.numel
  bcast_S_S198 : S_.BroadcastsInDim S198 (![] : Fin 0 → Fin S198.rank)
  bcast_S_S1x198 : S_.BroadcastsInDim S1x198 (![] : Fin 0 → Fin S1x198.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  reducesTo_S50000x32_S32_d0 : S50000x32.ReducesTo [0] S32
  bcast_S_S32 : S_.BroadcastsInDim S32 (![] : Fin 0 → Fin S32.rank)
  bcast_S_S1x32 : S_.BroadcastsInDim S1x32 (![] : Fin 0 → Fin S1x32.rank)
  bcast_S_S1024x32 : S_.BroadcastsInDim S1024x32 (![] : Fin 0 → Fin S1024x32.rank)
  bcast_S50000_S50000x1_0 : S50000.BroadcastsInDim S50000x1 (![0] : Fin 1 → Fin S50000x1.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  bcast_S_S1024x16 : S_.BroadcastsInDim S1024x16 (![] : Fin 0 → Fin S1024x16.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  bcast_S_S1024x8 : S_.BroadcastsInDim S1024x8 (![] : Fin 0 → Fin S1024x8.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  gather_S50000x114_S800000x1_S800000x114_1_0_n_n_0_1_1114_wf : GatherDims.WF S50000x114 S800000x1 S800000x114 [1] [0] [] [0] [] 1 ![1, 114]
  scatter_S50000x114_S800000x1_S800000x114_1_0_0_1_wf : ScatterDims.WF S50000x114 S800000x1 S800000x114 [1] [0] [0] 1
  dot_S50000x114_S114x198_S50000x198_1_0_0_1_n_n_wf : DotDims.WF S50000x114 S114x198 S50000x198 [1] [0] [0] [1] [] []
  dot_S50000x198_S198x198_S50000x198_1_0_0_1_n_n_wf : DotDims.WF S50000x198 S198x198 S50000x198 [1] [0] [0] [1] [] []
  gather_S50000x198_S800000x1_S800000x198_1_0_n_n_0_1_1198_wf : GatherDims.WF S50000x198 S800000x1 S800000x198 [1] [0] [] [0] [] 1 ![1, 198]
  scatter_S50000x198_S800000x1_S800000x198_1_0_0_1_wf : ScatterDims.WF S50000x198 S800000x1 S800000x198 [1] [0] [0] 1
  dot_S50000x198_S198x64_S50000x64_1_0_0_1_n_n_wf : DotDims.WF S50000x198 S198x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []
  dot_S50000x32_S32x32_S50000x32_1_0_0_1_n_n_wf : DotDims.WF S50000x32 S32x32 S50000x32 [1] [0] [0] [1] [] []
  scatter_S1024x32_S50000x1_S50000x32_1_0_0_1_wf : ScatterDims.WF S1024x32 S50000x1 S50000x32 [1] [0] [0] 1
  dot_S1024x32_S32x16_S1024x16_1_0_0_1_n_n_wf : DotDims.WF S1024x32 S32x16 S1024x16 [1] [0] [0] [1] [] []
  dot_S1024x16_S16x8_S1024x8_1_0_0_1_n_n_wf : DotDims.WF S1024x16 S16x8 S1024x8 [1] [0] [0] [1] [] []
  dot_S1024x8_S8x2_S1024x2_1_0_0_1_n_n_wf : DotDims.WF S1024x8 S8x2 S1024x2 [1] [0] [0] [1] [] []

variable [Facts₀]

def gather_S50000x114_S800000x1_S800000x114_1_0_n_n_0_1_1114 : GatherDims S50000x114 S800000x1 S800000x114 where
  offsetDims := [1]
  collapsedSliceDims := [0]
  operandBatchingDims := []
  startIndicesBatchingDims := []
  startIndexMap := [0]
  indexVectorDim := 1
  sliceSizes := ![1, 114]
  wf := gather_S50000x114_S800000x1_S800000x114_1_0_n_n_0_1_1114_wf
def scatter_S50000x114_S800000x1_S800000x114_1_0_0_1 : ScatterDims S50000x114 S800000x1 S800000x114 where
  updateWindowDims := [1]
  insertedWindowDims := [0]
  scatterDimsToOperandDims := [0]
  indexVectorDim := 1
  wf := scatter_S50000x114_S800000x1_S800000x114_1_0_0_1_wf
def dot_S50000x114_S114x198_S50000x198_1_0_0_1_n_n : DotDims S50000x114 S114x198 S50000x198 where
  lhsContracting := [1]
  rhsContracting := [0]
  lhsNonContracting := [0]
  rhsNonContracting := [1]
  lhsBatch := []
  rhsBatch := []
  wf := dot_S50000x114_S114x198_S50000x198_1_0_0_1_n_n_wf
def dot_S50000x198_S198x198_S50000x198_1_0_0_1_n_n : DotDims S50000x198 S198x198 S50000x198 where
  lhsContracting := [1]
  rhsContracting := [0]
  lhsNonContracting := [0]
  rhsNonContracting := [1]
  lhsBatch := []
  rhsBatch := []
  wf := dot_S50000x198_S198x198_S50000x198_1_0_0_1_n_n_wf
def gather_S50000x198_S800000x1_S800000x198_1_0_n_n_0_1_1198 : GatherDims S50000x198 S800000x1 S800000x198 where
  offsetDims := [1]
  collapsedSliceDims := [0]
  operandBatchingDims := []
  startIndicesBatchingDims := []
  startIndexMap := [0]
  indexVectorDim := 1
  sliceSizes := ![1, 198]
  wf := gather_S50000x198_S800000x1_S800000x198_1_0_n_n_0_1_1198_wf
def scatter_S50000x198_S800000x1_S800000x198_1_0_0_1 : ScatterDims S50000x198 S800000x1 S800000x198 where
  updateWindowDims := [1]
  insertedWindowDims := [0]
  scatterDimsToOperandDims := [0]
  indexVectorDim := 1
  wf := scatter_S50000x198_S800000x1_S800000x198_1_0_0_1_wf
def dot_S50000x198_S198x64_S50000x64_1_0_0_1_n_n : DotDims S50000x198 S198x64 S50000x64 where
  lhsContracting := [1]
  rhsContracting := [0]
  lhsNonContracting := [0]
  rhsNonContracting := [1]
  lhsBatch := []
  rhsBatch := []
  wf := dot_S50000x198_S198x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def scatter_S1024x32_S50000x1_S50000x32_1_0_0_1 : ScatterDims S1024x32 S50000x1 S50000x32 where
  updateWindowDims := [1]
  insertedWindowDims := [0]
  scatterDimsToOperandDims := [0]
  indexVectorDim := 1
  wf := scatter_S1024x32_S50000x1_S50000x32_1_0_0_1_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x8_S1024x8_1_0_0_1_n_n : DotDims S1024x16 S16x8 S1024x8 where
  lhsContracting := [1]
  rhsContracting := [0]
  lhsNonContracting := [0]
  rhsNonContracting := [1]
  lhsBatch := []
  rhsBatch := []
  wf := dot_S1024x16_S16x8_S1024x8_1_0_0_1_n_n_wf
def dot_S1024x8_S8x2_S1024x2_1_0_0_1_n_n : DotDims S1024x8 S8x2 S1024x2 where
  lhsContracting := [1]
  rhsContracting := [0]
  lhsNonContracting := [0]
  rhsNonContracting := [1]
  lhsBatch := []
  rhsBatch := []
  wf := dot_S1024x8_S8x2_S1024x2_1_0_0_1_n_n_wf

class Facts : Prop extends Facts₀ where

variable [Facts]
-- ==== Proof.GinSpec.lean ====
/-
  The graph network's arithmetic, written over plain finite index types and the extended reals.

  A node-feature array is a matrix `Fin M → Fin N → EReal`. One layer of the network is:
  aggregate the neighbours' rows onto each node (`agg`), add the node's own row, apply a two-layer perceptron with
  rectifiers (`mlp`), and normalise every column by its mean and variance over the nodes (`bnR` / `bnK`).
  The two normalisations differ only in how the variance of a column is written: `bnR` takes the mean of the squared
  deviations from the mean, `bnK` takes the mean of the squares minus the square of the mean. After three layers the
  rows are summed per graph (`pool`) and a three-layer perceptron (`head`) gives the result.
  Float literals are kept as their binary words (`z`, `cN`, `eps`).
-/
import Idealize.ShloMosaic.PureOps.Ideal
import Idealize.ShloMosaic.Lib.ValueIdx

noncomputable section

open scoped BigOperators

namespace Cert.Gin

open Idealize.ShloMosaic Idealize.ShloMosaic.ValueIdx

/-- A matrix of extended reals. -/
abbrev Mat (M N : Nat) := Fin M → Fin N → EReal
/-- A row vector of extended reals. -/
abbrev Row (N : Nat) := Fin N → EReal

/-- The word of `+0.0`. -/
def z : EReal := Ideal.ofBits .f32 0x00000000#32
/-- The word of `50000.0`, the number of nodes. -/
def cN : EReal := Ideal.ofBits .f32 0x47435000#32
/-- The word of the normalisation's epsilon (the f32 nearest to 1e-5). -/
def eps : EReal := Ideal.ofBits .f32 0x3727C5AC#32

/-- A rank-2 array read as a matrix. -/
def mat2 {M N : Nat} (x : (⟨2, ![M, N]⟩ : Shape).Idx → EReal) : Mat M N := fun r c => x (ix2 r c)
/-- A matrix as a rank-2 array. -/
def arr2 {M N : Nat} (f : Mat M N) : (⟨2, ![M, N]⟩ : Shape).Idx → EReal := fun i => f ⟨(i 0).val, idx2_lt0 i⟩ ⟨(i 1).val, idx2_lt1 i⟩
/-- A rank-1 array read as a row. -/
def row1 {N : Nat} (x : (⟨1, ![N]⟩ : Shape).Idx → EReal) : Row N := fun c => x (ix1 c)
/-- A `[1, N]` array read as a row. -/
def row2 {N : Nat} (x : (⟨2, ![1, N]⟩ : Shape).Idx → EReal) : Row N := fun c => x (ix2 (0 : Fin 1) c)

theorem arr2_ix2 {M N : Nat} (f : Mat M N) (r : Fin M) (c : Fin N) : arr2 f (ix2 r c) = f r c := rfl
theorem mat2_arr2 {M N : Nat} (f : Mat M N) : mat2 (arr2 f) = f := rfl
theorem arr2_mat2 {M N : Nat} (x : (⟨2, ![M, N]⟩ : Shape).Idx → EReal) : arr2 (mat2 x) = x := by
  funext i; show x (ix2 _ _) = x i; congr 1; exact (eq_ix2 i).symm

/-- The rectifier against the word of zero. -/
def relu (x : EReal) : EReal := max x z

/-- An affine map: the matrix product plus a bias row. -/
def lin {M K N : Nat} (A : Mat M K) (W : Mat K N) (b : Row N) : Mat M N := fun r c => (∑ k, A r k * W k c) + b c

/-- The layer's perceptron on `X + A`: affine, rectifier, affine, rectifier. -/
def mlp {M K H N : Nat} (X A : Mat M K) (Wa : Mat K H) (ba : Row H) (Wb : Mat H N) (bb : Row N) : Mat M N :=
  fun r c => relu (lin (fun r' k => relu (lin (fun r'' i => X r'' i + A r'' i) Wa ba r' k)) Wb bb r c)

/-- A column's sum over all rows, from the word of zero. -/
def csum {M N : Nat} (Hm : Mat M N) : Row N := fun c => z + ∑ r, Hm r c

/-- The elementwise square. -/
def sqm {M N : Nat} (Hm : Mat M N) : Mat M N := fun r c => Hm r c * Hm r c

/-- The column mean: the column sum divided by the word of the node count. -/
def mean {M N : Nat} (Hm : Mat M N) : Row N := fun c => Ideal.div (csum Hm c) cN

/-- The column variance as the mean of the squared deviations from the mean. -/
def varR {M N : Nat} (Hm : Mat M N) : Row N := fun c => Ideal.div (csum (fun r c' => (Hm r c' - mean Hm c') * (Hm r c' - mean Hm c')) c) cN

/-- The column variance as the mean of the squares minus the square of the mean. -/
def varK {M N : Nat} (Hm : Mat M N) : Row N := fun c => Ideal.div (csum (sqm Hm) c) cN - mean Hm c * mean Hm c

/-- The normalisation with a given mean row and variance row: `(h − μ) · rsqrt(v + ε) · γ + β`. -/
def norm {M N : Nat} (Hm : Mat M N) (mu va g b : Row N) : Mat M N :=
  fun r c => (Hm r c - mu c) * Ideal.rsqrt (va c + eps) * g c + b c

/-- Batch normalisation, the variance as the mean squared deviation. -/
def bnR {M N : Nat} (Hm : Mat M N) (g b : Row N) : Mat M N := norm Hm (mean Hm) (varR Hm) g b
/-- Batch normalisation, the variance as the mean square minus the squared mean. -/
def bnK {M N : Nat} (Hm : Mat M N) (g b : Row N) : Mat M N := norm Hm (mean Hm) (varK Hm) g b

/-- The row a gather's start index selects: the word read as a signed integer, clamped into `[0, N − 1]`. -/
def rowOf {E : Nat} (N : Nat) (hN : 0 < N) (idx : IVec ⟨2, ![E, 1]⟩ 32) (e : Fin E) : Fin N :=
  ⟨min (idx (ix2 e (0 : Fin 1))).toInt.toNat (N - 1), by omega⟩

/-- Neighbour aggregation: row `n` is the word of zero plus the sum, over the edges whose destination word reads `n`,
    of the source node's row (the source word clamped into range). -/
def agg {N D E : Nat} (hN : 0 < N) (sI dI : IVec ⟨2, ![E, 1]⟩ 32) (X : Mat N D) : Mat N D :=
  fun n k => z + ∑ e ∈ Finset.univ.filter (fun e : Fin E => (dI (ix2 e (0 : Fin 1))).toInt = (n.val : Int)), X (rowOf N hN sI e) k

/-- Per-graph pooling: row `g` is the word of zero plus the sum of the node rows whose graph word reads `g`. -/
def pool {M G D : Nat} (bI : IVec ⟨2, ![M, 1]⟩ 32) (Hm : Mat M D) : Mat G D :=
  fun g k => z + ∑ r ∈ Finset.univ.filter (fun r : Fin M => (bI (ix2 r (0 : Fin 1))).toInt = (g.val : Int)), Hm r k

/-- The head perceptron: affine, rectifier, affine, rectifier, affine. -/
def head {G A B C D : Nat} (P : Mat G A) (W1 : Mat A B) (b1 : Row B) (W2 : Mat B C) (b2 : Row C) (W3 : Mat C D) (b3 : Row D) : Mat G D :=
  lin (fun r k => relu (lin (fun r' j => relu (lin P W1 b1 r' j)) W2 b2 r k)) W3 b3

/-- One layer with a chosen normalisation `bn`. -/
def layer {N K H D E : Nat} (bn : Mat N D → Row D → Row D → Mat N D) (hN : 0 < N) (sI dI : IVec ⟨2, ![E, 1]⟩ 32)
    (X : Mat N K) (Wa : Mat K H) (ba : Row H) (Wb : Mat H D) (bb g be : Row D) : Mat N D :=
  bn (mlp X (agg hN sI dI X) Wa ba Wb bb) g be

/-- The whole network with a chosen normalisation (the same one in every layer). -/
def net (bn : {N D : Nat} → Mat N D → Row D → Row D → Mat N D)
    (sI dI : IVec ⟨2, ![800000, 1]⟩ 32) (bI : IVec ⟨2, ![50000, 1]⟩ 32) (x : Mat 50000 114)
    (w1a : Mat 114 198) (b1a : Row 198) (w1b : Mat 198 198) (b1b g1 be1 : Row 198)
    (w2a : Mat 198 64) (b2a : Row 64) (w2b : Mat 64 64) (b2b g2 be2 : Row 64)
    (w3a : Mat 64 32) (b3a : Row 32) (w3b : Mat 32 32) (b3b g3 be3 : Row 32)
    (fw1 : Mat 32 16) (fb1 : Row 16) (fw2 : Mat 16 8) (fb2 : Row 8) (ow : Mat 8 2) (ob : Row 2) : Mat 1024 2 :=
  let h1 := layer (bn) (by decide : 0 < 50000) sI dI x w1a b1a w1b b1b g1 be1
  let h2 := layer (bn) (by decide : 0 < 50000) sI dI h1 w2a b2a w2b b2b g2 be2
  let h3 := layer (bn) (by decide : 0 < 50000) sI dI h2 w3a b3a w3b b3b g3 be3
  head (pool bI h3) fw1 fb1 fw2 fb2 ow ob

end Cert.Gin

end
-- ==== Proof.KRun.lean ====
import proofs.«135204_j17832704213197_1_alg».proof.Proof.Gen.KernelIdeal.Frame
import proofs.«135204_j17832704213197_1_alg».proof.Proof.GinSpec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KRun

open Cert.KernelIdeal Cert.KernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch lemma's implicit arguments are found by unifying its conclusion with this statement, which takes
-- unfolding plain definitions in a metavariable's type
set_option backward.isDefEq.respectTransparency.types false in
/-- The kernel's run, read: every weakly fair execution terminates, nothing faulting, with the result array at the last
    boundary's contents and every argument array as launched. -/
theorem run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v76) = W14 m ρ c (Proc.devRef .tc main_v76)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v76 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c),
       (h c _ (mem_uc main_arg25 (by decide))).trans (W14_main_arg25 m ρ c),
       (h c _ (mem_uc main_arg26 (by decide))).trans (W14_main_arg26 m ρ c)⟩)

end Cert.KRun

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibRowGatherScatter.lean ====
/-
  Row gather and row scatter-add of a 2-D array, read at an index.

  For an array `x : [N, D]` and a column of integer row numbers `idx : [E, 1]`:
  * the row gather `x[idx]` (result `[E, D]`) has element `(e, k)` equal to `x` at row `idx[e, 0]` — read as a signed
    integer and clamped into `[0, N − 1]` — and column `k`;
  * the row scatter-add of updates `upd : [E, D]` into `x` has element `(n, k)` equal to `x (n, k)` plus the sum of
    `upd (e, k)` over those `e` whose row number `idx[e, 0]`, read as a signed integer and NOT clamped, is `n`.
  The row function and the set of contributing `e` do not depend on the width `D`.
-/
import Idealize.ShloMosaic.PureOps.Ideal
import Idealize.ShloMosaic.Lib.ValueIdx

noncomputable section

open scoped BigOperators

namespace Cert.Lib.RowGatherScatter

open Idealize.ShloMosaic Idealize.ShloMosaic.ValueIdx

/-! ## The dimension numbers -/

/-- The gather's dimension numbers for an operand `[N, D]`, start indices `[E, 1]` and result `[E, D]`: result axis 1
    is the one offset axis (it runs over the operand's axis 1, whole: slice sizes `[1, D]`), operand axis 0 is collapsed
    and is the one the start index names; the index vector lies along axis 1 of the start indices. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The scatter's dimension numbers for an operand `[N, D]`, scatter indices `[E, 1]` and updates `[E, D]`: update
    axis 1 is the one window axis (it goes to the operand's axis 1), operand axis 0 is inserted and is the one the
    scatter index names; the index vector lies along axis 1 of the scatter indices. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row a start index selects: `idx[e, 0]` read as a signed integer and clamped into `[0, N − 1]`. -/
def rowOf {E w : Nat} (N : Nat) (hN : 0 < N) (idx : IVec ⟨2, ![E, 1]⟩ w) (e : Fin E) : Fin N :=
  ⟨min (idx (ix2 e (0 : Fin 1))).toInt.toNat (N - 1), by omega⟩

/-! ## The row gather read at an index -/

section Gather
variable {α : Type}

/-- The start-indices index the gather reads for result index `(e, k)`: `[e, 0]`, whatever `k` is. -/
theorem gather_siIdx {N D E : Nat}
    (wf : GatherDims.WF ⟨2, ![N, D]⟩ ⟨2, ![E, 1]⟩ ⟨2, ![E, D]⟩ [1] [0] [] [0] [] 1 ![1, D])
    (e : Fin E) (k : Fin D) (c : Fin (rowGatherDims N D E wf).startIndexMap.length) :
    (rowGatherDims N D E wf).siIdx (ix2 e k) c = ix2 e (0 : Fin 1) := by
  funext b; refine Fin.ext ?_
  match b with
  | ⟨0, _⟩ => rfl
  | ⟨1, _⟩ =>
    have := c.isLt
    show c.val = 0
    simpa using this

/-- THE ROW GATHER READ AT `(e, k)`: the operand at row `idx[e, 0]`, read signed and clamped into `[0, N − 1]`, and
    column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N D E wf) x idx (ix2 e k) = x (ix2 (rowOf N hN idx e) k) := by
  unfold Host.gather
  congr 1
  funext a; refine Fin.ext ?_
  match a with
  | ⟨0, _⟩ =>
    -- axis 0 is collapsed and named by the start index: the clamped start, nothing added
    show (rowGatherDims N D E wf).start (ix2 e k) idx 0 + (rowGatherDims N D E wf).batchCoord (ix2 e k) 0
      + (rowGatherDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    rw [gather_siIdx]
    rfl
  | ⟨1, _⟩ =>
    -- axis 1 is the offset axis, not named by the start index: start 0, the result's own coordinate on it
    show (rowGatherDims N D E wf).start (ix2 e k) idx 1 + (rowGatherDims N D E wf).batchCoord (ix2 e k) 1
      + (rowGatherDims N D E wf).offCoord (ix2 e k) 1 = k.val
    have h10 : (1 : Fin 2) ∉ ([0] : List (Fin 2)) := by decide
    rw [GatherDims.batchCoord_eq_zero _ _ _ List.not_mem_nil]
    have hs : (rowGatherDims N D E wf).start (ix2 e k) idx 1 = 0 := by
      unfold GatherDims.start
      rw [dif_neg h10]
    rw [hs]
    simp only [Nat.add_zero, Nat.zero_add]
    unfold GatherDims.offCoord
    rw [dif_pos ((GatherDims.mem_sKept _ _).mpr ⟨h10, List.not_mem_nil⟩)]
    rfl

end Gather

/-! ## The row scatter-add read at an index -/

section Scatter

/-- An update lands at operand index `i` exactly when, on every axis, its start (read signed) plus its window
    coordinate is `i`'s coordinate: the in-range condition is then `i`'s own. -/
theorem resultIdx?_eq_some_iff_forall {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have ha := congrArg Fin.val (congrFun (Option.some.inj h) a)
      have := hh a
      simp only at ha
      omega
    · exact absurd h (by simp)
  · intro h
    have hh : ∀ a, 0 ≤ d.start j idx a + d.window j a ∧ d.start j idx a + d.window j a < s.size a := by
      intro a
      have := h a
      have := (i a).isLt
      omega
    rw [dif_pos hh]
    congr 1
    funext a; refine Fin.ext ?_
    have := h a
    simp only
    omega

variable {N D E w : Nat} (wf : ScatterDims.WF ⟨2, ![N, D]⟩ ⟨2, ![E, 1]⟩ ⟨2, ![E, D]⟩ [1] [0] [0] 1)

/-- The scatter-indices index the scatter reads for update index `(e, k)`: `[e, 0]`, whatever `k` is. -/
theorem scatter_siIdx (e : Fin E) (k : Fin D) (c : Fin (rowScatterDims N D E wf).scatterDimsToOperandDims.length) :
    (rowScatterDims N D E wf).siIdx (ix2 e k) c = ix2 e (0 : Fin 1) := by
  funext b; refine Fin.ext ?_
  match b with
  | ⟨0, _⟩ => rfl
  | ⟨1, _⟩ =>
    have := c.isLt
    show c.val = 0
    simpa using this

/-- On axis 0 the start is the scatter index `idx[e, 0]`, read signed and not clamped. -/
theorem scatter_start0 (idx : IVec ⟨2, ![E, 1]⟩ w) (e : Fin E) (k : Fin D) :
    (rowScatterDims N D E wf).start (ix2 e k) idx 0 = (idx (ix2 e (0 : Fin 1))).toInt := by
  unfold ScatterDims.start
  rw [dif_pos (show (0 : Fin 2) ∈ (rowScatterDims N D E wf).scatterDimsToOperandDims from List.mem_singleton.mpr rfl)]
  rw [scatter_siIdx]

/-- On axis 1, which the scatter index does not name, the start is 0. -/
theorem scatter_start1 (idx : IVec ⟨2, ![E, 1]⟩ w) (e : Fin E) (k : Fin D) :
    (rowScatterDims N D E wf).start (ix2 e k) idx 1 = 0 := by
  unfold ScatterDims.start
  rw [dif_neg (show (1 : Fin 2) ∉ ([0] : List (Fin 2)) by decide)]

/-- Axis 0 is inserted: no window coordinate. -/
theorem scatter_window0 (e : Fin E) (k : Fin D) : (rowScatterDims N D E wf).window (ix2 e k) 0 = 0 := by
  unfold ScatterDims.window
  rw [dif_neg]
  simp [ScatterDims.sKept, Shape.kept]

/-- Axis 1 takes the update's own coordinate on its window axis. -/
theorem scatter_window1 (e : Fin E) (k : Fin D) : (rowScatterDims N D E wf).window (ix2 e k) 1 = k.val := by
  unfold ScatterDims.window
  rw [dif_pos (by simp [ScatterDims.sKept, Shape.kept])]
  rfl

/-- WHERE AN UPDATE LANDS: update `(e, k')` lands on operand element `(n, k)` exactly when its scatter index `idx[e, 0]`,
    read as a signed integer, is `n`, and `k' = k`. -/
theorem resultIdx?_eq_some_iff (idx : IVec ⟨2, ![E, 1]⟩ w) (e : Fin E) (k' : Fin D) (n : Fin N) (k : Fin D) :
    (rowScatterDims N D E wf).resultIdx? (ix2 e k') idx = some (ix2 n k)
      ↔ (idx (ix2 e (0 : Fin 1))).toInt = (n.val : Int) ∧ k' = k := by
  rw [resultIdx?_eq_some_iff_forall]
  have h2 : ∀ P : Fin 2 → Prop, (∀ a, P a) ↔ P 0 ∧ P 1 := fun P => Fin.forall_fin_two
  refine (h2 _).trans ?_
  rw [scatter_start0, scatter_start1, scatter_window0, scatter_window1]
  show (idx (ix2 e (0 : Fin 1))).toInt + ((0 : Nat) : Int) = (n.val : Int) ∧ (0 : Int) + (k'.val : Int) = (k.val : Int) ↔ _
  constructor
  · rintro ⟨h0, h1⟩
    exact ⟨by omega, Fin.ext (by omega)⟩
  · rintro ⟨h0, rfl⟩
    exact ⟨by omega, by omega⟩

/-- THE ROW SCATTER-ADD READ AT `(n, k)`: the operand's element plus the sum of the updates `(e, k)` over the `e` whose
    scatter index `idx[e, 0]`, read as a signed integer and not clamped, is `n`. -/
theorem scatterAdd_rows_apply (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd (rowScatterDims N D E wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  rw [Finset.sum_filter, sum_idx2, Finset.sum_filter]
  refine Finset.sum_congr rfl fun e _ => ?_
  simp only [resultIdx?_eq_some_iff]
  by_cases hq : (idx (ix2 e (0 : Fin 1))).toInt = (n.val : Int)
  · simp only [hq, true_and, if_true]
    rw [Finset.sum_ite_eq']
    simp
  · simp [hq]

end Scatter

end Cert.Lib.RowGatherScatter

end
-- ==== Proof.HostOps.lean ====
/-
  The host operations of the graph network, read as functions of the network's arithmetic.

  Each lemma takes one group of array operations — a row gather followed by a row scatter-add into zeros, a matrix
  product plus a broadcast bias row, a maximum against a zero splat, a column sum, a column mean, the column variance
  with its divisor guard, and the normalisation — over arrays of extended reals, and says which matrix or row of
  `Cert.Gin` it is. All are general in the array sizes; the dimension numbers are the general ones of a plain
  matrix product, a row gather and a row scatter, and every shape relation an operation needs is a hypothesis.
-/
import Idealize.ShloMosaic.PureOps.Ideal
import Idealize.ShloMosaic.PureOps.Ideal.Laws
import Idealize.ShloMosaic.Lib.ValueIdx
import Idealize.ShloMosaic.Lib.Pipeline.Value
import proofs.«135204_j17832704213197_1_alg».proof.Proof.GinSpec
import proofs.«135204_j17832704213197_1_alg».proof.Proof.LibPlainDot
import proofs.«135204_j17832704213197_1_alg».proof.Proof.LibRowGatherScatter

noncomputable section

open scoped BigOperators

namespace Cert.HostOps

open Idealize.ShloMosaic Idealize.ShloMosaic.ValueIdx Cert.Gin Cert.LibPlainDot Cert.Lib.RowGatherScatter

/-- The rank-zero shape of a scalar. -/
abbrev S0 : Shape := ⟨0, ![]⟩

/-- The host's quotient read at an index. -/
theorem hostDivf_apply {s : Shape} {φ : FTy} (a b : FVec Ideal s φ) (i : s.Idx) :
    Host.divf a b i = Ideal.div (a i) (b i) := rfl

/-! ## Broadcasts read at an index -/

/-- A scalar broadcast to any shape reads the scalar everywhere. -/
theorem bcScalar_apply {t : Shape} {α : Type} (hb : S0.BroadcastsInDim t (![] : Fin 0 → Fin t.rank))
    (v : S0.Idx → α) (j : t.Idx) : broadcastInDim t ![] hb v j = v ix0 :=
  congrArg v (funext fun a => a.elim0)

/-- A vector `[N]` laid out as a row `[1, N]` reads, at `(u, c)`, the vector at `c`. -/
theorem bcRow_apply {N : Nat} {α : Type} (hb : (⟨1, ![N]⟩ : Shape).BroadcastsInDim ⟨2, ![1, N]⟩ ![1])
    (v : (⟨1, ![N]⟩ : Shape).Idx → α) (u : Fin 1) (c : Fin N) :
    broadcastInDim ⟨2, ![1, N]⟩ ![1] hb v (ix2 u c) = v (ix1 c) := by
  refine broadcastInDim_apply _ hb v _ (ix1 c) (fun a => ?_)
  match a with
  | ⟨0, _⟩ =>
    show c.val = if N = 1 then 0 else c.val
    have := c.isLt
    split <;> omega

/-- A row `[1, N]` repeated down `M` rows reads, at `(r, c)`, the row at `(0, c)`. -/
theorem bcRows_apply {M N : Nat} {α : Type} (hb : (⟨2, ![1, N]⟩ : Shape).BroadcastsInDim ⟨2, ![M, N]⟩ ![0, 1])
    (w : (⟨2, ![1, N]⟩ : Shape).Idx → α) (r : Fin M) (c : Fin N) :
    broadcastInDim ⟨2, ![M, N]⟩ ![0, 1] hb w (ix2 r c) = w (ix2 (0 : Fin 1) c) := by
  refine broadcastInDim_apply _ hb w _ (ix2 (0 : Fin 1) c) (fun a => ?_)
  match a with
  | ⟨0, _⟩ =>
    show (0 : Nat) = if (1 : Nat) = 1 then 0 else r.val
    exact (if_pos rfl).symm
  | ⟨1, _⟩ =>
    show c.val = if N = 1 then 0 else c.val
    have := c.isLt
    split <;> omega

/-- So a vector `[N]` made a row and repeated down `M` rows reads, at `(r, c)`, the vector at `c`. -/
theorem bcVec_apply {M N : Nat} {α : Type} (hb1 : (⟨1, ![N]⟩ : Shape).BroadcastsInDim ⟨2, ![1, N]⟩ ![1])
    (hb2 : (⟨2, ![1, N]⟩ : Shape).BroadcastsInDim ⟨2, ![M, N]⟩ ![0, 1])
    (v : (⟨1, ![N]⟩ : Shape).Idx → α) (r : Fin M) (c : Fin N) :
    broadcastInDim ⟨2, ![M, N]⟩ ![0, 1] hb2 (broadcastInDim ⟨2, ![1, N]⟩ ![1] hb1 v) (ix2 r c) = v (ix1 c) := by
  rw [bcRows_apply, bcRow_apply]

/-! ## Aggregation and pooling: a row scatter-add into zeros -/

/-- NEIGHBOUR AGGREGATION. Gather the rows of `x` the source words name, and scatter-add them into a zero array at the
    rows the destination words name: the array of `agg`. -/
theorem agg_eq {N D E : Nat} (hN : 0 < N)
    (wfG : GatherDims.WF ⟨2, ![N, D]⟩ ⟨2, ![E, 1]⟩ ⟨2, ![E, D]⟩ [1] [0] [] [0] [] 1 ![1, D])
    (wfS : ScatterDims.WF ⟨2, ![N, D]⟩ ⟨2, ![E, 1]⟩ ⟨2, ![E, D]⟩ [1] [0] [0] 1)
    (hb : S0.BroadcastsInDim ⟨2, ![N, D]⟩ (![] : Fin 0 → Fin 2))
    (x : FVec Ideal ⟨2, ![N, D]⟩ .f32) (sI dI : IVec ⟨2, ![E, 1]⟩ 32) :
    Host.scatterAdd (rowScatterDims N D E wfS)
        (broadcastInDim ⟨2, ![N, D]⟩ ![] hb (constant (F := Ideal) S0 .f32 0x00000000#32)) dI
        (Host.gather (rowGatherDims N D E wfG) x sI)
      = arr2 (agg hN sI dI (mat2 x)) := by
  funext i
  obtain ⟨n, k, rfl⟩ : ∃ (n : Fin N) (k : Fin D), i = ix2 n k := ⟨i 0, i 1, eq_ix2 i⟩
  refine (scatterAdd_rows_apply wfS _ dI _ n k).trans ?_
  show z + _ = z + _
  congr 1
  exact Finset.sum_congr rfl fun e _ => gather_rows_apply hN wfG x sI e k

/-- PER-GRAPH POOLING. Scatter-add the rows of `h` into a zero array at the rows the graph words name: the array of
    `pool`. -/
theorem pool_eq {M G D : Nat}
    (wfS : ScatterDims.WF ⟨2, ![G, D]⟩ ⟨2, ![M, 1]⟩ ⟨2, ![M, D]⟩ [1] [0] [0] 1)
    (hb : S0.BroadcastsInDim ⟨2, ![G, D]⟩ (![] : Fin 0 → Fin 2))
    (bI : IVec ⟨2, ![M, 1]⟩ 32) (h : FVec Ideal ⟨2, ![M, D]⟩ .f32) :
    Host.scatterAdd (rowScatterDims G D M wfS)
        (broadcastInDim ⟨2, ![G, D]⟩ ![] hb (constant (F := Ideal) S0 .f32 0x00000000#32)) bI h
      = arr2 (pool bI (mat2 h)) := by
  funext i
  obtain ⟨g, k, rfl⟩ : ∃ (g : Fin G) (k : Fin D), i = ix2 g k := ⟨i 0, i 1, eq_ix2 i⟩
  exact scatterAdd_rows_apply wfS _ bI h g k

/-! ## The affine map and the rectifier -/

/-- AN AFFINE MAP. The matrix product plus the bias vector, made a row and repeated down the rows: the array of `lin`. -/
theorem lin_eq {M K N : Nat}
    (wf : DotDims.WF (⟨2, ![M, K]⟩ : Shape) ⟨2, ![K, N]⟩ ⟨2, ![M, N]⟩ [1] [0] [0] [1] [] [])
    (prec : Option ContractPrecision)
    (hb1 : (⟨1, ![N]⟩ : Shape).BroadcastsInDim ⟨2, ![1, N]⟩ ![1])
    (hb2 : (⟨2, ![1, N]⟩ : Shape).BroadcastsInDim ⟨2, ![M, N]⟩ ![0, 1])
    (A : FVec Ideal ⟨2, ![M, K]⟩ .f32) (W : FVec Ideal ⟨2, ![K, N]⟩ .f32) (b : FVec Ideal ⟨1, ![N]⟩ .f32) :
    addf (Host.dotGeneral (dims wf) prec A W)
        (broadcastInDim ⟨2, ![M, N]⟩ ![0, 1] hb2 (broadcastInDim ⟨2, ![1, N]⟩ ![1] hb1 b))
      = arr2 (lin (mat2 A) (mat2 W) (row1 b)) := by
  funext i
  obtain ⟨r, c, rfl⟩ : ∃ (r : Fin M) (c : Fin N), i = ix2 r c := ⟨i 0, i 1, eq_ix2 i⟩
  show FloatOps.dotGeneral (dims wf) prec .single A W (ix2 r c) + _ = (∑ k, A (ix2 r k) * W (ix2 k c)) + b (ix1 c)
  rw [dotGeneral_apply, bcVec_apply]

/-- THE RECTIFIER. The maximum with a splat of the word of zero: `relu` at every entry. -/
theorem relu_eq {M N : Nat} (hb : S0.BroadcastsInDim ⟨2, ![M, N]⟩ (![] : Fin 0 → Fin 2))
    (x : FVec Ideal ⟨2, ![M, N]⟩ .f32) :
    maximumf x (broadcastInDim ⟨2, ![M, N]⟩ ![] hb (constant (F := Ideal) S0 .f32 0x00000000#32))
      = arr2 (fun r c => relu (mat2 x r c)) := by
  funext i
  obtain ⟨r, c, rfl⟩ : ∃ (r : Fin M) (c : Fin N), i = ix2 r c := ⟨i 0, i 1, eq_ix2 i⟩
  rfl

/-! ## Column sums, means and variances -/

/-- A reduction of `[M, N]` over its rows has at least one result axis. -/
theorem reduces_of_reducesTo {M N : Nat} (hr : (⟨2, ![M, N]⟩ : Shape).ReducesTo [0] ⟨1, ![N]⟩) :
    (⟨2, ![M, N]⟩ : Shape).Reduces [0] ⟨1, ![N]⟩ :=
  let ⟨h, h2⟩ := hr
  ⟨h, Nat.one_pos, h2⟩

/-- The index of `[M, N]` over the column index `j` with row coordinate `k` is `(k, j)`. -/
theorem lift_col {M N : Nat} (h : (⟨2, ![M, N]⟩ : Shape).Reduces [0] ⟨1, ![N]⟩) (j : (⟨1, ![N]⟩ : Shape).Idx) (k : Fin M) :
    h.lift j k = ix2 k (j 0) := by
  funext c
  refine Fin.ext ?_
  match c with
  | ⟨0, _⟩ => rfl
  | ⟨1, _⟩ => rfl

/-- A COLUMN SUM. The sum over the rows from the word of zero: `csum`. -/
theorem csum_eq {M N : Nat} (hr : (⟨2, ![M, N]⟩ : Shape).ReducesTo [0] ⟨1, ![N]⟩) (hu : 0 < S0.numel)
    (x : FVec Ideal ⟨2, ![M, N]⟩ .f32) :
    Host.reduceAdd x (constant (F := Ideal) S0 .f32 0x00000000#32) hr hu = fun i => csum (mat2 x) (i 0) := by
  funext j
  show Ideal.hostReduceAdd hr x z j = z + ∑ r : Fin M, x (ix2 r (j 0))
  rw [Ideal.hostReduceAdd_single hr (reduces_of_reducesTo hr)]
  refine congrArg (z + ·) ?_
  exact Finset.sum_congr rfl fun k _ => congrArg x (lift_col _ j k)

/-- A COLUMN MEAN. The column sum divided by a splat of the word of the node count: `mean`. -/
theorem mean_eq {M N : Nat} (hr : (⟨2, ![M, N]⟩ : Shape).ReducesTo [0] ⟨1, ![N]⟩) (hu : 0 < S0.numel)
    (hbN : S0.BroadcastsInDim ⟨1, ![N]⟩ (![] : Fin 0 → Fin 1))
    (x : FVec Ideal ⟨2, ![M, N]⟩ .f32) :
    Host.divf (Host.reduceAdd x (constant (F := Ideal) S0 .f32 0x00000000#32) hr hu)
        (broadcastInDim ⟨1, ![N]⟩ ![] hbN (constant (F := Ideal) S0 .f32 0x47435000#32))
      = fun i => mean (mat2 x) (i 0) := by
  rw [csum_eq]
  rfl

/-- The word `cN` is the real number 50000. -/
theorem cN_eq : cN = ((50000 : ℝ) : EReal) := by
  unfold cN
  simp [Ideal.ofBits, Ideal.ieee, -EReal.coe_mul]
  norm_num

/-- The word `z` is zero. -/
theorem z_eq : z = 0 := Ideal.ofBits_zero_f32

/-- Zero is below the node count. -/
theorem z_lt_cN : z < cN := by
  rw [z_eq, cN_eq]
  exact_mod_cast (by norm_num : (0 : ℝ) < 50000)

/-- The node count minus the integer word zero made a float is the node count. -/
theorem cN_sub_zero : cN - ((((0#32 : BitVec 32).toInt : ℤ) : ℝ) : EReal) = cN := by
  have h0 : ((((0#32 : BitVec 32).toInt : ℤ) : ℝ) : EReal) = 0 := by simp
  rw [h0, sub_zero]

/-- THE DEVIATIONS FROM THE COLUMN MEAN. The array minus its column means — the column sum made a row, divided by a row
    splat of the node count, and repeated down the rows: entry `(r, c)` less `mean` at `c`. -/
theorem dev_eq {M N : Nat} (hr : (⟨2, ![M, N]⟩ : Shape).ReducesTo [0] ⟨1, ![N]⟩) (hu : 0 < S0.numel)
    (hb1 : (⟨1, ![N]⟩ : Shape).BroadcastsInDim ⟨2, ![1, N]⟩ ![1])
    (hb2 : (⟨2, ![1, N]⟩ : Shape).BroadcastsInDim ⟨2, ![M, N]⟩ ![0, 1])
    (hb1N : S0.BroadcastsInDim ⟨2, ![1, N]⟩ (![] : Fin 0 → Fin 2))
    (x : FVec Ideal ⟨2, ![M, N]⟩ .f32) :
    subf x (broadcastInDim ⟨2, ![M, N]⟩ ![0, 1] hb2
        (Host.divf (broadcastInDim ⟨2, ![1, N]⟩ ![1] hb1 (Host.reduceAdd x (constant (F := Ideal) S0 .f32 0x00000000#32) hr hu))
          (broadcastInDim ⟨2, ![1, N]⟩ ![] hb1N (constant (F := Ideal) S0 .f32 0x47435000#32))))
      = arr2 (fun r c => mat2 x r c - mean (mat2 x) c) := by
  rw [csum_eq]
  funext i
  obtain ⟨r, c, rfl⟩ : ∃ (r : Fin M) (c : Fin N), i = ix2 r c := ⟨i 0, i 1, eq_ix2 i⟩
  rw [subf_apply, bcRows_apply, hostDivf_apply, bcRow_apply]
  rfl

/-- THE COLUMN VARIANCE WITH ITS GUARD. The mean over the rows of the squared deviations from the column mean, the
    divisor being the node count less the integer word zero made a float, and the whole selected against a splat of a
    not-a-number word according to whether that divisor is above zero. The divisor is the node count, which is above
    zero, so the selection keeps the quotient: `varR`. -/
theorem var_eq {M N : Nat} (hr : (⟨2, ![M, N]⟩ : Shape).ReducesTo [0] ⟨1, ![N]⟩) (hu : 0 < S0.numel)
    (hb1 : (⟨1, ![N]⟩ : Shape).BroadcastsInDim ⟨2, ![1, N]⟩ ![1])
    (hb2 : (⟨2, ![1, N]⟩ : Shape).BroadcastsInDim ⟨2, ![M, N]⟩ ![0, 1])
    (hb1N : S0.BroadcastsInDim ⟨2, ![1, N]⟩ (![] : Fin 0 → Fin 2))
    (hbN : S0.BroadcastsInDim ⟨1, ![N]⟩ (![] : Fin 0 → Fin 1))
    (x : FVec Ideal ⟨2, ![M, N]⟩ .f32) (nanw : BitVec 32) :
    select
        (broadcastInDim ⟨1, ![N]⟩ ![] hbN
          (cmpf .ogt
            (subf (constant (F := Ideal) S0 .f32 0x47435000#32) (sitofp (F := Ideal) .f32 (constantI S0 32 0#32)))
            (constant (F := Ideal) S0 .f32 0x00000000#32)))
        (Host.divf
          (Host.reduceAdd
            (mulf
              (subf x (broadcastInDim ⟨2, ![M, N]⟩ ![0, 1] hb2
                (Host.divf (broadcastInDim ⟨2, ![1, N]⟩ ![1] hb1 (Host.reduceAdd x (constant (F := Ideal) S0 .f32 0x00000000#32) hr hu))
                  (broadcastInDim ⟨2, ![1, N]⟩ ![] hb1N (constant (F := Ideal) S0 .f32 0x47435000#32)))))
              (subf x (broadcastInDim ⟨2, ![M, N]⟩ ![0, 1] hb2
                (Host.divf (broadcastInDim ⟨2, ![1, N]⟩ ![1] hb1 (Host.reduceAdd x (constant (F := Ideal) S0 .f32 0x00000000#32) hr hu))
                  (broadcastInDim ⟨2, ![1, N]⟩ ![] hb1N (constant (F := Ideal) S0 .f32 0x47435000#32))))))
            (constant (F := Ideal) S0 .f32 0x00000000#32) hr hu)
          (broadcastInDim ⟨1, ![N]⟩ ![] hbN
            (subf (constant (F := Ideal) S0 .f32 0x47435000#32) (sitofp (F := Ideal) .f32 (constantI S0 32 0#32)))))
        (broadcastInDim ⟨1, ![N]⟩ ![] hbN (constant (F := Ideal) S0 .f32 nanw))
      = fun i => varR (mat2 x) (i 0) := by
  rw [dev_eq, csum_eq]
  funext j
  -- the guard: the divisor is the node count, and zero is below it
  have hc : cmpf .ogt
      (subf (constant (F := Ideal) S0 .f32 0x47435000#32) (sitofp (F := Ideal) .f32 (constantI S0 32 0#32)))
      (constant (F := Ideal) S0 .f32 0x00000000#32) ix0 = 1#1 := by
    show Ideal.cmp .ogt (cN - ((((0#32 : BitVec 32).toInt : ℤ) : ℝ) : EReal)) z = 1#1
    rw [cN_sub_zero]
    simp [Ideal.cmp, z_lt_cN]
  rw [select_apply, bcScalar_apply, hc, select_one]
  show Ideal.div _ (cN - ((((0#32 : BitVec 32).toInt : ℤ) : ℝ) : EReal)) = _
  rw [cN_sub_zero]
  rfl

/-! ## The normalisation -/

/-- THE NORMALISATION. The deviations from a mean row, times the reciprocal square root of a variance row plus a splat of
    the epsilon word, times a scale row, plus a shift row — each row made `[1, N]` and repeated down the rows: the array
    of `norm`. -/
theorem norm_eq {M N : Nat}
    (hb1 : (⟨1, ![N]⟩ : Shape).BroadcastsInDim ⟨2, ![1, N]⟩ ![1])
    (hb2 : (⟨2, ![1, N]⟩ : Shape).BroadcastsInDim ⟨2, ![M, N]⟩ ![0, 1])
    (hbN : S0.BroadcastsInDim ⟨1, ![N]⟩ (![] : Fin 0 → Fin 1))
    (x : FVec Ideal ⟨2, ![M, N]⟩ .f32) (mu va g b : FVec Ideal ⟨1, ![N]⟩ .f32) :
    addf
        (mulf
          (mulf
            (subf x (broadcastInDim ⟨2, ![M, N]⟩ ![0, 1] hb2 (broadcastInDim ⟨2, ![1, N]⟩ ![1] hb1 mu)))
            (broadcastInDim ⟨2, ![M, N]⟩ ![0, 1] hb2 (broadcastInDim ⟨2, ![1, N]⟩ ![1] hb1
              (Host.rsqrt (addf va (broadcastInDim ⟨1, ![N]⟩ ![] hbN (constant (F := Ideal) S0 .f32 0x3727C5AC#32)))))))
          (broadcastInDim ⟨2, ![M, N]⟩ ![0, 1] hb2 (broadcastInDim ⟨2, ![1, N]⟩ ![1] hb1 g)))
        (broadcastInDim ⟨2, ![M, N]⟩ ![0, 1] hb2 (broadcastInDim ⟨2, ![1, N]⟩ ![1] hb1 b))
      = arr2 (norm (mat2 x) (row1 mu) (row1 va) (row1 g) (row1 b)) := by
  funext i
  obtain ⟨r, c, rfl⟩ : ∃ (r : Fin M) (c : Fin N), i = ix2 r c := ⟨i 0, i 1, eq_ix2 i⟩
  rw [addf_apply, mulf_apply, mulf_apply, subf_apply, bcVec_apply, bcVec_apply, bcVec_apply, bcVec_apply]
  rfl

end Cert.HostOps

end
-- ==== Proof.HostOpsK.lean ====
/-
  The host operations between the kernel's regions, read as rows of the network's arithmetic.

  Between two regions the column sums and the column sums of squares, held as `[1, N]` arrays, are divided by a splat
  of the node count; the first quotient is the column mean, and the second less the square of the first is the column
  variance written as the mean square minus the squared mean. A vector laid out as a `[1, n]` array by a reshape reads
  as the vector. General in the sizes.
-/
import Idealize.ShloMosaic.Lib.ValueLayout
import proofs.«135204_j17832704213197_1_alg».proof.Proof.HostOps

noncomputable section

open scoped BigOperators

namespace Cert.HostOps

open Idealize.ShloMosaic Idealize.ShloMosaic.ValueIdx Cert.Gin

/-- THE COLUMN MEAN FROM A ROW OF COLUMN SUMS. The `[1, N]` array of column sums divided by a splat of the word of the
    node count, read as a row: `mean`. -/
theorem kmean_eq {M N : Nat} (hb : S0.BroadcastsInDim ⟨2, ![1, N]⟩ (![] : Fin 0 → Fin 2)) (Hm : Mat M N)
    (S : FVec Ideal ⟨2, ![1, N]⟩ .f32) (hS : S = fun i => csum Hm ⟨(i 1).val, idx2_lt1 i⟩) :
    row2 (Host.divf S (broadcastInDim ⟨2, ![1, N]⟩ ![] hb (constant (F := Ideal) S0 .f32 0x47435000#32))) = mean Hm := by
  subst hS
  funext c
  rfl

/-- THE COLUMN VARIANCE FROM THE ROWS OF COLUMN SUMS AND OF COLUMN SUMS OF SQUARES. The sums of squares divided by the
    node count, less the square of the column mean, read as a row: `varK`. -/
theorem kvar_eq {M N : Nat} (hb : S0.BroadcastsInDim ⟨2, ![1, N]⟩ (![] : Fin 0 → Fin 2)) (Hm : Mat M N)
    (S Q : FVec Ideal ⟨2, ![1, N]⟩ .f32) (hS : S = fun i => csum Hm ⟨(i 1).val, idx2_lt1 i⟩)
    (hQ : Q = fun i => csum (sqm Hm) ⟨(i 1).val, idx2_lt1 i⟩) :
    row2 (subf (Host.divf Q (broadcastInDim ⟨2, ![1, N]⟩ ![] hb (constant (F := Ideal) S0 .f32 0x47435000#32)))
        (mulf (Host.divf S (broadcastInDim ⟨2, ![1, N]⟩ ![] hb (constant (F := Ideal) S0 .f32 0x47435000#32)))
          (Host.divf S (broadcastInDim ⟨2, ![1, N]⟩ ![] hb (constant (F := Ideal) S0 .f32 0x47435000#32)))))
      = varK Hm := by
  subst hS hQ
  funext c
  rfl

/-- A vector `[n]` reshaped to `[1, n]`, read as a row, is the vector read as a row. -/
theorem row2_reshape {n : Nat} (hs : (⟨1, ![n]⟩ : Shape).ShapeCasts ⟨2, ![1, n]⟩) (v : FVec Ideal ⟨1, ![n]⟩ .f32) :
    row2 (shapeCast ⟨2, ![1, n]⟩ v hs) = row1 v := by
  funext c
  exact shapeCast_a_1a_apply v hs (0 : Fin 1) c

end Cert.HostOps

end
-- ==== Proof.KReg0Pay.lean ====
import proofs.«135204_j17832704213197_1_alg».proof.Proof.Gen.KernelIdeal.Skeleton
import proofs.«135204_j17832704213197_1_alg».proof.Proof.GinSpec
import proofs.«135204_j17832704213197_1_alg».proof.Proof.LibPlainDot
import Idealize.ShloMosaic.Lib.Pipeline.Value

noncomputable section

open scoped BigOperators
open Idealize.ShloMosaic Idealize.ShloMosaic.ValueIdx

namespace Cert.KReg0

open Cert.KernelIdeal Cert.KernelIdeal.Gen Cert.Gin

/-! ## Fifty thousand rows as twenty-five blocks of two thousand -/

/-- A sum over the 50000 rows is the sum, over the 25 row blocks, of the sums over each block's 2000 rows. -/
theorem sum_rows (f : Fin 50000 → EReal) :
    ∑ i, f i = ∑ t : Fin 25, ∑ r : Fin 2000, f ⟨2000 * t.val + r.val, by have := t.isLt; have := r.isLt; omega⟩ := by
  refine (Equiv.sum_comp (finProdFinEquiv (m := 25) (n := 2000)) f).symm.trans ?_
  rw [Fintype.sum_prod_type]
  refine Finset.sum_congr rfl fun t _ => Finset.sum_congr rfl fun r _ => congrArg f (Fin.ext ?_)
  show r.val + 2000 * t.val = 2000 * t.val + r.val
  omega

/-- The sum of a column over row block `t`, as a function of a natural number (zero past the last block). -/
def bsum (f : Fin 50000 → EReal) (t : ℕ) : EReal :=
  if h : t < 25 then ∑ r : Fin 2000, f ⟨2000 * t + r.val, by have := r.isLt; omega⟩ else 0

/-- The zero word plus the 25 block sums is the zero word plus the sum over all rows. -/
theorem bsum_total (f : Fin 50000 → EReal) : z + ∑ t ∈ Finset.range 25, bsum f t = z + ∑ i, f i := by
  rw [sum_rows f, Finset.sum_range]
  refine congrArg (z + ·) (Finset.sum_congr rfl fun t _ => ?_)
  exact dif_pos t.isLt

/-! ## The body's values read at an entry -/

section Payload

variable (x0 x1 : Vec Ideal S2000x114 .f32) (x2 : Vec Ideal S114x198 .f32) (x3 : Vec Ideal S1x198 .f32)
  (x4 : Vec Ideal S198x198 .f32) (x5 : Vec Ideal S1x198 .f32)

/-- A bias row broadcast along the rows reads, at (r, k), the row's entry k. -/
theorem bias_apply (b : Vec Ideal S1x198 .f32) (r : Fin 2000) (k : Fin 198) :
    broadcastTo S2000x198 (shapeCast S1x198 b shapeCasts_S1x198_S1x198) broadcasts_S1x198_S2000x198 (ix2 r k)
      = b (ix2 (0 : Fin 1) k) := by
  rw [shapeCast_self]
  exact broadcastTo_apply b _ (ix2 r k) (ix2 (0 : Fin 1) k) (fun a => by
    match a with
    | ⟨0, _⟩ => rfl
    | ⟨1, _⟩ => rfl)

/-- The block the body stores in the first output is the perceptron of its row block: entry (p, q) is
    relu(∑ₖ relu(∑ᵢ (x + a)(p, i) · Wa(i, k) + ba(k)) · Wb(k, q) + bb(q)); the roundings to bf16 are the identity on
    the extended reals and each product accumulates into zero. -/
theorem pay4_apply (p : Fin 2000) (q : Fin 198) :
    k0_pay4 x0 x1 x2 x3 x4 x5 (ix2 p q)
      = mlp (mat2 (M := 2000) (N := 114) x0) (mat2 (M := 2000) (N := 114) x1) (mat2 (M := 114) (N := 198) x2)
          (row2 (N := 198) x3) (mat2 (M := 198) (N := 198) x4) (row2 (N := 198) x5) p q := by
  have hR : mlp (mat2 (M := 2000) (N := 114) x0) (mat2 (M := 2000) (N := 114) x1) (mat2 (M := 114) (N := 198) x2)
          (row2 (N := 198) x3) (mat2 (M := 198) (N := 198) x4) (row2 (N := 198) x5) p q
      = max ((∑ k : Fin 198, max ((∑ i : Fin 114, (x0 (ix2 p i) + x1 (ix2 p i)) * x2 (ix2 i k)) + x3 (ix2 (0 : Fin 1) k)) z
          * x4 (ix2 k q)) + x5 (ix2 (0 : Fin 1) q)) z := rfl
  rw [hR]
  unfold k0_pay4
  refine (maximumf_apply _ _ (ix2 p q)).trans ?_
  refine congrArg₂ max ?_ rfl
  refine (addf_apply _ _ (ix2 p q)).trans ?_
  refine congrArg₂ (· + ·) ?_ (bias_apply x5 p q)
  refine (Cert.LibPlainDot.matmul_zero_apply dot_S2000x198_S198x198_S2000x198_1_0_0_1_n_n_wf none _ _ p q).trans ?_
  refine Finset.sum_congr rfl fun k _ => congrArg₂ (· * ·) ?_ rfl
  refine congrArg₂ max ?_ rfl
  refine congrArg₂ (· + ·) ?_ (bias_apply x3 p k)
  refine (Cert.LibPlainDot.matmul_zero_apply dot_S2000x114_S114x198_S2000x198_1_0_0_1_n_n_wf none _ _ p k).trans ?_
  refine Finset.sum_congr rfl fun i _ => congrArg₂ (· * ·) ?_ rfl
  exact congrArg (x0 (ix2 p i) + ·) (congrFun (shapeCast_self x1 _) (ix2 p i))

/-- The sum over the rows of a 2000-row block, read at column q: the reduction's zero accumulator adds nothing. -/
theorem colsum_apply (src : FVec Ideal S2000x198 .f32) (hacc : (0x00000000#32 : BitVec 32) = 0x00000000#32)
    (j : S198.Idx) (q : Fin 198) (hj : (j 0).val = q.val) :
    multiReduction .add [0] S198 src 0x00000000#32 reduces_S2000x198_S198 (.inl rfl) hacc j
      = ∑ r : Fin 2000, src (ix2 r q) :=
  (Ideal.multiReduction_add_single src 0x00000000#32 reduces_S2000x198_S198 (.inl rfl) hacc j).trans
    (Finset.sum_congr rfl fun r _ => congrArg src (funext fun a => Fin.ext (by
      match a with
      | ⟨0, _⟩ => rfl
      | ⟨1, _⟩ => exact hj)))

/-- The first accumulator's new contents at column q: its old contents there plus the block's column sum. -/
theorem pay5_apply (v28 : Vec Ideal S1x198 .f32) (q : Fin 198) :
    k0_pay5 x0 x1 x2 x3 x4 x5 v28 (ix2 (0 : Fin 1) q)
      = v28 (ix2 (0 : Fin 1) q) + ∑ r : Fin 2000, k0_pay4 x0 x1 x2 x3 x4 x5 (ix2 r q) := by
  unfold k0_pay5
  dsimp only
  refine (addf_apply _ _ (ix2 (0 : Fin 1) q)).trans ?_
  refine congrArg₂ (· + ·) (congrFun (shapeCast_self v28 _) _) ?_
  refine (shapeCast_addUnit_apply ![198] _ _ (ix2 (0 : Fin 1) q)).trans ?_
  exact colsum_apply (k0_pay4 x0 x1 x2 x3 x4 x5) rfl _ q rfl

/-- The second accumulator's new contents at column q: its old contents there plus the column sum of the block's squares. -/
theorem pay1_apply (v26 : FVec Ideal S2000x198 .f32) (v34 : Vec Ideal S1x198 .f32) (q : Fin 198) :
    k0_pay1 v26 v34 (ix2 (0 : Fin 1) q)
      = v34 (ix2 (0 : Fin 1) q) + ∑ r : Fin 2000, v26 (ix2 r q) * v26 (ix2 r q) := by
  unfold k0_pay1
  dsimp only
  refine (addf_apply _ _ (ix2 (0 : Fin 1) q)).trans ?_
  refine congrArg₂ (· + ·) (congrFun (shapeCast_self v34 _) _) ?_
  refine (shapeCast_addUnit_apply ![198] _ _ (ix2 (0 : Fin 1) q)).trans ?_
  exact colsum_apply (mulf v26 v26) rfl _ q rfl

/-- The reset stores the zero word in every entry of both accumulators. -/
theorem pay2_apply (j : S1x198.Idx) : k0_pay2 (F := Ideal) j = z := rfl
theorem pay3_apply (j : S1x198.Idx) : k0_pay3 (F := Ideal) j = z := rfl

end Payload

end Cert.KReg0

end
-- ==== Proof.KReg0Out.lean ====
import proofs.«135204_j17832704213197_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KReg0

open Cert.KernelIdeal Cert.KernelIdeal.Gen

/-! ## What each case of the body leaves in the three outputs' staging buffers

Every load and store of the body moves a whole staging buffer, so each output ends holding the value of its last
store, computed from the inputs' blocks and — for the two accumulators — from what the accumulator held when it was
read: the zero the reset has just stored (first point), or what the point before left (later points). -/

section Pieces

variable {F : FTy → Type} [FloatOps F]

theorem hz : (![0, 0] : Fin 2 → Nat) = fun _ => 0 := funext fun a => by fin_cases a <;> rfl

variable (c : Dev nD) (i : grid0.Coords) (arg1 : Memref sig .tc .vmem S2000x114 .f32) (harg1 : arg1.IsWhole) (arg2 : Memref sig .tc .vmem S2000x114 .f32) (harg2 : arg2.IsWhole) (arg3 : Memref sig .tc .vmem S114x198 .f32) (harg3 : arg3.IsWhole) (arg4 : Memref sig .tc .vmem S1x198 .f32) (harg4 : arg4.IsWhole) (arg5 : Memref sig .tc .vmem S198x198 .f32) (harg5 : arg5.IsWhole) (arg6 : Memref sig .tc .vmem S1x198 .f32) (harg6 : arg6.IsWhole) (arg7 : Memref sig .tc .vmem S2000x198 .f32) (harg7 : arg7.IsWhole) (arg8 : Memref sig .tc .vmem S1x198 .f32) (harg8 : arg8.IsWhole) (arg9 : Memref sig .tc .vmem S1x198 .f32) (harg9 : arg9.IsWhole)
  (x0 : Vec F S2000x114 .f32) (x1 : Vec F S2000x114 .f32) (x2 : Vec F S114x198 .f32) (x3 : Vec F S1x198 .f32) (x4 : Vec F S198x198 .f32) (x5 : Vec F S1x198 .f32)

/-- First point, first output: the perceptron's block. -/
theorem outA6 (hc0 : cond0_0 i) :
    out0_A_6 c i arg1 harg1 arg2 harg2 arg3 harg3 arg4 harg4 arg5 harg5 arg6 harg6 arg7 harg7 arg8 harg8 arg9 harg9 hc0 x0 x1 x2 x3 x4 x5
      = k0_pay4 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero (S := S2000x198) hz]
  simp only [View.readAt_eq_ld, harg1.read_unread, harg2.read_unread, harg3.read_unread, harg4.read_unread, harg5.read_unread,
    harg6.read_unread, View.ld_unit_zero (S := S2000x114) hz, View.ld_unit_zero (S := S114x198) hz,
    View.ld_unit_zero (S := S1x198) hz, View.ld_unit_zero (S := S198x198) hz]

/-- First point, first accumulator: the zero just stored, plus the block's column sums. -/
theorem outA7 (hc0 : cond0_0 i) :
    out0_A_7 c i arg1 harg1 arg2 harg2 arg3 harg3 arg4 harg4 arg5 harg5 arg6 harg6 arg7 harg7 arg8 harg8 arg9 harg9 hc0 x0 x1 x2 x3 x4 x5
      = k0_pay5 x0 x1 x2 x3 x4 x5 (k0_pay2 (F := F)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x198) hz, View.readCov_unit_zero (S := S1x198) _ hz]
  simp only [View.readAt_eq_ld, harg1.read_unread, harg2.read_unread, harg3.read_unread, harg4.read_unread, harg5.read_unread,
    harg6.read_unread, View.ld_unit_zero (S := S2000x114) hz, View.ld_unit_zero (S := S114x198) hz,
    View.ld_unit_zero (S := S1x198) hz, View.ld_unit_zero (S := S198x198) hz]

/-- First point, second accumulator: the zero just stored, plus the column sums of the block's squares. -/
theorem outA8 (hc0 : cond0_0 i) :
    out0_A_8 c i arg1 harg1 arg2 harg2 arg3 harg3 arg4 harg4 arg5 harg5 arg6 harg6 arg7 harg7 arg8 harg8 arg9 harg9 hc0 x0 x1 x2 x3 x4 x5
      = k0_pay1 (k0_pay4 x0 x1 x2 x3 x4 x5) (k0_pay3 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x198) hz, View.readCov_unit_zero (S := S1x198) _ hz]
  simp only [View.readAt_eq_ld, harg1.read_unread, harg2.read_unread, harg3.read_unread, harg4.read_unread, harg5.read_unread,
    harg6.read_unread, View.ld_unit_zero (S := S2000x114) hz, View.ld_unit_zero (S := S114x198) hz,
    View.ld_unit_zero (S := S1x198) hz, View.ld_unit_zero (S := S198x198) hz]

variable (xo7 : Vec F S1x198 .f32) (xo8 : Vec F S1x198 .f32)

/-- Later points, first output: the perceptron's block. -/
theorem outB6 (hc0 : ¬cond0_0 i) :
    out0_B_6 c i arg1 harg1 arg2 harg2 arg3 harg3 arg4 harg4 arg5 harg5 arg6 harg6 arg7 harg7 arg8 harg8 arg9 harg9 hc0 x0 x1 x2 x3 x4 x5 xo7 xo8
      = k0_pay4 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero (S := S2000x198) hz]
  simp only [View.readAt_eq_ld, harg1.read_unread, harg2.read_unread, harg3.read_unread, harg4.read_unread, harg5.read_unread,
    harg6.read_unread, View.ld_unit_zero (S := S2000x114) hz, View.ld_unit_zero (S := S114x198) hz,
    View.ld_unit_zero (S := S1x198) hz, View.ld_unit_zero (S := S198x198) hz]

/-- Later points, first accumulator: what the point before left, plus the block's column sums. -/
theorem outB7 (hc0 : ¬cond0_0 i) :
    out0_B_7 c i arg1 harg1 arg2 harg2 arg3 harg3 arg4 harg4 arg5 harg5 arg6 harg6 arg7 harg7 arg8 harg8 arg9 harg9 hc0 x0 x1 x2 x3 x4 x5 xo7 xo8
      = k0_pay5 x0 x1 x2 x3 x4 x5 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero (S := S1x198) hz]
  simp only [View.readAt_eq_ld, harg1.read_unread, harg2.read_unread, harg3.read_unread, harg4.read_unread, harg5.read_unread,
    harg6.read_unread, harg8.read_unread, View.ld_unit_zero (S := S2000x114) hz, View.ld_unit_zero (S := S114x198) hz,
    View.ld_unit_zero (S := S1x198) hz, View.ld_unit_zero (S := S198x198) hz]

/-- Later points, second accumulator: what the point before left, plus the column sums of the block's squares. -/
theorem outB8 (hc0 : ¬cond0_0 i) :
    out0_B_8 c i arg1 harg1 arg2 harg2 arg3 harg3 arg4 harg4 arg5 harg5 arg6 harg6 arg7 harg7 arg8 harg8 arg9 harg9 hc0 x0 x1 x2 x3 x4 x5 xo7 xo8
      = k0_pay1 (k0_pay4 x0 x1 x2 x3 x4 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero (S := S1x198) hz]
  simp only [View.readAt_eq_ld, harg1.read_unread, harg2.read_unread, harg3.read_unread, harg4.read_unread, harg5.read_unread,
    harg6.read_unread, harg9.read_unread, View.ld_unit_zero (S := S2000x114) hz, View.ld_unit_zero (S := S114x198) hz,
    View.ld_unit_zero (S := S1x198) hz, View.ld_unit_zero (S := S198x198) hz]

end Pieces

end Cert.KReg0

end
-- ==== Proof.KReg0.lean ====
import proofs.«135204_j17832704213197_1_alg».proof.Proof.Gen.KernelIdeal.Frame
import proofs.«135204_j17832704213197_1_alg».proof.Proof.GinSpec
import proofs.«135204_j17832704213197_1_alg».proof.Proof.KReg0Pay
import proofs.«135204_j17832704213197_1_alg».proof.Proof.KReg0Out
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KReg0

open Cert.KernelIdeal Cert.KernelIdeal.Gen Cert.Gin

variable (V : (c : Dev nD) → (b : Ref sig .tc) → Buf (Elt Ideal) ((c : Thread nD τ).loc b)) (c : Dev nD)

/-- The perceptron's output on the arrays the region finds: node features, their neighbour sums, two weight matrices, two bias rows. -/
def Hm : Mat 50000 198 :=
  mlp (mat2 (M := 50000) (N := 114) (V c main_arg0)) (mat2 (M := 50000) (N := 114) (V c main_v13)) (mat2 (M := 114) (N := 198) (V c main_arg3))
    (row2 (N := 198) (V c main_v14)) (mat2 (M := 198) (N := 198) (V c main_arg5)) (row2 (N := 198) (V c main_v15))

/-! ## The blocks the body reads -/

/-- A row of the perceptron's output depends on that row of its two inputs only. -/
theorem mlp_row {M M' K H N : Nat} (X A : Mat M K) (X' A' : Mat M' K) (Wa : Mat K H) (ba : Row H) (Wb : Mat H N) (bb : Row N)
    (r : Fin M) (r' : Fin M') (hX : ∀ i, X r i = X' r' i) (hA : ∀ i, A r i = A' r' i) (c : Fin N) :
    mlp X A Wa ba Wb bb r c = mlp X' A' Wa ba Wb bb r' c := by
  show relu ((∑ k, relu ((∑ i, (X r i + A r i) * Wa i k) + ba k) * Wb k c) + bb c)
    = relu ((∑ k, relu ((∑ i, (X' r' i + A' r' i) * Wa i k) + ba k) * Wb k c) + bb c)
  simp only [hX, hA]

/-- The block index of each window at each point: the two row-blocked inputs and the first output are at block
    `t` of the rows, the weights, biases and accumulators at their one block. -/
theorem idx_rows : ∀ t : Fin cfg0.N, win0_0.index t 0 = t.val ∧ win0_0.index t 1 = 0 ∧ win0_1.index t 0 = t.val ∧ win0_1.index t 1 = 0
    ∧ win0_6.index t 0 = t.val ∧ win0_6.index t 1 = 0 :=
  (by decide +kernel : ∀ t : Fin grid0.N, win0_0.index t 0 = t.val ∧ win0_0.index t 1 = 0 ∧ win0_1.index t 0 = t.val ∧ win0_1.index t 1 = 0
    ∧ win0_6.index t 0 = t.val ∧ win0_6.index t 1 = 0)
theorem idx_whole : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_7.index t 0 = 0 ∧ win0_7.index t 1 = 0) ∧ (win0_8.index t 0 = 0 ∧ win0_8.index t 1 = 0) :=
  (by decide +kernel : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_7.index t 0 = 0 ∧ win0_7.index t 1 = 0) ∧ (win0_8.index t 0 = 0 ∧ win0_8.index t 1 = 0))

theorem row_lt (t : Fin cfg0.N) (p : Fin 2000) : 2000 * t.val + p.val < 50000 := by
  have := lt_of_lt_of_eq t.isLt (show cfg0.N = 25 from N_0); have := p.isLt; omega

/-- Row p of the node features' block at point t is row 2000 t + p of the array. -/
theorem rd0 (t : Fin cfg0.N) (p : Fin 2000) (i : Fin 114) :
    mat2 (M := 2000) (N := 114) (iblk0 V c 0 t) p i = mat2 (M := 50000) (N := 114) (V c main_arg0) ⟨2000 * t.val + p.val, row_lt t p⟩ i := by
  show iblk0 V c 0 t (ix2 p i) = V c main_arg0 (ix2 ⟨2000 * t.val + p.val, row_lt t p⟩ i)
  unfold iblk0
  rw [View.read_apply]
  show V c main_arg0 _ = V c main_arg0 _
  refine congrArg (V c main_arg0) (funext fun a => Fin.ext ?_)
  match a with
  | ⟨0, _⟩ => show win0_0.index t 0 * 2000 + 1 * p.val = 2000 * t.val + p.val; rw [(idx_rows t).1]; omega
  | ⟨1, _⟩ => show win0_0.index t 1 * 114 + 1 * i.val = i.val; rw [(idx_rows t).2.1]; omega

/-- Row p of the neighbour sums' block at point t is row 2000 t + p of the array. -/
theorem rd1 (t : Fin cfg0.N) (p : Fin 2000) (i : Fin 114) :
    mat2 (M := 2000) (N := 114) (iblk0 V c 1 t) p i = mat2 (M := 50000) (N := 114) (V c main_v13) ⟨2000 * t.val + p.val, row_lt t p⟩ i := by
  show iblk0 V c 1 t (ix2 p i) = V c main_v13 (ix2 ⟨2000 * t.val + p.val, row_lt t p⟩ i)
  unfold iblk0
  rw [View.read_apply]
  show V c main_v13 _ = V c main_v13 _
  refine congrArg (V c main_v13) (funext fun a => Fin.ext ?_)
  match a with
  | ⟨0, _⟩ => show win0_1.index t 0 * 2000 + 1 * p.val = 2000 * t.val + p.val; rw [(idx_rows t).2.2.1]; omega
  | ⟨1, _⟩ => show win0_1.index t 1 * 114 + 1 * i.val = i.val; rw [(idx_rows t).2.2.2.1]; omega

/-- The weights' and biases' one block is the whole array, at every point. -/
theorem rd2 (t : Fin cfg0.N) : (iblk0 V c 2 t : Vec Ideal S114x198 .f32) = V c main_arg3 := by
  funext j
  unfold iblk0
  rw [View.read_apply]
  show V c main_arg3 _ = V c main_arg3 j
  refine congrArg (V c main_arg3) (funext fun a => Fin.ext ?_)
  match a with
  | ⟨0, _⟩ => show win0_2.index t 0 * 114 + 1 * (j 0).val = (j 0).val; rw [(idx_whole t).1.1]; omega
  | ⟨1, _⟩ => show win0_2.index t 1 * 198 + 1 * (j 1).val = (j 1).val; rw [(idx_whole t).1.2]; omega
theorem rd3 (t : Fin cfg0.N) : (iblk0 V c 3 t : Vec Ideal S1x198 .f32) = V c main_v14 := by
  funext j
  unfold iblk0
  rw [View.read_apply]
  show V c main_v14 _ = V c main_v14 j
  refine congrArg (V c main_v14) (funext fun a => Fin.ext ?_)
  match a with
  | ⟨0, _⟩ => show win0_3.index t 0 * 1 + 1 * (j 0).val = (j 0).val; rw [(idx_whole t).2.1.1]; omega
  | ⟨1, _⟩ => show win0_3.index t 1 * 198 + 1 * (j 1).val = (j 1).val; rw [(idx_whole t).2.1.2]; omega
theorem rd4 (t : Fin cfg0.N) : (iblk0 V c 4 t : Vec Ideal S198x198 .f32) = V c main_arg5 := by
  funext j
  unfold iblk0
  rw [View.read_apply]
  show V c main_arg5 _ = V c main_arg5 j
  refine congrArg (V c main_arg5) (funext fun a => Fin.ext ?_)
  match a with
  | ⟨0, _⟩ => show win0_4.index t 0 * 198 + 1 * (j 0).val = (j 0).val; rw [(idx_whole t).2.2.1.1]; omega
  | ⟨1, _⟩ => show win0_4.index t 1 * 198 + 1 * (j 1).val = (j 1).val; rw [(idx_whole t).2.2.1.2]; omega
theorem rd5 (t : Fin cfg0.N) : (iblk0 V c 5 t : Vec Ideal S1x198 .f32) = V c main_v15 := by
  funext j
  unfold iblk0
  rw [View.read_apply]
  show V c main_v15 _ = V c main_v15 j
  refine congrArg (V c main_v15) (funext fun a => Fin.ext ?_)
  match a with
  | ⟨0, _⟩ => show win0_5.index t 0 * 1 + 1 * (j 0).val = (j 0).val; rw [(idx_whole t).2.2.2.1.1]; omega
  | ⟨1, _⟩ => show win0_5.index t 1 * 198 + 1 * (j 1).val = (j 1).val; rw [(idx_whole t).2.2.2.1.2]; omega

/-- The block of the first output the body computes at point t, from the six input blocks. -/
def blk (t : Fin cfg0.N) : Vec Ideal S2000x198 .f32 :=
  k0_pay4 (iblk0 V c 0 t) (iblk0 V c 1 t) (iblk0 V c 2 t) (iblk0 V c 3 t) (iblk0 V c 4 t) (iblk0 V c 5 t)

/-- Entry (p, q) of that block is entry (2000 t + p, q) of the perceptron's output on the whole arrays. -/
theorem blk_apply (t : Fin cfg0.N) (p : Fin 2000) (q : Fin 198) :
    blk V c t (ix2 p q) = Hm V c ⟨2000 * t.val + p.val, row_lt t p⟩ q := by
  unfold blk Hm
  refine (pay4_apply (iblk0 V c 0 t) (iblk0 V c 1 t) (iblk0 V c 2 t) (iblk0 V c 3 t) (iblk0 V c 4 t) (iblk0 V c 5 t) p q).trans ?_
  rw [rd2 V c t, rd3 V c t, rd4 V c t, rd5 V c t]
  exact mlp_row _ _ _ _ _ _ _ _ p ⟨2000 * t.val + p.val, row_lt t p⟩ (rd0 V c t p) (rd1 V c t p) q

/-- The block's column sums are the block sums of the output's columns … -/
theorem blk_colsum (t : Fin cfg0.N) (q : Fin 198) :
    ∑ r : Fin 2000, blk V c t (ix2 r q) = bsum (fun i => Hm V c i q) t.val := by
  have hN : t.val < 25 := lt_of_lt_of_eq t.isLt (show cfg0.N = 25 from N_0)
  unfold bsum
  rw [dif_pos hN]
  exact Finset.sum_congr rfl fun r _ => blk_apply V c t r q

/-- … and likewise for the squares. -/
theorem blk_colsq (t : Fin cfg0.N) (q : Fin 198) :
    ∑ r : Fin 2000, blk V c t (ix2 r q) * blk V c t (ix2 r q) = bsum (fun i => sqm (Hm V c) i q) t.val := by
  have hN : t.val < 25 := lt_of_lt_of_eq t.isLt (show cfg0.N = 25 from N_0)
  unfold bsum
  rw [dif_pos hN]
  exact Finset.sum_congr rfl fun r _ => by rw [blk_apply V c t r q]; rfl

/-! ## The three outputs after each point -/

/-- After any point the first output's staging buffer holds the point's block. -/
theorem outs_fst (t : Fin cfg0.N) : (outsAt0 V c t.val t.isLt).1 = blk V c t := by
  by_cases h0 : t.val % 25 = 0
  · rw [outsAt0_A V c t h0]
    dsimp only
    exact outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) ((hcond0_0 t).mpr h0)
  · rw [outsAt0_B V c t h0]
    dsimp only
    exact outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 (fun h => h0 ((hcond0_0 t).mp h))

/-- At the first point the two accumulators hold the zero just stored plus the block's column sums (of the entries,
    of their squares). -/
theorem acc_first (t : Fin cfg0.N) (h0 : t.val % 25 = 0) :
    (outsAt0 V c t.val t.isLt).2.1
        = k0_pay5 (F := Ideal) (iblk0 V c 0 t) (iblk0 V c 1 t) (iblk0 V c 2 t) (iblk0 V c 3 t) (iblk0 V c 4 t) (iblk0 V c 5 t) (k0_pay2 (F := Ideal))
      ∧ (outsAt0 V c t.val t.isLt).2.2 = k0_pay1 (F := Ideal) (blk V c t) (k0_pay3 (F := Ideal)) := by
  rw [outsAt0_A V c t h0]
  dsimp only
  exact ⟨outA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) ((hcond0_0 t).mpr h0),
    outA8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) ((hcond0_0 t).mpr h0)⟩

/-- At a later point they hold what the point before left plus the block's column sums. -/
theorem acc_later (t : Fin cfg0.N) (h0 : ¬t.val % 25 = 0) :
    (outsAt0 V c t.val t.isLt).2.1
        = k0_pay5 (F := Ideal) (iblk0 V c 0 t) (iblk0 V c 1 t) (iblk0 V c 2 t) (iblk0 V c 3 t) (iblk0 V c 4 t) (iblk0 V c 5 t)
            (outsAt0 V c (t.val - 1) (Nat.lt_of_le_of_lt (Nat.sub_le _ _) t.isLt)).2.1
      ∧ (outsAt0 V c t.val t.isLt).2.2
        = k0_pay1 (F := Ideal) (blk V c t) (outsAt0 V c (t.val - 1) (Nat.lt_of_le_of_lt (Nat.sub_le _ _) t.isLt)).2.2 := by
  rw [outsAt0_B V c t h0]
  dsimp only
  exact ⟨outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 (fun h => h0 ((hcond0_0 t).mp h)),
    outB8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 (fun h => h0 ((hcond0_0 t).mp h))⟩

/-- THE ACCUMULATION. After point n the first accumulator holds, at column q, the zero word plus the column's block
    sums over blocks 0 … n, and the second the same for the squares — by induction on the point: the first point
    adds block 0 to the zero just stored, every later point adds its block to what the point before left. -/
theorem acc_eq : ∀ (n : ℕ) (h : n < cfg0.N) (q : Fin 198),
    (outsAt0 V c n h).2.1 (ix2 (0 : Fin 1) q) = z + ∑ t ∈ Finset.range (n + 1), bsum (fun i => Hm V c i q) t
      ∧ (outsAt0 V c n h).2.2 (ix2 (0 : Fin 1) q) = z + ∑ t ∈ Finset.range (n + 1), bsum (fun i => sqm (Hm V c) i q) t
  | 0, h, q => by
    have e := acc_first V c ⟨0, h⟩ rfl
    rw [Finset.sum_range_one, Finset.sum_range_one]
    constructor
    · refine ((congrFun e.1 _).trans (pay5_apply (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (k0_pay2 (F := Ideal)) q)).trans ?_
      exact congrArg (z + ·) (blk_colsum V c ⟨0, h⟩ q)
    · refine ((congrFun e.2 _).trans (pay1_apply (blk V c ⟨0, h⟩) (k0_pay3 (F := Ideal)) q)).trans ?_
      exact congrArg (z + ·) (blk_colsq V c ⟨0, h⟩ q)
  | n + 1, h, q => by
    have hN : cfg0.N = 25 := N_0
    have hB : ¬(⟨n + 1, h⟩ : Fin cfg0.N).val % 25 = 0 := by dsimp only; omega
    have ih := acc_eq n (Nat.lt_of_succ_lt h) q
    have e := acc_later V c ⟨n + 1, h⟩ hB
    constructor
    · refine ((congrFun e.1 _).trans (pay5_apply (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.1 q)).trans ?_
      refine (congrArg₂ (· + ·) ih.1 (blk_colsum V c ⟨n + 1, h⟩ q)).trans ?_
      exact (add_assoc _ _ _).trans (congrArg (z + ·) (Finset.sum_range_succ _ (n + 1)).symm)
    · refine ((congrFun e.2 _).trans (pay1_apply (blk V c ⟨n + 1, h⟩) (outsAt0 V c n (Nat.lt_of_succ_lt h)).2.2 q)).trans ?_
      refine (congrArg₂ (· + ·) ih.2 (blk_colsq V c ⟨n + 1, h⟩ q)).trans ?_
      exact (add_assoc _ _ _).trans (congrArg (z + ·) (Finset.sum_range_succ _ (n + 1)).symm)

/-! ## The arrays after the last point -/

/-- Every point writes the first output's block back: block t of the perceptron's output. -/
theorem flushed6 (t : Fin cfg0.N) (hf : (cfg0.win 6).flush t = true) :
    (dat0 V c).flushed 6 t = ((cfg0.win 6).blk t).view.read (Elt Ideal) (arr2 (Hm V c)) := by
  show (cfg0.win 6).cut (grid0.coords t) ((dat0 V c).after 6 t) = _
  rw [after0_6, outs_fst]
  funext y
  obtain ⟨p, q, rfl⟩ : ∃ (p : Fin 2000) (q : Fin 198), y = ix2 p q := ⟨y 0, y 1, eq_ix2 y⟩
  rw [View.read_apply]
  show blk V c t (ix2 p q) = arr2 (Hm V c) _
  rw [blk_apply]
  show Hm V c _ _ = Hm V c _ _
  refine congrArg₂ (Hm V c) (Fin.ext ?_) (Fin.ext ?_)
  · show 2000 * t.val + p.val = win0_6.index t 0 * 2000 + 1 * p.val; rw [(idx_rows t).2.2.2.2.1]; omega
  · show q.val = win0_6.index t 1 * 198 + 1 * q.val; rw [(idx_rows t).2.2.2.2.2]; omega

/-- After the last grid point the first output array holds the perceptron's output, row block by row block. -/
theorem h_eq : (dat0 (F := Ideal) V c).arrAt 6 cfg0.N = arr2 (Hm V c) :=
  (dat0 V c).arrAt_eq_of_cover 6 (arr2 (Hm V c)) (flushed6 V c) fun i => by
    have hN : cfg0.N = 25 := N_0
    have h0 : (i 0 : Nat) < 50000 := (i 0).isLt
    have h1 : (i 1 : Nat) < 198 := (i 1).isLt
    obtain ⟨t, ht⟩ : ∃ t : Fin cfg0.N, t.val = (i 0 : Nat) / 2000 := ⟨⟨(i 0 : Nat) / 2000, by rw [hN]; omega⟩, rfl⟩
    refine ⟨t, flush0_6 t, ?_⟩
    show i ∈ ((View.whole main_v16_0).slice (win0_6.rect t)).set
    rw [View.set_slice_whole, Rect.mem_set_unit]
    intro a
    match a with
    | ⟨0, _⟩ => show win0_6.index t 0 * 2000 ≤ (i 0 : Nat) ∧ (i 0 : Nat) < win0_6.index t 0 * 2000 + 2000
                rw [(idx_rows t).2.2.2.2.1, ht]; omega
    | ⟨1, _⟩ => show win0_6.index t 1 * 198 ≤ (i 1 : Nat) ∧ (i 1 : Nat) < win0_6.index t 1 * 198 + 198
                rw [(idx_rows t).2.2.2.2.2]; omega

/-- The last point writes the first accumulator back: the zero word plus all 25 block sums, which is the zero word
    plus the sum over all 50000 rows. -/
theorem flushed7 (t : Fin cfg0.N) (hf : (cfg0.win 7).flush t = true) :
    (dat0 V c).flushed 7 t
      = ((cfg0.win 7).blk t).view.read (Elt Ideal) (fun i : (⟨2, ![1, 198]⟩ : Shape).Idx => csum (Hm V c) ⟨(i 1).val, idx2_lt1 i⟩) := by
  have hN : cfg0.N = 25 := N_0
  have h24 : t.val + 1 = 25 := by have := (flush0_7 t).mp hf; have := t.isLt; omega
  show (cfg0.win 7).cut (grid0.coords t) ((dat0 V c).after 7 t) = _
  rw [after0_7]
  funext y
  obtain ⟨a, q, rfl⟩ : ∃ (a : Fin 1) (q : Fin 198), y = ix2 a q := ⟨y 0, y 1, eq_ix2 y⟩
  obtain rfl : a = 0 := Subsingleton.elim _ _
  rw [View.read_apply]
  show (outsAt0 V c t.val t.isLt).2.1 (ix2 (0 : Fin 1) q) = csum (Hm V c) _
  refine ((acc_eq V c t.val t.isLt q).1).trans ?_
  rw [h24, bsum_total]
  refine congrArg (csum (Hm V c)) (Fin.ext ?_)
  show q.val = win0_7.index t 1 * 198 + 1 * q.val
  rw [(idx_whole t).2.2.2.2.1.2]; omega

/-- The second output array holds the column sums, accumulated over the row blocks. -/
theorem s_eq : (dat0 (F := Ideal) V c).arrAt 7 cfg0.N = fun i : (⟨2, ![1, 198]⟩ : Shape).Idx => csum (Hm V c) ⟨(i 1).val, idx2_lt1 i⟩ :=
  (dat0 V c).arrAt_eq_of_cover 7 (fun i : (⟨2, ![1, 198]⟩ : Shape).Idx => csum (Hm V c) ⟨(i 1).val, idx2_lt1 i⟩) (flushed7 V c) fun i => by
    have hN : cfg0.N = 25 := N_0
    have h0 : (i 0 : Nat) < 1 := (i 0).isLt
    have h1 : (i 1 : Nat) < 198 := (i 1).isLt
    obtain ⟨t, ht⟩ : ∃ t : Fin cfg0.N, t.val = 24 := ⟨⟨24, by rw [hN]; omega⟩, rfl⟩
    refine ⟨t, (flush0_7 t).mpr (by rw [ht]), ?_⟩
    show i ∈ ((View.whole main_v16_1).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [(idx_whole t).2.2.2.2.1.1]; omega
    | ⟨1, _⟩ => show win0_7.index t 1 * 198 ≤ (i 1 : Nat) ∧ (i 1 : Nat) < win0_7.index t 1 * 198 + 198
                rw [(idx_whole t).2.2.2.2.1.2]; omega

/-- The last point writes the second accumulator back: the same for the squares. -/
theorem flushed8 (t : Fin cfg0.N) (hf : (cfg0.win 8).flush t = true) :
    (dat0 V c).flushed 8 t
      = ((cfg0.win 8).blk t).view.read (Elt Ideal) (fun i : (⟨2, ![1, 198]⟩ : Shape).Idx => csum (sqm (Hm V c)) ⟨(i 1).val, idx2_lt1 i⟩) := by
  have hN : cfg0.N = 25 := N_0
  have h24 : t.val + 1 = 25 := by have := (flush0_8 t).mp hf; have := t.isLt; omega
  show (cfg0.win 8).cut (grid0.coords t) ((dat0 V c).after 8 t) = _
  rw [after0_8]
  funext y
  obtain ⟨a, q, rfl⟩ : ∃ (a : Fin 1) (q : Fin 198), y = ix2 a q := ⟨y 0, y 1, eq_ix2 y⟩
  obtain rfl : a = 0 := Subsingleton.elim _ _
  rw [View.read_apply]
  show (outsAt0 V c t.val t.isLt).2.2 (ix2 (0 : Fin 1) q) = csum (sqm (Hm V c)) _
  refine ((acc_eq V c t.val t.isLt q).2).trans ?_
  rw [h24, bsum_total]
  refine congrArg (csum (sqm (Hm V c))) (Fin.ext ?_)
  show q.val = win0_8.index t 1 * 198 + 1 * q.val
  rw [(idx_whole t).2.2.2.2.2.2]; omega

/-- The third output array holds the column sums of the squares. -/
theorem q_eq : (dat0 (F := Ideal) V c).arrAt 8 cfg0.N = fun i : (⟨2, ![1, 198]⟩ : Shape).Idx => csum (sqm (Hm V c)) ⟨(i 1).val, idx2_lt1 i⟩ :=
  (dat0 V c).arrAt_eq_of_cover 8 (fun i : (⟨2, ![1, 198]⟩ : Shape).Idx => csum (sqm (Hm V c)) ⟨(i 1).val, idx2_lt1 i⟩) (flushed8 V c) fun i => by
    have hN : cfg0.N = 25 := N_0
    have h0 : (i 0 : Nat) < 1 := (i 0).isLt
    have h1 : (i 1 : Nat) < 198 := (i 1).isLt
    obtain ⟨t, ht⟩ : ∃ t : Fin cfg0.N, t.val = 24 := ⟨⟨24, by rw [hN]; omega⟩, rfl⟩
    refine ⟨t, (flush0_8 t).mpr (by rw [ht]), ?_⟩
    show i ∈ ((View.whole main_v16_2).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1
                rw [(idx_whole t).2.2.2.2.2.1]; omega
    | ⟨1, _⟩ => show win0_8.index t 1 * 198 ≤ (i 1 : Nat) ∧ (i 1 : Nat) < win0_8.index t 1 * 198 + 198
                rw [(idx_whole t).2.2.2.2.2.2]; omega

end Cert.KReg0

end
-- ==== Proof.KReg1.lean ====
import proofs.«135204_j17832704213197_1_alg».proof.Proof.Gen.KernelIdeal.Frame
import proofs.«135204_j17832704213197_1_alg».proof.Proof.GinSpec
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KReg1

open Cert.KernelIdeal Cert.KernelIdeal.Gen Cert.Gin

variable (V : (c : Dev nD) → (b : Ref sig .tc) → Buf (Elt Ideal) ((c : Thread nD τ).loc b)) (c : Dev nD)

/-- The offsets of an access to a whole block are zero on both axes. -/
theorem hz : (![0, 0] : Fin 2 → Nat) = fun _ => 0 := funext fun a => by fin_cases a <;> rfl

/-- The body's value at row `p`, column `q` of a block: the feature entry minus the mean row's entry, times the
    reciprocal square root of the variance row's entry plus epsilon, times the scale row's entry, plus the shift
    row's entry. The four rows are `[1, 198]` arrays, read at column `q` whatever the row `p`. -/
theorem pay_apply (h : Vec Ideal S2000x198 .f32) (mu va g b : Vec Ideal S1x198 .f32) (p : Fin 2000) (q : Fin 198) :
    k1_pay1 (F := Ideal) va h mu g b (ix2 p q)
      = (h (ix2 p q) - mu (ix2 (0 : Fin 1) q)) * Ideal.rsqrt (va (ix2 (0 : Fin 1) q) + eps) * g (ix2 (0 : Fin 1) q)
        + b (ix2 (0 : Fin 1) q) := by
  unfold k1_pay1
  simp only [shapeCast_self]
  show (h (ix2 p q) - broadcastTo S2000x198 mu _ (ix2 p q))
        * broadcastTo S2000x198 (rsqrt (F := Ideal) (addf va (broadcast S1x198 (Scalar.ofBits .f32 0x3727C5AC#32)))) _ (ix2 p q)
        * broadcastTo S2000x198 g _ (ix2 p q)
        + broadcastTo S2000x198 b _ (ix2 p q) = _
  rw [broadcastTo_1b_ab_apply, broadcastTo_1b_ab_apply, broadcastTo_1b_ab_apply, broadcastTo_1b_ab_apply]
  rfl

/-- The body's value on a block, read at the block index `j`, is the normalisation of an array `A` by rows
    `M1 … M4` at the array index `i`, as soon as the block's feature entry at `j` is `A`'s at `i`, `i` and `j` have
    the same column, and the block's four rows are `M1 … M4`. -/
theorem pay_eq_norm (x0 : Vec Ideal S2000x198 .f32) (x1 x2 x3 x4 : Vec Ideal S1x198 .f32)
    (A : S50000x198.Idx → EReal) (M1 M2 M3 M4 : S1x198.Idx → EReal)
    (j : S2000x198.Idx) (i : S50000x198.Idx) (hi1 : (i 1).val = (j 1).val)
    (h0 : x0 j = A i)
    (h1 : ∀ q : Fin 198, x1 (ix2 (0 : Fin 1) q) = M1 (ix2 (0 : Fin 1) q))
    (h2 : ∀ q : Fin 198, x2 (ix2 (0 : Fin 1) q) = M2 (ix2 (0 : Fin 1) q))
    (h3 : ∀ q : Fin 198, x3 (ix2 (0 : Fin 1) q) = M3 (ix2 (0 : Fin 1) q))
    (h4 : ∀ q : Fin 198, x4 (ix2 (0 : Fin 1) q) = M4 (ix2 (0 : Fin 1) q)) :
    k1_pay1 (F := Ideal) x2 x0 x1 x3 x4 j
      = arr2 (norm (mat2 (M := 50000) (N := 198) A) (row2 (N := 198) M1) (row2 (N := 198) M2)
        (row2 (N := 198) M3) (row2 (N := 198) M4)) i := by
  obtain ⟨p, q, rfl⟩ : ∃ (p : Fin 2000) (q : Fin 198), j = ix2 p q := ⟨j 0, j 1, eq_ix2 j⟩
  rw [pay_apply, h0, h1, h2, h3, h4]
  have e1 : (⟨(i 1).val, idx2_lt1 i⟩ : Fin 198) = q := Fin.ext hi1
  show _ = (A (ix2 ⟨(i 0).val, idx2_lt0 i⟩ ⟨(i 1).val, idx2_lt1 i⟩) - M1 (ix2 (0 : Fin 1) ⟨(i 1).val, idx2_lt1 i⟩))
      * Ideal.rsqrt (M2 (ix2 (0 : Fin 1) ⟨(i 1).val, idx2_lt1 i⟩) + eps) * M3 (ix2 (0 : Fin 1) ⟨(i 1).val, idx2_lt1 i⟩)
      + M4 (ix2 (0 : Fin 1) ⟨(i 1).val, idx2_lt1 i⟩)
  have e0 : ix2 (⟨(i 0).val, idx2_lt0 i⟩ : Fin 50000) (⟨(i 1).val, idx2_lt1 i⟩ : Fin 198) = i := (eq_ix2 i).symm
  rw [e0, e1]

/-- The block index of each window at each of the 25 points: the feature window and the output window sit at row
    block `t`, column block 0; the four row windows at block (0, 0) throughout. -/
theorem idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- Entry `x` of the feature window's block at point `t` is the feature array's entry `2000 t` rows further down. -/
theorem feat_blk (t : Fin cfg1.N) (x : S2000x198.Idx) (k : S50000x198.Idx)
    (hk0 : (k 0).val = 2000 * t.val + (x 0).val) (hk1 : (k 1).val = (x 1).val) :
    (iblk1 (F := Ideal) V c 0 t : Vec Ideal S2000x198 .f32) x = (V c main_v16_0 : S50000x198.Idx → EReal) k := by
  obtain ⟨⟨e00, e01⟩, ⟨e10, e11⟩, ⟨e20, e21⟩, ⟨e30, e31⟩, ⟨e40, e41⟩, ⟨e50, e51⟩⟩ := idx_facts t
  unfold iblk1
  rw [View.read_apply]
  show V c main_v16_0 _ = V c main_v16_0 _
  refine congrArg _ (funext fun a => Fin.ext ?_)
  match a with
  | ⟨0, _⟩ => show win1_0.index t (0 : Fin 2) * 2000 + 1 * (x 0).val = (k 0).val; rw [e00, hk0]; omega
  | ⟨1, _⟩ => show win1_0.index t (1 : Fin 2) * 198 + 1 * (x 1).val = (k 1).val; rw [e01, hk1]; omega

/-- The mean window's block at any point is the mean row itself: its block index is (0, 0) at every point. -/
theorem row_blk1 (t : Fin cfg1.N) (q : Fin 198) :
    (iblk1 (F := Ideal) V c 1 t : Vec Ideal S1x198 .f32) (ix2 (0 : Fin 1) q)
      = (V c main_v18 : S1x198.Idx → EReal) (ix2 (0 : Fin 1) q) := by
  obtain ⟨⟨e00, e01⟩, ⟨e10, e11⟩, ⟨e20, e21⟩, ⟨e30, e31⟩, ⟨e40, e41⟩, ⟨e50, e51⟩⟩ := idx_facts t
  unfold iblk1
  rw [View.read_apply]
  show V c main_v18 _ = V c main_v18 _
  refine congrArg _ (funext fun a => Fin.ext ?_)
  match a with
  | ⟨0, _⟩ => show win1_1.index t (0 : Fin 2) * 1 + 1 * 0 = 0; rw [e10]
  | ⟨1, _⟩ => show win1_1.index t (1 : Fin 2) * 198 + 1 * q.val = q.val; rw [e11]; omega

/-- The variance window's block at any point is the variance row itself: its block index is (0, 0) at every point. -/
theorem row_blk2 (t : Fin cfg1.N) (q : Fin 198) :
    (iblk1 (F := Ideal) V c 2 t : Vec Ideal S1x198 .f32) (ix2 (0 : Fin 1) q)
      = (V c main_v22 : S1x198.Idx → EReal) (ix2 (0 : Fin 1) q) := by
  obtain ⟨⟨e00, e01⟩, ⟨e10, e11⟩, ⟨e20, e21⟩, ⟨e30, e31⟩, ⟨e40, e41⟩, ⟨e50, e51⟩⟩ := idx_facts t
  unfold iblk1
  rw [View.read_apply]
  show V c main_v22 _ = V c main_v22 _
  refine congrArg _ (funext fun a => Fin.ext ?_)
  match a with
  | ⟨0, _⟩ => show win1_2.index t (0 : Fin 2) * 1 + 1 * 0 = 0; rw [e20]
  | ⟨1, _⟩ => show win1_2.index t (1 : Fin 2) * 198 + 1 * q.val = q.val; rw [e21]; omega

/-- The scale window's block at any point is the scale row itself: its block index is (0, 0) at every point. -/
theorem row_blk3 (t : Fin cfg1.N) (q : Fin 198) :
    (iblk1 (F := Ideal) V c 3 t : Vec Ideal S1x198 .f32) (ix2 (0 : Fin 1) q)
      = (V c main_v23 : S1x198.Idx → EReal) (ix2 (0 : Fin 1) q) := by
  obtain ⟨⟨e00, e01⟩, ⟨e10, e11⟩, ⟨e20, e21⟩, ⟨e30, e31⟩, ⟨e40, e41⟩, ⟨e50, e51⟩⟩ := idx_facts t
  unfold iblk1
  rw [View.read_apply]
  show V c main_v23 _ = V c main_v23 _
  refine congrArg _ (funext fun a => Fin.ext ?_)
  match a with
  | ⟨0, _⟩ => show win1_3.index t (0 : Fin 2) * 1 + 1 * 0 = 0; rw [e30]
  | ⟨1, _⟩ => show win1_3.index t (1 : Fin 2) * 198 + 1 * q.val = q.val; rw [e31]; omega

/-- The shift window's block at any point is the shift row itself: its block index is (0, 0) at every point. -/
theorem row_blk4 (t : Fin cfg1.N) (q : Fin 198) :
    (iblk1 (F := Ideal) V c 4 t : Vec Ideal S1x198 .f32) (ix2 (0 : Fin 1) q)
      = (V c main_v24 : S1x198.Idx → EReal) (ix2 (0 : Fin 1) q) := by
  obtain ⟨⟨e00, e01⟩, ⟨e10, e11⟩, ⟨e20, e21⟩, ⟨e30, e31⟩, ⟨e40, e41⟩, ⟨e50, e51⟩⟩ := idx_facts t
  unfold iblk1
  rw [View.read_apply]
  show V c main_v24 _ = V c main_v24 _
  refine congrArg _ (funext fun a => Fin.ext ?_)
  match a with
  | ⟨0, _⟩ => show win1_4.index t (0 : Fin 2) * 1 + 1 * 0 = 0; rw [e40]
  | ⟨1, _⟩ => show win1_4.index t (1 : Fin 2) * 198 + 1 * q.val = q.val; rw [e41]; omega

/-- The normalisation of the whole feature array by the mean, variance, scale and shift rows the region finds. -/
abbrev G : S50000x198.Idx → EReal :=
  arr2 (norm (mat2 (M := 50000) (N := 198) (V c main_v16_0)) (row2 (N := 198) (V c main_v18)) (row2 (N := 198) (V c main_v22))
        (row2 (N := 198) (V c main_v23)) (row2 (N := 198) (V c main_v24)))

/-- What point `t` writes back is rows `2000 t … 2000 t + 1999` of that normalisation. -/
theorem flushed_eq (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S2000x198) hz, View.ld_unit_zero (S := S1x198) hz]
  obtain ⟨⟨e00, e01⟩, ⟨e10, e11⟩, ⟨e20, e21⟩, ⟨e30, e31⟩, ⟨e40, e41⟩, ⟨e50, e51⟩⟩ := idx_facts t
  funext j
  rw [View.read_apply]
  show k1_pay1 (F := Ideal) (iblk1 V c 2 t) (iblk1 V c 0 t) (iblk1 V c 1 t) (iblk1 V c 3 t) (iblk1 V c 4 t) j
    = G V c (((cfg1.win 5).blk t).view.emb j)
  refine pay_eq_norm _ _ _ _ _ _ _ _ _ _ j (((cfg1.win 5).blk t).view.emb j) ?_ (feat_blk V c t j _ ?_ ?_)
    (row_blk1 V c t) (row_blk2 V c t) (row_blk3 V c t) (row_blk4 V c t)
  · show win1_5.index t (1 : Fin 2) * 198 + 1 * (j 1).val = (j 1).val; rw [e51]; omega
  · show win1_5.index t (0 : Fin 2) * 2000 + 1 * (j 0).val = 2000 * t.val + (j 0).val; rw [e50]; omega
  · show win1_5.index t (1 : Fin 2) * 198 + 1 * (j 1).val = (j 1).val; rw [e51]; omega

/-- An index of the output array is in point `t`'s block iff on each axis it lies in the block's range. -/
theorem mem_blk (t : Fin cfg1.N) (i : S50000x198.Idx) :
    i ∈ ((cfg1.win 5).blk t).view.set ↔ ∀ a : Fin 2, win1_5.index t a * S2000x198.size a ≤ (i a).val
      ∧ (i a).val < win1_5.index t a * S2000x198.size a + S2000x198.size a := by
  show i ∈ ((View.whole main_v25).slice (win1_5.rect t)).set ↔ _
  rw [View.set_slice_whole, Rect.mem_set_unit]
  exact Iff.rfl

/-- Every index of the output array is in some point's block: row `r` is in the block of point `r / 2000`. -/
theorem cover (i : S50000x198.Idx) :
    ∃ t : Fin cfg1.N, (cfg1.win 5).flush t = true ∧ i ∈ ((cfg1.win 5).blk t).view.set := by
  have hi0 : (i 0).val < 50000 := idx2_lt0 i
  have hi1 : (i 1).val < 198 := idx2_lt1 i
  have hN : cfg1.N = 25 := N_1
  obtain ⟨t, ht⟩ : ∃ t : Fin cfg1.N, t.val = (i 0).val / 2000 := ⟨⟨(i 0).val / 2000, by omega⟩, rfl⟩
  obtain ⟨⟨e00, e01⟩, ⟨e10, e11⟩, ⟨e20, e21⟩, ⟨e30, e31⟩, ⟨e40, e41⟩, ⟨e50, e51⟩⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e50, ht]; omega
  | ⟨1, _⟩ =>
    show win1_5.index t (1 : Fin 2) * 198 ≤ (i 1).val ∧ (i 1).val < win1_5.index t (1 : Fin 2) * 198 + 198
    rw [e51]; omega

/-- After the last grid point the output array holds the normalisation of the feature array by the mean row, variance row,
    scale row and shift row the region finds, row block by row block. -/
theorem out_eq : (dat1 (F := Ideal) V c).arrAt 5 cfg1.N
    = arr2 (norm (mat2 (M := 50000) (N := 198) (V c main_v16_0)) (row2 (N := 198) (V c main_v18)) (row2 (N := 198) (V c main_v22))
        (row2 (N := 198) (V c main_v23)) (row2 (N := 198) (V c main_v24))) :=
  (dat1 (F := Ideal) V c).arrAt_eq_of_cover 5 (G V c) (fun t _ => flushed_eq V c t) cover

end Cert.KReg1

end
-- ==== Proof.KChainL1.lean ====
/-
  Layer 1 of the graph network as the kernel's run computes it: the host's gather and scatter-add, the perceptron's region,
  the host's column mean and variance, and the normalisation's region, composed from the layer's first boundary to its last.
-/
import proofs.«135204_j17832704213197_1_alg».proof.Proof.Gen.KernelIdeal.Frame
import proofs.«135204_j17832704213197_1_alg».proof.Proof.GinSpec
import Idealize.ShloMosaic.Lib.Pipeline.Value
import Idealize.ShloMosaic.Lib.ValueLayout
import Idealize.ShloMosaic.Lib.IdealHost
import proofs.«135204_j17832704213197_1_alg».proof.Proof.HostOps
import proofs.«135204_j17832704213197_1_alg».proof.Proof.HostOpsK
import proofs.«135204_j17832704213197_1_alg».proof.Proof.KReg0
import proofs.«135204_j17832704213197_1_alg».proof.Proof.KReg1

noncomputable section

open Idealize.ShloMosaic Idealize.ShloMosaic.TcCoe Idealize.SL.Sem Idealize.ShloMosaic.ValueIdx
open Idealize.ShloMosaic.Pipeline (Dat)

namespace Cert.KChainL1

open Cert.KernelIdeal Cert.KernelIdeal.Gen Cert.Gin

/-! ## The index columns, as the host computes them -/

/-- The gather's start indices as the host computes them from the edge array: row 0, a negative word wrapped by the node count, as a column. -/
def sI (ei : IVec S2x800000 32) : IVec S800000x1 32 := broadcastInDim S800000x1 ![0] bcast_S800000_S800000x1_0 (select (cmpi .slt (shapeCast S800000 (extractStridedSlice S1x800000 ![0, 0] ei slices_S2x800000_S1x800000_0_0) shapeCasts_S1x800000_S800000) (broadcastInDim S800000 ![] bcast_S_S800000 (constantI S_ 32 0#32))) (addi (shapeCast S800000 (extractStridedSlice S1x800000 ![0, 0] ei slices_S2x800000_S1x800000_0_0) shapeCasts_S1x800000_S800000) (broadcastInDim S800000 ![] bcast_S_S800000 (constantI S_ 32 50000#32))) (shapeCast S800000 (extractStridedSlice S1x800000 ![0, 0] ei slices_S2x800000_S1x800000_0_0) shapeCasts_S1x800000_S800000))
/-- The scatter's indices: row 1 of the edge array, as a column. -/
def dI (ei : IVec S2x800000 32) : IVec S800000x1 32 := broadcastInDim S800000x1 ![0] bcast_S800000_S800000x1_0 (shapeCast S800000 (extractStridedSlice S1x800000 ![1, 0] ei slices_S2x800000_S1x800000_1_0) shapeCasts_S1x800000_S800000)

/-- Row 0 of the edge array as a vector. -/
def e1 (ei : IVec S2x800000 32) : IVec S800000 32 :=
  shapeCast S800000 (extractStridedSlice S1x800000 ![0, 0] ei slices_S2x800000_S1x800000_0_0) shapeCasts_S1x800000_S800000
/-- Row 1 of the edge array as a vector. -/
def e3 (ei : IVec S2x800000 32) : IVec S800000 32 :=
  shapeCast S800000 (extractStridedSlice S1x800000 ![1, 0] ei slices_S2x800000_S1x800000_1_0) shapeCasts_S1x800000_S800000
/-- A vector of node numbers with every negative word raised by the node count, as a column. -/
def wrapI (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- A vector as a column. -/
def colI (v : IVec S800000 32) : IVec S800000x1 32 := broadcastInDim S800000x1 ![0] bcast_S800000_S800000x1_0 v

/-- The two columns are the wrapped row 0 and the plain row 1. -/
theorem sI_eq (ei : IVec S2x800000 32) : sI ei = wrapI (e1 ei) := rfl
theorem dI_eq (ei : IVec S2x800000 32) : dI ei = colI (e3 ei) := rfl

/-! ## What each host stretch writes, and that it leaves every other buffer -/

/-- The references host stretch 0 writes. -/
abbrev HW0 : List (Ref sig .tc) := [main_v0, main_v1, main_v2, main_v3, main_c, main_v4, main_v5, main_c_0, main_v6, main_v7, main_v8, main_v9, main_v10, main_cst, main_v11, main_v12, main_v13, main_v14, main_v15]
theorem hostOps0_writes : (hostOps0 : List (HloOp τ sig (Elt Ideal))).Forall fun op => op.writes ⊆ (HW0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer host stretch 0 does not write holds after it what it held before. -/
theorem keepH0 (V : Valuation τ sig (Elt Ideal)) (b : Ref sig .tc) (h : b ∉ HW0) :
    StableHlo.after hostOps0 V (Proc.devRef .tc b) = V (Proc.devRef .tc b) :=
  StableHlo.after_of_writes_sub hostOps0 _ hostOps0_writes h

/-- The references host stretch 1 writes. -/
abbrev HW1 : List (Ref sig .tc) := [main_cst_1, main_v17, main_v18, main_cst_2, main_v19, main_v20, main_v21, main_v22, main_v23, main_v24]
theorem hostOps1_writes : (hostOps1 : List (HloOp τ sig (Elt Ideal))).Forall fun op => op.writes ⊆ (HW1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer host stretch 1 does not write holds after it what it held before. -/
theorem keepH1 (V : Valuation τ sig (Elt Ideal)) (b : Ref sig .tc) (h : b ∉ HW1) :
    StableHlo.after hostOps1 V (Proc.devRef .tc b) = V (Proc.devRef .tc b) :=
  StableHlo.after_of_writes_sub hostOps1 _ hostOps1_writes h

/-- The references host stretch 2 writes. -/
abbrev HW2 : List (Ref sig .tc) := [main_c_3, main_v26, main_v27, main_c_4, main_v28, main_v29, main_v30, main_v31, main_v32, main_cst_5, main_v33, main_v34, main_v35, main_v36, main_v37]
theorem hostOps2_writes : (hostOps2 : List (HloOp τ sig (Elt Ideal))).Forall fun op => op.writes ⊆ (HW2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer host stretch 2 does not write holds after it what it held before. -/
theorem keepH2 (V : Valuation τ sig (Elt Ideal)) (b : Ref sig .tc) (h : b ∉ HW2) :
    StableHlo.after hostOps2 V (Proc.devRef .tc b) = V (Proc.devRef .tc b) :=
  StableHlo.after_of_writes_sub hostOps2 _ hostOps2_writes h

/-- The references host stretch 3 writes. -/
abbrev HW3 : List (Ref sig .tc) := [main_cst_6, main_v39, main_v40, main_cst_7, main_v41, main_v42, main_v43, main_v44, main_v45, main_v46]
theorem hostOps3_writes : (hostOps3 : List (HloOp τ sig (Elt Ideal))).Forall fun op => op.writes ⊆ (HW3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer host stretch 3 does not write holds after it what it held before. -/
theorem keepH3 (V : Valuation τ sig (Elt Ideal)) (b : Ref sig .tc) (h : b ∉ HW3) :
    StableHlo.after hostOps3 V (Proc.devRef .tc b) = V (Proc.devRef .tc b) :=
  StableHlo.after_of_writes_sub hostOps3 _ hostOps3_writes h

/-- The references host stretch 4 writes. -/
abbrev HW4 : List (Ref sig .tc) := [main_c_8, main_v48, main_v49, main_c_9, main_v50, main_v51, main_v52, main_v53, main_v54, main_cst_10, main_v55, main_v56, main_v57, main_v58, main_v59]
theorem hostOps4_writes : (hostOps4 : List (HloOp τ sig (Elt Ideal))).Forall fun op => op.writes ⊆ (HW4.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer host stretch 4 does not write holds after it what it held before. -/
theorem keepH4 (V : Valuation τ sig (Elt Ideal)) (b : Ref sig .tc) (h : b ∉ HW4) :
    StableHlo.after hostOps4 V (Proc.devRef .tc b) = V (Proc.devRef .tc b) :=
  StableHlo.after_of_writes_sub hostOps4 _ hostOps4_writes h

/-- The references host stretch 5 writes. -/
abbrev HW5 : List (Ref sig .tc) := [main_cst_11, main_v61, main_v62, main_cst_12, main_v63, main_v64, main_v65, main_v66, main_v67, main_v68]
theorem hostOps5_writes : (hostOps5 : List (HloOp τ sig (Elt Ideal))).Forall fun op => op.writes ⊆ (HW5.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer host stretch 5 does not write holds after it what it held before. -/
theorem keepH5 (V : Valuation τ sig (Elt Ideal)) (b : Ref sig .tc) (h : b ∉ HW5) :
    StableHlo.after hostOps5 V (Proc.devRef .tc b) = V (Proc.devRef .tc b) :=
  StableHlo.after_of_writes_sub hostOps5 _ hostOps5_writes h

/-! ## Congruences: the specification's functions on arrays given by equations -/

theorem mlp_of {M K H D : Nat} {x a : (⟨2, ![M, K]⟩ : Shape).Idx → EReal} {wa wa' : (⟨2, ![K, H]⟩ : Shape).Idx → EReal}
    {ba : (⟨2, ![1, H]⟩ : Shape).Idx → EReal} {wb wb' : (⟨2, ![H, D]⟩ : Shape).Idx → EReal} {bb : (⟨2, ![1, D]⟩ : Shape).Idx → EReal}
    {X A : Mat M K} {rba : Row H} {rbb : Row D}
    (hx : x = arr2 X) (ha : a = arr2 A) (hwa : wa = wa') (hba : row2 ba = rba) (hwb : wb = wb') (hbb : row2 bb = rbb) :
    mlp (mat2 x) (mat2 a) (mat2 wa) (row2 ba) (mat2 wb) (row2 bb) = mlp X A (mat2 wa') rba (mat2 wb') rbb := by
  subst hx ha hwa hba hwb hbb; rfl

theorem norm_of {M D : Nat} {x : (⟨2, ![M, D]⟩ : Shape).Idx → EReal} {mu va g b : (⟨2, ![1, D]⟩ : Shape).Idx → EReal}
    {Hm : Mat M D} {rg rb : Row D}
    (hx : x = arr2 Hm) (hmu : row2 mu = mean Hm) (hva : row2 va = varK Hm) (hg : row2 g = rg) (hb : row2 b = rb) :
    norm (mat2 x) (row2 mu) (row2 va) (row2 g) (row2 b) = bnK Hm rg rb := by
  subst hx; rw [hmu, hva, hg, hb]; rfl

/-! ## The two host stretches of this layer, read at the buffers they write, from any contents `V` -/

section Host
variable (V : Valuation τ sig (Elt Ideal))

theorem hA_v1 : StableHlo.after hostOps0 V (Proc.devRef .tc main_v1) = e1 (V (Proc.devRef .tc main_arg1)) := by
  after_results <;> rfl
theorem hA_v3 : StableHlo.after hostOps0 V (Proc.devRef .tc main_v3) = e3 (V (Proc.devRef .tc main_arg1)) := by
  after_results <;> rfl
set_option maxHeartbeats 1000000 in
theorem hA_agg : StableHlo.after hostOps0 V (Proc.devRef .tc main_v13)
    = Host.scatterAdd scatter_S50000x114_S800000x1_S800000x114_1_0_0_1
        (broadcastInDim S50000x114 ![] bcast_S_S50000x114 (constant (F := Ideal) S_ .f32 0x00000000#32))
        (dI (V (Proc.devRef .tc main_arg1)))
        (Host.gather gather_S50000x114_S800000x1_S800000x114_1_0_n_n_0_1_1114 (V (Proc.devRef .tc main_arg0)) (sI (V (Proc.devRef .tc main_arg1)))) := by
  after_results <;> rfl
theorem hA_ba : StableHlo.after hostOps0 V (Proc.devRef .tc main_v14) = shapeCast S1x198 (V (Proc.devRef .tc main_arg4)) shapeCasts_S198_S1x198 := by
  after_results <;> rfl
theorem hA_bb : StableHlo.after hostOps0 V (Proc.devRef .tc main_v15) = shapeCast S1x198 (V (Proc.devRef .tc main_arg6)) shapeCasts_S198_S1x198 := by
  after_results <;> rfl
theorem hB_mu : StableHlo.after hostOps1 V (Proc.devRef .tc main_v18)
    = Host.divf (V (Proc.devRef .tc main_v16_1)) (broadcastInDim S1x198 ![] bcast_S_S1x198 (constant (F := Ideal) S_ .f32 0x47435000#32)) := by
  after_results <;> rfl
theorem hB_va : StableHlo.after hostOps1 V (Proc.devRef .tc main_v22)
    = subf (Host.divf (V (Proc.devRef .tc main_v16_2)) (broadcastInDim S1x198 ![] bcast_S_S1x198 (constant (F := Ideal) S_ .f32 0x47435000#32)))
        (mulf (Host.divf (V (Proc.devRef .tc main_v16_1)) (broadcastInDim S1x198 ![] bcast_S_S1x198 (constant (F := Ideal) S_ .f32 0x47435000#32)))
          (Host.divf (V (Proc.devRef .tc main_v16_1)) (broadcastInDim S1x198 ![] bcast_S_S1x198 (constant (F := Ideal) S_ .f32 0x47435000#32)))) := by
  after_results <;> rfl
theorem hB_g : StableHlo.after hostOps1 V (Proc.devRef .tc main_v23) = shapeCast S1x198 (V (Proc.devRef .tc main_arg7)) shapeCasts_S198_S1x198 := by
  after_results <;> rfl
theorem hB_be : StableHlo.after hostOps1 V (Proc.devRef .tc main_v24) = shapeCast S1x198 (V (Proc.devRef .tc main_arg8)) shapeCasts_S198_S1x198 := by
  after_results <;> rfl

end Host

/-! ## The chain of this layer -/

section Chain
variable (m : (ℓ : Loc nD τ sig) → Buf (Elt Ideal) ℓ) (ρ : Dev nD → PrngReg) (c : Dev nD)

/-- The two index vectors after the first host stretch, and that nothing later writes them. -/
theorem v1_at1 : W1 m ρ c (Proc.devRef .tc main_v1) = e1 (m ((c : Thread nD τ).loc main_arg1)) := hA_v1 (W0 m ρ c)
theorem v3_at1 : W1 m ρ c (Proc.devRef .tc main_v3) = e3 (m ((c : Thread nD τ).loc main_arg1)) := hA_v3 (W0 m ρ c)
theorem v1_at4 : W4 m ρ c (Proc.devRef .tc main_v1) = e1 (m ((c : Thread nD τ).loc main_arg1)) := ((W4_of_ne m ρ c main_v1 (by decide)).trans ((keepH1 (W2 m ρ c) main_v1 (by decide)).trans (W2_of_ne m ρ c main_v1 (by decide)))).trans (v1_at1 m ρ c)
theorem v3_at4 : W4 m ρ c (Proc.devRef .tc main_v3) = e3 (m ((c : Thread nD τ).loc main_arg1)) := ((W4_of_ne m ρ c main_v3 (by decide)).trans ((keepH1 (W2 m ρ c) main_v3 (by decide)).trans (W2_of_ne m ρ c main_v3 (by decide)))).trans (v3_at1 m ρ c)
theorem v1_at8 : W8 m ρ c (Proc.devRef .tc main_v1) = e1 (m ((c : Thread nD τ).loc main_arg1)) := ((W8_of_ne m ρ c main_v1 (by decide)).trans ((keepH3 (W6 m ρ c) main_v1 (by decide)).trans ((W6_of_ne m ρ c main_v1 (by decide)).trans (keepH2 (W4 m ρ c) main_v1 (by decide))))).trans (v1_at4 m ρ c)
theorem v3_at8 : W8 m ρ c (Proc.devRef .tc main_v3) = e3 (m ((c : Thread nD τ).loc main_arg1)) := ((W8_of_ne m ρ c main_v3 (by decide)).trans ((keepH3 (W6 m ρ c) main_v3 (by decide)).trans ((W6_of_ne m ρ c main_v3 (by decide)).trans (keepH2 (W4 m ρ c) main_v3 (by decide))))).trans (v3_at4 m ρ c)

/-- After the first host stretch the neighbour-sum buffer holds the aggregation of the input matrix. -/
theorem agg_at (X : Mat 50000 114) (hX : W0 m ρ c (Proc.devRef .tc main_arg0) = arr2 X) :
    W1 m ρ c (Proc.devRef .tc main_v13) = arr2 (agg (by decide) (sI (m ((c : Thread nD τ).loc main_arg1))) (dI (m ((c : Thread nD τ).loc main_arg1))) X) := by
  refine (hA_agg (W0 m ρ c)).trans ?_
  rw [hX]
  exact Cert.HostOps.agg_eq (by decide) gather_S50000x114_S800000x1_S800000x114_1_0_n_n_0_1_1114.wf scatter_S50000x114_S800000x1_S800000x114_1_0_0_1.wf bcast_S_S50000x114 (arr2 X) _ _

/-- The arrays the perceptron's region finds. -/
theorem x_in (X : Mat 50000 114) (hX : W0 m ρ c (Proc.devRef .tc main_arg0) = arr2 X) : V1 m ρ c main_arg0 = arr2 X :=
  (keepH0 (W0 m ρ c) main_arg0 (by decide)).trans hX
theorem wa_in : V1 m ρ c main_arg3 = (m ((c : Thread nD τ).loc main_arg3)) := (keepH0 (W0 m ρ c) main_arg3 (by decide))
theorem wb_in : V1 m ρ c main_arg5 = (m ((c : Thread nD τ).loc main_arg5)) := (keepH0 (W0 m ρ c) main_arg5 (by decide))
theorem ba_in : row2 (N := 198) (V1 m ρ c main_v14) = row1 (m ((c : Thread nD τ).loc main_arg4)) := by
  refine (congrArg (row2 (N := 198)) ((hA_ba (W0 m ρ c)).trans ?_)).trans (Cert.HostOps.row2_reshape shapeCasts_S198_S1x198 (m ((c : Thread nD τ).loc main_arg4)))
  rw [show W0 m ρ c (Proc.devRef .tc main_arg4) = (m ((c : Thread nD τ).loc main_arg4)) from rfl]
theorem bb_in : row2 (N := 198) (V1 m ρ c main_v15) = row1 (m ((c : Thread nD τ).loc main_arg6)) := by
  refine (congrArg (row2 (N := 198)) ((hA_bb (W0 m ρ c)).trans ?_)).trans (Cert.HostOps.row2_reshape shapeCasts_S198_S1x198 (m ((c : Thread nD τ).loc main_arg6)))
  rw [show W0 m ρ c (Proc.devRef .tc main_arg6) = (m ((c : Thread nD τ).loc main_arg6)) from rfl]

/-- The perceptron's output on those arrays is the perceptron of the specification on the input matrix and its aggregation. -/
theorem hm_eq (X : Mat 50000 114) (hX : W0 m ρ c (Proc.devRef .tc main_arg0) = arr2 X) :
    Cert.KReg0.Hm (V1 m ρ) c
      = mlp X (agg (by decide) (sI (m ((c : Thread nD τ).loc main_arg1))) (dI (m ((c : Thread nD τ).loc main_arg1))) X) (mat2 (M := 114) (N := 198) (m ((c : Thread nD τ).loc main_arg3))) (row1 (N := 198) (m ((c : Thread nD τ).loc main_arg4)))
          (mat2 (M := 198) (N := 198) (m ((c : Thread nD τ).loc main_arg5))) (row1 (N := 198) (m ((c : Thread nD τ).loc main_arg6))) :=
  mlp_of (x_in m ρ c X hX) (agg_at m ρ c X hX) (wa_in m ρ c) (ba_in m ρ c) (wb_in m ρ c) (bb_in m ρ c)

/-- What the perceptron's region leaves in its three output arrays. -/
theorem o0_at : W2 m ρ c (Proc.devRef .tc main_v16_0) = arr2 (Cert.KReg0.Hm (V1 m ρ) c) :=
  (W2_arr m ρ c 6).trans (Cert.KReg0.h_eq (V1 m ρ) c)
theorem o1_at : W2 m ρ c (Proc.devRef .tc main_v16_1) = fun i : (⟨2, ![1, 198]⟩ : Shape).Idx => csum (Cert.KReg0.Hm (V1 m ρ) c) ⟨(i 1).val, idx2_lt1 i⟩ :=
  (W2_arr m ρ c 7).trans (Cert.KReg0.s_eq (V1 m ρ) c)
theorem o2_at : W2 m ρ c (Proc.devRef .tc main_v16_2) = fun i : (⟨2, ![1, 198]⟩ : Shape).Idx => csum (sqm (Cert.KReg0.Hm (V1 m ρ) c)) ⟨(i 1).val, idx2_lt1 i⟩ :=
  (W2_arr m ρ c 8).trans (Cert.KReg0.q_eq (V1 m ρ) c)

/-- The arrays the normalisation's region finds: the feature array, the mean row, the variance row, the scale and shift rows. -/
theorem h_in : V3 m ρ c main_v16_0 = arr2 (Cert.KReg0.Hm (V1 m ρ) c) :=
  (keepH1 (W2 m ρ c) main_v16_0 (by decide)).trans (o0_at m ρ c)
theorem mu_in : row2 (N := 198) (V3 m ρ c main_v18) = mean (Cert.KReg0.Hm (V1 m ρ) c) :=
  (congrArg (row2 (N := 198)) (hB_mu (W2 m ρ c))).trans
    (Cert.HostOps.kmean_eq bcast_S_S1x198 (Cert.KReg0.Hm (V1 m ρ) c) _ (o1_at m ρ c))
theorem va_in : row2 (N := 198) (V3 m ρ c main_v22) = varK (Cert.KReg0.Hm (V1 m ρ) c) :=
  (congrArg (row2 (N := 198)) (hB_va (W2 m ρ c))).trans
    (Cert.HostOps.kvar_eq bcast_S_S1x198 (Cert.KReg0.Hm (V1 m ρ) c) _ _ (o1_at m ρ c) (o2_at m ρ c))
theorem g_in : row2 (N := 198) (V3 m ρ c main_v23) = row1 (m ((c : Thread nD τ).loc main_arg7)) := by
  refine (congrArg (row2 (N := 198)) ((hB_g (W2 m ρ c)).trans ?_)).trans (Cert.HostOps.row2_reshape shapeCasts_S198_S1x198 (m ((c : Thread nD τ).loc main_arg7)))
  rw [show W2 m ρ c (Proc.devRef .tc main_arg7) = (m ((c : Thread nD τ).loc main_arg7)) from ((W2_of_ne m ρ c main_arg7 (by decide)).trans (keepH0 (W0 m ρ c) main_arg7 (by decide)))]
theorem be_in : row2 (N := 198) (V3 m ρ c main_v24) = row1 (m ((c : Thread nD τ).loc main_arg8)) := by
  refine (congrArg (row2 (N := 198)) ((hB_be (W2 m ρ c)).trans ?_)).trans (Cert.HostOps.row2_reshape shapeCasts_S198_S1x198 (m ((c : Thread nD τ).loc main_arg8)))
  rw [show W2 m ρ c (Proc.devRef .tc main_arg8) = (m ((c : Thread nD τ).loc main_arg8)) from ((W2_of_ne m ρ c main_arg8 (by decide)).trans (keepH0 (W0 m ρ c) main_arg8 (by decide)))]

/-- The layer: from the input matrix at the layer's first boundary to the normalised output at its last. -/
theorem layer_at (X : Mat 50000 114) (hX : W0 m ρ c (Proc.devRef .tc main_arg0) = arr2 X) :
    W4 m ρ c (Proc.devRef .tc main_v25)
      = arr2 (layer (fun Hm g b => bnK Hm g b) (by decide) (sI (m ((c : Thread nD τ).loc main_arg1))) (dI (m ((c : Thread nD τ).loc main_arg1))) X
          (mat2 (M := 114) (N := 198) (m ((c : Thread nD τ).loc main_arg3))) (row1 (N := 198) (m ((c : Thread nD τ).loc main_arg4)))
          (mat2 (M := 198) (N := 198) (m ((c : Thread nD τ).loc main_arg5))) (row1 (N := 198) (m ((c : Thread nD τ).loc main_arg6)))
          (row1 (N := 198) (m ((c : Thread nD τ).loc main_arg7))) (row1 (N := 198) (m ((c : Thread nD τ).loc main_arg8)))) := by
  refine (W4_arr m ρ c 5).trans ((Cert.KReg1.out_eq (V3 m ρ) c).trans (congrArg arr2 ?_))
  refine (norm_of (h_in m ρ c) (mu_in m ρ c) (va_in m ρ c) (g_in m ρ c) (be_in m ρ c)).trans ?_
  rw [hm_eq m ρ c X hX]
  rfl

end Chain

section Layer
variable (m : (ℓ : Loc nD τ sig) → Buf (Elt Ideal) ℓ) (ρ : Dev nD → PrngReg) (c : Dev nD)

/-- Layer 1: after the second region the output array holds the first layer of the network on the launch arrays. -/
theorem layer1 : W4 m ρ c (Proc.devRef .tc main_v25)
      = arr2 (layer (fun Hm g b => bnK Hm g b) (by decide) (sI (m ((c : Thread nD τ).loc main_arg1))) (dI (m ((c : Thread nD τ).loc main_arg1))) (mat2 (M := 50000) (N := 114) (m ((c : Thread nD τ).loc main_arg0)))
          (mat2 (M := 114) (N := 198) (m ((c : Thread nD τ).loc main_arg3))) (row1 (N := 198) (m ((c : Thread nD τ).loc main_arg4)))
          (mat2 (M := 198) (N := 198) (m ((c : Thread nD τ).loc main_arg5))) (row1 (N := 198) (m ((c : Thread nD τ).loc main_arg6)))
          (row1 (N := 198) (m ((c : Thread nD τ).loc main_arg7))) (row1 (N := 198) (m ((c : Thread nD τ).loc main_arg8)))) :=
  layer_at m ρ c (mat2 (M := 50000) (N := 114) (m ((c : Thread nD τ).loc main_arg0))) (arr2_mat2 _).symm

end Layer

end Cert.KChainL1

end
-- ==== Proof.KReg2Pay.lean ====
import proofs.«135204_j17832704213197_1_alg».proof.Proof.Gen.KernelIdeal.Skeleton
import proofs.«135204_j17832704213197_1_alg».proof.Proof.GinSpec
import proofs.«135204_j17832704213197_1_alg».proof.Proof.LibPlainDot
import Idealize.ShloMosaic.Lib.Pipeline.Value

noncomputable section

open scoped BigOperators
open Idealize.ShloMosaic Idealize.ShloMosaic.ValueIdx

namespace Cert.KReg2

open Cert.KernelIdeal Cert.KernelIdeal.Gen Cert.Gin

/-! ## Fifty thousand rows as twenty-five blocks of two thousand -/

/-- A sum over the 50000 rows is the sum, over the 25 row blocks, of the sums over each block's 2000 rows. -/
theorem sum_rows (f : Fin 50000 → EReal) :
    ∑ i, f i = ∑ t : Fin 25, ∑ r : Fin 2000, f ⟨2000 * t.val + r.val, by have := t.isLt; have := r.isLt; omega⟩ := by
  refine (Equiv.sum_comp (finProdFinEquiv (m := 25) (n := 2000)) f).symm.trans ?_
  rw [Fintype.sum_prod_type]
  refine Finset.sum_congr rfl fun t _ => Finset.sum_congr rfl fun r _ => congrArg f (Fin.ext ?_)
  show r.val + 2000 * t.val = 2000 * t.val + r.val
  omega

/-- The sum of a column over row block `t`, as a function of a natural number (zero past the last block). -/
def bsum (f : Fin 50000 → EReal) (t : ℕ) : EReal :=
  if h : t < 25 then ∑ r : Fin 2000, f ⟨2000 * t + r.val, by have := r.isLt; omega⟩ else 0

/-- The zero word plus the 25 block sums is the zero word plus the sum over all rows. -/
theorem bsum_total (f : Fin 50000 → EReal) : z + ∑ t ∈ Finset.range 25, bsum f t = z + ∑ i, f i := by
  rw [sum_rows f, Finset.sum_range]
  refine congrArg (z + ·) (Finset.sum_congr rfl fun t _ => ?_)
  exact dif_pos t.isLt

/-! ## The body's values read at an entry -/

section Payload

variable (x0 x1 : Vec Ideal S2000x198 .f32) (x2 : Vec Ideal S198x64 .f32) (x3 : Vec Ideal S1x64 .f32)
  (x4 : Vec Ideal S64x64 .f32) (x5 : Vec Ideal S1x64 .f32)

/-- A bias row broadcast along the rows reads, at (r, k), the row's entry k. -/
theorem bias_apply (b : Vec Ideal S1x64 .f32) (r : Fin 2000) (k : Fin 64) :
    broadcastTo S2000x64 (shapeCast S1x64 b shapeCasts_S1x64_S1x64) broadcasts_S1x64_S2000x64 (ix2 r k)
      = b (ix2 (0 : Fin 1) k) := by
  rw [shapeCast_self]
  exact broadcastTo_apply b _ (ix2 r k) (ix2 (0 : Fin 1) k) (fun a => by
    match a with
    | ⟨0, _⟩ => rfl
    | ⟨1, _⟩ => rfl)

/-- The block the body stores in the first output is the perceptron of its row block: entry (p, q) is
    relu(∑ₖ relu(∑ᵢ (x + a)(p, i) · Wa(i, k) + ba(k)) · Wb(k, q) + bb(q)); the roundings to bf16 are the identity on
    the extended reals and each product accumulates into zero. -/
theorem pay4_apply (p : Fin 2000) (q : Fin 64) :
    k2_pay4 x0 x1 x2 x3 x4 x5 (ix2 p q)
      = mlp (mat2 (M := 2000) (N := 198) x0) (mat2 (M := 2000) (N := 198) x1) (mat2 (M := 198) (N := 64) x2)
          (row2 (N := 64) x3) (mat2 (M := 64) (N := 64) x4) (row2 (N := 64) x5) p q := by
  have hR : mlp (mat2 (M := 2000) (N := 198) x0) (mat2 (M := 2000) (N := 198) x1) (mat2 (M := 198) (N := 64) x2)
          (row2 (N := 64) x3) (mat2 (M := 64) (N := 64) x4) (row2 (N := 64) x5) p q
      = max ((∑ k : Fin 64, max ((∑ i : Fin 198, (x0 (ix2 p i) + x1 (ix2 p i)) * x2 (ix2 i k)) + x3 (ix2 (0 : Fin 1) k)) z
          * x4 (ix2 k q)) + x5 (ix2 (0 : Fin 1) q)) z := rfl
  rw [hR]
  unfold k2_pay4
  refine (maximumf_apply _ _ (ix2 p q)).trans ?_
  refine congrArg₂ max ?_ rfl
  refine (addf_apply _ _ (ix2 p q)).trans ?_
  refine congrArg₂ (· + ·) ?_ (bias_apply x5 p q)
  refine (Cert.LibPlainDot.matmul_zero_apply dot_S2000x64_S64x64_S2000x64_1_0_0_1_n_n_wf none _ _ p q).trans ?_
  refine Finset.sum_congr rfl fun k _ => congrArg₂ (· * ·) ?_ rfl
  refine congrArg₂ max ?_ rfl
  refine congrArg₂ (· + ·) ?_ (bias_apply x3 p k)
  refine (Cert.LibPlainDot.matmul_zero_apply dot_S2000x198_S198x64_S2000x64_1_0_0_1_n_n_wf none _ _ p k).trans ?_
  refine Finset.sum_congr rfl fun i _ => congrArg₂ (· * ·) ?_ rfl
  exact congrArg₂ (· + ·) (congrFun (shapeCast_self x0 _) (ix2 p i)) (congrFun (shapeCast_self x1 _) (ix2 p i))

/-- The sum over the rows of a 2000-row block, read at column q: the reduction's zero accumulator adds nothing. -/
theorem colsum_apply (src : FVec Ideal S2000x64 .f32) (hacc : (0x00000000#32 : BitVec 32) = 0x00000000#32)
    (j : S64.Idx) (q : Fin 64) (hj : (j 0).val = q.val) :
    multiReduction .add [0] S64 src 0x00000000#32 reduces_S2000x64_S64 (.inl rfl) hacc j
      = ∑ r : Fin 2000, src (ix2 r q) :=
  (Ideal.multiReduction_add_single src 0x00000000#32 reduces_S2000x64_S64 (.inl rfl) hacc j).trans
    (Finset.sum_congr rfl fun r _ => congrArg src (funext fun a => Fin.ext (by
      match a with
      | ⟨0, _⟩ => rfl
      | ⟨1, _⟩ => exact hj)))

/-- The first accumulator's new contents at column q: its old contents there plus the block's column sum. -/
theorem pay5_apply (v28 : Vec Ideal S1x64 .f32) (q : Fin 64) :
    k2_pay5 x0 x1 x2 x3 x4 x5 v28 (ix2 (0 : Fin 1) q)
      = v28 (ix2 (0 : Fin 1) q) + ∑ r : Fin 2000, k2_pay4 x0 x1 x2 x3 x4 x5 (ix2 r q) := by
  unfold k2_pay5
  dsimp only
  refine (addf_apply _ _ (ix2 (0 : Fin 1) q)).trans ?_
  refine congrArg₂ (· + ·) (congrFun (shapeCast_self v28 _) _) ?_
  refine (shapeCast_addUnit_apply ![64] _ _ (ix2 (0 : Fin 1) q)).trans ?_
  exact colsum_apply (k2_pay4 x0 x1 x2 x3 x4 x5) rfl _ q rfl

/-- The second accumulator's new contents at column q: its old contents there plus the column sum of the block's squares. -/
theorem pay1_apply (v26 : FVec Ideal S2000x64 .f32) (v34 : Vec Ideal S1x64 .f32) (q : Fin 64) :
    k2_pay1 v26 v34 (ix2 (0 : Fin 1) q)
      = v34 (ix2 (0 : Fin 1) q) + ∑ r : Fin 2000, v26 (ix2 r q) * v26 (ix2 r q) := by
  unfold k2_pay1
  dsimp only
  refine (addf_apply _ _ (ix2 (0 : Fin 1) q)).trans ?_
  refine congrArg₂ (· + ·) (congrFun (shapeCast_self v34 _) _) ?_
  refine (shapeCast_addUnit_apply ![64] _ _ (ix2 (0 : Fin 1) q)).trans ?_
  exact colsum_apply (mulf v26 v26) rfl _ q rfl

/-- The reset stores the zero word in every entry of both accumulators. -/
theorem pay2_apply (j : S1x64.Idx) : k2_pay2 (F := Ideal) j = z := rfl
theorem pay3_apply (j : S1x64.Idx) : k2_pay3 (F := Ideal) j = z := rfl

end Payload

end Cert.KReg2

end
-- ==== Proof.KReg2Out.lean ====
import proofs.«135204_j17832704213197_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KReg2

open Cert.KernelIdeal Cert.KernelIdeal.Gen

/-! ## What each case of the body leaves in the three outputs' staging buffers

Every load and store of the body moves a whole staging buffer, so each output ends holding the value of its last
store, computed from the inputs' blocks and — for the two accumulators — from what the accumulator held when it was
read: the zero the reset has just stored (first point), or what the point before left (later points). -/

section Pieces

variable {F : FTy → Type} [FloatOps F]

theorem hz : (![0, 0] : Fin 2 → Nat) = fun _ => 0 := funext fun a => by fin_cases a <;> rfl

variable (c : Dev nD) (i : grid2.Coords) (arg1 : Memref sig .tc .vmem S2000x198 .f32) (harg1 : arg1.IsWhole) (arg2 : Memref sig .tc .vmem S2000x198 .f32) (harg2 : arg2.IsWhole) (arg3 : Memref sig .tc .vmem S198x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S1x64 .f32) (harg8 : arg8.IsWhole) (arg9 : Memref sig .tc .vmem S1x64 .f32) (harg9 : arg9.IsWhole)
  (x0 : Vec F S2000x198 .f32) (x1 : Vec F S2000x198 .f32) (x2 : Vec F S198x64 .f32) (x3 : Vec F S1x64 .f32) (x4 : Vec F S64x64 .f32) (x5 : Vec F S1x64 .f32)

/-- First point, first output: the perceptron's block. -/
theorem outA6 (hc0 : cond2_0 i) :
    out2_A_6 c i arg1 harg1 arg2 harg2 arg3 harg3 arg4 harg4 arg5 harg5 arg6 harg6 arg7 harg7 arg8 harg8 arg9 harg9 hc0 x0 x1 x2 x3 x4 x5
      = k2_pay4 x0 x1 x2 x3 x4 x5 := by
  unfold out2_A_6
  rw [View.read_writes_eq_canon _ _ _ (cover2_A_6 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_unit_zero (S := S2000x64) hz]
  simp only [View.readAt_eq_ld, harg1.read_unread, harg2.read_unread, harg3.read_unread, harg4.read_unread, harg5.read_unread,
    harg6.read_unread, View.ld_unit_zero (S := S2000x198) hz, View.ld_unit_zero (S := S198x64) hz,
    View.ld_unit_zero (S := S1x64) hz, View.ld_unit_zero (S := S64x64) hz]

/-- First point, first accumulator: the zero just stored, plus the block's column sums. -/
theorem outA7 (hc0 : cond2_0 i) :
    out2_A_7 c i arg1 harg1 arg2 harg2 arg3 harg3 arg4 harg4 arg5 harg5 arg6 harg6 arg7 harg7 arg8 harg8 arg9 harg9 hc0 x0 x1 x2 x3 x4 x5
      = k2_pay5 x0 x1 x2 x3 x4 x5 (k2_pay2 (F := F)) := by
  unfold out2_A_7
  rw [View.read_writes_eq_canon _ _ _ (cover2_A_7 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread,
    harg6.read_unread, View.ld_unit_zero (S := S2000x198) hz, View.ld_unit_zero (S := S198x64) hz,
    View.ld_unit_zero (S := S1x64) hz, View.ld_unit_zero (S := S64x64) hz]

/-- First point, second accumulator: the zero just stored, plus the column sums of the block's squares. -/
theorem outA8 (hc0 : cond2_0 i) :
    out2_A_8 c i arg1 harg1 arg2 harg2 arg3 harg3 arg4 harg4 arg5 harg5 arg6 harg6 arg7 harg7 arg8 harg8 arg9 harg9 hc0 x0 x1 x2 x3 x4 x5
      = k2_pay1 (k2_pay4 x0 x1 x2 x3 x4 x5) (k2_pay3 (F := F)) := by
  unfold out2_A_8
  rw [View.read_writes_eq_canon _ _ _ (cover2_A_8 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread,
    harg6.read_unread, View.ld_unit_zero (S := S2000x198) hz, View.ld_unit_zero (S := S198x64) hz,
    View.ld_unit_zero (S := S1x64) hz, View.ld_unit_zero (S := S64x64) hz]

variable (xo7 : Vec F S1x64 .f32) (xo8 : Vec F S1x64 .f32)

/-- Later points, first output: the perceptron's block. -/
theorem outB6 (hc0 : ¬cond2_0 i) :
    out2_B_6 c i arg1 harg1 arg2 harg2 arg3 harg3 arg4 harg4 arg5 harg5 arg6 harg6 arg7 harg7 arg8 harg8 arg9 harg9 hc0 x0 x1 x2 x3 x4 x5 xo7 xo8
      = k2_pay4 x0 x1 x2 x3 x4 x5 := by
  unfold out2_B_6
  rw [View.read_writes_eq_canon _ _ _ (cover2_B_6 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero (S := S2000x64) hz]
  simp only [View.readAt_eq_ld, harg1.read_unread, harg2.read_unread, harg3.read_unread, harg4.read_unread, harg5.read_unread,
    harg6.read_unread, View.ld_unit_zero (S := S2000x198) hz, View.ld_unit_zero (S := S198x64) hz,
    View.ld_unit_zero (S := S1x64) hz, View.ld_unit_zero (S := S64x64) hz]

/-- Later points, first accumulator: what the point before left, plus the block's column sums. -/
theorem outB7 (hc0 : ¬cond2_0 i) :
    out2_B_7 c i arg1 harg1 arg2 harg2 arg3 harg3 arg4 harg4 arg5 harg5 arg6 harg6 arg7 harg7 arg8 harg8 arg9 harg9 hc0 x0 x1 x2 x3 x4 x5 xo7 xo8
      = k2_pay5 x0 x1 x2 x3 x4 x5 xo7 := by
  unfold out2_B_7
  rw [View.read_writes_eq_canon _ _ _ (cover2_B_7 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero (S := S1x64) hz]
  simp only [View.readAt_eq_ld, harg1.read_unread, harg2.read_unread, harg3.read_unread, harg4.read_unread, harg5.read_unread,
    harg6.read_unread, harg8.read_unread, View.ld_unit_zero (S := S2000x198) hz, View.ld_unit_zero (S := S198x64) hz,
    View.ld_unit_zero (S := S1x64) hz, View.ld_unit_zero (S := S64x64) hz]

/-- Later points, second accumulator: what the point before left, plus the column sums of the block's squares. -/
theorem outB8 (hc0 : ¬cond2_0 i) :
    out2_B_8 c i arg1 harg1 arg2 harg2 arg3 harg3 arg4 harg4 arg5 harg5 arg6 harg6 arg7 harg7 arg8 harg8 arg9 harg9 hc0 x0 x1 x2 x3 x4 x5 xo7 xo8
      = k2_pay1 (k2_pay4 x0 x1 x2 x3 x4 x5) xo8 := by
  unfold out2_B_8
  rw [View.read_writes_eq_canon _ _ _ (cover2_B_8 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero (S := S1x64) hz]
  simp only [View.readAt_eq_ld, harg1.read_unread, harg2.read_unread, harg3.read_unread, harg4.read_unread, harg5.read_unread,
    harg6.read_unread, harg9.read_unread, View.ld_unit_zero (S := S2000x198) hz, View.ld_unit_zero (S := S198x64) hz,
    View.ld_unit_zero (S := S1x64) hz, View.ld_unit_zero (S := S64x64) hz]

end Pieces

end Cert.KReg2

end
-- ==== Proof.KReg2.lean ====
import proofs.«135204_j17832704213197_1_alg».proof.Proof.Gen.KernelIdeal.Frame
import proofs.«135204_j17832704213197_1_alg».proof.Proof.GinSpec
import proofs.«135204_j17832704213197_1_alg».proof.Proof.KReg2Pay
import proofs.«135204_j17832704213197_1_alg».proof.Proof.KReg2Out
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KReg2

open Cert.KernelIdeal Cert.KernelIdeal.Gen Cert.Gin

variable (V : (c : Dev nD) → (b : Ref sig .tc) → Buf (Elt Ideal) ((c : Thread nD τ).loc b)) (c : Dev nD)

/-- The perceptron's output on the arrays the region finds: node features, their neighbour sums, two weight matrices, two bias rows. -/
def Hm : Mat 50000 64 :=
  mlp (mat2 (M := 50000) (N := 198) (V c main_v25)) (mat2 (M := 50000) (N := 198) (V c main_v35)) (mat2 (M := 198) (N := 64) (V c main_arg9))
    (row2 (N := 64) (V c main_v36)) (mat2 (M := 64) (N := 64) (V c main_arg11)) (row2 (N := 64) (V c main_v37))

/-! ## The blocks the body reads -/

/-- A row of the perceptron's output depends on that row of its two inputs only. -/
theorem mlp_row {M M' K H N : Nat} (X A : Mat M K) (X' A' : Mat M' K) (Wa : Mat K H) (ba : Row H) (Wb : Mat H N) (bb : Row N)
    (r : Fin M) (r' : Fin M') (hX : ∀ i, X r i = X' r' i) (hA : ∀ i, A r i = A' r' i) (c : Fin N) :
    mlp X A Wa ba Wb bb r c = mlp X' A' Wa ba Wb bb r' c := by
  show relu ((∑ k, relu ((∑ i, (X r i + A r i) * Wa i k) + ba k) * Wb k c) + bb c)
    = relu ((∑ k, relu ((∑ i, (X' r' i + A' r' i) * Wa i k) + ba k) * Wb k c) + bb c)
  simp only [hX, hA]

/-- The block index of each window at each point: the two row-blocked inputs and the first output are at block
    `t` of the rows, the weights, biases and accumulators at their one block. -/
theorem idx_rows : ∀ t : Fin cfg2.N, win2_0.index t 0 = t.val ∧ win2_0.index t 1 = 0 ∧ win2_1.index t 0 = t.val ∧ win2_1.index t 1 = 0
    ∧ win2_6.index t 0 = t.val ∧ win2_6.index t 1 = 0 :=
  (by decide +kernel : ∀ t : Fin grid2.N, win2_0.index t 0 = t.val ∧ win2_0.index t 1 = 0 ∧ win2_1.index t 0 = t.val ∧ win2_1.index t 1 = 0
    ∧ win2_6.index t 0 = t.val ∧ win2_6.index t 1 = 0)
theorem idx_whole : ∀ t : Fin cfg2.N, (win2_2.index t 0 = 0 ∧ win2_2.index t 1 = 0) ∧ (win2_3.index t 0 = 0 ∧ win2_3.index t 1 = 0)
    ∧ (win2_4.index t 0 = 0 ∧ win2_4.index t 1 = 0) ∧ (win2_5.index t 0 = 0 ∧ win2_5.index t 1 = 0)
    ∧ (win2_7.index t 0 = 0 ∧ win2_7.index t 1 = 0) ∧ (win2_8.index t 0 = 0 ∧ win2_8.index t 1 = 0) :=
  (by decide +kernel : ∀ t : Fin grid2.N, (win2_2.index t 0 = 0 ∧ win2_2.index t 1 = 0) ∧ (win2_3.index t 0 = 0 ∧ win2_3.index t 1 = 0)
    ∧ (win2_4.index t 0 = 0 ∧ win2_4.index t 1 = 0) ∧ (win2_5.index t 0 = 0 ∧ win2_5.index t 1 = 0)
    ∧ (win2_7.index t 0 = 0 ∧ win2_7.index t 1 = 0) ∧ (win2_8.index t 0 = 0 ∧ win2_8.index t 1 = 0))

theorem row_lt (t : Fin cfg2.N) (p : Fin 2000) : 2000 * t.val + p.val < 50000 := by
  have := lt_of_lt_of_eq t.isLt (show cfg2.N = 25 from N_2); have := p.isLt; omega

/-- Row p of the node features' block at point t is row 2000 t + p of the array. -/
theorem rd0 (t : Fin cfg2.N) (p : Fin 2000) (i : Fin 198) :
    mat2 (M := 2000) (N := 198) (iblk2 V c 0 t) p i = mat2 (M := 50000) (N := 198) (V c main_v25) ⟨2000 * t.val + p.val, row_lt t p⟩ i := by
  show iblk2 V c 0 t (ix2 p i) = V c main_v25 (ix2 ⟨2000 * t.val + p.val, row_lt t p⟩ i)
  unfold iblk2
  rw [View.read_apply]
  show V c main_v25 _ = V c main_v25 _
  refine congrArg (V c main_v25) (funext fun a => Fin.ext ?_)
  match a with
  | ⟨0, _⟩ => show win2_0.index t 0 * 2000 + 1 * p.val = 2000 * t.val + p.val; rw [(idx_rows t).1]; omega
  | ⟨1, _⟩ => show win2_0.index t 1 * 198 + 1 * i.val = i.val; rw [(idx_rows t).2.1]; omega

/-- Row p of the neighbour sums' block at point t is row 2000 t + p of the array. -/
theorem rd1 (t : Fin cfg2.N) (p : Fin 2000) (i : Fin 198) :
    mat2 (M := 2000) (N := 198) (iblk2 V c 1 t) p i = mat2 (M := 50000) (N := 198) (V c main_v35) ⟨2000 * t.val + p.val, row_lt t p⟩ i := by
  show iblk2 V c 1 t (ix2 p i) = V c main_v35 (ix2 ⟨2000 * t.val + p.val, row_lt t p⟩ i)
  unfold iblk2
  rw [View.read_apply]
  show V c main_v35 _ = V c main_v35 _
  refine congrArg (V c main_v35) (funext fun a => Fin.ext ?_)
  match a with
  | ⟨0, _⟩ => show win2_1.index t 0 * 2000 + 1 * p.val = 2000 * t.val + p.val; rw [(idx_rows t).2.2.1]; omega
  | ⟨1, _⟩ => show win2_1.index t 1 * 198 + 1 * i.val = i.val; rw [(idx_rows t).2.2.2.1]; omega

/-- The weights' and biases' one block is the whole array, at every point. -/
theorem rd2 (t : Fin cfg2.N) : (iblk2 V c 2 t : Vec Ideal S198x64 .f32) = V c main_arg9 := by
  funext j
  unfold iblk2
  rw [View.read_apply]
  show V c main_arg9 _ = V c main_arg9 j
  refine congrArg (V c main_arg9) (funext fun a => Fin.ext ?_)
  match a with
  | ⟨0, _⟩ => show win2_2.index t 0 * 198 + 1 * (j 0).val = (j 0).val; rw [(idx_whole t).1.1]; omega
  | ⟨1, _⟩ => show win2_2.index t 1 * 64 + 1 * (j 1).val = (j 1).val; rw [(idx_whole t).1.2]; omega
theorem rd3 (t : Fin cfg2.N) : (iblk2 V c 3 t : Vec Ideal S1x64 .f32) = V c main_v36 := by
  funext j
  unfold iblk2
  rw [View.read_apply]
  show V c main_v36 _ = V c main_v36 j
  refine congrArg (V c main_v36) (funext fun a => Fin.ext ?_)
  match a with
  | ⟨0, _⟩ => show win2_3.index t 0 * 1 + 1 * (j 0).val = (j 0).val; rw [(idx_whole t).2.1.1]; omega
  | ⟨1, _⟩ => show win2_3.index t 1 * 64 + 1 * (j 1).val = (j 1).val; rw [(idx_whole t).2.1.2]; omega
theorem rd4 (t : Fin cfg2.N) : (iblk2 V c 4 t : Vec Ideal S64x64 .f32) = V c main_arg11 := by
  funext j
  unfold iblk2
  rw [View.read_apply]
  show V c main_arg11 _ = V c main_arg11 j
  refine congrArg (V c main_arg11) (funext fun a => Fin.ext ?_)
  match a with
  | ⟨0, _⟩ => show win2_4.index t 0 * 64 + 1 * (j 0).val = (j 0).val; rw [(idx_whole t).2.2.1.1]; omega
  | ⟨1, _⟩ => show win2_4.index t 1 * 64 + 1 * (j 1).val = (j 1).val; rw [(idx_whole t).2.2.1.2]; omega
theorem rd5 (t : Fin cfg2.N) : (iblk2 V c 5 t : Vec Ideal S1x64 .f32) = V c main_v37 := by
  funext j
  unfold iblk2
  rw [View.read_apply]
  show V c main_v37 _ = V c main_v37 j
  refine congrArg (V c main_v37) (funext fun a => Fin.ext ?_)
  match a with
  | ⟨0, _⟩ => show win2_5.index t 0 * 1 + 1 * (j 0).val = (j 0).val; rw [(idx_whole t).2.2.2.1.1]; omega
  | ⟨1, _⟩ => show win2_5.index t 1 * 64 + 1 * (j 1).val = (j 1).val; rw [(idx_whole t).2.2.2.1.2]; omega

/-- The block of the first output the body computes at point t, from the six input blocks. -/
def blk (t : Fin cfg2.N) : Vec Ideal S2000x64 .f32 :=
  k2_pay4 (iblk2 V c 0 t) (iblk2 V c 1 t) (iblk2 V c 2 t) (iblk2 V c 3 t) (iblk2 V c 4 t) (iblk2 V c 5 t)

/-- Entry (p, q) of that block is entry (2000 t + p, q) of the perceptron's output on the whole arrays. -/
theorem blk_apply (t : Fin cfg2.N) (p : Fin 2000) (q : Fin 64) :
    blk V c t (ix2 p q) = Hm V c ⟨2000 * t.val + p.val, row_lt t p⟩ q := by
  unfold blk Hm
  refine (pay4_apply (iblk2 V c 0 t) (iblk2 V c 1 t) (iblk2 V c 2 t) (iblk2 V c 3 t) (iblk2 V c 4 t) (iblk2 V c 5 t) p q).trans ?_
  rw [rd2 V c t, rd3 V c t, rd4 V c t, rd5 V c t]
  exact mlp_row _ _ _ _ _ _ _ _ p ⟨2000 * t.val + p.val, row_lt t p⟩ (rd0 V c t p) (rd1 V c t p) q

/-- The block's column sums are the block sums of the output's columns … -/
theorem blk_colsum (t : Fin cfg2.N) (q : Fin 64) :
    ∑ r : Fin 2000, blk V c t (ix2 r q) = bsum (fun i => Hm V c i q) t.val := by
  have hN : t.val < 25 := lt_of_lt_of_eq t.isLt (show cfg2.N = 25 from N_2)
  unfold bsum
  rw [dif_pos hN]
  exact Finset.sum_congr rfl fun r _ => blk_apply V c t r q

/-- … and likewise for the squares. -/
theorem blk_colsq (t : Fin cfg2.N) (q : Fin 64) :
    ∑ r : Fin 2000, blk V c t (ix2 r q) * blk V c t (ix2 r q) = bsum (fun i => sqm (Hm V c) i q) t.val := by
  have hN : t.val < 25 := lt_of_lt_of_eq t.isLt (show cfg2.N = 25 from N_2)
  unfold bsum
  rw [dif_pos hN]
  exact Finset.sum_congr rfl fun r _ => by rw [blk_apply V c t r q]; rfl

/-! ## The three outputs after each point -/

/-- After any point the first output's staging buffer holds the point's block. -/
theorem outs_fst (t : Fin cfg2.N) : (outsAt2 V c t.val t.isLt).1 = blk V c t := by
  by_cases h0 : t.val % 25 = 0
  · rw [outsAt2_A V c t h0]
    dsimp only
    exact outA6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) ((hcond2_0 t).mpr h0)
  · rw [outsAt2_B V c t h0]
    dsimp only
    exact outB6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 (fun h => h0 ((hcond2_0 t).mp h))

/-- At the first point the two accumulators hold the zero just stored plus the block's column sums (of the entries,
    of their squares). -/
theorem acc_first (t : Fin cfg2.N) (h0 : t.val % 25 = 0) :
    (outsAt2 V c t.val t.isLt).2.1
        = k2_pay5 (F := Ideal) (iblk2 V c 0 t) (iblk2 V c 1 t) (iblk2 V c 2 t) (iblk2 V c 3 t) (iblk2 V c 4 t) (iblk2 V c 5 t) (k2_pay2 (F := Ideal))
      ∧ (outsAt2 V c t.val t.isLt).2.2 = k2_pay1 (F := Ideal) (blk V c t) (k2_pay3 (F := Ideal)) := by
  rw [outsAt2_A V c t h0]
  dsimp only
  exact ⟨outA7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) ((hcond2_0 t).mpr h0),
    outA8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) ((hcond2_0 t).mpr h0)⟩

/-- At a later point they hold what the point before left plus the block's column sums. -/
theorem acc_later (t : Fin cfg2.N) (h0 : ¬t.val % 25 = 0) :
    (outsAt2 V c t.val t.isLt).2.1
        = k2_pay5 (F := Ideal) (iblk2 V c 0 t) (iblk2 V c 1 t) (iblk2 V c 2 t) (iblk2 V c 3 t) (iblk2 V c 4 t) (iblk2 V c 5 t)
            (outsAt2 V c (t.val - 1) (Nat.lt_of_le_of_lt (Nat.sub_le _ _) t.isLt)).2.1
      ∧ (outsAt2 V c t.val t.isLt).2.2
        = k2_pay1 (F := Ideal) (blk V c t) (outsAt2 V c (t.val - 1) (Nat.lt_of_le_of_lt (Nat.sub_le _ _) t.isLt)).2.2 := by
  rw [outsAt2_B V c t h0]
  dsimp only
  exact ⟨outB7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 (fun h => h0 ((hcond2_0 t).mp h)),
    outB8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 (fun h => h0 ((hcond2_0 t).mp h))⟩

/-- THE ACCUMULATION. After point n the first accumulator holds, at column q, the zero word plus the column's block
    sums over blocks 0 … n, and the second the same for the squares — by induction on the point: the first point
    adds block 0 to the zero just stored, every later point adds its block to what the point before left. -/
theorem acc_eq : ∀ (n : ℕ) (h : n < cfg2.N) (q : Fin 64),
    (outsAt2 V c n h).2.1 (ix2 (0 : Fin 1) q) = z + ∑ t ∈ Finset.range (n + 1), bsum (fun i => Hm V c i q) t
      ∧ (outsAt2 V c n h).2.2 (ix2 (0 : Fin 1) q) = z + ∑ t ∈ Finset.range (n + 1), bsum (fun i => sqm (Hm V c) i q) t
  | 0, h, q => by
    have e := acc_first V c ⟨0, h⟩ rfl
    rw [Finset.sum_range_one, Finset.sum_range_one]
    constructor
    · refine ((congrFun e.1 _).trans (pay5_apply (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k2_pay2 (F := Ideal)) q)).trans ?_
      exact congrArg (z + ·) (blk_colsum V c ⟨0, h⟩ q)
    · refine ((congrFun e.2 _).trans (pay1_apply (blk V c ⟨0, h⟩) (k2_pay3 (F := Ideal)) q)).trans ?_
      exact congrArg (z + ·) (blk_colsq V c ⟨0, h⟩ q)
  | n + 1, h, q => by
    have hN : cfg2.N = 25 := N_2
    have hB : ¬(⟨n + 1, h⟩ : Fin cfg2.N).val % 25 = 0 := by dsimp only; omega
    have ih := acc_eq n (Nat.lt_of_succ_lt h) q
    have e := acc_later V c ⟨n + 1, h⟩ hB
    constructor
    · refine ((congrFun e.1 _).trans (pay5_apply (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.1 q)).trans ?_
      refine (congrArg₂ (· + ·) ih.1 (blk_colsum V c ⟨n + 1, h⟩ q)).trans ?_
      exact (add_assoc _ _ _).trans (congrArg (z + ·) (Finset.sum_range_succ _ (n + 1)).symm)
    · refine ((congrFun e.2 _).trans (pay1_apply (blk V c ⟨n + 1, h⟩) (outsAt2 V c n (Nat.lt_of_succ_lt h)).2.2 q)).trans ?_
      refine (congrArg₂ (· + ·) ih.2 (blk_colsq V c ⟨n + 1, h⟩ q)).trans ?_
      exact (add_assoc _ _ _).trans (congrArg (z + ·) (Finset.sum_range_succ _ (n + 1)).symm)

/-! ## The arrays after the last point -/

/-- Every point writes the first output's block back: block t of the perceptron's output. -/
theorem flushed6 (t : Fin cfg2.N) (hf : (cfg2.win 6).flush t = true) :
    (dat2 V c).flushed 6 t = ((cfg2.win 6).blk t).view.read (Elt Ideal) (arr2 (Hm V c)) := by
  show (cfg2.win 6).cut (grid2.coords t) ((dat2 V c).after 6 t) = _
  rw [after2_6, outs_fst]
  funext y
  obtain ⟨p, q, rfl⟩ : ∃ (p : Fin 2000) (q : Fin 64), y = ix2 p q := ⟨y 0, y 1, eq_ix2 y⟩
  rw [View.read_apply]
  show blk V c t (ix2 p q) = arr2 (Hm V c) _
  rw [blk_apply]
  show Hm V c _ _ = Hm V c _ _
  refine congrArg₂ (Hm V c) (Fin.ext ?_) (Fin.ext ?_)
  · show 2000 * t.val + p.val = win2_6.index t 0 * 2000 + 1 * p.val; rw [(idx_rows t).2.2.2.2.1]; omega
  · show q.val = win2_6.index t 1 * 64 + 1 * q.val; rw [(idx_rows t).2.2.2.2.2]; omega

/-- After the last grid point the first output array holds the perceptron's output, row block by row block. -/
theorem h_eq : (dat2 (F := Ideal) V c).arrAt 6 cfg2.N = arr2 (Hm V c) :=
  (dat2 V c).arrAt_eq_of_cover 6 (arr2 (Hm V c)) (flushed6 V c) fun i => by
    have hN : cfg2.N = 25 := N_2
    have h0 : (i 0 : Nat) < 50000 := (i 0).isLt
    have h1 : (i 1 : Nat) < 64 := (i 1).isLt
    obtain ⟨t, ht⟩ : ∃ t : Fin cfg2.N, t.val = (i 0 : Nat) / 2000 := ⟨⟨(i 0 : Nat) / 2000, by rw [hN]; omega⟩, rfl⟩
    refine ⟨t, flush2_6 t, ?_⟩
    show i ∈ ((View.whole main_v38_0).slice (win2_6.rect t)).set
    rw [View.set_slice_whole, Rect.mem_set_unit]
    intro a
    match a with
    | ⟨0, _⟩ => show win2_6.index t 0 * 2000 ≤ (i 0 : Nat) ∧ (i 0 : Nat) < win2_6.index t 0 * 2000 + 2000
                rw [(idx_rows t).2.2.2.2.1, ht]; omega
    | ⟨1, _⟩ => show win2_6.index t 1 * 64 ≤ (i 1 : Nat) ∧ (i 1 : Nat) < win2_6.index t 1 * 64 + 64
                rw [(idx_rows t).2.2.2.2.2]; omega

/-- The last point writes the first accumulator back: the zero word plus all 25 block sums, which is the zero word
    plus the sum over all 50000 rows. -/
theorem flushed7 (t : Fin cfg2.N) (hf : (cfg2.win 7).flush t = true) :
    (dat2 V c).flushed 7 t
      = ((cfg2.win 7).blk t).view.read (Elt Ideal) (fun i : (⟨2, ![1, 64]⟩ : Shape).Idx => csum (Hm V c) ⟨(i 1).val, idx2_lt1 i⟩) := by
  have hN : cfg2.N = 25 := N_2
  have h24 : t.val + 1 = 25 := by have := (flush2_7 t).mp hf; have := t.isLt; omega
  show (cfg2.win 7).cut (grid2.coords t) ((dat2 V c).after 7 t) = _
  rw [after2_7]
  funext y
  obtain ⟨a, q, rfl⟩ : ∃ (a : Fin 1) (q : Fin 64), y = ix2 a q := ⟨y 0, y 1, eq_ix2 y⟩
  obtain rfl : a = 0 := Subsingleton.elim _ _
  rw [View.read_apply]
  show (outsAt2 V c t.val t.isLt).2.1 (ix2 (0 : Fin 1) q) = csum (Hm V c) _
  refine ((acc_eq V c t.val t.isLt q).1).trans ?_
  rw [h24, bsum_total]
  refine congrArg (csum (Hm V c)) (Fin.ext ?_)
  show q.val = win2_7.index t 1 * 64 + 1 * q.val
  rw [(idx_whole t).2.2.2.2.1.2]; omega

/-- The second output array holds the column sums, accumulated over the row blocks. -/
theorem s_eq : (dat2 (F := Ideal) V c).arrAt 7 cfg2.N = fun i : (⟨2, ![1, 64]⟩ : Shape).Idx => csum (Hm V c) ⟨(i 1).val, idx2_lt1 i⟩ :=
  (dat2 V c).arrAt_eq_of_cover 7 (fun i : (⟨2, ![1, 64]⟩ : Shape).Idx => csum (Hm V c) ⟨(i 1).val, idx2_lt1 i⟩) (flushed7 V c) fun i => by
    have hN : cfg2.N = 25 := N_2
    have h0 : (i 0 : Nat) < 1 := (i 0).isLt
    have h1 : (i 1 : Nat) < 64 := (i 1).isLt
    obtain ⟨t, ht⟩ : ∃ t : Fin cfg2.N, t.val = 24 := ⟨⟨24, by rw [hN]; omega⟩, rfl⟩
    refine ⟨t, (flush2_7 t).mpr (by rw [ht]), ?_⟩
    show i ∈ ((View.whole main_v38_1).slice (win2_7.rect t)).set
    rw [View.set_slice_whole, Rect.mem_set_unit]
    intro a
    match a with
    | ⟨0, _⟩ => show win2_7.index t 0 * 1 ≤ (i 0 : Nat) ∧ (i 0 : Nat) < win2_7.index t 0 * 1 + 1
                rw [(idx_whole t).2.2.2.2.1.1]; omega
    | ⟨1, _⟩ => show win2_7.index t 1 * 64 ≤ (i 1 : Nat) ∧ (i 1 : Nat) < win2_7.index t 1 * 64 + 64
                rw [(idx_whole t).2.2.2.2.1.2]; omega

/-- The last point writes the second accumulator back: the same for the squares. -/
theorem flushed8 (t : Fin cfg2.N) (hf : (cfg2.win 8).flush t = true) :
    (dat2 V c).flushed 8 t
      = ((cfg2.win 8).blk t).view.read (Elt Ideal) (fun i : (⟨2, ![1, 64]⟩ : Shape).Idx => csum (sqm (Hm V c)) ⟨(i 1).val, idx2_lt1 i⟩) := by
  have hN : cfg2.N = 25 := N_2
  have h24 : t.val + 1 = 25 := by have := (flush2_8 t).mp hf; have := t.isLt; omega
  show (cfg2.win 8).cut (grid2.coords t) ((dat2 V c).after 8 t) = _
  rw [after2_8]
  funext y
  obtain ⟨a, q, rfl⟩ : ∃ (a : Fin 1) (q : Fin 64), y = ix2 a q := ⟨y 0, y 1, eq_ix2 y⟩
  obtain rfl : a = 0 := Subsingleton.elim _ _
  rw [View.read_apply]
  show (outsAt2 V c t.val t.isLt).2.2 (ix2 (0 : Fin 1) q) = csum (sqm (Hm V c)) _
  refine ((acc_eq V c t.val t.isLt q).2).trans ?_
  rw [h24, bsum_total]
  refine congrArg (csum (sqm (Hm V c))) (Fin.ext ?_)
  show q.val = win2_8.index t 1 * 64 + 1 * q.val
  rw [(idx_whole t).2.2.2.2.2.2]; omega

/-- The third output array holds the column sums of the squares. -/
theorem q_eq : (dat2 (F := Ideal) V c).arrAt 8 cfg2.N = fun i : (⟨2, ![1, 64]⟩ : Shape).Idx => csum (sqm (Hm V c)) ⟨(i 1).val, idx2_lt1 i⟩ :=
  (dat2 V c).arrAt_eq_of_cover 8 (fun i : (⟨2, ![1, 64]⟩ : Shape).Idx => csum (sqm (Hm V c)) ⟨(i 1).val, idx2_lt1 i⟩) (flushed8 V c) fun i => by
    have hN : cfg2.N = 25 := N_2
    have h0 : (i 0 : Nat) < 1 := (i 0).isLt
    have h1 : (i 1 : Nat) < 64 := (i 1).isLt
    obtain ⟨t, ht⟩ : ∃ t : Fin cfg2.N, t.val = 24 := ⟨⟨24, by rw [hN]; omega⟩, rfl⟩
    refine ⟨t, (flush2_8 t).mpr (by rw [ht]), ?_⟩
    show i ∈ ((View.whole main_v38_2).slice (win2_8.rect t)).set
    rw [View.set_slice_whole, Rect.mem_set_unit]
    intro a
    match a with
    | ⟨0, _⟩ => show win2_8.index t 0 * 1 ≤ (i 0 : Nat) ∧ (i 0 : Nat) < win2_8.index t 0 * 1 + 1
                rw [(idx_whole t).2.2.2.2.2.1]; omega
    | ⟨1, _⟩ => show win2_8.index t 1 * 64 ≤ (i 1 : Nat) ∧ (i 1 : Nat) < win2_8.index t 1 * 64 + 64
                rw [(idx_whole t).2.2.2.2.2.2]; omega

end Cert.KReg2

end
-- ==== Proof.KReg3.lean ====
import proofs.«135204_j17832704213197_1_alg».proof.Proof.Gen.KernelIdeal.Frame
import proofs.«135204_j17832704213197_1_alg».proof.Proof.GinSpec
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KReg3

open Cert.KernelIdeal Cert.KernelIdeal.Gen Cert.Gin

variable (V : (c : Dev nD) → (b : Ref sig .tc) → Buf (Elt Ideal) ((c : Thread nD τ).loc b)) (c : Dev nD)

/-- The offsets of an access to a whole block are zero on both axes. -/
theorem hz : (![0, 0] : Fin 2 → Nat) = fun _ => 0 := funext fun a => by fin_cases a <;> rfl

/-- The body's value at row `p`, column `q` of a block: the feature entry minus the mean row's entry, times the
    reciprocal square root of the variance row's entry plus epsilon, times the scale row's entry, plus the shift
    row's entry. The four rows are `[1, 64]` arrays, read at column `q` whatever the row `p`. -/
theorem pay_apply (h : Vec Ideal S2000x64 .f32) (mu va g b : Vec Ideal S1x64 .f32) (p : Fin 2000) (q : Fin 64) :
    k3_pay1 (F := Ideal) va h mu g b (ix2 p q)
      = (h (ix2 p q) - mu (ix2 (0 : Fin 1) q)) * Ideal.rsqrt (va (ix2 (0 : Fin 1) q) + eps) * g (ix2 (0 : Fin 1) q)
        + b (ix2 (0 : Fin 1) q) := by
  unfold k3_pay1
  simp only [shapeCast_self]
  show (h (ix2 p q) - broadcastTo S2000x64 mu _ (ix2 p q))
        * broadcastTo S2000x64 (rsqrt (F := Ideal) (addf va (broadcast S1x64 (Scalar.ofBits .f32 0x3727C5AC#32)))) _ (ix2 p q)
        * broadcastTo S2000x64 g _ (ix2 p q)
        + broadcastTo S2000x64 b _ (ix2 p q) = _
  rw [broadcastTo_1b_ab_apply, broadcastTo_1b_ab_apply, broadcastTo_1b_ab_apply, broadcastTo_1b_ab_apply]
  rfl

/-- The body's value on a block, read at the block index `j`, is the normalisation of an array `A` by rows
    `M1 … M4` at the array index `i`, as soon as the block's feature entry at `j` is `A`'s at `i`, `i` and `j` have
    the same column, and the block's four rows are `M1 … M4`. -/
theorem pay_eq_norm (x0 : Vec Ideal S2000x64 .f32) (x1 x2 x3 x4 : Vec Ideal S1x64 .f32)
    (A : S50000x64.Idx → EReal) (M1 M2 M3 M4 : S1x64.Idx → EReal)
    (j : S2000x64.Idx) (i : S50000x64.Idx) (hi1 : (i 1).val = (j 1).val)
    (h0 : x0 j = A i)
    (h1 : ∀ q : Fin 64, x1 (ix2 (0 : Fin 1) q) = M1 (ix2 (0 : Fin 1) q))
    (h2 : ∀ q : Fin 64, x2 (ix2 (0 : Fin 1) q) = M2 (ix2 (0 : Fin 1) q))
    (h3 : ∀ q : Fin 64, x3 (ix2 (0 : Fin 1) q) = M3 (ix2 (0 : Fin 1) q))
    (h4 : ∀ q : Fin 64, x4 (ix2 (0 : Fin 1) q) = M4 (ix2 (0 : Fin 1) q)) :
    k3_pay1 (F := Ideal) x2 x0 x1 x3 x4 j
      = arr2 (norm (mat2 (M := 50000) (N := 64) A) (row2 (N := 64) M1) (row2 (N := 64) M2)
        (row2 (N := 64) M3) (row2 (N := 64) M4)) i := by
  obtain ⟨p, q, rfl⟩ : ∃ (p : Fin 2000) (q : Fin 64), j = ix2 p q := ⟨j 0, j 1, eq_ix2 j⟩
  rw [pay_apply, h0, h1, h2, h3, h4]
  have e1 : (⟨(i 1).val, idx2_lt1 i⟩ : Fin 64) = q := Fin.ext hi1
  show _ = (A (ix2 ⟨(i 0).val, idx2_lt0 i⟩ ⟨(i 1).val, idx2_lt1 i⟩) - M1 (ix2 (0 : Fin 1) ⟨(i 1).val, idx2_lt1 i⟩))
      * Ideal.rsqrt (M2 (ix2 (0 : Fin 1) ⟨(i 1).val, idx2_lt1 i⟩) + eps) * M3 (ix2 (0 : Fin 1) ⟨(i 1).val, idx2_lt1 i⟩)
      + M4 (ix2 (0 : Fin 1) ⟨(i 1).val, idx2_lt1 i⟩)
  have e0 : ix2 (⟨(i 0).val, idx2_lt0 i⟩ : Fin 50000) (⟨(i 1).val, idx2_lt1 i⟩ : Fin 64) = i := (eq_ix2 i).symm
  rw [e0, e1]

/-- The block index of each window at each of the 25 points: the feature window and the output window sit at row
    block `t`, column block 0; the four row windows at block (0, 0) throughout. -/
theorem idx_facts : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0) :=
  (by decide +kernel : ∀ t : Fin grid3.N, _)

/-- Entry `x` of the feature window's block at point `t` is the feature array's entry `2000 t` rows further down. -/
theorem feat_blk (t : Fin cfg3.N) (x : S2000x64.Idx) (k : S50000x64.Idx)
    (hk0 : (k 0).val = 2000 * t.val + (x 0).val) (hk1 : (k 1).val = (x 1).val) :
    (iblk3 (F := Ideal) V c 0 t : Vec Ideal S2000x64 .f32) x = (V c main_v38_0 : S50000x64.Idx → EReal) k := by
  obtain ⟨⟨e00, e01⟩, ⟨e10, e11⟩, ⟨e20, e21⟩, ⟨e30, e31⟩, ⟨e40, e41⟩, ⟨e50, e51⟩⟩ := idx_facts t
  unfold iblk3
  rw [View.read_apply]
  show V c main_v38_0 _ = V c main_v38_0 _
  refine congrArg _ (funext fun a => Fin.ext ?_)
  match a with
  | ⟨0, _⟩ => show win3_0.index t (0 : Fin 2) * 2000 + 1 * (x 0).val = (k 0).val; rw [e00, hk0]; omega
  | ⟨1, _⟩ => show win3_0.index t (1 : Fin 2) * 64 + 1 * (x 1).val = (k 1).val; rw [e01, hk1]; omega

/-- The mean window's block at any point is the mean row itself: its block index is (0, 0) at every point. -/
theorem row_blk1 (t : Fin cfg3.N) (q : Fin 64) :
    (iblk3 (F := Ideal) V c 1 t : Vec Ideal S1x64 .f32) (ix2 (0 : Fin 1) q)
      = (V c main_v40 : S1x64.Idx → EReal) (ix2 (0 : Fin 1) q) := by
  obtain ⟨⟨e00, e01⟩, ⟨e10, e11⟩, ⟨e20, e21⟩, ⟨e30, e31⟩, ⟨e40, e41⟩, ⟨e50, e51⟩⟩ := idx_facts t
  unfold iblk3
  rw [View.read_apply]
  show V c main_v40 _ = V c main_v40 _
  refine congrArg _ (funext fun a => Fin.ext ?_)
  match a with
  | ⟨0, _⟩ => show win3_1.index t (0 : Fin 2) * 1 + 1 * 0 = 0; rw [e10]
  | ⟨1, _⟩ => show win3_1.index t (1 : Fin 2) * 64 + 1 * q.val = q.val; rw [e11]; omega

/-- The variance window's block at any point is the variance row itself: its block index is (0, 0) at every point. -/
theorem row_blk2 (t : Fin cfg3.N) (q : Fin 64) :
    (iblk3 (F := Ideal) V c 2 t : Vec Ideal S1x64 .f32) (ix2 (0 : Fin 1) q)
      = (V c main_v44 : S1x64.Idx → EReal) (ix2 (0 : Fin 1) q) := by
  obtain ⟨⟨e00, e01⟩, ⟨e10, e11⟩, ⟨e20, e21⟩, ⟨e30, e31⟩, ⟨e40, e41⟩, ⟨e50, e51⟩⟩ := idx_facts t
  unfold iblk3
  rw [View.read_apply]
  show V c main_v44 _ = V c main_v44 _
  refine congrArg _ (funext fun a => Fin.ext ?_)
  match a with
  | ⟨0, _⟩ => show win3_2.index t (0 : Fin 2) * 1 + 1 * 0 = 0; rw [e20]
  | ⟨1, _⟩ => show win3_2.index t (1 : Fin 2) * 64 + 1 * q.val = q.val; rw [e21]; omega

/-- The scale window's block at any point is the scale row itself: its block index is (0, 0) at every point. -/
theorem row_blk3 (t : Fin cfg3.N) (q : Fin 64) :
    (iblk3 (F := Ideal) V c 3 t : Vec Ideal S1x64 .f32) (ix2 (0 : Fin 1) q)
      = (V c main_v45 : S1x64.Idx → EReal) (ix2 (0 : Fin 1) q) := by
  obtain ⟨⟨e00, e01⟩, ⟨e10, e11⟩, ⟨e20, e21⟩, ⟨e30, e31⟩, ⟨e40, e41⟩, ⟨e50, e51⟩⟩ := idx_facts t
  unfold iblk3
  rw [View.read_apply]
  show V c main_v45 _ = V c main_v45 _
  refine congrArg _ (funext fun a => Fin.ext ?_)
  match a with
  | ⟨0, _⟩ => show win3_3.index t (0 : Fin 2) * 1 + 1 * 0 = 0; rw [e30]
  | ⟨1, _⟩ => show win3_3.index t (1 : Fin 2) * 64 + 1 * q.val = q.val; rw [e31]; omega

/-- The shift window's block at any point is the shift row itself: its block index is (0, 0) at every point. -/
theorem row_blk4 (t : Fin cfg3.N) (q : Fin 64) :
    (iblk3 (F := Ideal) V c 4 t : Vec Ideal S1x64 .f32) (ix2 (0 : Fin 1) q)
      = (V c main_v46 : S1x64.Idx → EReal) (ix2 (0 : Fin 1) q) := by
  obtain ⟨⟨e00, e01⟩, ⟨e10, e11⟩, ⟨e20, e21⟩, ⟨e30, e31⟩, ⟨e40, e41⟩, ⟨e50, e51⟩⟩ := idx_facts t
  unfold iblk3
  rw [View.read_apply]
  show V c main_v46 _ = V c main_v46 _
  refine congrArg _ (funext fun a => Fin.ext ?_)
  match a with
  | ⟨0, _⟩ => show win3_4.index t (0 : Fin 2) * 1 + 1 * 0 = 0; rw [e40]
  | ⟨1, _⟩ => show win3_4.index t (1 : Fin 2) * 64 + 1 * q.val = q.val; rw [e41]; omega

/-- The normalisation of the whole feature array by the mean, variance, scale and shift rows the region finds. -/
abbrev G : S50000x64.Idx → EReal :=
  arr2 (norm (mat2 (M := 50000) (N := 64) (V c main_v38_0)) (row2 (N := 64) (V c main_v40)) (row2 (N := 64) (V c main_v44))
        (row2 (N := 64) (V c main_v45)) (row2 (N := 64) (V c main_v46)))

/-- What point `t` writes back is rows `2000 t … 2000 t + 1999` of that normalisation. -/
theorem flushed_eq (t : Fin cfg3.N) :
    (dat3 (F := Ideal) V c).flushed 5 t = ((cfg3.win 5).blk t).view.read (Elt Ideal) (G V c) := by
  show (cfg3.win 5).cut (grid3.coords t) ((dat3 (F := Ideal) V c).after 5 t) = _
  rw [after3_5]
  unfold out3_5
  rw [View.canon_unit_zero hz]
  simp only [View.ld_unit_zero (S := S2000x64) hz, View.ld_unit_zero (S := S1x64) hz]
  obtain ⟨⟨e00, e01⟩, ⟨e10, e11⟩, ⟨e20, e21⟩, ⟨e30, e31⟩, ⟨e40, e41⟩, ⟨e50, e51⟩⟩ := idx_facts t
  funext j
  rw [View.read_apply]
  show k3_pay1 (F := Ideal) (iblk3 V c 2 t) (iblk3 V c 0 t) (iblk3 V c 1 t) (iblk3 V c 3 t) (iblk3 V c 4 t) j
    = G V c (((cfg3.win 5).blk t).view.emb j)
  refine pay_eq_norm _ _ _ _ _ _ _ _ _ _ j (((cfg3.win 5).blk t).view.emb j) ?_ (feat_blk V c t j _ ?_ ?_)
    (row_blk1 V c t) (row_blk2 V c t) (row_blk3 V c t) (row_blk4 V c t)
  · show win3_5.index t (1 : Fin 2) * 64 + 1 * (j 1).val = (j 1).val; rw [e51]; omega
  · show win3_5.index t (0 : Fin 2) * 2000 + 1 * (j 0).val = 2000 * t.val + (j 0).val; rw [e50]; omega
  · show win3_5.index t (1 : Fin 2) * 64 + 1 * (j 1).val = (j 1).val; rw [e51]; omega

/-- An index of the output array is in point `t`'s block iff on each axis it lies in the block's range. -/
theorem mem_blk (t : Fin cfg3.N) (i : S50000x64.Idx) :
    i ∈ ((cfg3.win 5).blk t).view.set ↔ ∀ a : Fin 2, win3_5.index t a * S2000x64.size a ≤ (i a).val
      ∧ (i a).val < win3_5.index t a * S2000x64.size a + S2000x64.size a := by
  show i ∈ ((View.whole main_v47).slice (win3_5.rect t)).set ↔ _
  rw [View.set_slice_whole, Rect.mem_set_unit]
  exact Iff.rfl

/-- Every index of the output array is in some point's block: row `r` is in the block of point `r / 2000`. -/
theorem cover (i : S50000x64.Idx) :
    ∃ t : Fin cfg3.N, (cfg3.win 5).flush t = true ∧ i ∈ ((cfg3.win 5).blk t).view.set := by
  have hi0 : (i 0).val < 50000 := idx2_lt0 i
  have hi1 : (i 1).val < 64 := idx2_lt1 i
  have hN : cfg3.N = 25 := N_3
  obtain ⟨t, ht⟩ : ∃ t : Fin cfg3.N, t.val = (i 0).val / 2000 := ⟨⟨(i 0).val / 2000, by omega⟩, rfl⟩
  obtain ⟨⟨e00, e01⟩, ⟨e10, e11⟩, ⟨e20, e21⟩, ⟨e30, e31⟩, ⟨e40, e41⟩, ⟨e50, e51⟩⟩ := idx_facts t
  refine ⟨t, flush3_5 t, ?_⟩
  rw [mem_blk]
  intro a
  match a with
  | ⟨0, _⟩ =>
    show win3_5.index t (0 : Fin 2) * 2000 ≤ (i 0).val ∧ (i 0).val < win3_5.index t (0 : Fin 2) * 2000 + 2000
    rw [e50, ht]; omega
  | ⟨1, _⟩ =>
    show win3_5.index t (1 : Fin 2) * 64 ≤ (i 1).val ∧ (i 1).val < win3_5.index t (1 : Fin 2) * 64 + 64
    rw [e51]; omega

/-- After the last grid point the output array holds the normalisation of the feature array by the mean row, variance row,
    scale row and shift row the region finds, row block by row block. -/
theorem out_eq : (dat3 (F := Ideal) V c).arrAt 5 cfg3.N
    = arr2 (norm (mat2 (M := 50000) (N := 64) (V c main_v38_0)) (row2 (N := 64) (V c main_v40)) (row2 (N := 64) (V c main_v44))
        (row2 (N := 64) (V c main_v45)) (row2 (N := 64) (V c main_v46))) :=
  (dat3 (F := Ideal) V c).arrAt_eq_of_cover 5 (G V c) (fun t _ => flushed_eq V c t) cover

end Cert.KReg3

end
-- ==== Proof.KChainL2.lean ====
/-
  Layer 2 of the graph network as the kernel's run computes it: the host's gather and scatter-add, the perceptron's region,
  the host's column mean and variance, and the normalisation's region, composed from the layer's first boundary to its last.
-/
import proofs.«135204_j17832704213197_1_alg».proof.Proof.Gen.KernelIdeal.Frame
import proofs.«135204_j17832704213197_1_alg».proof.Proof.GinSpec
import Idealize.ShloMosaic.Lib.Pipeline.Value
import Idealize.ShloMosaic.Lib.ValueLayout
import Idealize.ShloMosaic.Lib.IdealHost
import proofs.«135204_j17832704213197_1_alg».proof.Proof.HostOps
import proofs.«135204_j17832704213197_1_alg».proof.Proof.HostOpsK
import proofs.«135204_j17832704213197_1_alg».proof.Proof.KReg2
import proofs.«135204_j17832704213197_1_alg».proof.Proof.KReg3
import proofs.«135204_j17832704213197_1_alg».proof.Proof.KChainL1

noncomputable section

open Idealize.ShloMosaic Idealize.ShloMosaic.TcCoe Idealize.SL.Sem Idealize.ShloMosaic.ValueIdx
open Idealize.ShloMosaic.Pipeline (Dat)

namespace Cert.KChainL2

open Cert.KernelIdeal Cert.KernelIdeal.Gen Cert.Gin Cert.KChainL1

/-! ## The two host stretches of this layer, read at the buffers they write, from any contents `V` -/

section Host
variable (V : Valuation τ sig (Elt Ideal))

set_option maxHeartbeats 1000000 in
theorem hA_agg : StableHlo.after hostOps2 V (Proc.devRef .tc main_v35)
    = Host.scatterAdd scatter_S50000x198_S800000x1_S800000x198_1_0_0_1
        (broadcastInDim S50000x198 ![] bcast_S_S50000x198 (constant (F := Ideal) S_ .f32 0x00000000#32))
        (colI (V (Proc.devRef .tc main_v3)))
        (Host.gather gather_S50000x198_S800000x1_S800000x198_1_0_n_n_0_1_1198 (V (Proc.devRef .tc main_v25)) (wrapI (V (Proc.devRef .tc main_v1)))) := by
  after_results <;> rfl
theorem hA_ba : StableHlo.after hostOps2 V (Proc.devRef .tc main_v36) = shapeCast S1x64 (V (Proc.devRef .tc main_arg10)) shapeCasts_S64_S1x64 := by
  after_results <;> rfl
theorem hA_bb : StableHlo.after hostOps2 V (Proc.devRef .tc main_v37) = shapeCast S1x64 (V (Proc.devRef .tc main_arg12)) shapeCasts_S64_S1x64 := by
  after_results <;> rfl
theorem hB_mu : StableHlo.after hostOps3 V (Proc.devRef .tc main_v40)
    = Host.divf (V (Proc.devRef .tc main_v38_1)) (broadcastInDim S1x64 ![] bcast_S_S1x64 (constant (F := Ideal) S_ .f32 0x47435000#32)) := by
  after_results <;> rfl
theorem hB_va : StableHlo.after hostOps3 V (Proc.devRef .tc main_v44)
    = subf (Host.divf (V (Proc.devRef .tc main_v38_2)) (broadcastInDim S1x64 ![] bcast_S_S1x64 (constant (F := Ideal) S_ .f32 0x47435000#32)))
        (mulf (Host.divf (V (Proc.devRef .tc main_v38_1)) (broadcastInDim S1x64 ![] bcast_S_S1x64 (constant (F := Ideal) S_ .f32 0x47435000#32)))
          (Host.divf (V (Proc.devRef .tc main_v38_1)) (broadcastInDim S1x64 ![] bcast_S_S1x64 (constant (F := Ideal) S_ .f32 0x47435000#32)))) := by
  after_results <;> rfl
theorem hB_g : StableHlo.after hostOps3 V (Proc.devRef .tc main_v45) = shapeCast S1x64 (V (Proc.devRef .tc main_arg13)) shapeCasts_S64_S1x64 := by
  after_results <;> rfl
theorem hB_be : StableHlo.after hostOps3 V (Proc.devRef .tc main_v46) = shapeCast S1x64 (V (Proc.devRef .tc main_arg14)) shapeCasts_S64_S1x64 := by
  after_results <;> rfl

end Host

/-! ## The chain of this layer -/

section Chain
variable (m : (ℓ : Loc nD τ sig) → Buf (Elt Ideal) ℓ) (ρ : Dev nD → PrngReg) (c : Dev nD)

/-- After the first host stretch the neighbour-sum buffer holds the aggregation of the input matrix. -/
theorem agg_at (X : Mat 50000 198) (hX : W4 m ρ c (Proc.devRef .tc main_v25) = arr2 X) :
    W5 m ρ c (Proc.devRef .tc main_v35) = arr2 (agg (by decide) (sI (m ((c : Thread nD τ).loc main_arg1))) (dI (m ((c : Thread nD τ).loc main_arg1))) X) := by
  refine (hA_agg (W4 m ρ c)).trans ?_
  rw [hX, v1_at4 m ρ c, v3_at4 m ρ c]
  exact Cert.HostOps.agg_eq (by decide) gather_S50000x198_S800000x1_S800000x198_1_0_n_n_0_1_1198.wf scatter_S50000x198_S800000x1_S800000x198_1_0_0_1.wf bcast_S_S50000x198 (arr2 X) _ _

/-- The arrays the perceptron's region finds. -/
theorem x_in (X : Mat 50000 198) (hX : W4 m ρ c (Proc.devRef .tc main_v25) = arr2 X) : V5 m ρ c main_v25 = arr2 X :=
  (keepH2 (W4 m ρ c) main_v25 (by decide)).trans hX
theorem wa_in : V5 m ρ c main_arg9 = (m ((c : Thread nD τ).loc main_arg9)) := ((keepH2 (W4 m ρ c) main_arg9 (by decide)).trans ((W4_of_ne m ρ c main_arg9 (by decide)).trans ((keepH1 (W2 m ρ c) main_arg9 (by decide)).trans ((W2_of_ne m ρ c main_arg9 (by decide)).trans (keepH0 (W0 m ρ c) main_arg9 (by decide))))))
theorem wb_in : V5 m ρ c main_arg11 = (m ((c : Thread nD τ).loc main_arg11)) := ((keepH2 (W4 m ρ c) main_arg11 (by decide)).trans ((W4_of_ne m ρ c main_arg11 (by decide)).trans ((keepH1 (W2 m ρ c) main_arg11 (by decide)).trans ((W2_of_ne m ρ c main_arg11 (by decide)).trans (keepH0 (W0 m ρ c) main_arg11 (by decide))))))
theorem ba_in : row2 (N := 64) (V5 m ρ c main_v36) = row1 (m ((c : Thread nD τ).loc main_arg10)) := by
  refine (congrArg (row2 (N := 64)) ((hA_ba (W4 m ρ c)).trans ?_)).trans (Cert.HostOps.row2_reshape shapeCasts_S64_S1x64 (m ((c : Thread nD τ).loc main_arg10)))
  rw [show W4 m ρ c (Proc.devRef .tc main_arg10) = (m ((c : Thread nD τ).loc main_arg10)) from ((W4_of_ne m ρ c main_arg10 (by decide)).trans ((keepH1 (W2 m ρ c) main_arg10 (by decide)).trans ((W2_of_ne m ρ c main_arg10 (by decide)).trans (keepH0 (W0 m ρ c) main_arg10 (by decide)))))]
theorem bb_in : row2 (N := 64) (V5 m ρ c main_v37) = row1 (m ((c : Thread nD τ).loc main_arg12)) := by
  refine (congrArg (row2 (N := 64)) ((hA_bb (W4 m ρ c)).trans ?_)).trans (Cert.HostOps.row2_reshape shapeCasts_S64_S1x64 (m ((c : Thread nD τ).loc main_arg12)))
  rw [show W4 m ρ c (Proc.devRef .tc main_arg12) = (m ((c : Thread nD τ).loc main_arg12)) from ((W4_of_ne m ρ c main_arg12 (by decide)).trans ((keepH1 (W2 m ρ c) main_arg12 (by decide)).trans ((W2_of_ne m ρ c main_arg12 (by decide)).trans (keepH0 (W0 m ρ c) main_arg12 (by decide)))))]

/-- The perceptron's output on those arrays is the perceptron of the specification on the input matrix and its aggregation. -/
theorem hm_eq (X : Mat 50000 198) (hX : W4 m ρ c (Proc.devRef .tc main_v25) = arr2 X) :
    Cert.KReg2.Hm (V5 m ρ) c
      = mlp X (agg (by decide) (sI (m ((c : Thread nD τ).loc main_arg1))) (dI (m ((c : Thread nD τ).loc main_arg1))) X) (mat2 (M := 198) (N := 64) (m ((c : Thread nD τ).loc main_arg9))) (row1 (N := 64) (m ((c : Thread nD τ).loc main_arg10)))
          (mat2 (M := 64) (N := 64) (m ((c : Thread nD τ).loc main_arg11))) (row1 (N := 64) (m ((c : Thread nD τ).loc main_arg12))) :=
  mlp_of (x_in m ρ c X hX) (agg_at m ρ c X hX) (wa_in m ρ c) (ba_in m ρ c) (wb_in m ρ c) (bb_in m ρ c)

/-- What the perceptron's region leaves in its three output arrays. -/
theorem o0_at : W6 m ρ c (Proc.devRef .tc main_v38_0) = arr2 (Cert.KReg2.Hm (V5 m ρ) c) :=
  (W6_arr m ρ c 6).trans (Cert.KReg2.h_eq (V5 m ρ) c)
theorem o1_at : W6 m ρ c (Proc.devRef .tc main_v38_1) = fun i : (⟨2, ![1, 64]⟩ : Shape).Idx => csum (Cert.KReg2.Hm (V5 m ρ) c) ⟨(i 1).val, idx2_lt1 i⟩ :=
  (W6_arr m ρ c 7).trans (Cert.KReg2.s_eq (V5 m ρ) c)
theorem o2_at : W6 m ρ c (Proc.devRef .tc main_v38_2) = fun i : (⟨2, ![1, 64]⟩ : Shape).Idx => csum (sqm (Cert.KReg2.Hm (V5 m ρ) c)) ⟨(i 1).val, idx2_lt1 i⟩ :=
  (W6_arr m ρ c 8).trans (Cert.KReg2.q_eq (V5 m ρ) c)

/-- The arrays the normalisation's region finds: the feature array, the mean row, the variance row, the scale and shift rows. -/
theorem h_in : V7 m ρ c main_v38_0 = arr2 (Cert.KReg2.Hm (V5 m ρ) c) :=
  (keepH3 (W6 m ρ c) main_v38_0 (by decide)).trans (o0_at m ρ c)
theorem mu_in : row2 (N := 64) (V7 m ρ c main_v40) = mean (Cert.KReg2.Hm (V5 m ρ) c) :=
  (congrArg (row2 (N := 64)) (hB_mu (W6 m ρ c))).trans
    (Cert.HostOps.kmean_eq bcast_S_S1x64 (Cert.KReg2.Hm (V5 m ρ) c) _ (o1_at m ρ c))
theorem va_in : row2 (N := 64) (V7 m ρ c main_v44) = varK (Cert.KReg2.Hm (V5 m ρ) c) :=
  (congrArg (row2 (N := 64)) (hB_va (W6 m ρ c))).trans
    (Cert.HostOps.kvar_eq bcast_S_S1x64 (Cert.KReg2.Hm (V5 m ρ) c) _ _ (o1_at m ρ c) (o2_at m ρ c))
theorem g_in : row2 (N := 64) (V7 m ρ c main_v45) = row1 (m ((c : Thread nD τ).loc main_arg13)) := by
  refine (congrArg (row2 (N := 64)) ((hB_g (W6 m ρ c)).trans ?_)).trans (Cert.HostOps.row2_reshape shapeCasts_S64_S1x64 (m ((c : Thread nD τ).loc main_arg13)))
  rw [show W6 m ρ c (Proc.devRef .tc main_arg13) = (m ((c : Thread nD τ).loc main_arg13)) from ((W6_of_ne m ρ c main_arg13 (by decide)).trans ((keepH2 (W4 m ρ c) main_arg13 (by decide)).trans ((W4_of_ne m ρ c main_arg13 (by decide)).trans ((keepH1 (W2 m ρ c) main_arg13 (by decide)).trans ((W2_of_ne m ρ c main_arg13 (by decide)).trans (keepH0 (W0 m ρ c) main_arg13 (by decide)))))))]
theorem be_in : row2 (N := 64) (V7 m ρ c main_v46) = row1 (m ((c : Thread nD τ).loc main_arg14)) := by
  refine (congrArg (row2 (N := 64)) ((hB_be (W6 m ρ c)).trans ?_)).trans (Cert.HostOps.row2_reshape shapeCasts_S64_S1x64 (m ((c : Thread nD τ).loc main_arg14)))
  rw [show W6 m ρ c (Proc.devRef .tc main_arg14) = (m ((c : Thread nD τ).loc main_arg14)) from ((W6_of_ne m ρ c main_arg14 (by decide)).trans ((keepH2 (W4 m ρ c) main_arg14 (by decide)).trans ((W4_of_ne m ρ c main_arg14 (by decide)).trans ((keepH1 (W2 m ρ c) main_arg14 (by decide)).trans ((W2_of_ne m ρ c main_arg14 (by decide)).trans (keepH0 (W0 m ρ c) main_arg14 (by decide)))))))]

/-- The layer: from the input matrix at the layer's first boundary to the normalised output at its last. -/
theorem layer_at (X : Mat 50000 198) (hX : W4 m ρ c (Proc.devRef .tc main_v25) = arr2 X) :
    W8 m ρ c (Proc.devRef .tc main_v47)
      = arr2 (layer (fun Hm g b => bnK Hm g b) (by decide) (sI (m ((c : Thread nD τ).loc main_arg1))) (dI (m ((c : Thread nD τ).loc main_arg1))) X
          (mat2 (M := 198) (N := 64) (m ((c : Thread nD τ).loc main_arg9))) (row1 (N := 64) (m ((c : Thread nD τ).loc main_arg10)))
          (mat2 (M := 64) (N := 64) (m ((c : Thread nD τ).loc main_arg11))) (row1 (N := 64) (m ((c : Thread nD τ).loc main_arg12)))
          (row1 (N := 64) (m ((c : Thread nD τ).loc main_arg13))) (row1 (N := 64) (m ((c : Thread nD τ).loc main_arg14)))) := by
  refine (W8_arr m ρ c 5).trans ((Cert.KReg3.out_eq (V7 m ρ) c).trans (congrArg arr2 ?_))
  refine (norm_of (h_in m ρ c) (mu_in m ρ c) (va_in m ρ c) (g_in m ρ c) (be_in m ρ c)).trans ?_
  rw [hm_eq m ρ c X hX]
  rfl

end Chain

section Layer
variable (m : (ℓ : Loc nD τ sig) → Buf (Elt Ideal) ℓ) (ρ : Dev nD → PrngReg) (c : Dev nD)

/-- Layer 2: if the layer's input array holds a matrix, then after the layer's second region the output array holds the
    layer of the network on that matrix and the launch arrays. -/
theorem layer2 (X : Mat 50000 198) (h : W4 m ρ c (Proc.devRef .tc main_v25) = arr2 X) : W8 m ρ c (Proc.devRef .tc main_v47)
      = arr2 (layer (fun Hm g b => bnK Hm g b) (by decide) (sI (m ((c : Thread nD τ).loc main_arg1))) (dI (m ((c : Thread nD τ).loc main_arg1))) X
          (mat2 (M := 198) (N := 64) (m ((c : Thread nD τ).loc main_arg9))) (row1 (N := 64) (m ((c : Thread nD τ).loc main_arg10)))
          (mat2 (M := 64) (N := 64) (m ((c : Thread nD τ).loc main_arg11))) (row1 (N := 64) (m ((c : Thread nD τ).loc main_arg12)))
          (row1 (N := 64) (m ((c : Thread nD τ).loc main_arg13))) (row1 (N := 64) (m ((c : Thread nD τ).loc main_arg14)))) :=
  layer_at m ρ c X h

end Layer

end Cert.KChainL2

end
-- ==== Proof.KReg4Pay.lean ====
import proofs.«135204_j17832704213197_1_alg».proof.Proof.Gen.KernelIdeal.Skeleton
import proofs.«135204_j17832704213197_1_alg».proof.Proof.GinSpec
import proofs.«135204_j17832704213197_1_alg».proof.Proof.LibPlainDot
import Idealize.ShloMosaic.Lib.Pipeline.Value

noncomputable section

open scoped BigOperators
open Idealize.ShloMosaic Idealize.ShloMosaic.ValueIdx

namespace Cert.KReg4

open Cert.KernelIdeal Cert.KernelIdeal.Gen Cert.Gin

/-! ## Fifty thousand rows as twenty-five blocks of two thousand -/

/-- A sum over the 50000 rows is the sum, over the 25 row blocks, of the sums over each block's 2000 rows. -/
theorem sum_rows (f : Fin 50000 → EReal) :
    ∑ i, f i = ∑ t : Fin 25, ∑ r : Fin 2000, f ⟨2000 * t.val + r.val, by have := t.isLt; have := r.isLt; omega⟩ := by
  refine (Equiv.sum_comp (finProdFinEquiv (m := 25) (n := 2000)) f).symm.trans ?_
  rw [Fintype.sum_prod_type]
  refine Finset.sum_congr rfl fun t _ => Finset.sum_congr rfl fun r _ => congrArg f (Fin.ext ?_)
  show r.val + 2000 * t.val = 2000 * t.val + r.val
  omega

/-- The sum of a column over row block `t`, as a function of a natural number (zero past the last block). -/
def bsum (f : Fin 50000 → EReal) (t : ℕ) : EReal :=
  if h : t < 25 then ∑ r : Fin 2000, f ⟨2000 * t + r.val, by have := r.isLt; omega⟩ else 0

/-- The zero word plus the 25 block sums is the zero word plus the sum over all rows. -/
theorem bsum_total (f : Fin 50000 → EReal) : z + ∑ t ∈ Finset.range 25, bsum f t = z + ∑ i, f i := by
  rw [sum_rows f, Finset.sum_range]
  refine congrArg (z + ·) (Finset.sum_congr rfl fun t _ => ?_)
  exact dif_pos t.isLt

/-! ## The body's values read at an entry -/

section Payload

variable (x0 x1 : Vec Ideal S2000x64 .f32) (x2 : Vec Ideal S64x32 .f32) (x3 : Vec Ideal S1x32 .f32)
  (x4 : Vec Ideal S32x32 .f32) (x5 : Vec Ideal S1x32 .f32)

/-- A bias row broadcast along the rows reads, at (r, k), the row's entry k. -/
theorem bias_apply (b : Vec Ideal S1x32 .f32) (r : Fin 2000) (k : Fin 32) :
    broadcastTo S2000x32 (shapeCast S1x32 b shapeCasts_S1x32_S1x32) broadcasts_S1x32_S2000x32 (ix2 r k)
      = b (ix2 (0 : Fin 1) k) := by
  rw [shapeCast_self]
  exact broadcastTo_apply b _ (ix2 r k) (ix2 (0 : Fin 1) k) (fun a => by
    match a with
    | ⟨0, _⟩ => rfl
    | ⟨1, _⟩ => rfl)

/-- The block the body stores in the first output is the perceptron of its row block: entry (p, q) is
    relu(∑ₖ relu(∑ᵢ (x + a)(p, i) · Wa(i, k) + ba(k)) · Wb(k, q) + bb(q)); the roundings to bf16 are the identity on
    the extended reals and each product accumulates into zero. -/
theorem pay4_apply (p : Fin 2000) (q : Fin 32) :
    k4_pay4 x0 x1 x2 x3 x4 x5 (ix2 p q)
      = mlp (mat2 (M := 2000) (N := 64) x0) (mat2 (M := 2000) (N := 64) x1) (mat2 (M := 64) (N := 32) x2)
          (row2 (N := 32) x3) (mat2 (M := 32) (N := 32) x4) (row2 (N := 32) x5) p q := by
  have hR : mlp (mat2 (M := 2000) (N := 64) x0) (mat2 (M := 2000) (N := 64) x1) (mat2 (M := 64) (N := 32) x2)
          (row2 (N := 32) x3) (mat2 (M := 32) (N := 32) x4) (row2 (N := 32) x5) p q
      = max ((∑ k : Fin 32, max ((∑ i : Fin 64, (x0 (ix2 p i) + x1 (ix2 p i)) * x2 (ix2 i k)) + x3 (ix2 (0 : Fin 1) k)) z
          * x4 (ix2 k q)) + x5 (ix2 (0 : Fin 1) q)) z := rfl
  rw [hR]
  unfold k4_pay4
  refine (maximumf_apply _ _ (ix2 p q)).trans ?_
  refine congrArg₂ max ?_ rfl
  refine (addf_apply _ _ (ix2 p q)).trans ?_
  refine congrArg₂ (· + ·) ?_ (bias_apply x5 p q)
  refine (Cert.LibPlainDot.matmul_zero_apply dot_S2000x32_S32x32_S2000x32_1_0_0_1_n_n_wf none _ _ p q).trans ?_
  refine Finset.sum_congr rfl fun k _ => congrArg₂ (· * ·) ?_ rfl
  refine congrArg₂ max ?_ rfl
  refine congrArg₂ (· + ·) ?_ (bias_apply x3 p k)
  refine (Cert.LibPlainDot.matmul_zero_apply dot_S2000x64_S64x32_S2000x32_1_0_0_1_n_n_wf none _ _ p k).trans ?_
  refine Finset.sum_congr rfl fun i _ => congrArg₂ (· * ·) ?_ rfl
  exact congrArg₂ (· + ·) (congrFun (shapeCast_self x0 _) (ix2 p i)) (congrFun (shapeCast_self x1 _) (ix2 p i))

/-- The sum over the rows of a 2000-row block, read at column q: the reduction's zero accumulator adds nothing. -/
theorem colsum_apply (src : FVec Ideal S2000x32 .f32) (hacc : (0x00000000#32 : BitVec 32) = 0x00000000#32)
    (j : S32.Idx) (q : Fin 32) (hj : (j 0).val = q.val) :
    multiReduction .add [0] S32 src 0x00000000#32 reduces_S2000x32_S32 (.inl rfl) hacc j
      = ∑ r : Fin 2000, src (ix2 r q) :=
  (Ideal.multiReduction_add_single src 0x00000000#32 reduces_S2000x32_S32 (.inl rfl) hacc j).trans
    (Finset.sum_congr rfl fun r _ => congrArg src (funext fun a => Fin.ext (by
      match a with
      | ⟨0, _⟩ => rfl
      | ⟨1, _⟩ => exact hj)))

/-- The first accumulator's new contents at column q: its old contents there plus the block's column sum. -/
theorem pay5_apply (v28 : Vec Ideal S1x32 .f32) (q : Fin 32) :
    k4_pay5 x0 x1 x2 x3 x4 x5 v28 (ix2 (0 : Fin 1) q)
      = v28 (ix2 (0 : Fin 1) q) + ∑ r : Fin 2000, k4_pay4 x0 x1 x2 x3 x4 x5 (ix2 r q) := by
  unfold k4_pay5
  dsimp only
  refine (addf_apply _ _ (ix2 (0 : Fin 1) q)).trans ?_
  refine congrArg₂ (· + ·) (congrFun (shapeCast_self v28 _) _) ?_
  refine (shapeCast_addUnit_apply ![32] _ _ (ix2 (0 : Fin 1) q)).trans ?_
  exact colsum_apply (k4_pay4 x0 x1 x2 x3 x4 x5) rfl _ q rfl

/-- The second accumulator's new contents at column q: its old contents there plus the column sum of the block's squares. -/
theorem pay1_apply (v26 : FVec Ideal S2000x32 .f32) (v34 : Vec Ideal S1x32 .f32) (q : Fin 32) :
    k4_pay1 v26 v34 (ix2 (0 : Fin 1) q)
      = v34 (ix2 (0 : Fin 1) q) + ∑ r : Fin 2000, v26 (ix2 r q) * v26 (ix2 r q) := by
  unfold k4_pay1
  dsimp only
  refine (addf_apply _ _ (ix2 (0 : Fin 1) q)).trans ?_
  refine congrArg₂ (· + ·) (congrFun (shapeCast_self v34 _) _) ?_
  refine (shapeCast_addUnit_apply ![32] _ _ (ix2 (0 : Fin 1) q)).trans ?_
  exact colsum_apply (mulf v26 v26) rfl _ q rfl

/-- The reset stores the zero word in every entry of both accumulators. -/
theorem pay2_apply (j : S1x32.Idx) : k4_pay2 (F := Ideal) j = z := rfl
theorem pay3_apply (j : S1x32.Idx) : k4_pay3 (F := Ideal) j = z := rfl

end Payload

end Cert.KReg4

end
-- ==== Proof.KReg4Out.lean ====
import proofs.«135204_j17832704213197_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KReg4

open Cert.KernelIdeal Cert.KernelIdeal.Gen

/-! ## What each case of the body leaves in the three outputs' staging buffers

Every load and store of the body moves a whole staging buffer, so each output ends holding the value of its last
store, computed from the inputs' blocks and — for the two accumulators — from what the accumulator held when it was
read: the zero the reset has just stored (first point), or what the point before left (later points). -/

section Pieces

variable {F : FTy → Type} [FloatOps F]

theorem hz : (![0, 0] : Fin 2 → Nat) = fun _ => 0 := funext fun a => by fin_cases a <;> rfl

variable (c : Dev nD) (i : grid4.Coords) (arg1 : Memref sig .tc .vmem S2000x64 .f32) (harg1 : arg1.IsWhole) (arg2 : Memref sig .tc .vmem S2000x64 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S2000x32 .f32) (harg7 : arg7.IsWhole) (arg8 : Memref sig .tc .vmem S1x32 .f32) (harg8 : arg8.IsWhole) (arg9 : Memref sig .tc .vmem S1x32 .f32) (harg9 : arg9.IsWhole)
  (x0 : Vec F S2000x64 .f32) (x1 : Vec F S2000x64 .f32) (x2 : Vec F S64x32 .f32) (x3 : Vec F S1x32 .f32) (x4 : Vec F S32x32 .f32) (x5 : Vec F S1x32 .f32)

/-- First point, first output: the perceptron's block. -/
theorem outA6 (hc0 : cond4_0 i) :
    out4_A_6 c i arg1 harg1 arg2 harg2 arg3 harg3 arg4 harg4 arg5 harg5 arg6 harg6 arg7 harg7 arg8 harg8 arg9 harg9 hc0 x0 x1 x2 x3 x4 x5
      = k4_pay4 x0 x1 x2 x3 x4 x5 := by
  unfold out4_A_6
  rw [View.read_writes_eq_canon _ _ _ (cover4_A_6 c i arg1 harg1 arg2 harg2 arg3 harg3 arg4 harg4 arg5 harg5 arg6 harg6 arg7 harg7 arg8 harg8 arg9 harg9 hc0 x0 x1 x2 x3 x4 x5)]
  unfold kernelRun4_A
  dsimp only
  sl_unfold_words
  rw [View.canon_unit_zero (S := S2000x32) hz]
  simp only [View.readAt_eq_ld, harg1.read_unread, harg2.read_unread, harg3.read_unread, harg4.read_unread, harg5.read_unread,
    harg6.read_unread, View.ld_unit_zero (S := S2000x64) hz, View.ld_unit_zero (S := S64x32) hz,
    View.ld_unit_zero (S := S1x32) hz, View.ld_unit_zero (S := S32x32) hz]

/-- First point, first accumulator: the zero just stored, plus the block's column sums. -/
theorem outA7 (hc0 : cond4_0 i) :
    out4_A_7 c i arg1 harg1 arg2 harg2 arg3 harg3 arg4 harg4 arg5 harg5 arg6 harg6 arg7 harg7 arg8 harg8 arg9 harg9 hc0 x0 x1 x2 x3 x4 x5
      = k4_pay5 x0 x1 x2 x3 x4 x5 (k4_pay2 (F := F)) := by
  unfold out4_A_7
  rw [View.read_writes_eq_canon _ _ _ (cover4_A_7 c i arg1 harg1 arg2 harg2 arg3 harg3 arg4 harg4 arg5 harg5 arg6 harg6 arg7 harg7 arg8 harg8 arg9 harg9 hc0 x0 x1 x2 x3 x4 x5)]
  unfold kernelRun4_A
  dsimp only
  sl_unfold_words
  rw [View.canon_cons_unit_zero (S := S1x32) hz, View.readCov_unit_zero (S := S1x32) _ hz]
  simp only [View.readAt_eq_ld, harg1.read_unread, harg2.read_unread, harg3.read_unread, harg4.read_unread, harg5.read_unread,
    harg6.read_unread, View.ld_unit_zero (S := S2000x64) hz, View.ld_unit_zero (S := S64x32) hz,
    View.ld_unit_zero (S := S1x32) hz, View.ld_unit_zero (S := S32x32) hz]

/-- First point, second accumulator: the zero just stored, plus the column sums of the block's squares. -/
theorem outA8 (hc0 : cond4_0 i) :
    out4_A_8 c i arg1 harg1 arg2 harg2 arg3 harg3 arg4 harg4 arg5 harg5 arg6 harg6 arg7 harg7 arg8 harg8 arg9 harg9 hc0 x0 x1 x2 x3 x4 x5
      = k4_pay1 (k4_pay4 x0 x1 x2 x3 x4 x5) (k4_pay3 (F := F)) := by
  unfold out4_A_8
  rw [View.read_writes_eq_canon _ _ _ (cover4_A_8 c i arg1 harg1 arg2 harg2 arg3 harg3 arg4 harg4 arg5 harg5 arg6 harg6 arg7 harg7 arg8 harg8 arg9 harg9 hc0 x0 x1 x2 x3 x4 x5)]
  unfold kernelRun4_A
  dsimp only
  sl_unfold_words
  rw [View.canon_cons_unit_zero (S := S1x32) hz, View.readCov_unit_zero (S := S1x32) _ hz]
  simp only [View.readAt_eq_ld, harg1.read_unread, harg2.read_unread, harg3.read_unread, harg4.read_unread, harg5.read_unread,
    harg6.read_unread, View.ld_unit_zero (S := S2000x64) hz, View.ld_unit_zero (S := S64x32) hz,
    View.ld_unit_zero (S := S1x32) hz, View.ld_unit_zero (S := S32x32) hz]

variable (xo7 : Vec F S1x32 .f32) (xo8 : Vec F S1x32 .f32)

/-- Later points, first output: the perceptron's block. -/
theorem outB6 (hc0 : ¬cond4_0 i) :
    out4_B_6 c i arg1 harg1 arg2 harg2 arg3 harg3 arg4 harg4 arg5 harg5 arg6 harg6 arg7 harg7 arg8 harg8 arg9 harg9 hc0 x0 x1 x2 x3 x4 x5 xo7 xo8
      = k4_pay4 x0 x1 x2 x3 x4 x5 := by
  unfold out4_B_6
  rw [View.read_writes_eq_canon _ _ _ (cover4_B_6 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  sl_unfold_words
  rw [View.canon_unit_zero (S := S2000x32) hz]
  simp only [View.readAt_eq_ld, harg1.read_unread, harg2.read_unread, harg3.read_unread, harg4.read_unread, harg5.read_unread,
    harg6.read_unread, View.ld_unit_zero (S := S2000x64) hz, View.ld_unit_zero (S := S64x32) hz,
    View.ld_unit_zero (S := S1x32) hz, View.ld_unit_zero (S := S32x32) hz]

/-- Later points, first accumulator: what the point before left, plus the block's column sums. -/
theorem outB7 (hc0 : ¬cond4_0 i) :
    out4_B_7 c i arg1 harg1 arg2 harg2 arg3 harg3 arg4 harg4 arg5 harg5 arg6 harg6 arg7 harg7 arg8 harg8 arg9 harg9 hc0 x0 x1 x2 x3 x4 x5 xo7 xo8
      = k4_pay5 x0 x1 x2 x3 x4 x5 xo7 := by
  unfold out4_B_7
  rw [View.read_writes_eq_canon _ _ _ (cover4_B_7 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  sl_unfold_words
  rw [View.canon_unit_zero (S := S1x32) hz]
  simp only [View.readAt_eq_ld, harg1.read_unread, harg2.read_unread, harg3.read_unread, harg4.read_unread, harg5.read_unread,
    harg6.read_unread, harg8.read_unread, View.ld_unit_zero (S := S2000x64) hz, View.ld_unit_zero (S := S64x32) hz,
    View.ld_unit_zero (S := S1x32) hz, View.ld_unit_zero (S := S32x32) hz]

/-- Later points, second accumulator: what the point before left, plus the column sums of the block's squares. -/
theorem outB8 (hc0 : ¬cond4_0 i) :
    out4_B_8 c i arg1 harg1 arg2 harg2 arg3 harg3 arg4 harg4 arg5 harg5 arg6 harg6 arg7 harg7 arg8 harg8 arg9 harg9 hc0 x0 x1 x2 x3 x4 x5 xo7 xo8
      = k4_pay1 (k4_pay4 x0 x1 x2 x3 x4 x5) xo8 := by
  unfold out4_B_8
  rw [View.read_writes_eq_canon _ _ _ (cover4_B_8 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  sl_unfold_words
  rw [View.canon_unit_zero (S := S1x32) hz]
  simp only [View.readAt_eq_ld, harg1.read_unread, harg2.read_unread, harg3.read_unread, harg4.read_unread, harg5.read_unread,
    harg6.read_unread, harg9.read_unread, View.ld_unit_zero (S := S2000x64) hz, View.ld_unit_zero (S := S64x32) hz,
    View.ld_unit_zero (S := S1x32) hz, View.ld_unit_zero (S := S32x32) hz]

end Pieces

end Cert.KReg4

end
-- ==== Proof.KReg4.lean ====
import proofs.«135204_j17832704213197_1_alg».proof.Proof.Gen.KernelIdeal.Frame
import proofs.«135204_j17832704213197_1_alg».proof.Proof.GinSpec
import proofs.«135204_j17832704213197_1_alg».proof.Proof.KReg4Pay
import proofs.«135204_j17832704213197_1_alg».proof.Proof.KReg4Out
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KReg4

open Cert.KernelIdeal Cert.KernelIdeal.Gen Cert.Gin

variable (V : (c : Dev nD) → (b : Ref sig .tc) → Buf (Elt Ideal) ((c : Thread nD τ).loc b)) (c : Dev nD)

/-- The perceptron's output on the arrays the region finds: node features, their neighbour sums, two weight matrices, two bias rows. -/
def Hm : Mat 50000 32 :=
  mlp (mat2 (M := 50000) (N := 64) (V c main_v47)) (mat2 (M := 50000) (N := 64) (V c main_v57)) (mat2 (M := 64) (N := 32) (V c main_arg15))
    (row2 (N := 32) (V c main_v58)) (mat2 (M := 32) (N := 32) (V c main_arg17)) (row2 (N := 32) (V c main_v59))

/-! ## The blocks the body reads -/

/-- A row of the perceptron's output depends on that row of its two inputs only. -/
theorem mlp_row {M M' K H N : Nat} (X A : Mat M K) (X' A' : Mat M' K) (Wa : Mat K H) (ba : Row H) (Wb : Mat H N) (bb : Row N)
    (r : Fin M) (r' : Fin M') (hX : ∀ i, X r i = X' r' i) (hA : ∀ i, A r i = A' r' i) (c : Fin N) :
    mlp X A Wa ba Wb bb r c = mlp X' A' Wa ba Wb bb r' c := by
  show relu ((∑ k, relu ((∑ i, (X r i + A r i) * Wa i k) + ba k) * Wb k c) + bb c)
    = relu ((∑ k, relu ((∑ i, (X' r' i + A' r' i) * Wa i k) + ba k) * Wb k c) + bb c)
  simp only [hX, hA]

/-- The block index of each window at each point: the two row-blocked inputs and the first output are at block
    `t` of the rows, the weights, biases and accumulators at their one block. -/
theorem idx_rows : ∀ t : Fin cfg4.N, win4_0.index t 0 = t.val ∧ win4_0.index t 1 = 0 ∧ win4_1.index t 0 = t.val ∧ win4_1.index t 1 = 0
    ∧ win4_6.index t 0 = t.val ∧ win4_6.index t 1 = 0 :=
  (by decide +kernel : ∀ t : Fin grid4.N, win4_0.index t 0 = t.val ∧ win4_0.index t 1 = 0 ∧ win4_1.index t 0 = t.val ∧ win4_1.index t 1 = 0
    ∧ win4_6.index t 0 = t.val ∧ win4_6.index t 1 = 0)
theorem idx_whole : ∀ t : Fin cfg4.N, (win4_2.index t 0 = 0 ∧ win4_2.index t 1 = 0) ∧ (win4_3.index t 0 = 0 ∧ win4_3.index t 1 = 0)
    ∧ (win4_4.index t 0 = 0 ∧ win4_4.index t 1 = 0) ∧ (win4_5.index t 0 = 0 ∧ win4_5.index t 1 = 0)
    ∧ (win4_7.index t 0 = 0 ∧ win4_7.index t 1 = 0) ∧ (win4_8.index t 0 = 0 ∧ win4_8.index t 1 = 0) :=
  (by decide +kernel : ∀ t : Fin grid4.N, (win4_2.index t 0 = 0 ∧ win4_2.index t 1 = 0) ∧ (win4_3.index t 0 = 0 ∧ win4_3.index t 1 = 0)
    ∧ (win4_4.index t 0 = 0 ∧ win4_4.index t 1 = 0) ∧ (win4_5.index t 0 = 0 ∧ win4_5.index t 1 = 0)
    ∧ (win4_7.index t 0 = 0 ∧ win4_7.index t 1 = 0) ∧ (win4_8.index t 0 = 0 ∧ win4_8.index t 1 = 0))

theorem row_lt (t : Fin cfg4.N) (p : Fin 2000) : 2000 * t.val + p.val < 50000 := by
  have := lt_of_lt_of_eq t.isLt (show cfg4.N = 25 from N_4); have := p.isLt; omega

/-- Row p of the node features' block at point t is row 2000 t + p of the array. -/
theorem rd0 (t : Fin cfg4.N) (p : Fin 2000) (i : Fin 64) :
    mat2 (M := 2000) (N := 64) (iblk4 V c 0 t) p i = mat2 (M := 50000) (N := 64) (V c main_v47) ⟨2000 * t.val + p.val, row_lt t p⟩ i := by
  show iblk4 V c 0 t (ix2 p i) = V c main_v47 (ix2 ⟨2000 * t.val + p.val, row_lt t p⟩ i)
  unfold iblk4
  rw [View.read_apply]
  show V c main_v47 _ = V c main_v47 _
  refine congrArg (V c main_v47) (funext fun a => Fin.ext ?_)
  match a with
  | ⟨0, _⟩ => show win4_0.index t 0 * 2000 + 1 * p.val = 2000 * t.val + p.val; rw [(idx_rows t).1]; omega
  | ⟨1, _⟩ => show win4_0.index t 1 * 64 + 1 * i.val = i.val; rw [(idx_rows t).2.1]; omega

/-- Row p of the neighbour sums' block at point t is row 2000 t + p of the array. -/
theorem rd1 (t : Fin cfg4.N) (p : Fin 2000) (i : Fin 64) :
    mat2 (M := 2000) (N := 64) (iblk4 V c 1 t) p i = mat2 (M := 50000) (N := 64) (V c main_v57) ⟨2000 * t.val + p.val, row_lt t p⟩ i := by
  show iblk4 V c 1 t (ix2 p i) = V c main_v57 (ix2 ⟨2000 * t.val + p.val, row_lt t p⟩ i)
  unfold iblk4
  rw [View.read_apply]
  show V c main_v57 _ = V c main_v57 _
  refine congrArg (V c main_v57) (funext fun a => Fin.ext ?_)
  match a with
  | ⟨0, _⟩ => show win4_1.index t 0 * 2000 + 1 * p.val = 2000 * t.val + p.val; rw [(idx_rows t).2.2.1]; omega
  | ⟨1, _⟩ => show win4_1.index t 1 * 64 + 1 * i.val = i.val; rw [(idx_rows t).2.2.2.1]; omega

/-- The weights' and biases' one block is the whole array, at every point. -/
theorem rd2 (t : Fin cfg4.N) : (iblk4 V c 2 t : Vec Ideal S64x32 .f32) = V c main_arg15 := by
  funext j
  unfold iblk4
  rw [View.read_apply]
  show V c main_arg15 _ = V c main_arg15 j
  refine congrArg (V c main_arg15) (funext fun a => Fin.ext ?_)
  match a with
  | ⟨0, _⟩ => show win4_2.index t 0 * 64 + 1 * (j 0).val = (j 0).val; rw [(idx_whole t).1.1]; omega
  | ⟨1, _⟩ => show win4_2.index t 1 * 32 + 1 * (j 1).val = (j 1).val; rw [(idx_whole t).1.2]; omega
theorem rd3 (t : Fin cfg4.N) : (iblk4 V c 3 t : Vec Ideal S1x32 .f32) = V c main_v58 := by
  funext j
  unfold iblk4
  rw [View.read_apply]
  show V c main_v58 _ = V c main_v58 j
  refine congrArg (V c main_v58) (funext fun a => Fin.ext ?_)
  match a with
  | ⟨0, _⟩ => show win4_3.index t 0 * 1 + 1 * (j 0).val = (j 0).val; rw [(idx_whole t).2.1.1]; omega
  | ⟨1, _⟩ => show win4_3.index t 1 * 32 + 1 * (j 1).val = (j 1).val; rw [(idx_whole t).2.1.2]; omega
theorem rd4 (t : Fin cfg4.N) : (iblk4 V c 4 t : Vec Ideal S32x32 .f32) = V c main_arg17 := by
  funext j
  unfold iblk4
  rw [View.read_apply]
  show V c main_arg17 _ = V c main_arg17 j
  refine congrArg (V c main_arg17) (funext fun a => Fin.ext ?_)
  match a with
  | ⟨0, _⟩ => show win4_4.index t 0 * 32 + 1 * (j 0).val = (j 0).val; rw [(idx_whole t).2.2.1.1]; omega
  | ⟨1, _⟩ => show win4_4.index t 1 * 32 + 1 * (j 1).val = (j 1).val; rw [(idx_whole t).2.2.1.2]; omega
theorem rd5 (t : Fin cfg4.N) : (iblk4 V c 5 t : Vec Ideal S1x32 .f32) = V c main_v59 := by
  funext j
  unfold iblk4
  rw [View.read_apply]
  show V c main_v59 _ = V c main_v59 j
  refine congrArg (V c main_v59) (funext fun a => Fin.ext ?_)
  match a with
  | ⟨0, _⟩ => show win4_5.index t 0 * 1 + 1 * (j 0).val = (j 0).val; rw [(idx_whole t).2.2.2.1.1]; omega
  | ⟨1, _⟩ => show win4_5.index t 1 * 32 + 1 * (j 1).val = (j 1).val; rw [(idx_whole t).2.2.2.1.2]; omega

/-- The block of the first output the body computes at point t, from the six input blocks. -/
def blk (t : Fin cfg4.N) : Vec Ideal S2000x32 .f32 :=
  k4_pay4 (iblk4 V c 0 t) (iblk4 V c 1 t) (iblk4 V c 2 t) (iblk4 V c 3 t) (iblk4 V c 4 t) (iblk4 V c 5 t)

/-- Entry (p, q) of that block is entry (2000 t + p, q) of the perceptron's output on the whole arrays. -/
theorem blk_apply (t : Fin cfg4.N) (p : Fin 2000) (q : Fin 32) :
    blk V c t (ix2 p q) = Hm V c ⟨2000 * t.val + p.val, row_lt t p⟩ q := by
  unfold blk Hm
  refine (pay4_apply (iblk4 V c 0 t) (iblk4 V c 1 t) (iblk4 V c 2 t) (iblk4 V c 3 t) (iblk4 V c 4 t) (iblk4 V c 5 t) p q).trans ?_
  rw [rd2 V c t, rd3 V c t, rd4 V c t, rd5 V c t]
  exact mlp_row _ _ _ _ _ _ _ _ p ⟨2000 * t.val + p.val, row_lt t p⟩ (rd0 V c t p) (rd1 V c t p) q

/-- The block's column sums are the block sums of the output's columns … -/
theorem blk_colsum (t : Fin cfg4.N) (q : Fin 32) :
    ∑ r : Fin 2000, blk V c t (ix2 r q) = bsum (fun i => Hm V c i q) t.val := by
  have hN : t.val < 25 := lt_of_lt_of_eq t.isLt (show cfg4.N = 25 from N_4)
  unfold bsum
  rw [dif_pos hN]
  exact Finset.sum_congr rfl fun r _ => blk_apply V c t r q

/-- … and likewise for the squares. -/
theorem blk_colsq (t : Fin cfg4.N) (q : Fin 32) :
    ∑ r : Fin 2000, blk V c t (ix2 r q) * blk V c t (ix2 r q) = bsum (fun i => sqm (Hm V c) i q) t.val := by
  have hN : t.val < 25 := lt_of_lt_of_eq t.isLt (show cfg4.N = 25 from N_4)
  unfold bsum
  rw [dif_pos hN]
  exact Finset.sum_congr rfl fun r _ => by rw [blk_apply V c t r q]; rfl

/-! ## The three outputs after each point -/

/-- After any point the first output's staging buffer holds the point's block. -/
theorem outs_fst (t : Fin cfg4.N) : (outsAt4 V c t.val t.isLt).1 = blk V c t := by
  by_cases h0 : t.val % 25 = 0
  · rw [outsAt4_A V c t h0]
    dsimp only
    exact outA6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t) ((hcond4_0 t).mpr h0)
  · rw [outsAt4_B V c t h0]
    dsimp only
    exact outB6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2 (fun h => h0 ((hcond4_0 t).mp h))

/-- At the first point the two accumulators hold the zero just stored plus the block's column sums (of the entries,
    of their squares). -/
theorem acc_first (t : Fin cfg4.N) (h0 : t.val % 25 = 0) :
    (outsAt4 V c t.val t.isLt).2.1
        = k4_pay5 (F := Ideal) (iblk4 V c 0 t) (iblk4 V c 1 t) (iblk4 V c 2 t) (iblk4 V c 3 t) (iblk4 V c 4 t) (iblk4 V c 5 t) (k4_pay2 (F := Ideal))
      ∧ (outsAt4 V c t.val t.isLt).2.2 = k4_pay1 (F := Ideal) (blk V c t) (k4_pay3 (F := Ideal)) := by
  rw [outsAt4_A V c t h0]
  dsimp only
  exact ⟨outA7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t) ((hcond4_0 t).mpr h0),
    outA8 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t) ((hcond4_0 t).mpr h0)⟩

/-- At a later point they hold what the point before left plus the block's column sums. -/
theorem acc_later (t : Fin cfg4.N) (h0 : ¬t.val % 25 = 0) :
    (outsAt4 V c t.val t.isLt).2.1
        = k4_pay5 (F := Ideal) (iblk4 V c 0 t) (iblk4 V c 1 t) (iblk4 V c 2 t) (iblk4 V c 3 t) (iblk4 V c 4 t) (iblk4 V c 5 t)
            (outsAt4 V c (t.val - 1) (Nat.lt_of_le_of_lt (Nat.sub_le _ _) t.isLt)).2.1
      ∧ (outsAt4 V c t.val t.isLt).2.2
        = k4_pay1 (F := Ideal) (blk V c t) (outsAt4 V c (t.val - 1) (Nat.lt_of_le_of_lt (Nat.sub_le _ _) t.isLt)).2.2 := by
  rw [outsAt4_B V c t h0]
  dsimp only
  exact ⟨outB7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2 (fun h => h0 ((hcond4_0 t).mp h)),
    outB8 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2 (fun h => h0 ((hcond4_0 t).mp h))⟩

/-- THE ACCUMULATION. After point n the first accumulator holds, at column q, the zero word plus the column's block
    sums over blocks 0 … n, and the second the same for the squares — by induction on the point: the first point
    adds block 0 to the zero just stored, every later point adds its block to what the point before left. -/
theorem acc_eq : ∀ (n : ℕ) (h : n < cfg4.N) (q : Fin 32),
    (outsAt4 V c n h).2.1 (ix2 (0 : Fin 1) q) = z + ∑ t ∈ Finset.range (n + 1), bsum (fun i => Hm V c i q) t
      ∧ (outsAt4 V c n h).2.2 (ix2 (0 : Fin 1) q) = z + ∑ t ∈ Finset.range (n + 1), bsum (fun i => sqm (Hm V c) i q) t
  | 0, h, q => by
    have e := acc_first V c ⟨0, h⟩ rfl
    rw [Finset.sum_range_one, Finset.sum_range_one]
    constructor
    · refine ((congrFun e.1 _).trans (pay5_apply (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩) (k4_pay2 (F := Ideal)) q)).trans ?_
      exact congrArg (z + ·) (blk_colsum V c ⟨0, h⟩ q)
    · refine ((congrFun e.2 _).trans (pay1_apply (blk V c ⟨0, h⟩) (k4_pay3 (F := Ideal)) q)).trans ?_
      exact congrArg (z + ·) (blk_colsq V c ⟨0, h⟩ q)
  | n + 1, h, q => by
    have hN : cfg4.N = 25 := N_4
    have hB : ¬(⟨n + 1, h⟩ : Fin cfg4.N).val % 25 = 0 := by dsimp only; omega
    have ih := acc_eq n (Nat.lt_of_succ_lt h) q
    have e := acc_later V c ⟨n + 1, h⟩ hB
    constructor
    · refine ((congrFun e.1 _).trans (pay5_apply (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 q)).trans ?_
      refine (congrArg₂ (· + ·) ih.1 (blk_colsum V c ⟨n + 1, h⟩ q)).trans ?_
      exact (add_assoc _ _ _).trans (congrArg (z + ·) (Finset.sum_range_succ _ (n + 1)).symm)
    · refine ((congrFun e.2 _).trans (pay1_apply (blk V c ⟨n + 1, h⟩) (outsAt4 V c n (Nat.lt_of_succ_lt h)).2.2 q)).trans ?_
      refine (congrArg₂ (· + ·) ih.2 (blk_colsq V c ⟨n + 1, h⟩ q)).trans ?_
      exact (add_assoc _ _ _).trans (congrArg (z + ·) (Finset.sum_range_succ _ (n + 1)).symm)

/-! ## The arrays after the last point -/

/-- Every point writes the first output's block back: block t of the perceptron's output. -/
theorem flushed6 (t : Fin cfg4.N) (hf : (cfg4.win 6).flush t = true) :
    (dat4 V c).flushed 6 t = ((cfg4.win 6).blk t).view.read (Elt Ideal) (arr2 (Hm V c)) := by
  show (cfg4.win 6).cut (grid4.coords t) ((dat4 V c).after 6 t) = _
  rw [after4_6, outs_fst]
  funext y
  obtain ⟨p, q, rfl⟩ : ∃ (p : Fin 2000) (q : Fin 32), y = ix2 p q := ⟨y 0, y 1, eq_ix2 y⟩
  rw [View.read_apply]
  show blk V c t (ix2 p q) = arr2 (Hm V c) _
  rw [blk_apply]
  show Hm V c _ _ = Hm V c _ _
  refine congrArg₂ (Hm V c) (Fin.ext ?_) (Fin.ext ?_)
  · show 2000 * t.val + p.val = win4_6.index t 0 * 2000 + 1 * p.val; rw [(idx_rows t).2.2.2.2.1]; omega
  · show q.val = win4_6.index t 1 * 32 + 1 * q.val; rw [(idx_rows t).2.2.2.2.2]; omega

/-- After the last grid point the first output array holds the perceptron's output, row block by row block. -/
theorem h_eq : (dat4 (F := Ideal) V c).arrAt 6 cfg4.N = arr2 (Hm V c) :=
  (dat4 V c).arrAt_eq_of_cover 6 (arr2 (Hm V c)) (flushed6 V c) fun i => by
    have hN : cfg4.N = 25 := N_4
    have h0 : (i 0 : Nat) < 50000 := (i 0).isLt
    have h1 : (i 1 : Nat) < 32 := (i 1).isLt
    obtain ⟨t, ht⟩ : ∃ t : Fin cfg4.N, t.val = (i 0 : Nat) / 2000 := ⟨⟨(i 0 : Nat) / 2000, by rw [hN]; omega⟩, rfl⟩
    refine ⟨t, flush4_6 t, ?_⟩
    show i ∈ ((View.whole main_v60_0).slice (win4_6.rect t)).set
    rw [View.set_slice_whole, Rect.mem_set_unit]
    intro a
    match a with
    | ⟨0, _⟩ => show win4_6.index t 0 * 2000 ≤ (i 0 : Nat) ∧ (i 0 : Nat) < win4_6.index t 0 * 2000 + 2000
                rw [(idx_rows t).2.2.2.2.1, ht]; omega
    | ⟨1, _⟩ => show win4_6.index t 1 * 32 ≤ (i 1 : Nat) ∧ (i 1 : Nat) < win4_6.index t 1 * 32 + 32
                rw [(idx_rows t).2.2.2.2.2]; omega

/-- The last point writes the first accumulator back: the zero word plus all 25 block sums, which is the zero word
    plus the sum over all 50000 rows. -/
theorem flushed7 (t : Fin cfg4.N) (hf : (cfg4.win 7).flush t = true) :
    (dat4 V c).flushed 7 t
      = ((cfg4.win 7).blk t).view.read (Elt Ideal) (fun i : (⟨2, ![1, 32]⟩ : Shape).Idx => csum (Hm V c) ⟨(i 1).val, idx2_lt1 i⟩) := by
  have hN : cfg4.N = 25 := N_4
  have h24 : t.val + 1 = 25 := by have := (flush4_7 t).mp hf; have := t.isLt; omega
  show (cfg4.win 7).cut (grid4.coords t) ((dat4 V c).after 7 t) = _
  rw [after4_7]
  funext y
  obtain ⟨a, q, rfl⟩ : ∃ (a : Fin 1) (q : Fin 32), y = ix2 a q := ⟨y 0, y 1, eq_ix2 y⟩
  obtain rfl : a = 0 := Subsingleton.elim _ _
  rw [View.read_apply]
  show (outsAt4 V c t.val t.isLt).2.1 (ix2 (0 : Fin 1) q) = csum (Hm V c) _
  refine ((acc_eq V c t.val t.isLt q).1).trans ?_
  rw [h24, bsum_total]
  refine congrArg (csum (Hm V c)) (Fin.ext ?_)
  show q.val = win4_7.index t 1 * 32 + 1 * q.val
  rw [(idx_whole t).2.2.2.2.1.2]; omega

/-- The second output array holds the column sums, accumulated over the row blocks. -/
theorem s_eq : (dat4 (F := Ideal) V c).arrAt 7 cfg4.N = fun i : (⟨2, ![1, 32]⟩ : Shape).Idx => csum (Hm V c) ⟨(i 1).val, idx2_lt1 i⟩ :=
  (dat4 V c).arrAt_eq_of_cover 7 (fun i : (⟨2, ![1, 32]⟩ : Shape).Idx => csum (Hm V c) ⟨(i 1).val, idx2_lt1 i⟩) (flushed7 V c) fun i => by
    have hN : cfg4.N = 25 := N_4
    have h0 : (i 0 : Nat) < 1 := (i 0).isLt
    have h1 : (i 1 : Nat) < 32 := (i 1).isLt
    obtain ⟨t, ht⟩ : ∃ t : Fin cfg4.N, t.val = 24 := ⟨⟨24, by rw [hN]; omega⟩, rfl⟩
    refine ⟨t, (flush4_7 t).mpr (by rw [ht]), ?_⟩
    show i ∈ ((View.whole main_v60_1).slice (win4_7.rect t)).set
    rw [View.set_slice_whole, Rect.mem_set_unit]
    intro a
    match a with
    | ⟨0, _⟩ => show win4_7.index t 0 * 1 ≤ (i 0 : Nat) ∧ (i 0 : Nat) < win4_7.index t 0 * 1 + 1
                rw [(idx_whole t).2.2.2.2.1.1]; omega
    | ⟨1, _⟩ => show win4_7.index t 1 * 32 ≤ (i 1 : Nat) ∧ (i 1 : Nat) < win4_7.index t 1 * 32 + 32
                rw [(idx_whole t).2.2.2.2.1.2]; omega

/-- The last point writes the second accumulator back: the same for the squares. -/
theorem flushed8 (t : Fin cfg4.N) (hf : (cfg4.win 8).flush t = true) :
    (dat4 V c).flushed 8 t
      = ((cfg4.win 8).blk t).view.read (Elt Ideal) (fun i : (⟨2, ![1, 32]⟩ : Shape).Idx => csum (sqm (Hm V c)) ⟨(i 1).val, idx2_lt1 i⟩) := by
  have hN : cfg4.N = 25 := N_4
  have h24 : t.val + 1 = 25 := by have := (flush4_8 t).mp hf; have := t.isLt; omega
  show (cfg4.win 8).cut (grid4.coords t) ((dat4 V c).after 8 t) = _
  rw [after4_8]
  funext y
  obtain ⟨a, q, rfl⟩ : ∃ (a : Fin 1) (q : Fin 32), y = ix2 a q := ⟨y 0, y 1, eq_ix2 y⟩
  obtain rfl : a = 0 := Subsingleton.elim _ _
  rw [View.read_apply]
  show (outsAt4 V c t.val t.isLt).2.2 (ix2 (0 : Fin 1) q) = csum (sqm (Hm V c)) _
  refine ((acc_eq V c t.val t.isLt q).2).trans ?_
  rw [h24, bsum_total]
  refine congrArg (csum (sqm (Hm V c))) (Fin.ext ?_)
  show q.val = win4_8.index t 1 * 32 + 1 * q.val
  rw [(idx_whole t).2.2.2.2.2.2]; omega

/-- The third output array holds the column sums of the squares. -/
theorem q_eq : (dat4 (F := Ideal) V c).arrAt 8 cfg4.N = fun i : (⟨2, ![1, 32]⟩ : Shape).Idx => csum (sqm (Hm V c)) ⟨(i 1).val, idx2_lt1 i⟩ :=
  (dat4 V c).arrAt_eq_of_cover 8 (fun i : (⟨2, ![1, 32]⟩ : Shape).Idx => csum (sqm (Hm V c)) ⟨(i 1).val, idx2_lt1 i⟩) (flushed8 V c) fun i => by
    have hN : cfg4.N = 25 := N_4
    have h0 : (i 0 : Nat) < 1 := (i 0).isLt
    have h1 : (i 1 : Nat) < 32 := (i 1).isLt
    obtain ⟨t, ht⟩ : ∃ t : Fin cfg4.N, t.val = 24 := ⟨⟨24, by rw [hN]; omega⟩, rfl⟩
    refine ⟨t, (flush4_8 t).mpr (by rw [ht]), ?_⟩
    show i ∈ ((View.whole main_v60_2).slice (win4_8.rect t)).set
    rw [View.set_slice_whole, Rect.mem_set_unit]
    intro a
    match a with
    | ⟨0, _⟩ => show win4_8.index t 0 * 1 ≤ (i 0 : Nat) ∧ (i 0 : Nat) < win4_8.index t 0 * 1 + 1
                rw [(idx_whole t).2.2.2.2.2.1]; omega
    | ⟨1, _⟩ => show win4_8.index t 1 * 32 ≤ (i 1 : Nat) ∧ (i 1 : Nat) < win4_8.index t 1 * 32 + 32
                rw [(idx_whole t).2.2.2.2.2.2]; omega

end Cert.KReg4

end
-- ==== Proof.KReg5.lean ====
import proofs.«135204_j17832704213197_1_alg».proof.Proof.Gen.KernelIdeal.Frame
import proofs.«135204_j17832704213197_1_alg».proof.Proof.GinSpec
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KReg5

open Cert.KernelIdeal Cert.KernelIdeal.Gen Cert.Gin

variable (V : (c : Dev nD) → (b : Ref sig .tc) → Buf (Elt Ideal) ((c : Thread nD τ).loc b)) (c : Dev nD)

/-- The offsets of an access to a whole block are zero on both axes. -/
theorem hz : (![0, 0] : Fin 2 → Nat) = fun _ => 0 := funext fun a => by fin_cases a <;> rfl

/-- The body's value at row `p`, column `q` of a block: the feature entry minus the mean row's entry, times the
    reciprocal square root of the variance row's entry plus epsilon, times the scale row's entry, plus the shift
    row's entry. The four rows are `[1, 32]` arrays, read at column `q` whatever the row `p`. -/
theorem pay_apply (h : Vec Ideal S2000x32 .f32) (mu va g b : Vec Ideal S1x32 .f32) (p : Fin 2000) (q : Fin 32) :
    k5_pay1 (F := Ideal) va h mu g b (ix2 p q)
      = (h (ix2 p q) - mu (ix2 (0 : Fin 1) q)) * Ideal.rsqrt (va (ix2 (0 : Fin 1) q) + eps) * g (ix2 (0 : Fin 1) q)
        + b (ix2 (0 : Fin 1) q) := by
  unfold k5_pay1
  simp only [shapeCast_self]
  show (h (ix2 p q) - broadcastTo S2000x32 mu _ (ix2 p q))
        * broadcastTo S2000x32 (rsqrt (F := Ideal) (addf va (broadcast S1x32 (Scalar.ofBits .f32 0x3727C5AC#32)))) _ (ix2 p q)
        * broadcastTo S2000x32 g _ (ix2 p q)
        + broadcastTo S2000x32 b _ (ix2 p q) = _
  rw [broadcastTo_1b_ab_apply, broadcastTo_1b_ab_apply, broadcastTo_1b_ab_apply, broadcastTo_1b_ab_apply]
  rfl

/-- The body's value on a block, read at the block index `j`, is the normalisation of an array `A` by rows
    `M1 … M4` at the array index `i`, as soon as the block's feature entry at `j` is `A`'s at `i`, `i` and `j` have
    the same column, and the block's four rows are `M1 … M4`. -/
theorem pay_eq_norm (x0 : Vec Ideal S2000x32 .f32) (x1 x2 x3 x4 : Vec Ideal S1x32 .f32)
    (A : S50000x32.Idx → EReal) (M1 M2 M3 M4 : S1x32.Idx → EReal)
    (j : S2000x32.Idx) (i : S50000x32.Idx) (hi1 : (i 1).val = (j 1).val)
    (h0 : x0 j = A i)
    (h1 : ∀ q : Fin 32, x1 (ix2 (0 : Fin 1) q) = M1 (ix2 (0 : Fin 1) q))
    (h2 : ∀ q : Fin 32, x2 (ix2 (0 : Fin 1) q) = M2 (ix2 (0 : Fin 1) q))
    (h3 : ∀ q : Fin 32, x3 (ix2 (0 : Fin 1) q) = M3 (ix2 (0 : Fin 1) q))
    (h4 : ∀ q : Fin 32, x4 (ix2 (0 : Fin 1) q) = M4 (ix2 (0 : Fin 1) q)) :
    k5_pay1 (F := Ideal) x2 x0 x1 x3 x4 j
      = arr2 (norm (mat2 (M := 50000) (N := 32) A) (row2 (N := 32) M1) (row2 (N := 32) M2)
        (row2 (N := 32) M3) (row2 (N := 32) M4)) i := by
  obtain ⟨p, q, rfl⟩ : ∃ (p : Fin 2000) (q : Fin 32), j = ix2 p q := ⟨j 0, j 1, eq_ix2 j⟩
  rw [pay_apply, h0, h1, h2, h3, h4]
  have e1 : (⟨(i 1).val, idx2_lt1 i⟩ : Fin 32) = q := Fin.ext hi1
  show _ = (A (ix2 ⟨(i 0).val, idx2_lt0 i⟩ ⟨(i 1).val, idx2_lt1 i⟩) - M1 (ix2 (0 : Fin 1) ⟨(i 1).val, idx2_lt1 i⟩))
      * Ideal.rsqrt (M2 (ix2 (0 : Fin 1) ⟨(i 1).val, idx2_lt1 i⟩) + eps) * M3 (ix2 (0 : Fin 1) ⟨(i 1).val, idx2_lt1 i⟩)
      + M4 (ix2 (0 : Fin 1) ⟨(i 1).val, idx2_lt1 i⟩)
  have e0 : ix2 (⟨(i 0).val, idx2_lt0 i⟩ : Fin 50000) (⟨(i 1).val, idx2_lt1 i⟩ : Fin 32) = i := (eq_ix2 i).symm
  rw [e0, e1]

/-- The block index of each window at each of the 25 points: the feature window and the output window sit at row
    block `t`, column block 0; the four row windows at block (0, 0) throughout. -/
theorem idx_facts : ∀ t : Fin cfg5.N,
    (win5_0.index t (0 : Fin 2) = t.val ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = t.val ∧ win5_5.index t (1 : Fin 2) = 0) :=
  (by decide +kernel : ∀ t : Fin grid5.N, _)

/-- Entry `x` of the feature window's block at point `t` is the feature array's entry `2000 t` rows further down. -/
theorem feat_blk (t : Fin cfg5.N) (x : S2000x32.Idx) (k : S50000x32.Idx)
    (hk0 : (k 0).val = 2000 * t.val + (x 0).val) (hk1 : (k 1).val = (x 1).val) :
    (iblk5 (F := Ideal) V c 0 t : Vec Ideal S2000x32 .f32) x = (V c main_v60_0 : S50000x32.Idx → EReal) k := by
  obtain ⟨⟨e00, e01⟩, ⟨e10, e11⟩, ⟨e20, e21⟩, ⟨e30, e31⟩, ⟨e40, e41⟩, ⟨e50, e51⟩⟩ := idx_facts t
  unfold iblk5
  rw [View.read_apply]
  show V c main_v60_0 _ = V c main_v60_0 _
  refine congrArg _ (funext fun a => Fin.ext ?_)
  match a with
  | ⟨0, _⟩ => show win5_0.index t (0 : Fin 2) * 2000 + 1 * (x 0).val = (k 0).val; rw [e00, hk0]; omega
  | ⟨1, _⟩ => show win5_0.index t (1 : Fin 2) * 32 + 1 * (x 1).val = (k 1).val; rw [e01, hk1]; omega

/-- The mean window's block at any point is the mean row itself: its block index is (0, 0) at every point. -/
theorem row_blk1 (t : Fin cfg5.N) (q : Fin 32) :
    (iblk5 (F := Ideal) V c 1 t : Vec Ideal S1x32 .f32) (ix2 (0 : Fin 1) q)
      = (V c main_v62 : S1x32.Idx → EReal) (ix2 (0 : Fin 1) q) := by
  obtain ⟨⟨e00, e01⟩, ⟨e10, e11⟩, ⟨e20, e21⟩, ⟨e30, e31⟩, ⟨e40, e41⟩, ⟨e50, e51⟩⟩ := idx_facts t
  unfold iblk5
  rw [View.read_apply]
  show V c main_v62 _ = V c main_v62 _
  refine congrArg _ (funext fun a => Fin.ext ?_)
  match a with
  | ⟨0, _⟩ => show win5_1.index t (0 : Fin 2) * 1 + 1 * 0 = 0; rw [e10]
  | ⟨1, _⟩ => show win5_1.index t (1 : Fin 2) * 32 + 1 * q.val = q.val; rw [e11]; omega

/-- The variance window's block at any point is the variance row itself: its block index is (0, 0) at every point. -/
theorem row_blk2 (t : Fin cfg5.N) (q : Fin 32) :
    (iblk5 (F := Ideal) V c 2 t : Vec Ideal S1x32 .f32) (ix2 (0 : Fin 1) q)
      = (V c main_v66 : S1x32.Idx → EReal) (ix2 (0 : Fin 1) q) := by
  obtain ⟨⟨e00, e01⟩, ⟨e10, e11⟩, ⟨e20, e21⟩, ⟨e30, e31⟩, ⟨e40, e41⟩, ⟨e50, e51⟩⟩ := idx_facts t
  unfold iblk5
  rw [View.read_apply]
  show V c main_v66 _ = V c main_v66 _
  refine congrArg _ (funext fun a => Fin.ext ?_)
  match a with
  | ⟨0, _⟩ => show win5_2.index t (0 : Fin 2) * 1 + 1 * 0 = 0; rw [e20]
  | ⟨1, _⟩ => show win5_2.index t (1 : Fin 2) * 32 + 1 * q.val = q.val; rw [e21]; omega

/-- The scale window's block at any point is the scale row itself: its block index is (0, 0) at every point. -/
theorem row_blk3 (t : Fin cfg5.N) (q : Fin 32) :
    (iblk5 (F := Ideal) V c 3 t : Vec Ideal S1x32 .f32) (ix2 (0 : Fin 1) q)
      = (V c main_v67 : S1x32.Idx → EReal) (ix2 (0 : Fin 1) q) := by
  obtain ⟨⟨e00, e01⟩, ⟨e10, e11⟩, ⟨e20, e21⟩, ⟨e30, e31⟩, ⟨e40, e41⟩, ⟨e50, e51⟩⟩ := idx_facts t
  unfold iblk5
  rw [View.read_apply]
  show V c main_v67 _ = V c main_v67 _
  refine congrArg _ (funext fun a => Fin.ext ?_)
  match a with
  | ⟨0, _⟩ => show win5_3.index t (0 : Fin 2) * 1 + 1 * 0 = 0; rw [e30]
  | ⟨1, _⟩ => show win5_3.index t (1 : Fin 2) * 32 + 1 * q.val = q.val; rw [e31]; omega

/-- The shift window's block at any point is the shift row itself: its block index is (0, 0) at every point. -/
theorem row_blk4 (t : Fin cfg5.N) (q : Fin 32) :
    (iblk5 (F := Ideal) V c 4 t : Vec Ideal S1x32 .f32) (ix2 (0 : Fin 1) q)
      = (V c main_v68 : S1x32.Idx → EReal) (ix2 (0 : Fin 1) q) := by
  obtain ⟨⟨e00, e01⟩, ⟨e10, e11⟩, ⟨e20, e21⟩, ⟨e30, e31⟩, ⟨e40, e41⟩, ⟨e50, e51⟩⟩ := idx_facts t
  unfold iblk5
  rw [View.read_apply]
  show V c main_v68 _ = V c main_v68 _
  refine congrArg _ (funext fun a => Fin.ext ?_)
  match a with
  | ⟨0, _⟩ => show win5_4.index t (0 : Fin 2) * 1 + 1 * 0 = 0; rw [e40]
  | ⟨1, _⟩ => show win5_4.index t (1 : Fin 2) * 32 + 1 * q.val = q.val; rw [e41]; omega

/-- The normalisation of the whole feature array by the mean, variance, scale and shift rows the region finds. -/
abbrev G : S50000x32.Idx → EReal :=
  arr2 (norm (mat2 (M := 50000) (N := 32) (V c main_v60_0)) (row2 (N := 32) (V c main_v62)) (row2 (N := 32) (V c main_v66))
        (row2 (N := 32) (V c main_v67)) (row2 (N := 32) (V c main_v68)))

/-- What point `t` writes back is rows `2000 t … 2000 t + 1999` of that normalisation. -/
theorem flushed_eq (t : Fin cfg5.N) :
    (dat5 (F := Ideal) V c).flushed 5 t = ((cfg5.win 5).blk t).view.read (Elt Ideal) (G V c) := by
  show (cfg5.win 5).cut (grid5.coords t) ((dat5 (F := Ideal) V c).after 5 t) = _
  rw [after5_5]
  unfold out5_5
  rw [View.canon_unit_zero hz]
  simp only [View.ld_unit_zero (S := S2000x32) hz, View.ld_unit_zero (S := S1x32) hz]
  obtain ⟨⟨e00, e01⟩, ⟨e10, e11⟩, ⟨e20, e21⟩, ⟨e30, e31⟩, ⟨e40, e41⟩, ⟨e50, e51⟩⟩ := idx_facts t
  funext j
  rw [View.read_apply]
  show k5_pay1 (F := Ideal) (iblk5 V c 2 t) (iblk5 V c 0 t) (iblk5 V c 1 t) (iblk5 V c 3 t) (iblk5 V c 4 t) j
    = G V c (((cfg5.win 5).blk t).view.emb j)
  refine pay_eq_norm _ _ _ _ _ _ _ _ _ _ j (((cfg5.win 5).blk t).view.emb j) ?_ (feat_blk V c t j _ ?_ ?_)
    (row_blk1 V c t) (row_blk2 V c t) (row_blk3 V c t) (row_blk4 V c t)
  · show win5_5.index t (1 : Fin 2) * 32 + 1 * (j 1).val = (j 1).val; rw [e51]; omega
  · show win5_5.index t (0 : Fin 2) * 2000 + 1 * (j 0).val = 2000 * t.val + (j 0).val; rw [e50]; omega
  · show win5_5.index t (1 : Fin 2) * 32 + 1 * (j 1).val = (j 1).val; rw [e51]; omega

/-- An index of the output array is in point `t`'s block iff on each axis it lies in the block's range. -/
theorem mem_blk (t : Fin cfg5.N) (i : S50000x32.Idx) :
    i ∈ ((cfg5.win 5).blk t).view.set ↔ ∀ a : Fin 2, win5_5.index t a * S2000x32.size a ≤ (i a).val
      ∧ (i a).val < win5_5.index t a * S2000x32.size a + S2000x32.size a := by
  show i ∈ ((View.whole main_v69).slice (win5_5.rect t)).set ↔ _
  rw [View.set_slice_whole, Rect.mem_set_unit]
  exact Iff.rfl

/-- Every index of the output array is in some point's block: row `r` is in the block of point `r / 2000`. -/
theorem cover (i : S50000x32.Idx) :
    ∃ t : Fin cfg5.N, (cfg5.win 5).flush t = true ∧ i ∈ ((cfg5.win 5).blk t).view.set := by
  have hi0 : (i 0).val < 50000 := idx2_lt0 i
  have hi1 : (i 1).val < 32 := idx2_lt1 i
  have hN : cfg5.N = 25 := N_5
  obtain ⟨t, ht⟩ : ∃ t : Fin cfg5.N, t.val = (i 0).val / 2000 := ⟨⟨(i 0).val / 2000, by omega⟩, rfl⟩
  obtain ⟨⟨e00, e01⟩, ⟨e10, e11⟩, ⟨e20, e21⟩, ⟨e30, e31⟩, ⟨e40, e41⟩, ⟨e50, e51⟩⟩ := idx_facts t
  refine ⟨t, flush5_5 t, ?_⟩
  rw [mem_blk]
  intro a
  match a with
  | ⟨0, _⟩ =>
    show win5_5.index t (0 : Fin 2) * 2000 ≤ (i 0).val ∧ (i 0).val < win5_5.index t (0 : Fin 2) * 2000 + 2000
    rw [e50, ht]; omega
  | ⟨1, _⟩ =>
    show win5_5.index t (1 : Fin 2) * 32 ≤ (i 1).val ∧ (i 1).val < win5_5.index t (1 : Fin 2) * 32 + 32
    rw [e51]; omega

/-- After the last grid point the output array holds the normalisation of the feature array by the mean row, variance row,
    scale row and shift row the region finds, row block by row block. -/
theorem out_eq : (dat5 (F := Ideal) V c).arrAt 5 cfg5.N
    = arr2 (norm (mat2 (M := 50000) (N := 32) (V c main_v60_0)) (row2 (N := 32) (V c main_v62)) (row2 (N := 32) (V c main_v66))
        (row2 (N := 32) (V c main_v67)) (row2 (N := 32) (V c main_v68))) :=
  (dat5 (F := Ideal) V c).arrAt_eq_of_cover 5 (G V c) (fun t _ => flushed_eq V c t) cover

end Cert.KReg5

end
-- ==== Proof.KChainL3.lean ====
/-
  Layer 3 of the graph network as the kernel's run computes it: the host's gather and scatter-add, the perceptron's region,
  the host's column mean and variance, and the normalisation's region, composed from the layer's first boundary to its last.
-/
import proofs.«135204_j17832704213197_1_alg».proof.Proof.Gen.KernelIdeal.Frame
import proofs.«135204_j17832704213197_1_alg».proof.Proof.GinSpec
import Idealize.ShloMosaic.Lib.Pipeline.Value
import Idealize.ShloMosaic.Lib.ValueLayout
import Idealize.ShloMosaic.Lib.IdealHost
import proofs.«135204_j17832704213197_1_alg».proof.Proof.HostOps
import proofs.«135204_j17832704213197_1_alg».proof.Proof.HostOpsK
import proofs.«135204_j17832704213197_1_alg».proof.Proof.KReg4
import proofs.«135204_j17832704213197_1_alg».proof.Proof.KReg5
import proofs.«135204_j17832704213197_1_alg».proof.Proof.KChainL1

noncomputable section

open Idealize.ShloMosaic Idealize.ShloMosaic.TcCoe Idealize.SL.Sem Idealize.ShloMosaic.ValueIdx
open Idealize.ShloMosaic.Pipeline (Dat)

namespace Cert.KChainL3

open Cert.KernelIdeal Cert.KernelIdeal.Gen Cert.Gin Cert.KChainL1

/-! ## The two host stretches of this layer, read at the buffers they write, from any contents `V` -/

section Host
variable (V : Valuation τ sig (Elt Ideal))

set_option maxHeartbeats 1000000 in
theorem hA_agg : StableHlo.after hostOps4 V (Proc.devRef .tc main_v57)
    = Host.scatterAdd scatter_S50000x64_S800000x1_S800000x64_1_0_0_1
        (broadcastInDim S50000x64 ![] bcast_S_S50000x64 (constant (F := Ideal) S_ .f32 0x00000000#32))
        (colI (V (Proc.devRef .tc main_v3)))
        (Host.gather gather_S50000x64_S800000x1_S800000x64_1_0_n_n_0_1_164 (V (Proc.devRef .tc main_v47)) (wrapI (V (Proc.devRef .tc main_v1)))) := by
  after_results <;> rfl
theorem hA_ba : StableHlo.after hostOps4 V (Proc.devRef .tc main_v58) = shapeCast S1x32 (V (Proc.devRef .tc main_arg16)) shapeCasts_S32_S1x32 := by
  after_results <;> rfl
theorem hA_bb : StableHlo.after hostOps4 V (Proc.devRef .tc main_v59) = shapeCast S1x32 (V (Proc.devRef .tc main_arg18)) shapeCasts_S32_S1x32 := by
  after_results <;> rfl
theorem hB_mu : StableHlo.after hostOps5 V (Proc.devRef .tc main_v62)
    = Host.divf (V (Proc.devRef .tc main_v60_1)) (broadcastInDim S1x32 ![] bcast_S_S1x32 (constant (F := Ideal) S_ .f32 0x47435000#32)) := by
  after_results <;> rfl
theorem hB_va : StableHlo.after hostOps5 V (Proc.devRef .tc main_v66)
    = subf (Host.divf (V (Proc.devRef .tc main_v60_2)) (broadcastInDim S1x32 ![] bcast_S_S1x32 (constant (F := Ideal) S_ .f32 0x47435000#32)))
        (mulf (Host.divf (V (Proc.devRef .tc main_v60_1)) (broadcastInDim S1x32 ![] bcast_S_S1x32 (constant (F := Ideal) S_ .f32 0x47435000#32)))
          (Host.divf (V (Proc.devRef .tc main_v60_1)) (broadcastInDim S1x32 ![] bcast_S_S1x32 (constant (F := Ideal) S_ .f32 0x47435000#32)))) := by
  after_results <;> rfl
theorem hB_g : StableHlo.after hostOps5 V (Proc.devRef .tc main_v67) = shapeCast S1x32 (V (Proc.devRef .tc main_arg19)) shapeCasts_S32_S1x32 := by
  after_results <;> rfl
theorem hB_be : StableHlo.after hostOps5 V (Proc.devRef .tc main_v68) = shapeCast S1x32 (V (Proc.devRef .tc main_arg20)) shapeCasts_S32_S1x32 := by
  after_results <;> rfl

end Host

/-! ## The chain of this layer -/

section Chain
variable (m : (ℓ : Loc nD τ sig) → Buf (Elt Ideal) ℓ) (ρ : Dev nD → PrngReg) (c : Dev nD)

/-- After the first host stretch the neighbour-sum buffer holds the aggregation of the input matrix. -/
theorem agg_at (X : Mat 50000 64) (hX : W8 m ρ c (Proc.devRef .tc main_v47) = arr2 X) :
    W9 m ρ c (Proc.devRef .tc main_v57) = arr2 (agg (by decide) (sI (m ((c : Thread nD τ).loc main_arg1))) (dI (m ((c : Thread nD τ).loc main_arg1))) X) := by
  refine (hA_agg (W8 m ρ c)).trans ?_
  rw [hX, v1_at8 m ρ c, v3_at8 m ρ c]
  exact Cert.HostOps.agg_eq (by decide) gather_S50000x64_S800000x1_S800000x64_1_0_n_n_0_1_164.wf scatter_S50000x64_S800000x1_S800000x64_1_0_0_1.wf bcast_S_S50000x64 (arr2 X) _ _

/-- The arrays the perceptron's region finds. -/
theorem x_in (X : Mat 50000 64) (hX : W8 m ρ c (Proc.devRef .tc main_v47) = arr2 X) : V9 m ρ c main_v47 = arr2 X :=
  (keepH4 (W8 m ρ c) main_v47 (by decide)).trans hX
theorem wa_in : V9 m ρ c main_arg15 = (m ((c : Thread nD τ).loc main_arg15)) := ((keepH4 (W8 m ρ c) main_arg15 (by decide)).trans ((W8_of_ne m ρ c main_arg15 (by decide)).trans ((keepH3 (W6 m ρ c) main_arg15 (by decide)).trans ((W6_of_ne m ρ c main_arg15 (by decide)).trans ((keepH2 (W4 m ρ c) main_arg15 (by decide)).trans ((W4_of_ne m ρ c main_arg15 (by decide)).trans ((keepH1 (W2 m ρ c) main_arg15 (by decide)).trans ((W2_of_ne m ρ c main_arg15 (by decide)).trans (keepH0 (W0 m ρ c) main_arg15 (by decide))))))))))
theorem wb_in : V9 m ρ c main_arg17 = (m ((c : Thread nD τ).loc main_arg17)) := ((keepH4 (W8 m ρ c) main_arg17 (by decide)).trans ((W8_of_ne m ρ c main_arg17 (by decide)).trans ((keepH3 (W6 m ρ c) main_arg17 (by decide)).trans ((W6_of_ne m ρ c main_arg17 (by decide)).trans ((keepH2 (W4 m ρ c) main_arg17 (by decide)).trans ((W4_of_ne m ρ c main_arg17 (by decide)).trans ((keepH1 (W2 m ρ c) main_arg17 (by decide)).trans ((W2_of_ne m ρ c main_arg17 (by decide)).trans (keepH0 (W0 m ρ c) main_arg17 (by decide))))))))))
theorem ba_in : row2 (N := 32) (V9 m ρ c main_v58) = row1 (m ((c : Thread nD τ).loc main_arg16)) := by
  refine (congrArg (row2 (N := 32)) ((hA_ba (W8 m ρ c)).trans ?_)).trans (Cert.HostOps.row2_reshape shapeCasts_S32_S1x32 (m ((c : Thread nD τ).loc main_arg16)))
  rw [show W8 m ρ c (Proc.devRef .tc main_arg16) = (m ((c : Thread nD τ).loc main_arg16)) from ((W8_of_ne m ρ c main_arg16 (by decide)).trans ((keepH3 (W6 m ρ c) main_arg16 (by decide)).trans ((W6_of_ne m ρ c main_arg16 (by decide)).trans ((keepH2 (W4 m ρ c) main_arg16 (by decide)).trans ((W4_of_ne m ρ c main_arg16 (by decide)).trans ((keepH1 (W2 m ρ c) main_arg16 (by decide)).trans ((W2_of_ne m ρ c main_arg16 (by decide)).trans (keepH0 (W0 m ρ c) main_arg16 (by decide)))))))))]
theorem bb_in : row2 (N := 32) (V9 m ρ c main_v59) = row1 (m ((c : Thread nD τ).loc main_arg18)) := by
  refine (congrArg (row2 (N := 32)) ((hA_bb (W8 m ρ c)).trans ?_)).trans (Cert.HostOps.row2_reshape shapeCasts_S32_S1x32 (m ((c : Thread nD τ).loc main_arg18)))
  rw [show W8 m ρ c (Proc.devRef .tc main_arg18) = (m ((c : Thread nD τ).loc main_arg18)) from ((W8_of_ne m ρ c main_arg18 (by decide)).trans ((keepH3 (W6 m ρ c) main_arg18 (by decide)).trans ((W6_of_ne m ρ c main_arg18 (by decide)).trans ((keepH2 (W4 m ρ c) main_arg18 (by decide)).trans ((W4_of_ne m ρ c main_arg18 (by decide)).trans ((keepH1 (W2 m ρ c) main_arg18 (by decide)).trans ((W2_of_ne m ρ c main_arg18 (by decide)).trans (keepH0 (W0 m ρ c) main_arg18 (by decide)))))))))]

/-- The perceptron's output on those arrays is the perceptron of the specification on the input matrix and its aggregation. -/
theorem hm_eq (X : Mat 50000 64) (hX : W8 m ρ c (Proc.devRef .tc main_v47) = arr2 X) :
    Cert.KReg4.Hm (V9 m ρ) c
      = mlp X (agg (by decide) (sI (m ((c : Thread nD τ).loc main_arg1))) (dI (m ((c : Thread nD τ).loc main_arg1))) X) (mat2 (M := 64) (N := 32) (m ((c : Thread nD τ).loc main_arg15))) (row1 (N := 32) (m ((c : Thread nD τ).loc main_arg16)))
          (mat2 (M := 32) (N := 32) (m ((c : Thread nD τ).loc main_arg17))) (row1 (N := 32) (m ((c : Thread nD τ).loc main_arg18))) :=
  mlp_of (x_in m ρ c X hX) (agg_at m ρ c X hX) (wa_in m ρ c) (ba_in m ρ c) (wb_in m ρ c) (bb_in m ρ c)

/-- What the perceptron's region leaves in its three output arrays. -/
theorem o0_at : W10 m ρ c (Proc.devRef .tc main_v60_0) = arr2 (Cert.KReg4.Hm (V9 m ρ) c) :=
  (W10_arr m ρ c 6).trans (Cert.KReg4.h_eq (V9 m ρ) c)
theorem o1_at : W10 m ρ c (Proc.devRef .tc main_v60_1) = fun i : (⟨2, ![1, 32]⟩ : Shape).Idx => csum (Cert.KReg4.Hm (V9 m ρ) c) ⟨(i 1).val, idx2_lt1 i⟩ :=
  (W10_arr m ρ c 7).trans (Cert.KReg4.s_eq (V9 m ρ) c)
theorem o2_at : W10 m ρ c (Proc.devRef .tc main_v60_2) = fun i : (⟨2, ![1, 32]⟩ : Shape).Idx => csum (sqm (Cert.KReg4.Hm (V9 m ρ) c)) ⟨(i 1).val, idx2_lt1 i⟩ :=
  (W10_arr m ρ c 8).trans (Cert.KReg4.q_eq (V9 m ρ) c)

/-- The arrays the normalisation's region finds: the feature array, the mean row, the variance row, the scale and shift rows. -/
theorem h_in : V11 m ρ c main_v60_0 = arr2 (Cert.KReg4.Hm (V9 m ρ) c) :=
  (keepH5 (W10 m ρ c) main_v60_0 (by decide)).trans (o0_at m ρ c)
theorem mu_in : row2 (N := 32) (V11 m ρ c main_v62) = mean (Cert.KReg4.Hm (V9 m ρ) c) :=
  (congrArg (row2 (N := 32)) (hB_mu (W10 m ρ c))).trans
    (Cert.HostOps.kmean_eq bcast_S_S1x32 (Cert.KReg4.Hm (V9 m ρ) c) _ (o1_at m ρ c))
theorem va_in : row2 (N := 32) (V11 m ρ c main_v66) = varK (Cert.KReg4.Hm (V9 m ρ) c) :=
  (congrArg (row2 (N := 32)) (hB_va (W10 m ρ c))).trans
    (Cert.HostOps.kvar_eq bcast_S_S1x32 (Cert.KReg4.Hm (V9 m ρ) c) _ _ (o1_at m ρ c) (o2_at m ρ c))
theorem g_in : row2 (N := 32) (V11 m ρ c main_v67) = row1 (m ((c : Thread nD τ).loc main_arg19)) := by
  refine (congrArg (row2 (N := 32)) ((hB_g (W10 m ρ c)).trans ?_)).trans (Cert.HostOps.row2_reshape shapeCasts_S32_S1x32 (m ((c : Thread nD τ).loc main_arg19)))
  rw [show W10 m ρ c (Proc.devRef .tc main_arg19) = (m ((c : Thread nD τ).loc main_arg19)) from ((W10_of_ne m ρ c main_arg19 (by decide)).trans ((keepH4 (W8 m ρ c) main_arg19 (by decide)).trans ((W8_of_ne m ρ c main_arg19 (by decide)).trans ((keepH3 (W6 m ρ c) main_arg19 (by decide)).trans ((W6_of_ne m ρ c main_arg19 (by decide)).trans ((keepH2 (W4 m ρ c) main_arg19 (by decide)).trans ((W4_of_ne m ρ c main_arg19 (by decide)).trans ((keepH1 (W2 m ρ c) main_arg19 (by decide)).trans ((W2_of_ne m ρ c main_arg19 (by decide)).trans (keepH0 (W0 m ρ c) main_arg19 (by decide)))))))))))]
theorem be_in : row2 (N := 32) (V11 m ρ c main_v68) = row1 (m ((c : Thread nD τ).loc main_arg20)) := by
  refine (congrArg (row2 (N := 32)) ((hB_be (W10 m ρ c)).trans ?_)).trans (Cert.HostOps.row2_reshape shapeCasts_S32_S1x32 (m ((c : Thread nD τ).loc main_arg20)))
  rw [show W10 m ρ c (Proc.devRef .tc main_arg20) = (m ((c : Thread nD τ).loc main_arg20)) from ((W10_of_ne m ρ c main_arg20 (by decide)).trans ((keepH4 (W8 m ρ c) main_arg20 (by decide)).trans ((W8_of_ne m ρ c main_arg20 (by decide)).trans ((keepH3 (W6 m ρ c) main_arg20 (by decide)).trans ((W6_of_ne m ρ c main_arg20 (by decide)).trans ((keepH2 (W4 m ρ c) main_arg20 (by decide)).trans ((W4_of_ne m ρ c main_arg20 (by decide)).trans ((keepH1 (W2 m ρ c) main_arg20 (by decide)).trans ((W2_of_ne m ρ c main_arg20 (by decide)).trans (keepH0 (W0 m ρ c) main_arg20 (by decide)))))))))))]

/-- The layer: from the input matrix at the layer's first boundary to the normalised output at its last. -/
theorem layer_at (X : Mat 50000 64) (hX : W8 m ρ c (Proc.devRef .tc main_v47) = arr2 X) :
    W12 m ρ c (Proc.devRef .tc main_v69)
      = arr2 (layer (fun Hm g b => bnK Hm g b) (by decide) (sI (m ((c : Thread nD τ).loc main_arg1))) (dI (m ((c : Thread nD τ).loc main_arg1))) X
          (mat2 (M := 64) (N := 32) (m ((c : Thread nD τ).loc main_arg15))) (row1 (N := 32) (m ((c : Thread nD τ).loc main_arg16)))
          (mat2 (M := 32) (N := 32) (m ((c : Thread nD τ).loc main_arg17))) (row1 (N := 32) (m ((c : Thread nD τ).loc main_arg18)))
          (row1 (N := 32) (m ((c : Thread nD τ).loc main_arg19))) (row1 (N := 32) (m ((c : Thread nD τ).loc main_arg20)))) := by
  refine (W12_arr m ρ c 5).trans ((Cert.KReg5.out_eq (V11 m ρ) c).trans (congrArg arr2 ?_))
  refine (norm_of (h_in m ρ c) (mu_in m ρ c) (va_in m ρ c) (g_in m ρ c) (be_in m ρ c)).trans ?_
  rw [hm_eq m ρ c X hX]
  rfl

end Chain

section Layer
variable (m : (ℓ : Loc nD τ sig) → Buf (Elt Ideal) ℓ) (ρ : Dev nD → PrngReg) (c : Dev nD)

/-- Layer 3: if the layer's input array holds a matrix, then after the layer's second region the output array holds the
    layer of the network on that matrix and the launch arrays. -/
theorem layer3 (X : Mat 50000 64) (h : W8 m ρ c (Proc.devRef .tc main_v47) = arr2 X) : W12 m ρ c (Proc.devRef .tc main_v69)
      = arr2 (layer (fun Hm g b => bnK Hm g b) (by decide) (sI (m ((c : Thread nD τ).loc main_arg1))) (dI (m ((c : Thread nD τ).loc main_arg1))) X
          (mat2 (M := 64) (N := 32) (m ((c : Thread nD τ).loc main_arg15))) (row1 (N := 32) (m ((c : Thread nD τ).loc main_arg16)))
          (mat2 (M := 32) (N := 32) (m ((c : Thread nD τ).loc main_arg17))) (row1 (N := 32) (m ((c : Thread nD τ).loc main_arg18)))
          (row1 (N := 32) (m ((c : Thread nD τ).loc main_arg19))) (row1 (N := 32) (m ((c : Thread nD τ).loc main_arg20)))) :=
  layer_at m ρ c X h

end Layer

end Cert.KChainL3

end
-- ==== Proof.KReg6.lean ====
/-
  The network's last region: one grid point, every window's block its whole array.

  The body loads the pooled rows P [1024, 32], three weight matrices and three bias rows [1, n], and stores
  ((relu (relu (P · W₁ + b₁) · W₂ + b₂)) · W₃ + b₃): each product runs into a zero accumulator, each bias row is
  repeated down the 1024 rows, and the rectifier is the maximum with the word of zero. Read at an entry (r, c) a
  product into zero is ∑ₖ A(r, k) · W(k, c), and narrowing the operands' format is the identity on extended reals,
  so the stored block is the head perceptron of the specification, entry by entry. No sum is reordered and no factor
  moved, so nothing here needs the entries finite.

  The grid has one point; at it every input block is read through zero offsets at the array's own sizes, so it is the
  array, and the output block written back covers the whole output array. Hence the output array after the region is
  the head perceptron of the seven argument arrays as the region finds them.
-/
import proofs.«135204_j17832704213197_1_alg».proof.Proof.Gen.KernelIdeal.Frame
import proofs.«135204_j17832704213197_1_alg».proof.Proof.GinSpec
import proofs.«135204_j17832704213197_1_alg».proof.Proof.LibPlainDot
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KReg6

open Cert.KernelIdeal Cert.KernelIdeal.Gen Cert.Gin

/-- The zero offsets of a whole-array rectangle, as the constant function. -/
theorem hz : (![0, 0] : Fin 2 → Nat) = fun _ => 0 := funext fun a => by fin_cases a <;> rfl

/-- One affine stage of the body at an entry: the product into a zero accumulator plus the bias row repeated down the
    rows is ∑ₖ A(r, k) · W(k, c) + b(c). -/
theorem affine_apply {M K N : Nat} (wf : DotDims.WF (⟨2, ![M, K]⟩ : Shape) ⟨2, ![K, N]⟩ ⟨2, ![M, N]⟩ [1] [0] [0] [1] [] [])
    (A : FVec Ideal ⟨2, ![M, K]⟩ .bf16) (W : FVec Ideal ⟨2, ![K, N]⟩ .bf16) (b : FVec Ideal ⟨2, ![1, N]⟩ .f32)
    (hs : (⟨2, ![1, N]⟩ : Shape).ShapeCasts ⟨2, ![1, N]⟩) (hb : (⟨2, ![1, N]⟩ : Shape).Broadcasts ⟨2, ![M, N]⟩) (r : Fin M) (c : Fin N) :
    addf (matmul (Cert.LibPlainDot.dims wf) none A W (constant ⟨2, ![M, N]⟩ .f32 0x00000000#32))
        (broadcastTo ⟨2, ![M, N]⟩ (shapeCast ⟨2, ![1, N]⟩ b hs) hb) (ix2 r c)
      = (∑ k : Fin K, A (ix2 r k) * W (ix2 k c)) + b (ix2 (0 : Fin 1) c) := by
  rw [shapeCast_self]
  refine congrArg₂ (· + ·) (Cert.LibPlainDot.matmul_zero_apply wf none A W r c) ?_
  refine broadcastTo_apply b hb (ix2 r c) (ix2 (0 : Fin 1) c) (fun a => ?_)
  match a with
  | ⟨0, _⟩ => rfl
  | ⟨1, _⟩ =>
    show c.val = if N = 1 then 0 else c.val
    have := c.isLt
    split <;> omega

/-- The body's stored value is the head perceptron of its seven loaded blocks: three affine stages, a rectifier after
    the first two; the narrowing of the products' operands is the identity on extended reals. -/
theorem pay_eq (x0 : Vec Ideal S1024x32 .f32) (x1 : Vec Ideal S32x16 .f32) (x2 : Vec Ideal S1x16 .f32)
    (x3 : Vec Ideal S16x8 .f32) (x4 : Vec Ideal S1x8 .f32) (x5 : Vec Ideal S8x2 .f32) (x6 : Vec Ideal S1x2 .f32) :
    k6_pay1 (F := Ideal) x0 x1 x2 x3 x4 x5 x6
      = arr2 (head (mat2 (M := 1024) (N := 32) x0) (mat2 (M := 32) (N := 16) x1) (row2 (N := 16) x2)
          (mat2 (M := 16) (N := 8) x3) (row2 (N := 8) x4) (mat2 (M := 8) (N := 2) x5) (row2 (N := 2) x6)) := by
  funext j
  obtain ⟨r, q, rfl⟩ : ∃ (r : Fin 1024) (q : Fin 2), j = ix2 r q := ⟨j 0, j 1, eq_ix2 j⟩
  unfold k6_pay1
  refine (affine_apply Facts₀.dot_S1024x8_S8x2_S1024x2_1_0_0_1_n_n_wf _ _ x6 _ _ r q).trans ?_
  refine congrArg₂ (· + ·) (Finset.sum_congr rfl fun k _ => congrArg₂ (· * ·) ?_ rfl) rfl
  refine congrArg (fun y => max y z) ((affine_apply Facts₀.dot_S1024x16_S16x8_S1024x8_1_0_0_1_n_n_wf _ _ x4 _ _ r k).trans ?_)
  refine congrArg₂ (· + ·) (Finset.sum_congr rfl fun i _ => congrArg₂ (· * ·) ?_ rfl) rfl
  refine congrArg (fun y => max y z) ((affine_apply Facts₀.dot_S1024x32_S32x16_S1024x16_1_0_0_1_n_n_wf _ _ x2 _ _ r i).trans ?_)
  rw [shapeCast_self]
  rfl

variable (V : (c : Dev nD) → (b : Ref sig .tc) → Buf (Elt Ideal) ((c : Thread nD τ).loc b)) (c : Dev nD)

/-- The head perceptron of the region's seven argument arrays, as contents of the output array. -/
abbrev result : Buf (Elt Ideal) ((c : Thread nD τ).loc main_v76) :=
  arr2 (head (mat2 (M := 1024) (N := 32) (V c main_v72)) (mat2 (M := 32) (N := 16) (V c main_arg21)) (row2 (N := 16) (V c main_v73))
    (mat2 (M := 16) (N := 8) (V c main_arg23)) (row2 (N := 8) (V c main_v74)) (mat2 (M := 8) (N := 2) (V c main_arg25)) (row2 (N := 2) (V c main_v75)))

/-! ## At the one point each input block is its array: zero offsets, the array's own sizes -/

theorem blk0 : iblk6 (F := Ideal) V c 0 t6_0 = V c main_v72 := by
  have hz' : (fun a => win6_0.index t6_0 a * main_v72.ty.shape.size a) = fun _ => 0 := funext fun a => by fin_cases a <;> decide
  exact Memref.read_access_unit_zero (Elt Ideal) main_v72 hz' (fun a => by rw [congrFun hz' a]; simp) (V c main_v72)

theorem blk1 : iblk6 (F := Ideal) V c 1 t6_0 = V c main_arg21 := by
  have hz' : (fun a => win6_1.index t6_0 a * main_arg21.ty.shape.size a) = fun _ => 0 := funext fun a => by fin_cases a <;> decide
  exact Memref.read_access_unit_zero (Elt Ideal) main_arg21 hz' (fun a => by rw [congrFun hz' a]; simp) (V c main_arg21)

theorem blk2 : iblk6 (F := Ideal) V c 2 t6_0 = V c main_v73 := by
  have hz' : (fun a => win6_2.index t6_0 a * main_v73.ty.shape.size a) = fun _ => 0 := funext fun a => by fin_cases a <;> decide
  exact Memref.read_access_unit_zero (Elt Ideal) main_v73 hz' (fun a => by rw [congrFun hz' a]; simp) (V c main_v73)

theorem blk3 : iblk6 (F := Ideal) V c 3 t6_0 = V c main_arg23 := by
  have hz' : (fun a => win6_3.index t6_0 a * main_arg23.ty.shape.size a) = fun _ => 0 := funext fun a => by fin_cases a <;> decide
  exact Memref.read_access_unit_zero (Elt Ideal) main_arg23 hz' (fun a => by rw [congrFun hz' a]; simp) (V c main_arg23)

theorem blk4 : iblk6 (F := Ideal) V c 4 t6_0 = V c main_v74 := by
  have hz' : (fun a => win6_4.index t6_0 a * main_v74.ty.shape.size a) = fun _ => 0 := funext fun a => by fin_cases a <;> decide
  exact Memref.read_access_unit_zero (Elt Ideal) main_v74 hz' (fun a => by rw [congrFun hz' a]; simp) (V c main_v74)

theorem blk5 : iblk6 (F := Ideal) V c 5 t6_0 = V c main_arg25 := by
  have hz' : (fun a => win6_5.index t6_0 a * main_arg25.ty.shape.size a) = fun _ => 0 := funext fun a => by fin_cases a <;> decide
  exact Memref.read_access_unit_zero (Elt Ideal) main_arg25 hz' (fun a => by rw [congrFun hz' a]; simp) (V c main_arg25)

theorem blk6 : iblk6 (F := Ideal) V c 6 t6_0 = V c main_v75 := by
  have hz' : (fun a => win6_6.index t6_0 a * main_v75.ty.shape.size a) = fun _ => 0 := funext fun a => by fin_cases a <;> decide
  exact Memref.read_access_unit_zero (Elt Ideal) main_v75 hz' (fun a => by rw [congrFun hz' a]; simp) (V c main_v75)

/-- What the body leaves in the output's buffer at the one point: the head perceptron of the argument arrays. -/
theorem after_eq : (dat6 (F := Ideal) V c).after 7 t6_0 = result V c := by
  rw [after6_7, blk0, blk1, blk2, blk3, blk4, blk5, blk6]
  unfold out6_7
  rw [View.canon_unit_zero hz]
  simp only [View.ld_unit_zero (S := S1024x32) hz, View.ld_unit_zero (S := S32x16) hz, View.ld_unit_zero (S := S1x16) hz,
    View.ld_unit_zero (S := S16x8) hz, View.ld_unit_zero (S := S1x8) hz, View.ld_unit_zero (S := S8x2) hz,
    View.ld_unit_zero (S := S1x2) hz]
  exact pay_eq _ _ _ _ _ _ _

/-- The one write-back writes it: the output's block, read through zero offsets at the array's sizes, is the array. -/
theorem flushed_eq (t : Fin cfg6.N) (hf : (cfg6.win 7).flush t = true) :
    (dat6 (F := Ideal) V c).flushed 7 t = ((cfg6.win 7).blk t).view.read (Elt Ideal) (result V c) := by
  obtain rfl : t = t6_0 := fin_N6 t
  show (cfg6.win 7).cut (grid6.coords t6_0) ((dat6 (F := Ideal) V c).after 7 t6_0) = _
  rw [after_eq]
  have hz' : (fun a => win6_7.index t6_0 a * main_v76.ty.shape.size a) = fun _ => 0 := funext fun a => by fin_cases a <;> decide
  exact (Memref.read_access_unit_zero (Elt Ideal) main_v76 hz' (fun a => by rw [congrFun hz' a]; simp) (result V c)).symm

/-- The one grid point leaves in the output array the head perceptron of the pooled rows. -/
theorem out_eq : (dat6 (F := Ideal) V c).arrAt 7 cfg6.N
    = arr2 (head (mat2 (M := 1024) (N := 32) (V c main_v72)) (mat2 (M := 32) (N := 16) (V c main_arg21)) (row2 (N := 16) (V c main_v73))
        (mat2 (M := 16) (N := 8) (V c main_arg23)) (row2 (N := 8) (V c main_v74)) (mat2 (M := 8) (N := 2) (V c main_arg25)) (row2 (N := 2) (V c main_v75))) :=
  (dat6 (F := Ideal) V c).arrAt_eq_of_cover 7 (result V c) (flushed_eq V c) fun i =>
    ⟨t6_0, flush6_7 t6_0, by
      show i ∈ ((View.whole main_v76).slice (win6_7.rect t6_0)).set
      rw [View.set_slice_whole, Rect.mem_set_unit]
      intro a
      have h0 : (i 0 : Nat) < 1024 := (i 0).isLt
      have h1 : (i 1 : Nat) < 2 := (i 1).isLt
      match a with
      | ⟨0, _⟩ =>
        show win6_7.index t6_0 0 * win6_7.size 0 ≤ (i 0 : Nat) ∧ (i 0 : Nat) < win6_7.index t6_0 0 * win6_7.size 0 + win6_7.xsize (grid6.coords t6_0) 0
        rw [show win6_7.index t6_0 0 * win6_7.size 0 = 0 from by decide +kernel, show win6_7.xsize (grid6.coords t6_0) 0 = 1024 from by decide +kernel]; omega
      | ⟨1, _⟩ =>
        show win6_7.index t6_0 1 * win6_7.size 1 ≤ (i 1 : Nat) ∧ (i 1 : Nat) < win6_7.index t6_0 1 * win6_7.size 1 + win6_7.xsize (grid6.coords t6_0) 1
        rw [show win6_7.index t6_0 1 * win6_7.size 1 = 0 from by decide +kernel, show win6_7.xsize (grid6.coords t6_0) 1 = 2 from by decide +kernel]; omega⟩

end Cert.KReg6

end
-- ==== Proof.KChainD.lean ====
/-
  The end of the kernel's chain: per-graph pooling on the host, then the last region.

  Before the last region the host scatter-adds the rows of the third layer's output into a zero array [1024, 32] at
  the rows the graph words name — the pooled rows — and lays each of the three bias vectors [n] out as a row [1, n].
  The region then leaves in its output array the head perceptron of the pooled rows. A bias vector laid out as a row
  and read along that row is the vector itself, and an argument array that no host operation and no region writes
  still holds its launch contents when the last region reads it. So the program's result is the head perceptron of
  the pooling of the third layer's output, over the launch contents of the head's weights and biases.
-/
import proofs.«135204_j17832704213197_1_alg».proof.Proof.Gen.KernelIdeal.Frame
import proofs.«135204_j17832704213197_1_alg».proof.Proof.GinSpec
import proofs.«135204_j17832704213197_1_alg».proof.Proof.KReg6
import proofs.«135204_j17832704213197_1_alg».proof.Proof.HostOps
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KChainD

open Cert.KernelIdeal Cert.KernelIdeal.Gen Cert.Gin

/-- The graph words [50000] laid out as a column [50000, 1]. -/
def bI (b : IVec S50000 32) : IVec S50000x1 32 := broadcastInDim S50000x1 ![0] Facts₀.bcast_S50000_S50000x1_0 b

variable (m : (ℓ : Loc nD τ sig) → Buf (Elt Ideal) ℓ) (ρ : Dev nD → PrngReg) (c : Dev nD)

/-! ## Arguments the last stretch of host operations and the last region only read -/

/-- The graph words hold their launch contents before the last stretch of host operations. -/
theorem W12_main_arg2 : W12 m ρ c (Proc.devRef .tc main_arg2) = m ((c : Thread nD τ).loc main_arg2) := by
  have h13 : W13 m ρ c (Proc.devRef .tc main_arg2) = W12 m ρ c (Proc.devRef .tc main_arg2) := by
    show StableHlo.after hostOps6 (W12 m ρ c) (Proc.devRef .tc main_arg2) = _
    after_results
  exact (h13.symm.trans (W14_of_ne m ρ c main_arg2 (by decide)).symm).trans (W14_main_arg2 m ρ c)

/-- So does the first bias vector, -/
theorem W12_main_arg22 : W12 m ρ c (Proc.devRef .tc main_arg22) = m ((c : Thread nD τ).loc main_arg22) := by
  have h13 : W13 m ρ c (Proc.devRef .tc main_arg22) = W12 m ρ c (Proc.devRef .tc main_arg22) := by
    show StableHlo.after hostOps6 (W12 m ρ c) (Proc.devRef .tc main_arg22) = _
    after_results
  exact (h13.symm.trans (W14_of_ne m ρ c main_arg22 (by decide)).symm).trans (W14_main_arg22 m ρ c)

/-- the second, -/
theorem W12_main_arg24 : W12 m ρ c (Proc.devRef .tc main_arg24) = m ((c : Thread nD τ).loc main_arg24) := by
  have h13 : W13 m ρ c (Proc.devRef .tc main_arg24) = W12 m ρ c (Proc.devRef .tc main_arg24) := by
    show StableHlo.after hostOps6 (W12 m ρ c) (Proc.devRef .tc main_arg24) = _
    after_results
  exact (h13.symm.trans (W14_of_ne m ρ c main_arg24 (by decide)).symm).trans (W14_main_arg24 m ρ c)

/-- and the third. -/
theorem W12_main_arg26 : W12 m ρ c (Proc.devRef .tc main_arg26) = m ((c : Thread nD τ).loc main_arg26) := by
  have h13 : W13 m ρ c (Proc.devRef .tc main_arg26) = W12 m ρ c (Proc.devRef .tc main_arg26) := by
    show StableHlo.after hostOps6 (W12 m ρ c) (Proc.devRef .tc main_arg26) = _
    after_results
  exact (h13.symm.trans (W14_of_ne m ρ c main_arg26 (by decide)).symm).trans (W14_main_arg26 m ρ c)

/-! ## The last region's seven input arrays, as it finds them -/

/-- The pooled rows: the scatter-add of the third layer's rows into zeros at the rows the graph words name. -/
theorem pooled (H3 : Mat 50000 32) (h : W12 m ρ c (Proc.devRef .tc main_v69) = arr2 H3) :
    mat2 (M := 1024) (N := 32) (V13 m ρ c main_v72) = pool (G := 1024) (bI (m ((c : Thread nD τ).loc main_arg2))) H3 := by
  have e : (V13 m ρ c main_v72 : S1024x32.Idx → EReal)
      = Host.scatterAdd (F := Ideal) scatter_S1024x32_S50000x1_S50000x32_1_0_0_1
          (broadcastInDim S1024x32 ![] Facts₀.bcast_S_S1024x32 (constant (F := Ideal) S_ .f32 0x00000000#32))
          (bI (W12 m ρ c (Proc.devRef .tc main_arg2))) (W12 m ρ c (Proc.devRef .tc main_v69)) := by
    show StableHlo.after hostOps6 (W12 m ρ c) (Proc.devRef .tc main_v72) = _
    after_results
    rfl
  rw [e, h, W12_main_arg2]
  refine (congrArg (mat2 (M := 1024) (N := 32))
    (Cert.HostOps.pool_eq (M := 50000) (G := 1024) (D := 32) Facts₀.scatter_S1024x32_S50000x1_S50000x32_1_0_0_1_wf
      Facts₀.bcast_S_S1024x32 (bI (m ((c : Thread nD τ).loc main_arg2))) (arr2 H3))).trans ?_
  rw [mat2_arr2, mat2_arr2]

/-- A region's input array is, when the region is entered, what it is at the region's exit; for an argument, its
    launch contents: the first weight matrix, -/
theorem w1 : V13 m ρ c main_arg21 = m ((c : Thread nD τ).loc main_arg21) :=
  ((W14_arr m ρ c 1).trans (((dat6 (V13 m ρ) c).arrAt_in 1 rfl _).trans (A_eq6 (V13 m ρ) c 1))).symm.trans (W14_main_arg21 m ρ c)

/-- the second, -/
theorem w2 : V13 m ρ c main_arg23 = m ((c : Thread nD τ).loc main_arg23) :=
  ((W14_arr m ρ c 3).trans (((dat6 (V13 m ρ) c).arrAt_in 3 rfl _).trans (A_eq6 (V13 m ρ) c 3))).symm.trans (W14_main_arg23 m ρ c)

/-- and the third. -/
theorem w3 : V13 m ρ c main_arg25 = m ((c : Thread nD τ).loc main_arg25) :=
  ((W14_arr m ρ c 5).trans (((dat6 (V13 m ρ) c).arrAt_in 5 rfl _).trans (A_eq6 (V13 m ρ) c 5))).symm.trans (W14_main_arg25 m ρ c)

/-- A bias vector laid out as a row [1, n], read along the row, is the vector: the first, -/
theorem b1 : row2 (N := 16) (V13 m ρ c main_v73) = row1 (N := 16) (m ((c : Thread nD τ).loc main_arg22)) := by
  have e : (V13 m ρ c main_v73 : S1x16.Idx → EReal)
      = shapeCast S1x16 (W12 m ρ c (Proc.devRef .tc main_arg22)) Facts₀.shapeCasts_S16_S1x16 := by
    show StableHlo.after hostOps6 (W12 m ρ c) (Proc.devRef .tc main_v73) = _
    after_results
    rfl
  rw [e, W12_main_arg22]
  funext q
  exact shapeCast_a_1a_apply _ _ (0 : Fin 1) q

/-- the second, -/
theorem b2 : row2 (N := 8) (V13 m ρ c main_v74) = row1 (N := 8) (m ((c : Thread nD τ).loc main_arg24)) := by
  have e : (V13 m ρ c main_v74 : S1x8.Idx → EReal)
      = shapeCast S1x8 (W12 m ρ c (Proc.devRef .tc main_arg24)) Facts₀.shapeCasts_S8_S1x8 := by
    show StableHlo.after hostOps6 (W12 m ρ c) (Proc.devRef .tc main_v74) = _
    after_results
    rfl
  rw [e, W12_main_arg24]
  funext q
  exact shapeCast_a_1a_apply _ _ (0 : Fin 1) q

/-- and the third. -/
theorem b3 : row2 (N := 2) (V13 m ρ c main_v75) = row1 (N := 2) (m ((c : Thread nD τ).loc main_arg26)) := by
  have e : (V13 m ρ c main_v75 : S1x2.Idx → EReal)
      = shapeCast S1x2 (W12 m ρ c (Proc.devRef .tc main_arg26)) Facts₀.shapeCasts_S2_S1x2 := by
    show StableHlo.after hostOps6 (W12 m ρ c) (Proc.devRef .tc main_v75) = _
    after_results
    rfl
  rw [e, W12_main_arg26]
  funext q
  exact shapeCast_a_1a_apply _ _ (0 : Fin 1) q

/-! ## The program's result -/

/-- If the third layer's output array holds the matrix H3 before the last stretch of host operations, the result array
    ends holding the head perceptron of the pooling of H3. -/
theorem tail (H3 : Mat 50000 32) (h : W12 m ρ c (Proc.devRef .tc main_v69) = arr2 H3) :
    W14 m ρ c (Proc.devRef .tc main_v76)
      = arr2 (head (pool (G := 1024) (bI (m ((c : Thread nD τ).loc main_arg2))) H3)
          (mat2 (M := 32) (N := 16) (m ((c : Thread nD τ).loc main_arg21))) (row1 (N := 16) (m ((c : Thread nD τ).loc main_arg22)))
          (mat2 (M := 16) (N := 8) (m ((c : Thread nD τ).loc main_arg23))) (row1 (N := 8) (m ((c : Thread nD τ).loc main_arg24)))
          (mat2 (M := 8) (N := 2) (m ((c : Thread nD τ).loc main_arg25))) (row1 (N := 2) (m ((c : Thread nD τ).loc main_arg26)))) := by
  refine ((W14_arr m ρ c 7).trans (Cert.KReg6.out_eq (V13 m ρ) c)).trans ?_
  rw [pooled m ρ c H3 h, w1 m ρ c, b1 m ρ c, w2 m ρ c, b2 m ρ c, w3 m ρ c, b3 m ρ c]

end Cert.KChainD

end
-- ==== Proof.KChain.lean ====
/-
  The kernel's result array at the last boundary, as the network of the launch arguments: the three layers' normalised
  outputs one after the other, each the next one's input, then the pooling and the head perceptron.
-/
import proofs.«135204_j17832704213197_1_alg».proof.Proof.KChainL1
import proofs.«135204_j17832704213197_1_alg».proof.Proof.KChainL2
import proofs.«135204_j17832704213197_1_alg».proof.Proof.KChainL3
import proofs.«135204_j17832704213197_1_alg».proof.Proof.KChainD

noncomputable section

open Idealize.ShloMosaic Idealize.ShloMosaic.TcCoe Idealize.SL.Sem Idealize.ShloMosaic.ValueIdx

namespace Cert.KChain

open Cert.KernelIdeal Cert.KernelIdeal.Gen Cert.Gin

/-- The gather's start indices as the host computes them from the edge array. -/
abbrev sI := Cert.KChainL1.sI
/-- The scatter's indices: row 1 of the edge array, as a column. -/
abbrev dI := Cert.KChainL1.dI
/-- The pooling scatter's indices: the graph-number vector as a column. -/
abbrev bI := Cert.KChainD.bI

variable (m : (ℓ : Loc nD τ sig) → Buf (Elt Ideal) ℓ) (ρ : Dev nD → PrngReg)

/-- The contents of the result array at the last boundary: the network with the variance as mean square minus squared mean. -/
theorem value (c : Dev nD) : W14 m ρ c (Proc.devRef .tc main_v76)
    = arr2 (net (fun {N D} => bnK (M := N) (N := D))
        (sI (m ((c.tc : Thread nD τ).loc main_arg1))) (dI (m ((c.tc : Thread nD τ).loc main_arg1))) (bI (m ((c.tc : Thread nD τ).loc main_arg2)))
        (mat2 (M := 50000) (N := 114) (m ((c.tc : Thread Cert.KernelIdeal.nD Cert.KernelIdeal.τ).loc Cert.KernelIdeal.main_arg0)))
        (mat2 (M := 114) (N := 198) (m ((c.tc : Thread Cert.KernelIdeal.nD Cert.KernelIdeal.τ).loc Cert.KernelIdeal.main_arg3)))
        (row1 (N := 198) (m ((c.tc : Thread Cert.KernelIdeal.nD Cert.KernelIdeal.τ).loc Cert.KernelIdeal.main_arg4)))
        (mat2 (M := 198) (N := 198) (m ((c.tc : Thread Cert.KernelIdeal.nD Cert.KernelIdeal.τ).loc Cert.KernelIdeal.main_arg5)))
        (row1 (N := 198) (m ((c.tc : Thread Cert.KernelIdeal.nD Cert.KernelIdeal.τ).loc Cert.KernelIdeal.main_arg6)))
        (row1 (N := 198) (m ((c.tc : Thread Cert.KernelIdeal.nD Cert.KernelIdeal.τ).loc Cert.KernelIdeal.main_arg7)))
        (row1 (N := 198) (m ((c.tc : Thread Cert.KernelIdeal.nD Cert.KernelIdeal.τ).loc Cert.KernelIdeal.main_arg8)))
        (mat2 (M := 198) (N := 64) (m ((c.tc : Thread Cert.KernelIdeal.nD Cert.KernelIdeal.τ).loc Cert.KernelIdeal.main_arg9)))
        (row1 (N := 64) (m ((c.tc : Thread Cert.KernelIdeal.nD Cert.KernelIdeal.τ).loc Cert.KernelIdeal.main_arg10)))
        (mat2 (M := 64) (N := 64) (m ((c.tc : Thread Cert.KernelIdeal.nD Cert.KernelIdeal.τ).loc Cert.KernelIdeal.main_arg11)))
        (row1 (N := 64) (m ((c.tc : Thread Cert.KernelIdeal.nD Cert.KernelIdeal.τ).loc Cert.KernelIdeal.main_arg12)))
        (row1 (N := 64) (m ((c.tc : Thread Cert.KernelIdeal.nD Cert.KernelIdeal.τ).loc Cert.KernelIdeal.main_arg13)))
        (row1 (N := 64) (m ((c.tc : Thread Cert.KernelIdeal.nD Cert.KernelIdeal.τ).loc Cert.KernelIdeal.main_arg14)))
        (mat2 (M := 64) (N := 32) (m ((c.tc : Thread Cert.KernelIdeal.nD Cert.KernelIdeal.τ).loc Cert.KernelIdeal.main_arg15)))
        (row1 (N := 32) (m ((c.tc : Thread Cert.KernelIdeal.nD Cert.KernelIdeal.τ).loc Cert.KernelIdeal.main_arg16)))
        (mat2 (M := 32) (N := 32) (m ((c.tc : Thread Cert.KernelIdeal.nD Cert.KernelIdeal.τ).loc Cert.KernelIdeal.main_arg17)))
        (row1 (N := 32) (m ((c.tc : Thread Cert.KernelIdeal.nD Cert.KernelIdeal.τ).loc Cert.KernelIdeal.main_arg18)))
        (row1 (N := 32) (m ((c.tc : Thread Cert.KernelIdeal.nD Cert.KernelIdeal.τ).loc Cert.KernelIdeal.main_arg19)))
        (row1 (N := 32) (m ((c.tc : Thread Cert.KernelIdeal.nD Cert.KernelIdeal.τ).loc Cert.KernelIdeal.main_arg20)))
        (mat2 (M := 32) (N := 16) (m ((c.tc : Thread Cert.KernelIdeal.nD Cert.KernelIdeal.τ).loc Cert.KernelIdeal.main_arg21)))
        (row1 (N := 16) (m ((c.tc : Thread Cert.KernelIdeal.nD Cert.KernelIdeal.τ).loc Cert.KernelIdeal.main_arg22)))
        (mat2 (M := 16) (N := 8) (m ((c.tc : Thread Cert.KernelIdeal.nD Cert.KernelIdeal.τ).loc Cert.KernelIdeal.main_arg23)))
        (row1 (N := 8) (m ((c.tc : Thread Cert.KernelIdeal.nD Cert.KernelIdeal.τ).loc Cert.KernelIdeal.main_arg24)))
        (mat2 (M := 8) (N := 2) (m ((c.tc : Thread Cert.KernelIdeal.nD Cert.KernelIdeal.τ).loc Cert.KernelIdeal.main_arg25)))
        (row1 (N := 2) (m ((c.tc : Thread Cert.KernelIdeal.nD Cert.KernelIdeal.τ).loc Cert.KernelIdeal.main_arg26)))) :=
  Cert.KChainD.tail m ρ c _ (Cert.KChainL3.layer3 m ρ c _ (Cert.KChainL2.layer2 m ρ c _ (Cert.KChainL1.layer1 m ρ c)))

end Cert.KChain

end
-- ==== Proof.RefStages.lean ====
/-
  The values of the reference's stages, named.

  One definition per value of the reference's @main that crosses a stage of the network (and a few inside the stages):
  the composition of the program's own operations, in program order, over the earlier names and the argument buffers of
  a valuation `V`. `res_v9`, `res_v12` are the gather's start indices and the scatter's indices as the program
  computes them from the edge array (`res_v1`, `res_v3` its two rows as vectors), `res_v125` the pooling indices;
  per layer `res_v14` is the features plus the aggregated neighbours, `res_v19` / `res_v24` the perceptron's two
  rectified affine maps, `res_v27` / `res_v28` the column means and guarded variances, `res_v43` the normalised
  output (layers two and three likewise); `res_v126` the pooled rows, `res_v131` / `res_v136` / `res_v140` the head.
-/
import proofs.«135204_j17832704213197_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The value of `main_v1`. -/
def res_v1 (V : Valuation τ sig (Elt F)) : (⟨S800000, .i32⟩ : BufTy).Contents (Elt F) :=
  shapeCast S800000 (extractStridedSlice S1x800000 ![0, 0] (V (Proc.devRef .tc main_arg1)) slices_S2x800000_S1x800000_0_0) shapeCasts_S1x800000_S800000

/-- The value of `main_v3`. -/
def res_v3 (V : Valuation τ sig (Elt F)) : (⟨S800000, .i32⟩ : BufTy).Contents (Elt F) :=
  shapeCast S800000 (extractStridedSlice S1x800000 ![1, 0] (V (Proc.devRef .tc main_arg1)) slices_S2x800000_S1x800000_1_0) shapeCasts_S1x800000_S800000

/-- The value of `main_v9`. -/
def res_v9 (V : Valuation τ sig (Elt F)) : (⟨S800000x1, .i32⟩ : BufTy).Contents (Elt F) :=
  broadcastInDim S800000x1 ![0] bcast_S800000_S800000x1_0 (select (cmpi .slt (res_v1 V) (broadcastInDim S800000 ![] bcast_S_S800000 (constantI S_ 32 0#32))) (addi (res_v1 V) (broadcastInDim S800000 ![] bcast_S_S800000 (constantI S_ 32 50000#32))) (res_v1 V))

/-- The value of `main_v12`. -/
def res_v12 (V : Valuation τ sig (Elt F)) : (⟨S800000x1, .i32⟩ : BufTy).Contents (Elt F) :=
  broadcastInDim S800000x1 ![0] bcast_S800000_S800000x1_0 (res_v3 V)

/-- The value of `main_v14`. -/
def res_v14 (V : Valuation τ sig (Elt F)) : (⟨S50000x114, .f32⟩ : BufTy).Contents (Elt F) :=
  addf (V (Proc.devRef .tc main_arg0)) (Host.scatterAdd scatter_S50000x114_S800000x1_S800000x114_1_0_0_1 (broadcastInDim S50000x114 ![] bcast_S_S50000x114 (constant S_ .f32 0x00000000#32)) (res_v12 V) (Host.gather gather_S50000x114_S800000x1_S800000x114_1_0_n_n_0_1_1114 (V (Proc.devRef .tc main_arg0)) (res_v9 V)))

/-- The value of `main_v19`. -/
def res_v19 (V : Valuation τ sig (Elt F)) : (⟨S50000x198, .f32⟩ : BufTy).Contents (Elt F) :=
  maximumf (addf (Host.dotGeneral dot_S50000x114_S114x198_S50000x198_1_0_0_1_n_n none (res_v14 V) (V (Proc.devRef .tc main_arg3))) (broadcastInDim S50000x198 ![0, 1] bcast_S1x198_S50000x198_0_1 (broadcastInDim S1x198 ![1] bcast_S198_S1x198_1 (V (Proc.devRef .tc main_arg4))))) (broadcastInDim S50000x198 ![] bcast_S_S50000x198 (constant S_ .f32 0x00000000#32))

/-- The value of `main_v24`. -/
def res_v24 (V : Valuation τ sig (Elt F)) : (⟨S50000x198, .f32⟩ : BufTy).Contents (Elt F) :=
  maximumf (addf (Host.dotGeneral dot_S50000x198_S198x198_S50000x198_1_0_0_1_n_n none (res_v19 V) (V (Proc.devRef .tc main_arg5))) (broadcastInDim S50000x198 ![0, 1] bcast_S1x198_S50000x198_0_1 (broadcastInDim S1x198 ![1] bcast_S198_S1x198_1 (V (Proc.devRef .tc main_arg6))))) (broadcastInDim S50000x198 ![] bcast_S_S50000x198 (constant S_ .f32 0x00000000#32))

/-- The value of `main_v27`. -/
def res_v27 (V : Valuation τ sig (Elt F)) : (⟨S198, .f32⟩ : BufTy).Contents (Elt F) :=
  Host.divf (Host.reduceAdd (res_v24 V) (constant S_ .f32 0x00000000#32) reducesTo_S50000x198_S198_d0 h_S_) (broadcastInDim S198 ![] bcast_S_S198 (constant S_ .f32 0x47435000#32))

/-- The value of `main_call2_v5`. -/
def res_call2_v5 (V : Valuation τ sig (Elt F)) : (⟨S50000x198, .f32⟩ : BufTy).Contents (Elt F) :=
  subf (res_v24 V) (broadcastInDim S50000x198 ![0, 1] bcast_S1x198_S50000x198_0_1 (Host.divf (broadcastInDim S1x198 ![1] bcast_S198_S1x198_1 (Host.reduceAdd (res_v24 V) (constant S_ .f32 0x00000000#32) reducesTo_S50000x198_S198_d0 h_S_)) (broadcastInDim S1x198 ![] bcast_S_S1x198 (constant S_ .f32 0x47435000#32))))

/-- The value of `main_call2_v8`. -/
def res_call2_v8 (V : Valuation τ sig (Elt F)) : (⟨S_, .f32⟩ : BufTy).Contents (Elt F) :=
  subf (constant S_ .f32 0x47435000#32) (sitofp .f32 (constantI S_ 32 0#32))

/-- The value of `main_v28`. -/
def res_v28 (V : Valuation τ sig (Elt F)) : (⟨S198, .f32⟩ : BufTy).Contents (Elt F) :=
  select (broadcastInDim S198 ![] bcast_S_S198 (cmpf .ogt (res_call2_v8 V) (constant S_ .f32 0x00000000#32))) (Host.divf (Host.reduceAdd (mulf (res_call2_v5 V) (res_call2_v5 V)) (constant S_ .f32 0x00000000#32) reducesTo_S50000x198_S198_d0 h_S_) (broadcastInDim S198 ![] bcast_S_S198 (res_call2_v8 V))) (broadcastInDim S198 ![] bcast_S_S198 (constant S_ .f32 0x7FC00000#32))

/-- The value of `main_v43`. -/
def res_v43 (V : Valuation τ sig (Elt F)) : (⟨S50000x198, .f32⟩ : BufTy).Contents (Elt F) :=
  addf (mulf (mulf (subf (res_v24 V) (broadcastInDim S50000x198 ![0, 1] bcast_S1x198_S50000x198_0_1 (broadcastInDim S1x198 ![1] bcast_S198_S1x198_1 (res_v27 V)))) (broadcastInDim S50000x198 ![0, 1] bcast_S1x198_S50000x198_0_1 (broadcastInDim S1x198 ![1] bcast_S198_S1x198_1 (Host.rsqrt (addf (res_v28 V) (broadcastInDim S198 ![] bcast_S_S198 (constant S_ .f32 0x3727C5AC#32))))))) (broadcastInDim S50000x198 ![0, 1] bcast_S1x198_S50000x198_0_1 (broadcastInDim S1x198 ![1] bcast_S198_S1x198_1 (V (Proc.devRef .tc main_arg7))))) (broadcastInDim S50000x198 ![0, 1] bcast_S1x198_S50000x198_0_1 (broadcastInDim S1x198 ![1] bcast_S198_S1x198_1 (V (Proc.devRef .tc main_arg8))))

/-- The value of `main_v49`. -/
def res_v49 (V : Valuation τ sig (Elt F)) : (⟨S800000x1, .i32⟩ : BufTy).Contents (Elt F) :=
  broadcastInDim S800000x1 ![0] bcast_S800000_S800000x1_0 (select (cmpi .slt (res_v1 V) (broadcastInDim S800000 ![] bcast_S_S800000 (constantI S_ 32 0#32))) (addi (res_v1 V) (broadcastInDim S800000 ![] bcast_S_S800000 (constantI S_ 32 50000#32))) (res_v1 V))

/-- The value of `main_v50`. -/
def res_v50 (V : Valuation τ sig (Elt F)) : (⟨S800000x198, .f32⟩ : BufTy).Contents (Elt F) :=
  Host.gather gather_S50000x198_S800000x1_S800000x198_1_0_n_n_0_1_1198 (res_v43 V) (res_v49 V)

/-- The value of `main_v52`. -/
def res_v52 (V : Valuation τ sig (Elt F)) : (⟨S800000x1, .i32⟩ : BufTy).Contents (Elt F) :=
  broadcastInDim S800000x1 ![0] bcast_S800000_S800000x1_0 (res_v3 V)

/-- The value of `main_v54`. -/
def res_v54 (V : Valuation τ sig (Elt F)) : (⟨S50000x198, .f32⟩ : BufTy).Contents (Elt F) :=
  addf (res_v43 V) (Host.scatterAdd scatter_S50000x198_S800000x1_S800000x198_1_0_0_1 (broadcastInDim S50000x198 ![] bcast_S_S50000x198 (constant S_ .f32 0x00000000#32)) (res_v52 V) (res_v50 V))

/-- The value of `main_v59`. -/
def res_v59 (V : Valuation τ sig (Elt F)) : (⟨S50000x64, .f32⟩ : BufTy).Contents (Elt F) :=
  maximumf (addf (Host.dotGeneral dot_S50000x198_S198x64_S50000x64_1_0_0_1_n_n none (res_v54 V) (V (Proc.devRef .tc main_arg9))) (broadcastInDim S50000x64 ![0, 1] bcast_S1x64_S50000x64_0_1 (broadcastInDim S1x64 ![1] bcast_S64_S1x64_1 (V (Proc.devRef .tc main_arg10))))) (broadcastInDim S50000x64 ![] bcast_S_S50000x64 (constant S_ .f32 0x00000000#32))

/-- The value of `main_v64`. -/
def res_v64 (V : Valuation τ sig (Elt F)) : (⟨S50000x64, .f32⟩ : BufTy).Contents (Elt F) :=
  maximumf (addf (Host.dotGeneral dot_S50000x64_S64x64_S50000x64_1_0_0_1_n_n none (res_v59 V) (V (Proc.devRef .tc main_arg11))) (broadcastInDim S50000x64 ![0, 1] bcast_S1x64_S50000x64_0_1 (broadcastInDim S1x64 ![1] bcast_S64_S1x64_1 (V (Proc.devRef .tc main_arg12))))) (broadcastInDim S50000x64 ![] bcast_S_S50000x64 (constant S_ .f32 0x00000000#32))

/-- The value of `main_v67`. -/
def res_v67 (V : Valuation τ sig (Elt F)) : (⟨S64, .f32⟩ : BufTy).Contents (Elt F) :=
  Host.divf (Host.reduceAdd (res_v64 V) (constant S_ .f32 0x00000000#32) reducesTo_S50000x64_S64_d0 h_S_) (broadcastInDim S64 ![] bcast_S_S64 (constant S_ .f32 0x47435000#32))

/-- The value of `main_call5_v5`. -/
def res_call5_v5 (V : Valuation τ sig (Elt F)) : (⟨S50000x64, .f32⟩ : BufTy).Contents (Elt F) :=
  subf (res_v64 V) (broadcastInDim S50000x64 ![0, 1] bcast_S1x64_S50000x64_0_1 (Host.divf (broadcastInDim S1x64 ![1] bcast_S64_S1x64_1 (Host.reduceAdd (res_v64 V) (constant S_ .f32 0x00000000#32) reducesTo_S50000x64_S64_d0 h_S_)) (broadcastInDim S1x64 ![] bcast_S_S1x64 (constant S_ .f32 0x47435000#32))))

/-- The value of `main_call5_v8`. -/
def res_call5_v8 (V : Valuation τ sig (Elt F)) : (⟨S_, .f32⟩ : BufTy).Contents (Elt F) :=
  subf (constant S_ .f32 0x47435000#32) (sitofp .f32 (constantI S_ 32 0#32))

/-- The value of `main_v68`. -/
def res_v68 (V : Valuation τ sig (Elt F)) : (⟨S64, .f32⟩ : BufTy).Contents (Elt F) :=
  select (broadcastInDim S64 ![] bcast_S_S64 (cmpf .ogt (res_call5_v8 V) (constant S_ .f32 0x00000000#32))) (Host.divf (Host.reduceAdd (mulf (res_call5_v5 V) (res_call5_v5 V)) (constant S_ .f32 0x00000000#32) reducesTo_S50000x64_S64_d0 h_S_) (broadcastInDim S64 ![] bcast_S_S64 (res_call5_v8 V))) (broadcastInDim S64 ![] bcast_S_S64 (constant S_ .f32 0x7FC00000#32))

/-- The value of `main_v83`. -/
def res_v83 (V : Valuation τ sig (Elt F)) : (⟨S50000x64, .f32⟩ : BufTy).Contents (Elt F) :=
  addf (mulf (mulf (subf (res_v64 V) (broadcastInDim S50000x64 ![0, 1] bcast_S1x64_S50000x64_0_1 (broadcastInDim S1x64 ![1] bcast_S64_S1x64_1 (res_v67 V)))) (broadcastInDim S50000x64 ![0, 1] bcast_S1x64_S50000x64_0_1 (broadcastInDim S1x64 ![1] bcast_S64_S1x64_1 (Host.rsqrt (addf (res_v68 V) (broadcastInDim S64 ![] bcast_S_S64 (constant S_ .f32 0x3727C5AC#32))))))) (broadcastInDim S50000x64 ![0, 1] bcast_S1x64_S50000x64_0_1 (broadcastInDim S1x64 ![1] bcast_S64_S1x64_1 (V (Proc.devRef .tc main_arg13))))) (broadcastInDim S50000x64 ![0, 1] bcast_S1x64_S50000x64_0_1 (broadcastInDim S1x64 ![1] bcast_S64_S1x64_1 (V (Proc.devRef .tc main_arg14))))

/-- The value of `main_v89`. -/
def res_v89 (V : Valuation τ sig (Elt F)) : (⟨S800000x1, .i32⟩ : BufTy).Contents (Elt F) :=
  broadcastInDim S800000x1 ![0] bcast_S800000_S800000x1_0 (select (cmpi .slt (res_v1 V) (broadcastInDim S800000 ![] bcast_S_S800000 (constantI S_ 32 0#32))) (addi (res_v1 V) (broadcastInDim S800000 ![] bcast_S_S800000 (constantI S_ 32 50000#32))) (res_v1 V))

/-- The value of `main_v92`. -/
def res_v92 (V : Valuation τ sig (Elt F)) : (⟨S800000x1, .i32⟩ : BufTy).Contents (Elt F) :=
  broadcastInDim S800000x1 ![0] bcast_S800000_S800000x1_0 (res_v3 V)

/-- The value of `main_v94`. -/
def res_v94 (V : Valuation τ sig (Elt F)) : (⟨S50000x64, .f32⟩ : BufTy).Contents (Elt F) :=
  addf (res_v83 V) (Host.scatterAdd scatter_S50000x64_S800000x1_S800000x64_1_0_0_1 (broadcastInDim S50000x64 ![] bcast_S_S50000x64 (constant S_ .f32 0x00000000#32)) (res_v92 V) (Host.gather gather_S50000x64_S800000x1_S800000x64_1_0_n_n_0_1_164 (res_v83 V) (res_v89 V)))

/-- The value of `main_v99`. -/
def res_v99 (V : Valuation τ sig (Elt F)) : (⟨S50000x32, .f32⟩ : BufTy).Contents (Elt F) :=
  maximumf (addf (Host.dotGeneral dot_S50000x64_S64x32_S50000x32_1_0_0_1_n_n none (res_v94 V) (V (Proc.devRef .tc main_arg15))) (broadcastInDim S50000x32 ![0, 1] bcast_S1x32_S50000x32_0_1 (broadcastInDim S1x32 ![1] bcast_S32_S1x32_1 (V (Proc.devRef .tc main_arg16))))) (broadcastInDim S50000x32 ![] bcast_S_S50000x32 (constant S_ .f32 0x00000000#32))

/-- The value of `main_v100`. -/
def res_v100 (V : Valuation τ sig (Elt F)) : (⟨S50000x32, .f32⟩ : BufTy).Contents (Elt F) :=
  Host.dotGeneral dot_S50000x32_S32x32_S50000x32_1_0_0_1_n_n none (res_v99 V) (V (Proc.devRef .tc main_arg17))

/-- The value of `main_v102`. -/
def res_v102 (V : Valuation τ sig (Elt F)) : (⟨S50000x32, .f32⟩ : BufTy).Contents (Elt F) :=
  broadcastInDim S50000x32 ![0, 1] bcast_S1x32_S50000x32_0_1 (broadcastInDim S1x32 ![1] bcast_S32_S1x32_1 (V (Proc.devRef .tc main_arg18)))

/-- The value of `main_v104`. -/
def res_v104 (V : Valuation τ sig (Elt F)) : (⟨S50000x32, .f32⟩ : BufTy).Contents (Elt F) :=
  maximumf (addf (res_v100 V) (res_v102 V)) (broadcastInDim S50000x32 ![] bcast_S_S50000x32 (constant S_ .f32 0x00000000#32))

/-- The value of `main_v107`. -/
def res_v107 (V : Valuation τ sig (Elt F)) : (⟨S32, .f32⟩ : BufTy).Contents (Elt F) :=
  Host.divf (Host.reduceAdd (res_v104 V) (constant S_ .f32 0x00000000#32) reducesTo_S50000x32_S32_d0 h_S_) (broadcastInDim S32 ![] bcast_S_S32 (constant S_ .f32 0x47435000#32))

/-- The value of `main_call8_v5`. -/
def res_call8_v5 (V : Valuation τ sig (Elt F)) : (⟨S50000x32, .f32⟩ : BufTy).Contents (Elt F) :=
  subf (res_v104 V) (broadcastInDim S50000x32 ![0, 1] bcast_S1x32_S50000x32_0_1 (Host.divf (broadcastInDim S1x32 ![1] bcast_S32_S1x32_1 (Host.reduceAdd (res_v104 V) (constant S_ .f32 0x00000000#32) reducesTo_S50000x32_S32_d0 h_S_)) (broadcastInDim S1x32 ![] bcast_S_S1x32 (constant S_ .f32 0x47435000#32))))

/-- The value of `main_call8_v8`. -/
def res_call8_v8 (V : Valuation τ sig (Elt F)) : (⟨S_, .f32⟩ : BufTy).Contents (Elt F) :=
  subf (constant S_ .f32 0x47435000#32) (sitofp .f32 (constantI S_ 32 0#32))

/-- The value of `main_v108`. -/
def res_v108 (V : Valuation τ sig (Elt F)) : (⟨S32, .f32⟩ : BufTy).Contents (Elt F) :=
  select (broadcastInDim S32 ![] bcast_S_S32 (cmpf .ogt (res_call8_v8 V) (constant S_ .f32 0x00000000#32))) (Host.divf (Host.reduceAdd (mulf (res_call8_v5 V) (res_call8_v5 V)) (constant S_ .f32 0x00000000#32) reducesTo_S50000x32_S32_d0 h_S_) (broadcastInDim S32 ![] bcast_S_S32 (res_call8_v8 V))) (broadcastInDim S32 ![] bcast_S_S32 (constant S_ .f32 0x7FC00000#32))

/-- The value of `main_v123`. -/
def res_v123 (V : Valuation τ sig (Elt F)) : (⟨S50000x32, .f32⟩ : BufTy).Contents (Elt F) :=
  addf (mulf (mulf (subf (res_v104 V) (broadcastInDim S50000x32 ![0, 1] bcast_S1x32_S50000x32_0_1 (broadcastInDim S1x32 ![1] bcast_S32_S1x32_1 (res_v107 V)))) (broadcastInDim S50000x32 ![0, 1] bcast_S1x32_S50000x32_0_1 (broadcastInDim S1x32 ![1] bcast_S32_S1x32_1 (Host.rsqrt (addf (res_v108 V) (broadcastInDim S32 ![] bcast_S_S32 (constant S_ .f32 0x3727C5AC#32))))))) (broadcastInDim S50000x32 ![0, 1] bcast_S1x32_S50000x32_0_1 (broadcastInDim S1x32 ![1] bcast_S32_S1x32_1 (V (Proc.devRef .tc main_arg19))))) (broadcastInDim S50000x32 ![0, 1] bcast_S1x32_S50000x32_0_1 (broadcastInDim S1x32 ![1] bcast_S32_S1x32_1 (V (Proc.devRef .tc main_arg20))))

/-- The value of `main_v125`. -/
def res_v125 (V : Valuation τ sig (Elt F)) : (⟨S50000x1, .i32⟩ : BufTy).Contents (Elt F) :=
  broadcastInDim S50000x1 ![0] bcast_S50000_S50000x1_0 (V (Proc.devRef .tc main_arg2))

/-- The value of `main_v126`. -/
def res_v126 (V : Valuation τ sig (Elt F)) : (⟨S1024x32, .f32⟩ : BufTy).Contents (Elt F) :=
  Host.scatterAdd scatter_S1024x32_S50000x1_S50000x32_1_0_0_1 (broadcastInDim S1024x32 ![] bcast_S_S1024x32 (constant S_ .f32 0x00000000#32)) (res_v125 V) (res_v123 V)

/-- The value of `main_v131`. -/
def res_v131 (V : Valuation τ sig (Elt F)) : (⟨S1024x16, .f32⟩ : BufTy).Contents (Elt F) :=
  maximumf (addf (Host.dotGeneral dot_S1024x32_S32x16_S1024x16_1_0_0_1_n_n none (res_v126 V) (V (Proc.devRef .tc main_arg21))) (broadcastInDim S1024x16 ![0, 1] bcast_S1x16_S1024x16_0_1 (broadcastInDim S1x16 ![1] bcast_S16_S1x16_1 (V (Proc.devRef .tc main_arg22))))) (broadcastInDim S1024x16 ![] bcast_S_S1024x16 (constant S_ .f32 0x00000000#32))

/-- The value of `main_v136`. -/
def res_v136 (V : Valuation τ sig (Elt F)) : (⟨S1024x8, .f32⟩ : BufTy).Contents (Elt F) :=
  maximumf (addf (Host.dotGeneral dot_S1024x16_S16x8_S1024x8_1_0_0_1_n_n none (res_v131 V) (V (Proc.devRef .tc main_arg23))) (broadcastInDim S1024x8 ![0, 1] bcast_S1x8_S1024x8_0_1 (broadcastInDim S1x8 ![1] bcast_S8_S1x8_1 (V (Proc.devRef .tc main_arg24))))) (broadcastInDim S1024x8 ![] bcast_S_S1024x8 (constant S_ .f32 0x00000000#32))

/-- The value of `main_v140`. -/
def res_v140 (V : Valuation τ sig (Elt F)) : (⟨S1024x2, .f32⟩ : BufTy).Contents (Elt F) :=
  addf (Host.dotGeneral dot_S1024x8_S8x2_S1024x2_1_0_0_1_n_n none (res_v136 V) (V (Proc.devRef .tc main_arg25))) (broadcastInDim S1024x2 ![0, 1] bcast_S1x2_S1024x2_0_1 (broadcastInDim S1x2 ![1] bcast_S2_S1x2_1 (V (Proc.devRef .tc main_arg26))))

/-- Layers two and three compute the same index columns as layer one. -/
theorem res_v49_eq (V : Valuation τ sig (Elt F)) : res_v49 V = res_v9 V := rfl
theorem res_v89_eq (V : Valuation τ sig (Elt F)) : res_v89 V = res_v9 V := rfl
theorem res_v52_eq (V : Valuation τ sig (Elt F)) : res_v52 V = res_v12 V := rfl
theorem res_v92_eq (V : Valuation τ sig (Elt F)) : res_v92 V = res_v12 V := rfl

end Cert.RefRun

end
-- ==== Proof.RefRun.lean ====
/-
  The reference's run, read back.

  @main of the reference is a straight line of 242 array operations once its calls are unfolded: `ops` lists them in
  order, cut into fourteen consecutive windows `w0 … w13` at the natural stages of the network (the edge rows; per layer
  the aggregation, the perceptron, the normalisation; the pooling; the head). `main_eq` says @main is that line, so
  every weakly fair execution terminates with each buffer at the fold of the operations over the launch contents.

  The fold is then read window by window. `valK V` is the contents after windows `0 … K`; a buffer a window does not
  write keeps its contents through it (`valK_keep`), so an argument keeps its launch contents throughout (`valK_of`).
  Every value that crosses a window, and a few more inside the windows, has a name `res_<buffer>` (module RefStages): the
  composition of the program's own operations over the earlier names and the arguments, so that no term is large. `valK_<buffer>` says
  the buffer holds that value after window `K`. `run` states the result buffer at `res_v140` of the launch contents and
  every unwritten buffer as launched.
-/
import proofs.«135204_j17832704213197_1_alg».proof.Proof.Gen.ReferenceIdeal
import proofs.«135204_j17832704213197_1_alg».proof.Proof.RefStages
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 4 of @main, the calls unfolded: the two rows of the edge array, each as a vector. -/
abbrev w0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

/-- Operations 5 … 18 of @main, the calls unfolded: layer 1: the wrapped source indices, the gather, the scatter-add onto zeros, the sum with the features. -/
abbrev w1 : List (HloOp τ sig (Elt F)) :=
  [ StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x114_S800000x1_S800000x114_1_0_n_n_0_1_1114 x i) : (⟨S50000x114, .f32⟩ : BufTy).Contents (Elt F) → (⟨S800000x1, .i32⟩ : BufTy).Contents (Elt F) → (⟨S800000x114, .f32⟩ : BufTy).Contents (Elt F)),
    StableHlo.nullary main_cst (constant S_ .f32 0x00000000#32),
    StableHlo.unary main_cst main_v11 (broadcastInDim S50000x114 ![] bcast_S_S50000x114 : (⟨S_, .f32⟩ : BufTy).Contents (Elt F) → (⟨S50000x114, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x114_S800000x1_S800000x114_1_0_0_1 x i u) : (⟨S50000x114, .f32⟩ : BufTy).Contents (Elt F) → (⟨S800000x1, .i32⟩ : BufTy).Contents (Elt F) → (⟨S800000x114, .f32⟩ : BufTy).Contents (Elt F) → (⟨S50000x114, .f32⟩ : BufTy).Contents (Elt F)),
    StableHlo.binary main_arg0 main_v13 main_v14 (addf : (⟨S50000x114, .f32⟩ : BufTy).Contents (Elt F) → (⟨S50000x114, .f32⟩ : BufTy).Contents (Elt F) → (⟨S50000x114, .f32⟩ : BufTy).Contents (Elt F)) ]

/-- Operations 19 … 32 of @main, the calls unfolded: layer 1: the two affine maps, each followed by the rectifier. -/
abbrev w2 : List (HloOp τ sig (Elt F)) :=
  [ StableHlo.binary main_v14 main_arg3 main_v15 ((fun l r => Host.dotGeneral dot_S50000x114_S114x198_S50000x198_1_0_0_1_n_n none l r) : (⟨S50000x114, .f32⟩ : BufTy).Contents (Elt F) → (⟨S114x198, .f32⟩ : BufTy).Contents (Elt F) → (⟨S50000x198, .f32⟩ : BufTy).Contents (Elt F)),
    StableHlo.unary main_arg4 main_v16 (broadcastInDim S1x198 ![1] bcast_S198_S1x198_1 : (⟨S198, .f32⟩ : BufTy).Contents (Elt F) → (⟨S1x198, .f32⟩ : BufTy).Contents (Elt F)),
    StableHlo.unary main_v16 main_v17 (broadcastInDim S50000x198 ![0, 1] bcast_S1x198_S50000x198_0_1 : (⟨S1x198, .f32⟩ : BufTy).Contents (Elt F) → (⟨S50000x198, .f32⟩ : BufTy).Contents (Elt F)),
    StableHlo.binary main_v15 main_v17 main_v18 (addf : (⟨S50000x198, .f32⟩ : BufTy).Contents (Elt F) → (⟨S50000x198, .f32⟩ : BufTy).Contents (Elt F) → (⟨S50000x198, .f32⟩ : BufTy).Contents (Elt F)),
    StableHlo.TRef.nullary main_call0.cst (constant S_ .f32 0x00000000#32),
    StableHlo.TRef.unary main_call0.cst main_call0.v0 (broadcastInDim S50000x198 ![] bcast_S_S50000x198),
    StableHlo.TRef.binary (.of main_v18) main_call0.v0 main_call0.v1 maximumf,
    StableHlo.binary main_v19 main_arg5 main_v20 ((fun l r => Host.dotGeneral dot_S50000x198_S198x198_S50000x198_1_0_0_1_n_n none l r) : (⟨S50000x198, .f32⟩ : BufTy).Contents (Elt F) → (⟨S198x198, .f32⟩ : BufTy).Contents (Elt F) → (⟨S50000x198, .f32⟩ : BufTy).Contents (Elt F)),
    StableHlo.unary main_arg6 main_v21 (broadcastInDim S1x198 ![1] bcast_S198_S1x198_1 : (⟨S198, .f32⟩ : BufTy).Contents (Elt F) → (⟨S1x198, .f32⟩ : BufTy).Contents (Elt F)),
    StableHlo.unary main_v21 main_v22 (broadcastInDim S50000x198 ![0, 1] bcast_S1x198_S50000x198_0_1 : (⟨S1x198, .f32⟩ : BufTy).Contents (Elt F) → (⟨S50000x198, .f32⟩ : BufTy).Contents (Elt F)),
    StableHlo.binary main_v20 main_v22 main_v23 (addf : (⟨S50000x198, .f32⟩ : BufTy).Contents (Elt F) → (⟨S50000x198, .f32⟩ : BufTy).Contents (Elt F) → (⟨S50000x198, .f32⟩ : BufTy).Contents (Elt F)),
    StableHlo.TRef.nullary main_call1.cst (constant S_ .f32 0x00000000#32),
    StableHlo.TRef.unary main_call1.cst main_call1.v0 (broadcastInDim S50000x198 ![] bcast_S_S50000x198),
    StableHlo.TRef.binary (.of main_v23) main_call1.v0 main_call1.v1 maximumf ]

/-- Operations 33 … 76 of @main, the calls unfolded: layer 1: the column means, the column variances, the normalisation. -/
abbrev w3 : List (HloOp τ sig (Elt F)) :=
  [ StableHlo.nullary main_cst_1 (constant S_ .f32 0x00000000#32),
    StableHlo.binary main_v24 main_cst_1 main_v25 ((fun x v => Host.reduceAdd x v reducesTo_S50000x198_S198_d0 h_S_) : (⟨S50000x198, .f32⟩ : BufTy).Contents (Elt F) → (⟨S_, .f32⟩ : BufTy).Contents (Elt F) → (⟨S198, .f32⟩ : BufTy).Contents (Elt F)),
    StableHlo.nullary main_cst_2 (constant S_ .f32 0x47435000#32),
    StableHlo.unary main_cst_2 main_v26 (broadcastInDim S198 ![] bcast_S_S198 : (⟨S_, .f32⟩ : BufTy).Contents (Elt F) → (⟨S198, .f32⟩ : BufTy).Contents (Elt F)),
    StableHlo.binary main_v25 main_v26 main_v27 (Host.divf : (⟨S198, .f32⟩ : BufTy).Contents (Elt F) → (⟨S198, .f32⟩ : BufTy).Contents (Elt F) → (⟨S198, .f32⟩ : BufTy).Contents (Elt F)),
    StableHlo.nullary main_c_3 (constantI S_ 32 0#32),
    StableHlo.TRef.nullary main_call2.cst (constant S_ .f32 0x00000000#32),
    StableHlo.TRef.binary (.of main_v24) main_call2.cst main_call2.v0 (fun x v => Host.reduceAdd x v reducesTo_S50000x198_S198_d0 h_S_),
    StableHlo.TRef.unary main_call2.v0 main_call2.v1 (broadcastInDim S1x198 ![1] bcast_S198_S1x198_1),
    StableHlo.TRef.nullary main_call2.cst_0 (constant S_ .f32 0x47435000#32),
    StableHlo.TRef.unary main_call2.cst_0 main_call2.v2 (broadcastInDim S1x198 ![] bcast_S_S1x198),
    StableHlo.TRef.binary main_call2.v1 main_call2.v2 main_call2.v3 Host.divf,
    StableHlo.TRef.unary main_call2.v3 main_call2.v4 (broadcastInDim S50000x198 ![0, 1] bcast_S1x198_S50000x198_0_1),
    StableHlo.TRef.binary (.of main_v24) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x198_S198_d0 h_S_),
    StableHlo.TRef.unary main_call2.v8 main_call2.v10 (broadcastInDim S198 ![] bcast_S_S198),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S198 ![] bcast_S_S198),
    StableHlo.TRef.ternary main_call2.v12 main_call2.v11 main_call2.call0.v1 main_call2.call0.v2 (fun p a b => select (broadcastInDim S198 ![] bcast_S_S198 p) a b),
    StableHlo.unary main_v27 main_v29 (broadcastInDim S1x198 ![1] bcast_S198_S1x198_1 : (⟨S198, .f32⟩ : BufTy).Contents (Elt F) → (⟨S1x198, .f32⟩ : BufTy).Contents (Elt F)),
    StableHlo.unary main_v29 main_v30 (broadcastInDim S50000x198 ![0, 1] bcast_S1x198_S50000x198_0_1 : (⟨S1x198, .f32⟩ : BufTy).Contents (Elt F) → (⟨S50000x198, .f32⟩ : BufTy).Contents (Elt F)),
    StableHlo.binary main_v24 main_v30 main_v31 (subf : (⟨S50000x198, .f32⟩ : BufTy).Contents (Elt F) → (⟨S50000x198, .f32⟩ : BufTy).Contents (Elt F) → (⟨S50000x198, .f32⟩ : BufTy).Contents (Elt F)),
    StableHlo.nullary main_cst_4 (constant S_ .f32 0x3727C5AC#32),
    StableHlo.unary main_cst_4 main_v32 (broadcastInDim S198 ![] bcast_S_S198 : (⟨S_, .f32⟩ : BufTy).Contents (Elt F) → (⟨S198, .f32⟩ : BufTy).Contents (Elt F)),
    StableHlo.binary main_v28 main_v32 main_v33 (addf : (⟨S198, .f32⟩ : BufTy).Contents (Elt F) → (⟨S198, .f32⟩ : BufTy).Contents (Elt F) → (⟨S198, .f32⟩ : BufTy).Contents (Elt F)),
    StableHlo.unary main_v33 main_v34 (Host.rsqrt : (⟨S198, .f32⟩ : BufTy).Contents (Elt F) → (⟨S198, .f32⟩ : BufTy).Contents (Elt F)),
    StableHlo.unary main_v34 main_v35 (broadcastInDim S1x198 ![1] bcast_S198_S1x198_1 : (⟨S198, .f32⟩ : BufTy).Contents (Elt F) → (⟨S1x198, .f32⟩ : BufTy).Contents (Elt F)),
    StableHlo.unary main_v35 main_v36 (broadcastInDim S50000x198 ![0, 1] bcast_S1x198_S50000x198_0_1 : (⟨S1x198, .f32⟩ : BufTy).Contents (Elt F) → (⟨S50000x198, .f32⟩ : BufTy).Contents (Elt F)),
    StableHlo.binary main_v31 main_v36 main_v37 (mulf : (⟨S50000x198, .f32⟩ : BufTy).Contents (Elt F) → (⟨S50000x198, .f32⟩ : BufTy).Contents (Elt F) → (⟨S50000x198, .f32⟩ : BufTy).Contents (Elt F)),
    StableHlo.unary main_arg7 main_v38 (broadcastInDim S1x198 ![1] bcast_S198_S1x198_1 : (⟨S198, .f32⟩ : BufTy).Contents (Elt F) → (⟨S1x198, .f32⟩ : BufTy).Contents (Elt F)),
    StableHlo.unary main_v38 main_v39 (broadcastInDim S50000x198 ![0, 1] bcast_S1x198_S50000x198_0_1 : (⟨S1x198, .f32⟩ : BufTy).Contents (Elt F) → (⟨S50000x198, .f32⟩ : BufTy).Contents (Elt F)),
    StableHlo.binary main_v37 main_v39 main_v40 (mulf : (⟨S50000x198, .f32⟩ : BufTy).Contents (Elt F) → (⟨S50000x198, .f32⟩ : BufTy).Contents (Elt F) → (⟨S50000x198, .f32⟩ : BufTy).Contents (Elt F)),
    StableHlo.unary main_arg8 main_v41 (broadcastInDim S1x198 ![1] bcast_S198_S1x198_1 : (⟨S198, .f32⟩ : BufTy).Contents (Elt F) → (⟨S1x198, .f32⟩ : BufTy).Contents (Elt F)),
    StableHlo.unary main_v41 main_v42 (broadcastInDim S50000x198 ![0, 1] bcast_S1x198_S50000x198_0_1 : (⟨S1x198, .f32⟩ : BufTy).Contents (Elt F) → (⟨S50000x198, .f32⟩ : BufTy).Contents (Elt F)),
    StableHlo.binary main_v40 main_v42 main_v43 (addf : (⟨S50000x198, .f32⟩ : BufTy).Contents (Elt F) → (⟨S50000x198, .f32⟩ : BufTy).Contents (Elt F) → (⟨S50000x198, .f32⟩ : BufTy).Contents (Elt F)) ]

/-- Operations 77 … 85 of @main, the calls unfolded: layer 2: the wrapped source indices and the gather. -/
abbrev w4 : List (HloOp τ sig (Elt F)) :=
  [ StableHlo.nullary main_c_5 (constantI S_ 32 0#32),
    StableHlo.unary main_c_5 main_v44 (broadcastInDim S800000 ![] bcast_S_S800000 : (⟨S_, .i32⟩ : BufTy).Contents (Elt F) → (⟨S800000, .i32⟩ : BufTy).Contents (Elt F)),
    StableHlo.binary main_v1 main_v44 main_v45 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v46 (broadcastInDim S800000 ![] bcast_S_S800000 : (⟨S_, .i32⟩ : BufTy).Contents (Elt F) → (⟨S800000, .i32⟩ : BufTy).Contents (Elt F)),
    StableHlo.binary main_v1 main_v46 main_v47 (addi : (⟨S800000, .i32⟩ : BufTy).Contents (Elt F) → (⟨S800000, .i32⟩ : BufTy).Contents (Elt F) → (⟨S800000, .i32⟩ : BufTy).Contents (Elt F)),
    StableHlo.ternary main_v45 main_v47 main_v1 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v48 main_v49 (broadcastInDim S800000x1 ![0] bcast_S800000_S800000x1_0 : (⟨S800000, .i32⟩ : BufTy).Contents (Elt F) → (⟨S800000x1, .i32⟩ : BufTy).Contents (Elt F)),
    StableHlo.binary main_v43 main_v49 main_v50 ((fun x i => Host.gather gather_S50000x198_S800000x1_S800000x198_1_0_n_n_0_1_1198 x i) : (⟨S50000x198, .f32⟩ : BufTy).Contents (Elt F) → (⟨S800000x1, .i32⟩ : BufTy).Contents (Elt F) → (⟨S800000x198, .f32⟩ : BufTy).Contents (Elt F)) ]

/-- Operations 86 … 90 of @main, the calls unfolded: layer 2: the scatter-add onto zeros and the sum with the features. -/
abbrev w5 : List (HloOp τ sig (Elt F)) :=
  [ StableHlo.nullary main_cst_7 (constant S_ .f32 0x00000000#32),
    StableHlo.unary main_cst_7 main_v51 (broadcastInDim S50000x198 ![] bcast_S_S50000x198 : (⟨S_, .f32⟩ : BufTy).Contents (Elt F) → (⟨S50000x198, .f32⟩ : BufTy).Contents (Elt F)),
    StableHlo.unary main_v3 main_v52 (broadcastInDim S800000x1 ![0] bcast_S800000_S800000x1_0 : (⟨S800000, .i32⟩ : BufTy).Contents (Elt F) → (⟨S800000x1, .i32⟩ : BufTy).Contents (Elt F)),
    StableHlo.ternary main_v51 main_v52 main_v50 main_v53 ((fun x i u => Host.scatterAdd scatter_S50000x198_S800000x1_S800000x198_1_0_0_1 x i u) : (⟨S50000x198, .f32⟩ : BufTy).Contents (Elt F) → (⟨S800000x1, .i32⟩ : BufTy).Contents (Elt F) → (⟨S800000x198, .f32⟩ : BufTy).Contents (Elt F) → (⟨S50000x198, .f32⟩ : BufTy).Contents (Elt F)),
    StableHlo.binary main_v43 main_v53 main_v54 (addf : (⟨S50000x198, .f32⟩ : BufTy).Contents (Elt F) → (⟨S50000x198, .f32⟩ : BufTy).Contents (Elt F) → (⟨S50000x198, .f32⟩ : BufTy).Contents (Elt F)) ]

/-- Operations 91 … 104 of @main, the calls unfolded: layer 2: the two affine maps, each followed by the rectifier. -/
abbrev w6 : List (HloOp τ sig (Elt F)) :=
  [ StableHlo.binary main_v54 main_arg9 main_v55 ((fun l r => Host.dotGeneral dot_S50000x198_S198x64_S50000x64_1_0_0_1_n_n none l r) : (⟨S50000x198, .f32⟩ : BufTy).Contents (Elt F) → (⟨S198x64, .f32⟩ : BufTy).Contents (Elt F) → (⟨S50000x64, .f32⟩ : BufTy).Contents (Elt F)),
    StableHlo.unary main_arg10 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S50000x64 ![0, 1] bcast_S1x64_S50000x64_0_1 : (⟨S1x64, .f32⟩ : BufTy).Contents (Elt F) → (⟨S50000x64, .f32⟩ : BufTy).Contents (Elt F)),
    StableHlo.binary main_v55 main_v57 main_v58 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v58) main_call3.v0 main_call3.v1 maximumf,
    StableHlo.binary main_v59 main_arg11 main_v60 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg12 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S50000x64 ![0, 1] bcast_S1x64_S50000x64_0_1 : (⟨S1x64, .f32⟩ : BufTy).Contents (Elt F) → (⟨S50000x64, .f32⟩ : BufTy).Contents (Elt F)),
    StableHlo.binary main_v60 main_v62 main_v63 (addf : (⟨S50000x64, .f32⟩ : BufTy).Contents (Elt F) → (⟨S50000x64, .f32⟩ : BufTy).Contents (Elt F) → (⟨S50000x64, .f32⟩ : BufTy).Contents (Elt F)),
    StableHlo.TRef.nullary main_call4.cst (constant S_ .f32 0x00000000#32),
    StableHlo.TRef.unary main_call4.cst main_call4.v0 (broadcastInDim S50000x64 ![] bcast_S_S50000x64),
    StableHlo.TRef.binary (.of main_v63) main_call4.v0 main_call4.v1 maximumf ]

/-- Operations 105 … 148 of @main, the calls unfolded: layer 2: the column means, the column variances, the normalisation. -/
abbrev w7 : List (HloOp τ sig (Elt F)) :=
  [ StableHlo.nullary main_cst_8 (constant S_ .f32 0x00000000#32),
    StableHlo.binary main_v64 main_cst_8 main_v65 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_9 (constant S_ .f32 0x47435000#32),
    StableHlo.unary main_cst_9 main_v66 (broadcastInDim S64 ![] bcast_S_S64 : (⟨S_, .f32⟩ : BufTy).Contents (Elt F) → (⟨S64, .f32⟩ : BufTy).Contents (Elt F)),
    StableHlo.binary main_v65 main_v66 main_v67 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary main_call5.cst (constant S_ .f32 0x00000000#32),
    StableHlo.TRef.binary (.of main_v64) main_call5.cst main_call5.v0 (fun x v => Host.reduceAdd x v reducesTo_S50000x64_S64_d0 h_S_),
    StableHlo.TRef.unary main_call5.v0 main_call5.v1 (broadcastInDim S1x64 ![1] bcast_S64_S1x64_1),
    StableHlo.TRef.nullary main_call5.cst_0 (constant S_ .f32 0x47435000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S50000x64 ![0, 1] bcast_S1x64_S50000x64_0_1),
    StableHlo.TRef.binary (.of main_v64) main_call5.v4 main_call5.v5 subf,
    StableHlo.TRef.binary main_call5.v5 main_call5.v5 main_call5.v6 mulf,
    StableHlo.TRef.unary (.of main_c_10) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b),
    StableHlo.unary main_v67 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S50000x64 ![0, 1] bcast_S1x64_S50000x64_0_1 : (⟨S1x64, .f32⟩ : BufTy).Contents (Elt F) → (⟨S50000x64, .f32⟩ : BufTy).Contents (Elt F)),
    StableHlo.binary main_v64 main_v70 main_v71 (subf : (⟨S50000x64, .f32⟩ : BufTy).Contents (Elt F) → (⟨S50000x64, .f32⟩ : BufTy).Contents (Elt F) → (⟨S50000x64, .f32⟩ : BufTy).Contents (Elt F)),
    StableHlo.nullary main_cst_11 (constant S_ .f32 0x3727C5AC#32),
    StableHlo.unary main_cst_11 main_v72 (broadcastInDim S64 ![] bcast_S_S64 : (⟨S_, .f32⟩ : BufTy).Contents (Elt F) → (⟨S64, .f32⟩ : BufTy).Contents (Elt F)),
    StableHlo.binary main_v68 main_v72 main_v73 (addf : (⟨S64, .f32⟩ : BufTy).Contents (Elt F) → (⟨S64, .f32⟩ : BufTy).Contents (Elt F) → (⟨S64, .f32⟩ : BufTy).Contents (Elt F)),
    StableHlo.unary main_v73 main_v74 (Host.rsqrt : (⟨S64, .f32⟩ : BufTy).Contents (Elt F) → (⟨S64, .f32⟩ : BufTy).Contents (Elt F)),
    StableHlo.unary main_v74 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S50000x64 ![0, 1] bcast_S1x64_S50000x64_0_1 : (⟨S1x64, .f32⟩ : BufTy).Contents (Elt F) → (⟨S50000x64, .f32⟩ : BufTy).Contents (Elt F)),
    StableHlo.binary main_v71 main_v76 main_v77 (mulf : (⟨S50000x64, .f32⟩ : BufTy).Contents (Elt F) → (⟨S50000x64, .f32⟩ : BufTy).Contents (Elt F) → (⟨S50000x64, .f32⟩ : BufTy).Contents (Elt F)),
    StableHlo.unary main_arg13 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S50000x64 ![0, 1] bcast_S1x64_S50000x64_0_1 : (⟨S1x64, .f32⟩ : BufTy).Contents (Elt F) → (⟨S50000x64, .f32⟩ : BufTy).Contents (Elt F)),
    StableHlo.binary main_v77 main_v79 main_v80 (mulf : (⟨S50000x64, .f32⟩ : BufTy).Contents (Elt F) → (⟨S50000x64, .f32⟩ : BufTy).Contents (Elt F) → (⟨S50000x64, .f32⟩ : BufTy).Contents (Elt F)),
    StableHlo.unary main_arg14 main_v81 (broadcastInDim S1x64 ![1] bcast_S64_S1x64_1 : (⟨S64, .f32⟩ : BufTy).Contents (Elt F) → (⟨S1x64, .f32⟩ : BufTy).Contents (Elt F)),
    StableHlo.unary main_v81 main_v82 (broadcastInDim S50000x64 ![0, 1] bcast_S1x64_S50000x64_0_1 : (⟨S1x64, .f32⟩ : BufTy).Contents (Elt F) → (⟨S50000x64, .f32⟩ : BufTy).Contents (Elt F)),
    StableHlo.binary main_v80 main_v82 main_v83 (addf : (⟨S50000x64, .f32⟩ : BufTy).Contents (Elt F) → (⟨S50000x64, .f32⟩ : BufTy).Contents (Elt F) → (⟨S50000x64, .f32⟩ : BufTy).Contents (Elt F)) ]

/-- Operations 149 … 162 of @main, the calls unfolded: layer 3: the wrapped source indices, the gather, the scatter-add onto zeros, the sum with the features. -/
abbrev w8 : List (HloOp τ sig (Elt F)) :=
  [ StableHlo.nullary main_c_12 (constantI S_ 32 0#32),
    StableHlo.unary main_c_12 main_v84 (broadcastInDim S800000 ![] bcast_S_S800000 : (⟨S_, .i32⟩ : BufTy).Contents (Elt F) → (⟨S800000, .i32⟩ : BufTy).Contents (Elt F)),
    StableHlo.binary main_v1 main_v84 main_v85 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v86 (broadcastInDim S800000 ![] bcast_S_S800000 : (⟨S_, .i32⟩ : BufTy).Contents (Elt F) → (⟨S800000, .i32⟩ : BufTy).Contents (Elt F)),
    StableHlo.binary main_v1 main_v86 main_v87 (addi : (⟨S800000, .i32⟩ : BufTy).Contents (Elt F) → (⟨S800000, .i32⟩ : BufTy).Contents (Elt F) → (⟨S800000, .i32⟩ : BufTy).Contents (Elt F)),
    StableHlo.ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v88 main_v89 (broadcastInDim S800000x1 ![0] bcast_S800000_S800000x1_0 : (⟨S800000, .i32⟩ : BufTy).Contents (Elt F) → (⟨S800000x1, .i32⟩ : BufTy).Contents (Elt F)),
    StableHlo.binary main_v83 main_v89 main_v90 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_14 (constant S_ .f32 0x00000000#32),
    StableHlo.unary main_cst_14 main_v91 (broadcastInDim S50000x64 ![] bcast_S_S50000x64 : (⟨S_, .f32⟩ : BufTy).Contents (Elt F) → (⟨S50000x64, .f32⟩ : BufTy).Contents (Elt F)),
    StableHlo.unary main_v3 main_v92 (broadcastInDim S800000x1 ![0] bcast_S800000_S800000x1_0 : (⟨S800000, .i32⟩ : BufTy).Contents (Elt F) → (⟨S800000x1, .i32⟩ : BufTy).Contents (Elt F)),
    StableHlo.ternary main_v91 main_v92 main_v90 main_v93 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v83 main_v93 main_v94 (addf : (⟨S50000x64, .f32⟩ : BufTy).Contents (Elt F) → (⟨S50000x64, .f32⟩ : BufTy).Contents (Elt F) → (⟨S50000x64, .f32⟩ : BufTy).Contents (Elt F)) ]

/-- Operations 163 … 172 of @main, the calls unfolded: layer 3: the first affine map and rectifier, the second product and its bias broadcast. -/
abbrev w9 : List (HloOp τ sig (Elt F)) :=
  [ StableHlo.binary main_v94 main_arg15 main_v95 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    StableHlo.unary main_arg16 main_v96 (broadcastInDim S1x32 ![1] bcast_S32_S1x32_1 : (⟨S32, .f32⟩ : BufTy).Contents (Elt F) → (⟨S1x32, .f32⟩ : BufTy).Contents (Elt F)),
    StableHlo.unary main_v96 main_v97 (broadcastInDim S50000x32 ![0, 1] bcast_S1x32_S50000x32_0_1 : (⟨S1x32, .f32⟩ : BufTy).Contents (Elt F) → (⟨S50000x32, .f32⟩ : BufTy).Contents (Elt F)),
    StableHlo.binary main_v95 main_v97 main_v98 (addf : (⟨S50000x32, .f32⟩ : BufTy).Contents (Elt F) → (⟨S50000x32, .f32⟩ : BufTy).Contents (Elt F) → (⟨S50000x32, .f32⟩ : BufTy).Contents (Elt F)),
    StableHlo.TRef.nullary main_call6.cst (constant S_ .f32 0x00000000#32),
    StableHlo.TRef.unary main_call6.cst main_call6.v0 (broadcastInDim S50000x32 ![] bcast_S_S50000x32),
    StableHlo.TRef.binary (.of main_v98) main_call6.v0 main_call6.v1 maximumf,
    StableHlo.binary main_v99 main_arg17 main_v100 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    StableHlo.unary main_arg18 main_v101 (broadcastInDim S1x32 ![1] bcast_S32_S1x32_1 : (⟨S32, .f32⟩ : BufTy).Contents (Elt F) → (⟨S1x32, .f32⟩ : BufTy).Contents (Elt F)),
    StableHlo.unary main_v101 main_v102 (broadcastInDim S50000x32 ![0, 1] bcast_S1x32_S50000x32_0_1 : (⟨S1x32, .f32⟩ : BufTy).Contents (Elt F) → (⟨S50000x32, .f32⟩ : BufTy).Contents (Elt F)) ]

/-- Operations 173 … 176 of @main, the calls unfolded: layer 3: the second bias sum and rectifier. -/
abbrev w10 : List (HloOp τ sig (Elt F)) :=
  [ StableHlo.binary main_v100 main_v102 main_v103 (addf : (⟨S50000x32, .f32⟩ : BufTy).Contents (Elt F) → (⟨S50000x32, .f32⟩ : BufTy).Contents (Elt F) → (⟨S50000x32, .f32⟩ : BufTy).Contents (Elt F)),
    StableHlo.TRef.nullary main_call7.cst (constant S_ .f32 0x00000000#32),
    StableHlo.TRef.unary main_call7.cst main_call7.v0 (broadcastInDim S50000x32 ![] bcast_S_S50000x32),
    StableHlo.TRef.binary (.of main_v103) main_call7.v0 main_call7.v1 maximumf ]

/-- Operations 177 … 220 of @main, the calls unfolded: layer 3: the column means, the column variances, the normalisation. -/
abbrev w11 : List (HloOp τ sig (Elt F)) :=
  [ StableHlo.nullary main_cst_15 (constant S_ .f32 0x00000000#32),
    StableHlo.binary main_v104 main_cst_15 main_v105 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    StableHlo.nullary main_cst_16 (constant S_ .f32 0x47435000#32),
    StableHlo.unary main_cst_16 main_v106 (broadcastInDim S32 ![] bcast_S_S32 : (⟨S_, .f32⟩ : BufTy).Contents (Elt F) → (⟨S32, .f32⟩ : BufTy).Contents (Elt F)),
    StableHlo.binary main_v105 main_v106 main_v107 (Host.divf : (⟨S32, .f32⟩ : BufTy).Contents (Elt F) → (⟨S32, .f32⟩ : BufTy).Contents (Elt F) → (⟨S32, .f32⟩ : BufTy).Contents (Elt F)),
    StableHlo.nullary main_c_17 (constantI S_ 32 0#32),
    StableHlo.TRef.nullary main_call8.cst (constant S_ .f32 0x00000000#32),
    StableHlo.TRef.binary (.of main_v104) main_call8.cst main_call8.v0 (fun x v => Host.reduceAdd x v reducesTo_S50000x32_S32_d0 h_S_),
    StableHlo.TRef.unary main_call8.v0 main_call8.v1 (broadcastInDim S1x32 ![1] bcast_S32_S1x32_1),
    StableHlo.TRef.nullary main_call8.cst_0 (constant S_ .f32 0x47435000#32),
    StableHlo.TRef.unary main_call8.cst_0 main_call8.v2 (broadcastInDim S1x32 ![] bcast_S_S1x32),
    StableHlo.TRef.binary main_call8.v1 main_call8.v2 main_call8.v3 Host.divf,
    StableHlo.TRef.unary main_call8.v3 main_call8.v4 (broadcastInDim S50000x32 ![0, 1] bcast_S1x32_S50000x32_0_1),
    StableHlo.TRef.binary (.of main_v104) main_call8.v4 main_call8.v5 subf,
    StableHlo.TRef.binary main_call8.v5 main_call8.v5 main_call8.v6 mulf,
    StableHlo.TRef.unary (.of main_c_17) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x32_S32_d0 h_S_),
    StableHlo.TRef.unary main_call8.v8 main_call8.v10 (broadcastInDim S32 ![] bcast_S_S32),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S32 ![] bcast_S_S32),
    StableHlo.TRef.ternary main_call8.v12 main_call8.v11 main_call8.call0.v1 main_call8.call0.v2 (fun p a b => select (broadcastInDim S32 ![] bcast_S_S32 p) a b),
    StableHlo.unary main_v107 main_v109 (broadcastInDim S1x32 ![1] bcast_S32_S1x32_1 : (⟨S32, .f32⟩ : BufTy).Contents (Elt F) → (⟨S1x32, .f32⟩ : BufTy).Contents (Elt F)),
    StableHlo.unary main_v109 main_v110 (broadcastInDim S50000x32 ![0, 1] bcast_S1x32_S50000x32_0_1 : (⟨S1x32, .f32⟩ : BufTy).Contents (Elt F) → (⟨S50000x32, .f32⟩ : BufTy).Contents (Elt F)),
    StableHlo.binary main_v104 main_v110 main_v111 (subf : (⟨S50000x32, .f32⟩ : BufTy).Contents (Elt F) → (⟨S50000x32, .f32⟩ : BufTy).Contents (Elt F) → (⟨S50000x32, .f32⟩ : BufTy).Contents (Elt F)),
    StableHlo.nullary main_cst_18 (constant S_ .f32 0x3727C5AC#32),
    StableHlo.unary main_cst_18 main_v112 (broadcastInDim S32 ![] bcast_S_S32 : (⟨S_, .f32⟩ : BufTy).Contents (Elt F) → (⟨S32, .f32⟩ : BufTy).Contents (Elt F)),
    StableHlo.binary main_v108 main_v112 main_v113 (addf : (⟨S32, .f32⟩ : BufTy).Contents (Elt F) → (⟨S32, .f32⟩ : BufTy).Contents (Elt F) → (⟨S32, .f32⟩ : BufTy).Contents (Elt F)),
    StableHlo.unary main_v113 main_v114 (Host.rsqrt : (⟨S32, .f32⟩ : BufTy).Contents (Elt F) → (⟨S32, .f32⟩ : BufTy).Contents (Elt F)),
    StableHlo.unary main_v114 main_v115 (broadcastInDim S1x32 ![1] bcast_S32_S1x32_1 : (⟨S32, .f32⟩ : BufTy).Contents (Elt F) → (⟨S1x32, .f32⟩ : BufTy).Contents (Elt F)),
    StableHlo.unary main_v115 main_v116 (broadcastInDim S50000x32 ![0, 1] bcast_S1x32_S50000x32_0_1 : (⟨S1x32, .f32⟩ : BufTy).Contents (Elt F) → (⟨S50000x32, .f32⟩ : BufTy).Contents (Elt F)),
    StableHlo.binary main_v111 main_v116 main_v117 (mulf : (⟨S50000x32, .f32⟩ : BufTy).Contents (Elt F) → (⟨S50000x32, .f32⟩ : BufTy).Contents (Elt F) → (⟨S50000x32, .f32⟩ : BufTy).Contents (Elt F)),
    StableHlo.unary main_arg19 main_v118 (broadcastInDim S1x32 ![1] bcast_S32_S1x32_1 : (⟨S32, .f32⟩ : BufTy).Contents (Elt F) → (⟨S1x32, .f32⟩ : BufTy).Contents (Elt F)),
    StableHlo.unary main_v118 main_v119 (broadcastInDim S50000x32 ![0, 1] bcast_S1x32_S50000x32_0_1 : (⟨S1x32, .f32⟩ : BufTy).Contents (Elt F) → (⟨S50000x32, .f32⟩ : BufTy).Contents (Elt F)),
    StableHlo.binary main_v117 main_v119 main_v120 (mulf : (⟨S50000x32, .f32⟩ : BufTy).Contents (Elt F) → (⟨S50000x32, .f32⟩ : BufTy).Contents (Elt F) → (⟨S50000x32, .f32⟩ : BufTy).Contents (Elt F)),
    StableHlo.unary main_arg20 main_v121 (broadcastInDim S1x32 ![1] bcast_S32_S1x32_1 : (⟨S32, .f32⟩ : BufTy).Contents (Elt F) → (⟨S1x32, .f32⟩ : BufTy).Contents (Elt F)),
    StableHlo.unary main_v121 main_v122 (broadcastInDim S50000x32 ![0, 1] bcast_S1x32_S50000x32_0_1 : (⟨S1x32, .f32⟩ : BufTy).Contents (Elt F) → (⟨S50000x32, .f32⟩ : BufTy).Contents (Elt F)),
    StableHlo.binary main_v120 main_v122 main_v123 (addf : (⟨S50000x32, .f32⟩ : BufTy).Contents (Elt F) → (⟨S50000x32, .f32⟩ : BufTy).Contents (Elt F) → (⟨S50000x32, .f32⟩ : BufTy).Contents (Elt F)) ]

/-- Operations 221 … 224 of @main, the calls unfolded: the per-graph scatter-add onto zeros. -/
abbrev w12 : List (HloOp τ sig (Elt F)) :=
  [ StableHlo.nullary main_cst_19 (constant S_ .f32 0x00000000#32),
    StableHlo.unary main_cst_19 main_v124 (broadcastInDim S1024x32 ![] bcast_S_S1024x32 : (⟨S_, .f32⟩ : BufTy).Contents (Elt F) → (⟨S1024x32, .f32⟩ : BufTy).Contents (Elt F)),
    StableHlo.unary main_arg2 main_v125 (broadcastInDim S50000x1 ![0] bcast_S50000_S50000x1_0 : (⟨S50000, .i32⟩ : BufTy).Contents (Elt F) → (⟨S50000x1, .i32⟩ : BufTy).Contents (Elt F)),
    StableHlo.ternary main_v124 main_v125 main_v123 main_v126 ((fun x i u => Host.scatterAdd scatter_S1024x32_S50000x1_S50000x32_1_0_0_1 x i u) : (⟨S1024x32, .f32⟩ : BufTy).Contents (Elt F) → (⟨S50000x1, .i32⟩ : BufTy).Contents (Elt F) → (⟨S50000x32, .f32⟩ : BufTy).Contents (Elt F) → (⟨S1024x32, .f32⟩ : BufTy).Contents (Elt F)) ]

/-- Operations 225 … 242 of @main, the calls unfolded: the head: three affine maps, the first two followed by the rectifier. -/
abbrev w13 : List (HloOp τ sig (Elt F)) :=
  [ StableHlo.binary main_v126 main_arg21 main_v127 ((fun l r => Host.dotGeneral dot_S1024x32_S32x16_S1024x16_1_0_0_1_n_n none l r) : (⟨S1024x32, .f32⟩ : BufTy).Contents (Elt F) → (⟨S32x16, .f32⟩ : BufTy).Contents (Elt F) → (⟨S1024x16, .f32⟩ : BufTy).Contents (Elt F)),
    StableHlo.unary main_arg22 main_v128 (broadcastInDim S1x16 ![1] bcast_S16_S1x16_1 : (⟨S16, .f32⟩ : BufTy).Contents (Elt F) → (⟨S1x16, .f32⟩ : BufTy).Contents (Elt F)),
    StableHlo.unary main_v128 main_v129 (broadcastInDim S1024x16 ![0, 1] bcast_S1x16_S1024x16_0_1 : (⟨S1x16, .f32⟩ : BufTy).Contents (Elt F) → (⟨S1024x16, .f32⟩ : BufTy).Contents (Elt F)),
    StableHlo.binary main_v127 main_v129 main_v130 (addf : (⟨S1024x16, .f32⟩ : BufTy).Contents (Elt F) → (⟨S1024x16, .f32⟩ : BufTy).Contents (Elt F) → (⟨S1024x16, .f32⟩ : BufTy).Contents (Elt F)),
    StableHlo.TRef.nullary main_call9.cst (constant S_ .f32 0x00000000#32),
    StableHlo.TRef.unary main_call9.cst main_call9.v0 (broadcastInDim S1024x16 ![] bcast_S_S1024x16),
    StableHlo.TRef.binary (.of main_v130) main_call9.v0 main_call9.v1 maximumf,
    StableHlo.binary main_v131 main_arg23 main_v132 ((fun l r => Host.dotGeneral dot_S1024x16_S16x8_S1024x8_1_0_0_1_n_n none l r) : (⟨S1024x16, .f32⟩ : BufTy).Contents (Elt F) → (⟨S16x8, .f32⟩ : BufTy).Contents (Elt F) → (⟨S1024x8, .f32⟩ : BufTy).Contents (Elt F)),
    StableHlo.unary main_arg24 main_v133 (broadcastInDim S1x8 ![1] bcast_S8_S1x8_1 : (⟨S8, .f32⟩ : BufTy).Contents (Elt F) → (⟨S1x8, .f32⟩ : BufTy).Contents (Elt F)),
    StableHlo.unary main_v133 main_v134 (broadcastInDim S1024x8 ![0, 1] bcast_S1x8_S1024x8_0_1 : (⟨S1x8, .f32⟩ : BufTy).Contents (Elt F) → (⟨S1024x8, .f32⟩ : BufTy).Contents (Elt F)),
    StableHlo.binary main_v132 main_v134 main_v135 (addf : (⟨S1024x8, .f32⟩ : BufTy).Contents (Elt F) → (⟨S1024x8, .f32⟩ : BufTy).Contents (Elt F) → (⟨S1024x8, .f32⟩ : BufTy).Contents (Elt F)),
    StableHlo.TRef.nullary main_call10.cst (constant S_ .f32 0x00000000#32),
    StableHlo.TRef.unary main_call10.cst main_call10.v0 (broadcastInDim S1024x8 ![] bcast_S_S1024x8),
    StableHlo.TRef.binary (.of main_v135) main_call10.v0 main_call10.v1 maximumf,
    StableHlo.binary main_v136 main_arg25 main_v137 ((fun l r => Host.dotGeneral dot_S1024x8_S8x2_S1024x2_1_0_0_1_n_n none l r) : (⟨S1024x8, .f32⟩ : BufTy).Contents (Elt F) → (⟨S8x2, .f32⟩ : BufTy).Contents (Elt F) → (⟨S1024x2, .f32⟩ : BufTy).Contents (Elt F)),
    StableHlo.unary main_arg26 main_v138 (broadcastInDim S1x2 ![1] bcast_S2_S1x2_1 : (⟨S2, .f32⟩ : BufTy).Contents (Elt F) → (⟨S1x2, .f32⟩ : BufTy).Contents (Elt F)),
    StableHlo.unary main_v138 main_v139 (broadcastInDim S1024x2 ![0, 1] bcast_S1x2_S1024x2_0_1 : (⟨S1x2, .f32⟩ : BufTy).Contents (Elt F) → (⟨S1024x2, .f32⟩ : BufTy).Contents (Elt F)),
    StableHlo.binary main_v137 main_v139 main_v140 (addf : (⟨S1024x2, .f32⟩ : BufTy).Contents (Elt F) → (⟨S1024x2, .f32⟩ : BufTy).Contents (Elt F) → (⟨S1024x2, .f32⟩ : BufTy).Contents (Elt F)) ]

/-- @main's 242 operations in order, the calls unfolded at their sites over the calls' own buffers. -/
abbrev ops : List (HloOp τ sig (Elt F)) :=
  w0 ++ (w1 ++ (w2 ++ (w3 ++ (w4 ++ (w5 ++ (w6 ++ (w7 ++ (w8 ++ (w9 ++ (w10 ++ (w11 ++ (w12 ++ (w13)))))))))))))

-- a chain of some ninety binds re-associated: the rewriting recurses once per statement
set_option maxRecDepth 8192 in
/-- Statements of window 0 of @main are that straight line: the callees' definitions unfolded at their calls, both sides are one
    chain of steps once sequencing is re-associated. -/
theorem part0_eq (c : Dev nD) : main_part0 (F := F) c = seq (w0 ++ (w1 ++ (w2 ++ (w3 ++ (w4))))) := by
  simp only [main_part0, fn_relu.body, fn_var.body, fn_where.body, w0, w1, w2, w3, w4, seq_append, seq, bind_assoc, pure_bind, bind_pure_unit]

-- a chain of some ninety binds re-associated: the rewriting recurses once per statement
set_option maxRecDepth 8192 in
/-- Statements of window 1 of @main are that straight line: the callees' definitions unfolded at their calls, both sides are one
    chain of steps once sequencing is re-associated. -/
theorem part1_eq (c : Dev nD) : main_part1 (F := F) c = seq (w5 ++ (w6 ++ (w7 ++ (w8 ++ (w9))))) := by
  simp only [main_part1, fn_relu_0.body, fn_var_1.body, fn_where_2.body, fn_relu_3.body, w5, w6, w7, w8, w9, seq_append, seq, bind_assoc, pure_bind, bind_pure_unit]

-- a chain of some ninety binds re-associated: the rewriting recurses once per statement
set_option maxRecDepth 8192 in
/-- Statements of window 2 of @main are that straight line: the callees' definitions unfolded at their calls, both sides are one
    chain of steps once sequencing is re-associated. -/
theorem part2_eq (c : Dev nD) : main_part2 (F := F) c = seq (w10 ++ (w11 ++ (w12 ++ (w13)))) := by
  simp only [main_part2, fn_relu_3.body, fn_var_4.body, fn_where_5.body, fn_relu_6.body, fn_relu_7.body, w10, w11, w12, w13, seq_append, seq, bind_assoc, pure_bind, bind_pure_unit]

/-- @main is the straight line `ops`. -/
theorem main_eq (c : Dev nD) : main (F := F) c = seq ops := by
  show (main_part0 (F := F) c >>= fun _ => main_part1 (F := F) c >>= fun _ => main_part2 (F := F) c) = _
  rw [part0_eq, part1_eq, part2_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem w0_sub : (w0 : List (HloOp τ sig (Elt F))).Forall fun op => op.bufs ⊆ tcRefs τ sig :=
  ⟨unary_bufs_sub .., reshape_bufs_sub .., unary_bufs_sub .., reshape_bufs_sub ..⟩
theorem w0_fresh : (w0 : List (HloOp τ sig (Elt F))).Forall fun op => op.fresh = ∅ :=
  ⟨rfl, rfl, rfl, rfl⟩
/-- The buffers window 0 writes. -/
abbrev w0_W : List (Ref sig .tc) := [main_v0, main_v1, main_v2, main_v3]
theorem w0_writes : (w0 : List (HloOp τ sig (Elt F))).Forall fun op => op.writes ⊆ (w0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem w1_sub : (w1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
theorem w1_fresh : (w1 : List (HloOp τ sig (Elt F))).Forall fun op => op.fresh = ∅ :=
  ⟨rfl, rfl, rfl, rfl, rfl, rfl, rfl, rfl, rfl, rfl, rfl, rfl, rfl, rfl⟩
/-- The buffers window 1 writes. -/
abbrev w1_W : List (Ref sig .tc) := [main_c, main_v4, main_v5, main_c_0, main_v6, main_v7, main_v8, main_v9, main_v10, main_cst, main_v11, main_v12, main_v13, main_v14]
theorem w1_writes : (w1 : List (HloOp τ sig (Elt F))).Forall fun op => op.writes ⊆ (w1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem w2_sub : (w2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem w2_fresh : (w2 : List (HloOp τ sig (Elt F))).Forall fun op => op.fresh = ∅ :=
  ⟨rfl, rfl, rfl, rfl, rfl, rfl, rfl, rfl, rfl, rfl, rfl, rfl, rfl, rfl⟩
/-- The buffers window 2 writes. -/
abbrev w2_W : List (Ref sig .tc) := [main_v15, main_v16, main_v17, main_v18, main_call0_cst, main_call0_v0, main_v19, main_v20, main_v21, main_v22, main_v23, main_call1_cst, main_call1_v0, main_v24]
theorem w2_writes : (w2 : List (HloOp τ sig (Elt F))).Forall fun op => op.writes ⊆ (w2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem w3_sub : (w3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem w3_fresh : (w3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers window 3 writes. -/
abbrev w3_W : List (Ref sig .tc) := [main_cst_1, main_v25, main_cst_2, main_v26, main_v27, main_c_3, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v28, main_v29, main_v30, main_v31, main_cst_4, main_v32, main_v33, main_v34, main_v35, main_v36, main_v37, main_v38, main_v39, main_v40, main_v41, main_v42, main_v43]
theorem w3_writes : (w3 : List (HloOp τ sig (Elt F))).Forall fun op => op.writes ⊆ (w3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem w4_sub : (w4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem w4_fresh : (w4 : List (HloOp τ sig (Elt F))).Forall fun op => op.fresh = ∅ :=
  ⟨rfl, rfl, rfl, rfl, rfl, rfl, rfl, rfl, rfl⟩
/-- The buffers window 4 writes. -/
abbrev w4_W : List (Ref sig .tc) := [main_c_5, main_v44, main_v45, main_c_6, main_v46, main_v47, main_v48, main_v49, main_v50]
theorem w4_writes : (w4 : List (HloOp τ sig (Elt F))).Forall fun op => op.writes ⊆ (w4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem w5_sub : (w5 : List (HloOp τ sig (Elt F))).Forall fun op => op.bufs ⊆ tcRefs τ sig :=
  ⟨nullary_bufs_sub .., unary_bufs_sub .., unary_bufs_sub .., ternary_bufs_sub .., binary_bufs_sub ..⟩
theorem w5_fresh : (w5 : List (HloOp τ sig (Elt F))).Forall fun op => op.fresh = ∅ :=
  ⟨rfl, rfl, rfl, rfl, rfl⟩
/-- The buffers window 5 writes. -/
abbrev w5_W : List (Ref sig .tc) := [main_cst_7, main_v51, main_v52, main_v53, main_v54]
theorem w5_writes : (w5 : List (HloOp τ sig (Elt F))).Forall fun op => op.writes ⊆ (w5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem w6_sub : (w6 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem w6_fresh : (w6 : List (HloOp τ sig (Elt F))).Forall fun op => op.fresh = ∅ :=
  ⟨rfl, rfl, rfl, rfl, rfl, rfl, rfl, rfl, rfl, rfl, rfl, rfl, rfl, rfl⟩
/-- The buffers window 6 writes. -/
abbrev w6_W : List (Ref sig .tc) := [main_v55, main_v56, main_v57, main_v58, main_call3_cst, main_call3_v0, main_v59, main_v60, main_v61, main_v62, main_v63, main_call4_cst, main_call4_v0, main_v64]
theorem w6_writes : (w6 : List (HloOp τ sig (Elt F))).Forall fun op => op.writes ⊆ (w6_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem w7_sub : (w7 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem w7_fresh : (w7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers window 7 writes. -/
abbrev w7_W : List (Ref sig .tc) := [main_cst_8, main_v65, main_cst_9, main_v66, main_v67, main_c_10, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v68, main_v69, main_v70, main_v71, main_cst_11, main_v72, main_v73, main_v74, main_v75, main_v76, main_v77, main_v78, main_v79, main_v80, main_v81, main_v82, main_v83]
theorem w7_writes : (w7 : List (HloOp τ sig (Elt F))).Forall fun op => op.writes ⊆ (w7_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem w8_sub : (w8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
theorem w8_fresh : (w8 : List (HloOp τ sig (Elt F))).Forall fun op => op.fresh = ∅ :=
  ⟨rfl, rfl, rfl, rfl, rfl, rfl, rfl, rfl, rfl, rfl, rfl, rfl, rfl, rfl⟩
/-- The buffers window 8 writes. -/
abbrev w8_W : List (Ref sig .tc) := [main_c_12, main_v84, main_v85, main_c_13, main_v86, main_v87, main_v88, main_v89, main_v90, main_cst_14, main_v91, main_v92, main_v93, main_v94]
theorem w8_writes : (w8 : List (HloOp τ sig (Elt F))).Forall fun op => op.writes ⊆ (w8_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem w9_sub : (w9 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub ..⟩
theorem w9_fresh : (w9 : List (HloOp τ sig (Elt F))).Forall fun op => op.fresh = ∅ :=
  ⟨rfl, rfl, rfl, rfl, rfl, rfl, rfl, rfl, rfl, rfl⟩
/-- The buffers window 9 writes. -/
abbrev w9_W : List (Ref sig .tc) := [main_v95, main_v96, main_v97, main_v98, main_call6_cst, main_call6_v0, main_v99, main_v100, main_v101, main_v102]
theorem w9_writes : (w9 : List (HloOp τ sig (Elt F))).Forall fun op => op.writes ⊆ (w9_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem w10_sub : (w10 : List (HloOp τ sig (Elt F))).Forall fun op => op.bufs ⊆ tcRefs τ sig :=
  ⟨binary_bufs_sub .., nullary_bufs_sub .., unary_bufs_sub .., binary_bufs_sub ..⟩
theorem w10_fresh : (w10 : List (HloOp τ sig (Elt F))).Forall fun op => op.fresh = ∅ :=
  ⟨rfl, rfl, rfl, rfl⟩
/-- The buffers window 10 writes. -/
abbrev w10_W : List (Ref sig .tc) := [main_v103, main_call7_cst, main_call7_v0, main_v104]
theorem w10_writes : (w10 : List (HloOp τ sig (Elt F))).Forall fun op => op.writes ⊆ (w10_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem w11_sub : (w11 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem w11_fresh : (w11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers window 11 writes. -/
abbrev w11_W : List (Ref sig .tc) := [main_cst_15, main_v105, main_cst_16, main_v106, main_v107, main_c_17, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v108, main_v109, main_v110, main_v111, main_cst_18, main_v112, main_v113, main_v114, main_v115, main_v116, main_v117, main_v118, main_v119, main_v120, main_v121, main_v122, main_v123]
theorem w11_writes : (w11 : List (HloOp τ sig (Elt F))).Forall fun op => op.writes ⊆ (w11_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem w12_sub : (w12 : List (HloOp τ sig (Elt F))).Forall fun op => op.bufs ⊆ tcRefs τ sig :=
  ⟨nullary_bufs_sub .., unary_bufs_sub .., unary_bufs_sub .., ternary_bufs_sub ..⟩
theorem w12_fresh : (w12 : List (HloOp τ sig (Elt F))).Forall fun op => op.fresh = ∅ :=
  ⟨rfl, rfl, rfl, rfl⟩
/-- The buffers window 12 writes. -/
abbrev w12_W : List (Ref sig .tc) := [main_cst_19, main_v124, main_v125, main_v126]
theorem w12_writes : (w12 : List (HloOp τ sig (Elt F))).Forall fun op => op.writes ⊆ (w12_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem w13_sub : (w13 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem w13_fresh : (w13 : List (HloOp τ sig (Elt F))).Forall fun op => op.fresh = ∅ :=
  ⟨rfl, rfl, rfl, rfl, rfl, rfl, rfl, rfl, rfl, rfl, rfl, rfl, rfl, rfl, rfl, rfl, rfl, rfl⟩
/-- The buffers window 13 writes. -/
abbrev w13_W : List (Ref sig .tc) := [main_v127, main_v128, main_v129, main_v130, main_call9_cst, main_call9_v0, main_v131, main_v132, main_v133, main_v134, main_v135, main_call10_cst, main_call10_v0, main_v136, main_v137, main_v138, main_v139, main_v140]
theorem w13_writes : (w13 : List (HloOp τ sig (Elt F))).Forall fun op => op.writes ⊆ (w13_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem ops_sub : (ops : List (HloOp τ sig (Elt F))).Forall fun op => op.bufs ⊆ tcRefs τ sig :=
  List.forall_append.mpr ⟨w0_sub, List.forall_append.mpr ⟨w1_sub, List.forall_append.mpr ⟨w2_sub, List.forall_append.mpr ⟨w3_sub, List.forall_append.mpr ⟨w4_sub, List.forall_append.mpr ⟨w5_sub, List.forall_append.mpr ⟨w6_sub, List.forall_append.mpr ⟨w7_sub, List.forall_append.mpr ⟨w8_sub, List.forall_append.mpr ⟨w9_sub, List.forall_append.mpr ⟨w10_sub, List.forall_append.mpr ⟨w11_sub, List.forall_append.mpr ⟨w12_sub, w13_sub⟩⟩⟩⟩⟩⟩⟩⟩⟩⟩⟩⟩⟩

theorem ops_fresh : ∀ op ∈ (ops : List (HloOp τ sig (Elt F))), op.fresh = ∅ :=
  List.forall_iff_forall_mem.mp (List.forall_append.mpr ⟨w0_fresh, List.forall_append.mpr ⟨w1_fresh, List.forall_append.mpr ⟨w2_fresh, List.forall_append.mpr ⟨w3_fresh, List.forall_append.mpr ⟨w4_fresh, List.forall_append.mpr ⟨w5_fresh, List.forall_append.mpr ⟨w6_fresh, List.forall_append.mpr ⟨w7_fresh, List.forall_append.mpr ⟨w8_fresh, List.forall_append.mpr ⟨w9_fresh, List.forall_append.mpr ⟨w10_fresh, List.forall_append.mpr ⟨w11_fresh, List.forall_append.mpr ⟨w12_fresh, w13_fresh⟩⟩⟩⟩⟩⟩⟩⟩⟩⟩⟩⟩⟩)

/-- The fold over two lines one after the other is the second's fold from the first's. -/
theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-- The buffers' contents after windows 0 … 0. -/
def val0 (V : Valuation τ sig (Elt F)) : Valuation τ sig (Elt F) := after w0 V
theorem val0_keep (V : Valuation τ sig (Elt F)) (r : Ref sig .tc) (h : r ∉ w0_W) :
    val0 V (Proc.devRef .tc r) = V (Proc.devRef .tc r) :=
  after_of_writes_sub w0 _ w0_writes h
/-- The buffers windows 0 … 0 write. -/
abbrev wup0 : List (Ref sig .tc) := w0_W
theorem val0_of (V : Valuation τ sig (Elt F)) (r : Ref sig .tc) (h : r ∉ wup0) : val0 V (Proc.devRef .tc r) = V (Proc.devRef .tc r) :=
  val0_keep V r h

/-- The buffers' contents after windows 0 … 1. -/
def val1 (V : Valuation τ sig (Elt F)) : Valuation τ sig (Elt F) := after w1 (val0 V)
theorem val1_keep (V : Valuation τ sig (Elt F)) (r : Ref sig .tc) (h : r ∉ w1_W) :
    val1 V (Proc.devRef .tc r) = val0 V (Proc.devRef .tc r) :=
  after_of_writes_sub w1 _ w1_writes h
/-- The buffers windows 0 … 1 write. -/
abbrev wup1 : List (Ref sig .tc) := wup0 ++ w1_W
theorem val1_of (V : Valuation τ sig (Elt F)) (r : Ref sig .tc) (h : r ∉ wup1) : val1 V (Proc.devRef .tc r) = V (Proc.devRef .tc r) :=
  (val1_keep V r fun hm => h (List.mem_append_right _ hm)).trans (val0_of V r fun hm => h (List.mem_append_left _ hm))

/-- The buffers' contents after windows 0 … 2. -/
def val2 (V : Valuation τ sig (Elt F)) : Valuation τ sig (Elt F) := after w2 (val1 V)
theorem val2_keep (V : Valuation τ sig (Elt F)) (r : Ref sig .tc) (h : r ∉ w2_W) :
    val2 V (Proc.devRef .tc r) = val1 V (Proc.devRef .tc r) :=
  after_of_writes_sub w2 _ w2_writes h
/-- The buffers windows 0 … 2 write. -/
abbrev wup2 : List (Ref sig .tc) := wup1 ++ w2_W
theorem val2_of (V : Valuation τ sig (Elt F)) (r : Ref sig .tc) (h : r ∉ wup2) : val2 V (Proc.devRef .tc r) = V (Proc.devRef .tc r) :=
  (val2_keep V r fun hm => h (List.mem_append_right _ hm)).trans (val1_of V r fun hm => h (List.mem_append_left _ hm))

/-- The buffers' contents after windows 0 … 3. -/
def val3 (V : Valuation τ sig (Elt F)) : Valuation τ sig (Elt F) := after w3 (val2 V)
theorem val3_keep (V : Valuation τ sig (Elt F)) (r : Ref sig .tc) (h : r ∉ w3_W) :
    val3 V (Proc.devRef .tc r) = val2 V (Proc.devRef .tc r) :=
  after_of_writes_sub w3 _ w3_writes h
/-- The buffers windows 0 … 3 write. -/
abbrev wup3 : List (Ref sig .tc) := wup2 ++ w3_W
theorem val3_of (V : Valuation τ sig (Elt F)) (r : Ref sig .tc) (h : r ∉ wup3) : val3 V (Proc.devRef .tc r) = V (Proc.devRef .tc r) :=
  (val3_keep V r fun hm => h (List.mem_append_right _ hm)).trans (val2_of V r fun hm => h (List.mem_append_left _ hm))

/-- The buffers' contents after windows 0 … 4. -/
def val4 (V : Valuation τ sig (Elt F)) : Valuation τ sig (Elt F) := after w4 (val3 V)
theorem val4_keep (V : Valuation τ sig (Elt F)) (r : Ref sig .tc) (h : r ∉ w4_W) :
    val4 V (Proc.devRef .tc r) = val3 V (Proc.devRef .tc r) :=
  after_of_writes_sub w4 _ w4_writes h
/-- The buffers windows 0 … 4 write. -/
abbrev wup4 : List (Ref sig .tc) := wup3 ++ w4_W
theorem val4_of (V : Valuation τ sig (Elt F)) (r : Ref sig .tc) (h : r ∉ wup4) : val4 V (Proc.devRef .tc r) = V (Proc.devRef .tc r) :=
  (val4_keep V r fun hm => h (List.mem_append_right _ hm)).trans (val3_of V r fun hm => h (List.mem_append_left _ hm))

/-- The buffers' contents after windows 0 … 5. -/
def val5 (V : Valuation τ sig (Elt F)) : Valuation τ sig (Elt F) := after w5 (val4 V)
theorem val5_keep (V : Valuation τ sig (Elt F)) (r : Ref sig .tc) (h : r ∉ w5_W) :
    val5 V (Proc.devRef .tc r) = val4 V (Proc.devRef .tc r) :=
  after_of_writes_sub w5 _ w5_writes h
/-- The buffers windows 0 … 5 write. -/
abbrev wup5 : List (Ref sig .tc) := wup4 ++ w5_W
theorem val5_of (V : Valuation τ sig (Elt F)) (r : Ref sig .tc) (h : r ∉ wup5) : val5 V (Proc.devRef .tc r) = V (Proc.devRef .tc r) :=
  (val5_keep V r fun hm => h (List.mem_append_right _ hm)).trans (val4_of V r fun hm => h (List.mem_append_left _ hm))

/-- The buffers' contents after windows 0 … 6. -/
def val6 (V : Valuation τ sig (Elt F)) : Valuation τ sig (Elt F) := after w6 (val5 V)
theorem val6_keep (V : Valuation τ sig (Elt F)) (r : Ref sig .tc) (h : r ∉ w6_W) :
    val6 V (Proc.devRef .tc r) = val5 V (Proc.devRef .tc r) :=
  after_of_writes_sub w6 _ w6_writes h
/-- The buffers windows 0 … 6 write. -/
abbrev wup6 : List (Ref sig .tc) := wup5 ++ w6_W
theorem val6_of (V : Valuation τ sig (Elt F)) (r : Ref sig .tc) (h : r ∉ wup6) : val6 V (Proc.devRef .tc r) = V (Proc.devRef .tc r) :=
  (val6_keep V r fun hm => h (List.mem_append_right _ hm)).trans (val5_of V r fun hm => h (List.mem_append_left _ hm))

/-- The buffers' contents after windows 0 … 7. -/
def val7 (V : Valuation τ sig (Elt F)) : Valuation τ sig (Elt F) := after w7 (val6 V)
theorem val7_keep (V : Valuation τ sig (Elt F)) (r : Ref sig .tc) (h : r ∉ w7_W) :
    val7 V (Proc.devRef .tc r) = val6 V (Proc.devRef .tc r) :=
  after_of_writes_sub w7 _ w7_writes h
/-- The buffers windows 0 … 7 write. -/
abbrev wup7 : List (Ref sig .tc) := wup6 ++ w7_W
theorem val7_of (V : Valuation τ sig (Elt F)) (r : Ref sig .tc) (h : r ∉ wup7) : val7 V (Proc.devRef .tc r) = V (Proc.devRef .tc r) :=
  (val7_keep V r fun hm => h (List.mem_append_right _ hm)).trans (val6_of V r fun hm => h (List.mem_append_left _ hm))

/-- The buffers' contents after windows 0 … 8. -/
def val8 (V : Valuation τ sig (Elt F)) : Valuation τ sig (Elt F) := after w8 (val7 V)
theorem val8_keep (V : Valuation τ sig (Elt F)) (r : Ref sig .tc) (h : r ∉ w8_W) :
    val8 V (Proc.devRef .tc r) = val7 V (Proc.devRef .tc r) :=
  after_of_writes_sub w8 _ w8_writes h
/-- The buffers windows 0 … 8 write. -/
abbrev wup8 : List (Ref sig .tc) := wup7 ++ w8_W
theorem val8_of (V : Valuation τ sig (Elt F)) (r : Ref sig .tc) (h : r ∉ wup8) : val8 V (Proc.devRef .tc r) = V (Proc.devRef .tc r) :=
  (val8_keep V r fun hm => h (List.mem_append_right _ hm)).trans (val7_of V r fun hm => h (List.mem_append_left _ hm))

/-- The buffers' contents after windows 0 … 9. -/
def val9 (V : Valuation τ sig (Elt F)) : Valuation τ sig (Elt F) := after w9 (val8 V)
theorem val9_keep (V : Valuation τ sig (Elt F)) (r : Ref sig .tc) (h : r ∉ w9_W) :
    val9 V (Proc.devRef .tc r) = val8 V (Proc.devRef .tc r) :=
  after_of_writes_sub w9 _ w9_writes h
/-- The buffers windows 0 … 9 write. -/
abbrev wup9 : List (Ref sig .tc) := wup8 ++ w9_W
theorem val9_of (V : Valuation τ sig (Elt F)) (r : Ref sig .tc) (h : r ∉ wup9) : val9 V (Proc.devRef .tc r) = V (Proc.devRef .tc r) :=
  (val9_keep V r fun hm => h (List.mem_append_right _ hm)).trans (val8_of V r fun hm => h (List.mem_append_left _ hm))

/-- The buffers' contents after windows 0 … 10. -/
def val10 (V : Valuation τ sig (Elt F)) : Valuation τ sig (Elt F) := after w10 (val9 V)
theorem val10_keep (V : Valuation τ sig (Elt F)) (r : Ref sig .tc) (h : r ∉ w10_W) :
    val10 V (Proc.devRef .tc r) = val9 V (Proc.devRef .tc r) :=
  after_of_writes_sub w10 _ w10_writes h
/-- The buffers windows 0 … 10 write. -/
abbrev wup10 : List (Ref sig .tc) := wup9 ++ w10_W
theorem val10_of (V : Valuation τ sig (Elt F)) (r : Ref sig .tc) (h : r ∉ wup10) : val10 V (Proc.devRef .tc r) = V (Proc.devRef .tc r) :=
  (val10_keep V r fun hm => h (List.mem_append_right _ hm)).trans (val9_of V r fun hm => h (List.mem_append_left _ hm))

/-- The buffers' contents after windows 0 … 11. -/
def val11 (V : Valuation τ sig (Elt F)) : Valuation τ sig (Elt F) := after w11 (val10 V)
theorem val11_keep (V : Valuation τ sig (Elt F)) (r : Ref sig .tc) (h : r ∉ w11_W) :
    val11 V (Proc.devRef .tc r) = val10 V (Proc.devRef .tc r) :=
  after_of_writes_sub w11 _ w11_writes h
/-- The buffers windows 0 … 11 write. -/
abbrev wup11 : List (Ref sig .tc) := wup10 ++ w11_W
theorem val11_of (V : Valuation τ sig (Elt F)) (r : Ref sig .tc) (h : r ∉ wup11) : val11 V (Proc.devRef .tc r) = V (Proc.devRef .tc r) :=
  (val11_keep V r fun hm => h (List.mem_append_right _ hm)).trans (val10_of V r fun hm => h (List.mem_append_left _ hm))

/-- The buffers' contents after windows 0 … 12. -/
def val12 (V : Valuation τ sig (Elt F)) : Valuation τ sig (Elt F) := after w12 (val11 V)
theorem val12_keep (V : Valuation τ sig (Elt F)) (r : Ref sig .tc) (h : r ∉ w12_W) :
    val12 V (Proc.devRef .tc r) = val11 V (Proc.devRef .tc r) :=
  after_of_writes_sub w12 _ w12_writes h
/-- The buffers windows 0 … 12 write. -/
abbrev wup12 : List (Ref sig .tc) := wup11 ++ w12_W
theorem val12_of (V : Valuation τ sig (Elt F)) (r : Ref sig .tc) (h : r ∉ wup12) : val12 V (Proc.devRef .tc r) = V (Proc.devRef .tc r) :=
  (val12_keep V r fun hm => h (List.mem_append_right _ hm)).trans (val11_of V r fun hm => h (List.mem_append_left _ hm))

/-- The buffers' contents after windows 0 … 13. -/
def val13 (V : Valuation τ sig (Elt F)) : Valuation τ sig (Elt F) := after w13 (val12 V)
theorem val13_keep (V : Valuation τ sig (Elt F)) (r : Ref sig .tc) (h : r ∉ w13_W) :
    val13 V (Proc.devRef .tc r) = val12 V (Proc.devRef .tc r) :=
  after_of_writes_sub w13 _ w13_writes h
/-- The buffers windows 0 … 13 write. -/
abbrev wup13 : List (Ref sig .tc) := wup12 ++ w13_W
theorem val13_of (V : Valuation τ sig (Elt F)) (r : Ref sig .tc) (h : r ∉ wup13) : val13 V (Proc.devRef .tc r) = V (Proc.devRef .tc r) :=
  (val13_keep V r fun hm => h (List.mem_append_right _ hm)).trans (val12_of V r fun hm => h (List.mem_append_left _ hm))

theorem after_ops (V : Valuation τ sig (Elt F)) : after ops V = val13 V := by
  simp only [ops, after_append, val0, val1, val2, val3, val4, val5, val6, val7, val8, val9, val10, val11, val12, val13]

theorem val0_v1 (V : Valuation τ sig (Elt F)) : val0 V (Proc.devRef .tc main_v1) = res_v1 V := by
  unfold val0
  after_results_simp
  rfl
theorem val0_v3 (V : Valuation τ sig (Elt F)) : val0 V (Proc.devRef .tc main_v3) = res_v3 V := by
  unfold val0
  after_results_simp
  rfl

theorem val1_v9 (V : Valuation τ sig (Elt F)) : val1 V (Proc.devRef .tc main_v9) = res_v9 V := by
  unfold val1
  after_results_simp
  simp only [val0_v1 V]
  rfl
theorem val1_v12 (V : Valuation τ sig (Elt F)) : val1 V (Proc.devRef .tc main_v12) = res_v12 V := by
  unfold val1
  after_results_simp
  simp only [val0_v3 V]
  rfl
theorem val1_v14 (V : Valuation τ sig (Elt F)) : val1 V (Proc.devRef .tc main_v14) = res_v14 V := by
  unfold val1
  after_results_simp
  simp only [val0_of V main_arg0 (by decide), val0_v3 V, val0_v1 V]
  rfl
theorem val1_v1 (V : Valuation τ sig (Elt F)) : val1 V (Proc.devRef .tc main_v1) = res_v1 V :=
  (val1_keep V main_v1 (by decide)).trans (val0_v1 V)
theorem val1_v3 (V : Valuation τ sig (Elt F)) : val1 V (Proc.devRef .tc main_v3) = res_v3 V :=
  (val1_keep V main_v3 (by decide)).trans (val0_v3 V)

theorem val2_v19 (V : Valuation τ sig (Elt F)) : val2 V (Proc.devRef .tc main_v19) = res_v19 V := by
  unfold val2
  after_results_simp
  simp only [val1_v14 V, val1_of V main_arg3 (by decide), val1_of V main_arg4 (by decide)]
  rfl
theorem val2_v24 (V : Valuation τ sig (Elt F)) : val2 V (Proc.devRef .tc main_v24) = res_v24 V := by
  unfold val2
  after_results_simp
  simp only [val1_v14 V, val1_of V main_arg3 (by decide), val1_of V main_arg4 (by decide), val1_of V main_arg5 (by decide), val1_of V main_arg6 (by decide)]
  rfl
theorem val2_v1 (V : Valuation τ sig (Elt F)) : val2 V (Proc.devRef .tc main_v1) = res_v1 V :=
  (val2_keep V main_v1 (by decide)).trans (val1_v1 V)
theorem val2_v3 (V : Valuation τ sig (Elt F)) : val2 V (Proc.devRef .tc main_v3) = res_v3 V :=
  (val2_keep V main_v3 (by decide)).trans (val1_v3 V)

theorem val3_v27 (V : Valuation τ sig (Elt F)) : val3 V (Proc.devRef .tc main_v27) = res_v27 V := by
  unfold val3
  after_results_simp
  simp only [val2_v24 V]
  rfl
theorem val3_call2_v5 (V : Valuation τ sig (Elt F)) : val3 V (Proc.devRef .tc main_call2_v5) = res_call2_v5 V := by
  unfold val3
  after_results_simp
  simp only [val2_v24 V]
  rfl
theorem val3_call2_v8 (V : Valuation τ sig (Elt F)) : val3 V (Proc.devRef .tc main_call2_v8) = res_call2_v8 V := by
  unfold val3
  after_results_simp
  rfl
theorem val3_v28 (V : Valuation τ sig (Elt F)) : val3 V (Proc.devRef .tc main_v28) = res_v28 V := by
  unfold val3
  after_results_simp
  simp only [val2_v24 V]
  rfl
theorem val3_v43 (V : Valuation τ sig (Elt F)) : val3 V (Proc.devRef .tc main_v43) = res_v43 V := by
  unfold val3
  after_results_simp
  simp only [val2_v24 V, val2_of V main_arg7 (by decide), val2_of V main_arg8 (by decide)]
  rfl
theorem val3_v1 (V : Valuation τ sig (Elt F)) : val3 V (Proc.devRef .tc main_v1) = res_v1 V :=
  (val3_keep V main_v1 (by decide)).trans (val2_v1 V)
theorem val3_v3 (V : Valuation τ sig (Elt F)) : val3 V (Proc.devRef .tc main_v3) = res_v3 V :=
  (val3_keep V main_v3 (by decide)).trans (val2_v3 V)

theorem val4_v49 (V : Valuation τ sig (Elt F)) : val4 V (Proc.devRef .tc main_v49) = res_v49 V := by
  unfold val4
  after_results_simp
  simp only [val3_v1 V]
  rfl
theorem val4_v50 (V : Valuation τ sig (Elt F)) : val4 V (Proc.devRef .tc main_v50) = res_v50 V := by
  unfold val4
  after_results_simp
  simp only [val3_v43 V, val3_v1 V]
  rfl
theorem val4_v1 (V : Valuation τ sig (Elt F)) : val4 V (Proc.devRef .tc main_v1) = res_v1 V :=
  (val4_keep V main_v1 (by decide)).trans (val3_v1 V)
theorem val4_v3 (V : Valuation τ sig (Elt F)) : val4 V (Proc.devRef .tc main_v3) = res_v3 V :=
  (val4_keep V main_v3 (by decide)).trans (val3_v3 V)
theorem val4_v43 (V : Valuation τ sig (Elt F)) : val4 V (Proc.devRef .tc main_v43) = res_v43 V :=
  (val4_keep V main_v43 (by decide)).trans (val3_v43 V)

theorem val5_v52 (V : Valuation τ sig (Elt F)) : val5 V (Proc.devRef .tc main_v52) = res_v52 V := by
  unfold val5
  after_results_simp
  simp only [val4_v3 V]
  rfl
theorem val5_v54 (V : Valuation τ sig (Elt F)) : val5 V (Proc.devRef .tc main_v54) = res_v54 V := by
  unfold val5
  after_results_simp
  simp only [val4_v43 V, val4_v3 V, val4_v50 V]
  rfl
theorem val5_v1 (V : Valuation τ sig (Elt F)) : val5 V (Proc.devRef .tc main_v1) = res_v1 V :=
  (val5_keep V main_v1 (by decide)).trans (val4_v1 V)
theorem val5_v3 (V : Valuation τ sig (Elt F)) : val5 V (Proc.devRef .tc main_v3) = res_v3 V :=
  (val5_keep V main_v3 (by decide)).trans (val4_v3 V)

theorem val6_v59 (V : Valuation τ sig (Elt F)) : val6 V (Proc.devRef .tc main_v59) = res_v59 V := by
  unfold val6
  after_results_simp
  simp only [val5_v54 V, val5_of V main_arg9 (by decide), val5_of V main_arg10 (by decide)]
  rfl
theorem val6_v64 (V : Valuation τ sig (Elt F)) : val6 V (Proc.devRef .tc main_v64) = res_v64 V := by
  unfold val6
  after_results_simp
  simp only [val5_v54 V, val5_of V main_arg9 (by decide), val5_of V main_arg10 (by decide), val5_of V main_arg11 (by decide), val5_of V main_arg12 (by decide)]
  rfl
theorem val6_v1 (V : Valuation τ sig (Elt F)) : val6 V (Proc.devRef .tc main_v1) = res_v1 V :=
  (val6_keep V main_v1 (by decide)).trans (val5_v1 V)
theorem val6_v3 (V : Valuation τ sig (Elt F)) : val6 V (Proc.devRef .tc main_v3) = res_v3 V :=
  (val6_keep V main_v3 (by decide)).trans (val5_v3 V)

theorem val7_v67 (V : Valuation τ sig (Elt F)) : val7 V (Proc.devRef .tc main_v67) = res_v67 V := by
  unfold val7
  after_results_simp
  simp only [val6_v64 V]
  rfl
theorem val7_call5_v5 (V : Valuation τ sig (Elt F)) : val7 V (Proc.devRef .tc main_call5_v5) = res_call5_v5 V := by
  unfold val7
  after_results_simp
  simp only [val6_v64 V]
  rfl
theorem val7_call5_v8 (V : Valuation τ sig (Elt F)) : val7 V (Proc.devRef .tc main_call5_v8) = res_call5_v8 V := by
  unfold val7
  after_results_simp
  rfl
theorem val7_v68 (V : Valuation τ sig (Elt F)) : val7 V (Proc.devRef .tc main_v68) = res_v68 V := by
  unfold val7
  after_results_simp
  simp only [val6_v64 V]
  rfl
theorem val7_v83 (V : Valuation τ sig (Elt F)) : val7 V (Proc.devRef .tc main_v83) = res_v83 V := by
  unfold val7
  after_results_simp
  simp only [val6_v64 V, val6_of V main_arg13 (by decide), val6_of V main_arg14 (by decide)]
  rfl
theorem val7_v1 (V : Valuation τ sig (Elt F)) : val7 V (Proc.devRef .tc main_v1) = res_v1 V :=
  (val7_keep V main_v1 (by decide)).trans (val6_v1 V)
theorem val7_v3 (V : Valuation τ sig (Elt F)) : val7 V (Proc.devRef .tc main_v3) = res_v3 V :=
  (val7_keep V main_v3 (by decide)).trans (val6_v3 V)

theorem val8_v89 (V : Valuation τ sig (Elt F)) : val8 V (Proc.devRef .tc main_v89) = res_v89 V := by
  unfold val8
  after_results_simp
  simp only [val7_v1 V]
  rfl
theorem val8_v92 (V : Valuation τ sig (Elt F)) : val8 V (Proc.devRef .tc main_v92) = res_v92 V := by
  unfold val8
  after_results_simp
  simp only [val7_v3 V]
  rfl
theorem val8_v94 (V : Valuation τ sig (Elt F)) : val8 V (Proc.devRef .tc main_v94) = res_v94 V := by
  unfold val8
  after_results_simp
  simp only [val7_v83 V, val7_v3 V, val7_v1 V]
  rfl

theorem val9_v99 (V : Valuation τ sig (Elt F)) : val9 V (Proc.devRef .tc main_v99) = res_v99 V := by
  unfold val9
  after_results_simp
  simp only [val8_v94 V, val8_of V main_arg15 (by decide), val8_of V main_arg16 (by decide)]
  rfl
theorem val9_v100 (V : Valuation τ sig (Elt F)) : val9 V (Proc.devRef .tc main_v100) = res_v100 V := by
  unfold val9
  after_results_simp
  simp only [val8_v94 V, val8_of V main_arg15 (by decide), val8_of V main_arg16 (by decide), val8_of V main_arg17 (by decide)]
  rfl
theorem val9_v102 (V : Valuation τ sig (Elt F)) : val9 V (Proc.devRef .tc main_v102) = res_v102 V := by
  unfold val9
  after_results_simp
  simp only [val8_of V main_arg18 (by decide)]
  rfl

theorem val10_v104 (V : Valuation τ sig (Elt F)) : val10 V (Proc.devRef .tc main_v104) = res_v104 V := by
  unfold val10
  after_results_simp
  simp only [val9_v100 V, val9_v102 V]
  rfl

theorem val11_v107 (V : Valuation τ sig (Elt F)) : val11 V (Proc.devRef .tc main_v107) = res_v107 V := by
  unfold val11
  after_results_simp
  simp only [val10_v104 V]
  rfl
theorem val11_call8_v5 (V : Valuation τ sig (Elt F)) : val11 V (Proc.devRef .tc main_call8_v5) = res_call8_v5 V := by
  unfold val11
  after_results_simp
  simp only [val10_v104 V]
  rfl
theorem val11_call8_v8 (V : Valuation τ sig (Elt F)) : val11 V (Proc.devRef .tc main_call8_v8) = res_call8_v8 V := by
  unfold val11
  after_results_simp
  rfl
theorem val11_v108 (V : Valuation τ sig (Elt F)) : val11 V (Proc.devRef .tc main_v108) = res_v108 V := by
  unfold val11
  after_results_simp
  simp only [val10_v104 V]
  rfl
theorem val11_v123 (V : Valuation τ sig (Elt F)) : val11 V (Proc.devRef .tc main_v123) = res_v123 V := by
  unfold val11
  after_results_simp
  simp only [val10_v104 V, val10_of V main_arg19 (by decide), val10_of V main_arg20 (by decide)]
  rfl

theorem val12_v125 (V : Valuation τ sig (Elt F)) : val12 V (Proc.devRef .tc main_v125) = res_v125 V := by
  unfold val12
  after_results_simp
  simp only [val11_of V main_arg2 (by decide)]
  rfl
theorem val12_v126 (V : Valuation τ sig (Elt F)) : val12 V (Proc.devRef .tc main_v126) = res_v126 V := by
  unfold val12
  after_results_simp
  simp only [val11_of V main_arg2 (by decide), val11_v123 V]
  rfl

theorem val13_v131 (V : Valuation τ sig (Elt F)) : val13 V (Proc.devRef .tc main_v131) = res_v131 V := by
  unfold val13
  after_results_simp
  simp only [val12_v126 V, val12_of V main_arg21 (by decide), val12_of V main_arg22 (by decide)]
  rfl
theorem val13_v136 (V : Valuation τ sig (Elt F)) : val13 V (Proc.devRef .tc main_v136) = res_v136 V := by
  unfold val13
  after_results_simp
  simp only [val12_v126 V, val12_of V main_arg21 (by decide), val12_of V main_arg22 (by decide), val12_of V main_arg23 (by decide), val12_of V main_arg24 (by decide)]
  rfl
theorem val13_v140 (V : Valuation τ sig (Elt F)) : val13 V (Proc.devRef .tc main_v140) = res_v140 V := by
  unfold val13
  after_results_simp
  simp only [val12_v126 V, val12_of V main_arg21 (by decide), val12_of V main_arg22 (by decide), val12_of V main_arg23 (by decide), val12_of V main_arg24 (by decide), val12_of V main_arg25 (by decide), val12_of V main_arg26 (by decide)]
  rfl

/-- The result buffer after the whole line. -/
theorem out_eq (V : Valuation τ sig (Elt F)) : after ops V (Proc.devRef .tc main_v140) = res_v140 V := by
  rw [after_ops]; exact val13_v140 V

/-- A buffer the line does not write keeps its contents. -/
theorem keep_eq (V : Valuation τ sig (Elt F)) (r : Ref sig .tc) (h : r ∉ wup13) : after ops V (Proc.devRef .tc r) = V (Proc.devRef .tc r) := by
  rw [after_ops]; exact val13_of V r h

/-- On every device, for any float values, from any memory with zero counters: every weakly fair execution of @main terminates with
    the result buffer at `res_v140` of the launch contents and every buffer the line does not write as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v140) = res_v140 (launchContents m c)
      ∧ ∀ b : Ref sig .tc, b ∉ wup13 → r.2.mem ((c.tc : Thread nD τ).loc b) = m ((c.tc : Thread nD τ).loc b) :=
  (θ_run defs _ _).mono (fun _ h c => ⟨(h c main_v140).trans (out_eq _), fun b hb => (h c b).trans (keep_eq _ b hb)⟩)
    (run_seq scopedRefs_eq scopedSems_eq defs main (fun _ => ops) main_eq (fun _ => ops_sub) m ρ (fun _ => ops_fresh))

/-- The same with the twenty-seven argument buffers named one by one. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v140) = res_v140 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun _ h c => ⟨(h c).1, (h c).2 main_arg0 (by decide), (h c).2 main_arg1 (by decide), (h c).2 main_arg2 (by decide), (h c).2 main_arg3 (by decide), (h c).2 main_arg4 (by decide), (h c).2 main_arg5 (by decide), (h c).2 main_arg6 (by decide), (h c).2 main_arg7 (by decide), (h c).2 main_arg8 (by decide), (h c).2 main_arg9 (by decide), (h c).2 main_arg10 (by decide), (h c).2 main_arg11 (by decide), (h c).2 main_arg12 (by decide), (h c).2 main_arg13 (by decide), (h c).2 main_arg14 (by decide), (h c).2 main_arg15 (by decide), (h c).2 main_arg16 (by decide), (h c).2 main_arg17 (by decide), (h c).2 main_arg18 (by decide), (h c).2 main_arg19 (by decide), (h c).2 main_arg20 (by decide), (h c).2 main_arg21 (by decide), (h c).2 main_arg22 (by decide), (h c).2 main_arg23 (by decide), (h c).2 main_arg24 (by decide), (h c).2 main_arg25 (by decide), (h c).2 main_arg26 (by decide)⟩) (run m ρ)

end Cert.RefRun

end
-- ==== Proof.RefStagesValue.lean ====
/-
  The value of the reference, stage by stage.

  Each named stage of the reference (`Cert.RefRun.res_v…`), read over the extended reals, is the array of the
  corresponding matrix of the network's arithmetic (`Cert.Gin`): the features plus the aggregated neighbours, the two
  rectified affine maps of the perceptron, the column means and variances, the normalised output — three times — then
  the pooled rows and the head. The last stage is the array of `net` with the variance taken as the mean squared
  deviation, at the index columns the reference computes from the edge array and the graph vector.
-/
import proofs.«135204_j17832704213197_1_alg».proof.Proof.RefStages
import proofs.«135204_j17832704213197_1_alg».proof.Proof.HostOps

noncomputable section

open scoped BigOperators

namespace Cert.RefStages

open Idealize.ShloMosaic Idealize.ShloMosaic.ValueIdx Idealize.ShloMosaic.TcCoe Idealize.SL.Sem Idealize.ShloMosaic.StableHlo
open Cert.Gin Cert.HostOps Cert.LibPlainDot Cert.Lib.RowGatherScatter
open Cert.ReferenceIdeal Cert.ReferenceIdeal.Gen Cert.RefRun

/-! ## Two more groups of operations, general in the sizes -/

/-- THE FEATURES PLUS THEIR AGGREGATED NEIGHBOURS: entry `(r, i)` of the array plus `agg` there. -/
theorem resid_eq {N D E : Nat} (hN : 0 < N)
    (wfG : GatherDims.WF ⟨2, ![N, D]⟩ ⟨2, ![E, 1]⟩ ⟨2, ![E, D]⟩ [1] [0] [] [0] [] 1 ![1, D])
    (wfS : ScatterDims.WF ⟨2, ![N, D]⟩ ⟨2, ![E, 1]⟩ ⟨2, ![E, D]⟩ [1] [0] [0] 1)
    (hb : S0.BroadcastsInDim ⟨2, ![N, D]⟩ (![] : Fin 0 → Fin 2))
    (x : FVec Ideal ⟨2, ![N, D]⟩ .f32) (sI dI : IVec ⟨2, ![E, 1]⟩ 32) :
    addf x (Host.scatterAdd (rowScatterDims N D E wfS)
        (broadcastInDim ⟨2, ![N, D]⟩ ![] hb (constant (F := Ideal) S0 .f32 0x00000000#32)) dI
        (Host.gather (rowGatherDims N D E wfG) x sI))
      = arr2 (fun r i => mat2 x r i + agg hN sI dI (mat2 x) r i) := by
  rw [agg_eq hN wfG wfS hb x sI dI]
  funext i
  obtain ⟨r, c, rfl⟩ : ∃ (r : Fin N) (c : Fin D), i = ix2 r c := ⟨i 0, i 1, eq_ix2 i⟩
  rfl

/-- A RECTIFIED AFFINE MAP: the matrix product plus the bias row, then the maximum with zero. -/
theorem linrelu_eq {M K N : Nat}
    (wf : DotDims.WF (⟨2, ![M, K]⟩ : Shape) ⟨2, ![K, N]⟩ ⟨2, ![M, N]⟩ [1] [0] [0] [1] [] [])
    (prec : Option ContractPrecision)
    (hb1 : (⟨1, ![N]⟩ : Shape).BroadcastsInDim ⟨2, ![1, N]⟩ ![1])
    (hb2 : (⟨2, ![1, N]⟩ : Shape).BroadcastsInDim ⟨2, ![M, N]⟩ ![0, 1])
    (hb0 : S0.BroadcastsInDim ⟨2, ![M, N]⟩ (![] : Fin 0 → Fin 2))
    (A : FVec Ideal ⟨2, ![M, K]⟩ .f32) (W : FVec Ideal ⟨2, ![K, N]⟩ .f32) (b : FVec Ideal ⟨1, ![N]⟩ .f32) :
    maximumf
        (addf (Host.dotGeneral (dims wf) prec A W)
          (broadcastInDim ⟨2, ![M, N]⟩ ![0, 1] hb2 (broadcastInDim ⟨2, ![1, N]⟩ ![1] hb1 b)))
        (broadcastInDim ⟨2, ![M, N]⟩ ![] hb0 (constant (F := Ideal) S0 .f32 0x00000000#32))
      = arr2 (fun r c => relu (lin (mat2 A) (mat2 W) (row1 b) r c)) := by
  rw [lin_eq wf prec hb1 hb2 A W b, relu_eq hb0]
  rfl

/-! ## The reference's stages -/

variable (V : Valuation τ sig (Elt Ideal))

/-- There is at least one node. -/
theorem hN : 0 < 50000 := by decide

/-- The source index column the reference computes from the edge array. -/
abbrev sI : IVec ⟨2, ![800000, 1]⟩ 32 := res_v9 (F := Ideal) V
/-- The destination index column. -/
abbrev dI : IVec ⟨2, ![800000, 1]⟩ 32 := res_v12 (F := Ideal) V
/-- The graph index column. -/
abbrev bI : IVec ⟨2, ![50000, 1]⟩ 32 := res_v125 (F := Ideal) V

abbrev x0 : Mat 50000 114 := mat2 (M := 50000) (N := 114) (V (Proc.devRef .tc main_arg0))
abbrev w1a : Mat 114 198 := mat2 (M := 114) (N := 198) (V (Proc.devRef .tc main_arg3))
abbrev b1a : Row 198 := row1 (N := 198) (V (Proc.devRef .tc main_arg4))
abbrev w1b : Mat 198 198 := mat2 (M := 198) (N := 198) (V (Proc.devRef .tc main_arg5))
abbrev b1b : Row 198 := row1 (N := 198) (V (Proc.devRef .tc main_arg6))
abbrev g1 : Row 198 := row1 (N := 198) (V (Proc.devRef .tc main_arg7))
abbrev be1 : Row 198 := row1 (N := 198) (V (Proc.devRef .tc main_arg8))
abbrev w2a : Mat 198 64 := mat2 (M := 198) (N := 64) (V (Proc.devRef .tc main_arg9))
abbrev b2a : Row 64 := row1 (N := 64) (V (Proc.devRef .tc main_arg10))
abbrev w2b : Mat 64 64 := mat2 (M := 64) (N := 64) (V (Proc.devRef .tc main_arg11))
abbrev b2b : Row 64 := row1 (N := 64) (V (Proc.devRef .tc main_arg12))
abbrev g2 : Row 64 := row1 (N := 64) (V (Proc.devRef .tc main_arg13))
abbrev be2 : Row 64 := row1 (N := 64) (V (Proc.devRef .tc main_arg14))
abbrev w3a : Mat 64 32 := mat2 (M := 64) (N := 32) (V (Proc.devRef .tc main_arg15))
abbrev b3a : Row 32 := row1 (N := 32) (V (Proc.devRef .tc main_arg16))
abbrev w3b : Mat 32 32 := mat2 (M := 32) (N := 32) (V (Proc.devRef .tc main_arg17))
abbrev b3b : Row 32 := row1 (N := 32) (V (Proc.devRef .tc main_arg18))
abbrev g3 : Row 32 := row1 (N := 32) (V (Proc.devRef .tc main_arg19))
abbrev be3 : Row 32 := row1 (N := 32) (V (Proc.devRef .tc main_arg20))
abbrev fw1 : Mat 32 16 := mat2 (M := 32) (N := 16) (V (Proc.devRef .tc main_arg21))
abbrev fb1 : Row 16 := row1 (N := 16) (V (Proc.devRef .tc main_arg22))
abbrev fw2 : Mat 16 8 := mat2 (M := 16) (N := 8) (V (Proc.devRef .tc main_arg23))
abbrev fb2 : Row 8 := row1 (N := 8) (V (Proc.devRef .tc main_arg24))
abbrev ow : Mat 8 2 := mat2 (M := 8) (N := 2) (V (Proc.devRef .tc main_arg25))
abbrev ob : Row 2 := row1 (N := 2) (V (Proc.devRef .tc main_arg26))

/-! ### Layer 1 -/

/-- Layer 1's input plus its aggregated neighbours. -/
def s1 : Mat 50000 114 := fun r i => x0 V r i + agg hN (sI V) (dI V) (x0 V) r i

/-- Layer 1's perceptron output. -/
def m1 : Mat 50000 198 := mlp (x0 V) (agg hN (sI V) (dI V) (x0 V)) (w1a V) (b1a V) (w1b V) (b1b V)

/-- Layer 1's output: the perceptron output normalised over the nodes. -/
def h1 : Mat 50000 198 := layer bnR hN (sI V) (dI V) (x0 V) (w1a V) (b1a V) (w1b V) (b1b V) (g1 V) (be1 V)

theorem v14_eq : res_v14 V = arr2 (s1 V) := by
  refine (resid_eq hN _ _ _ (V (Proc.devRef .tc main_arg0)) (res_v9 V) (res_v12 V)).trans ?_
  rfl

theorem v19_eq : res_v19 V = arr2 (fun r k => relu (lin (s1 V) (w1a V) (b1a V) r k)) := by
  refine (linrelu_eq _ none _ _ _ (res_v14 V) (V (Proc.devRef .tc main_arg3)) (V (Proc.devRef .tc main_arg4))).trans ?_
  rw [v14_eq]
  rfl

theorem v24_eq : res_v24 V = arr2 (m1 V) := by
  refine (linrelu_eq _ none _ _ _ (res_v19 V) (V (Proc.devRef .tc main_arg5)) (V (Proc.devRef .tc main_arg6))).trans ?_
  rw [v19_eq]
  rfl

theorem v27_eq : res_v27 V = fun i => mean (m1 V) (i 0) := by
  refine (mean_eq _ _ _ (res_v24 V)).trans ?_
  rw [v24_eq]
  rfl

theorem v28_eq : res_v28 V = fun i => varR (m1 V) (i 0) := by
  refine (var_eq _ _ _ _ _ _ (res_v24 V) _).trans ?_
  rw [v24_eq]
  rfl

theorem v43_eq : res_v43 V = arr2 (h1 V) := by
  refine (norm_eq _ _ _ (res_v24 V) (res_v27 V) (res_v28 V) (V (Proc.devRef .tc main_arg7)) (V (Proc.devRef .tc main_arg8))).trans ?_
  rw [v24_eq, v27_eq, v28_eq]
  rfl

/-! ### Layer 2 -/

/-- Layer 2's input plus its aggregated neighbours. -/
def s2 : Mat 50000 198 := fun r i => h1 V r i + agg hN (sI V) (dI V) (h1 V) r i

/-- Layer 2's perceptron output. -/
def m2 : Mat 50000 64 := mlp (h1 V) (agg hN (sI V) (dI V) (h1 V)) (w2a V) (b2a V) (w2b V) (b2b V)

/-- Layer 2's output: the perceptron output normalised over the nodes. -/
def h2 : Mat 50000 64 := layer bnR hN (sI V) (dI V) (h1 V) (w2a V) (b2a V) (w2b V) (b2b V) (g2 V) (be2 V)

theorem v54_eq : res_v54 V = arr2 (s2 V) := by
  refine (resid_eq hN _ _ _ (res_v43 V) (res_v49 V) (res_v52 V)).trans ?_
  rw [v43_eq, res_v49_eq, res_v52_eq]
  rfl

theorem v59_eq : res_v59 V = arr2 (fun r k => relu (lin (s2 V) (w2a V) (b2a V) r k)) := by
  refine (linrelu_eq _ none _ _ _ (res_v54 V) (V (Proc.devRef .tc main_arg9)) (V (Proc.devRef .tc main_arg10))).trans ?_
  rw [v54_eq]
  rfl

theorem v64_eq : res_v64 V = arr2 (m2 V) := by
  refine (linrelu_eq _ none _ _ _ (res_v59 V) (V (Proc.devRef .tc main_arg11)) (V (Proc.devRef .tc main_arg12))).trans ?_
  rw [v59_eq]
  rfl

theorem v67_eq : res_v67 V = fun i => mean (m2 V) (i 0) := by
  refine (mean_eq _ _ _ (res_v64 V)).trans ?_
  rw [v64_eq]
  rfl

theorem v68_eq : res_v68 V = fun i => varR (m2 V) (i 0) := by
  refine (var_eq _ _ _ _ _ _ (res_v64 V) _).trans ?_
  rw [v64_eq]
  rfl

theorem v83_eq : res_v83 V = arr2 (h2 V) := by
  refine (norm_eq _ _ _ (res_v64 V) (res_v67 V) (res_v68 V) (V (Proc.devRef .tc main_arg13)) (V (Proc.devRef .tc main_arg14))).trans ?_
  rw [v64_eq, v67_eq, v68_eq]
  rfl

/-! ### Layer 3 -/

/-- Layer 3's input plus its aggregated neighbours. -/
def s3 : Mat 50000 64 := fun r i => h2 V r i + agg hN (sI V) (dI V) (h2 V) r i

/-- Layer 3's perceptron output. -/
def m3 : Mat 50000 32 := mlp (h2 V) (agg hN (sI V) (dI V) (h2 V)) (w3a V) (b3a V) (w3b V) (b3b V)

/-- Layer 3's output: the perceptron output normalised over the nodes. -/
def h3 : Mat 50000 32 := layer bnR hN (sI V) (dI V) (h2 V) (w3a V) (b3a V) (w3b V) (b3b V) (g3 V) (be3 V)

theorem v94_eq : res_v94 V = arr2 (s3 V) := by
  refine (resid_eq hN _ _ _ (res_v83 V) (res_v89 V) (res_v92 V)).trans ?_
  rw [v83_eq, res_v89_eq, res_v92_eq]
  rfl

theorem v99_eq : res_v99 V = arr2 (fun r k => relu (lin (s3 V) (w3a V) (b3a V) r k)) := by
  refine (linrelu_eq _ none _ _ _ (res_v94 V) (V (Proc.devRef .tc main_arg15)) (V (Proc.devRef .tc main_arg16))).trans ?_
  rw [v94_eq]
  rfl

theorem v104_eq : res_v104 V = arr2 (m3 V) := by
  refine (linrelu_eq _ none _ _ _ (res_v99 V) (V (Proc.devRef .tc main_arg17)) (V (Proc.devRef .tc main_arg18))).trans ?_
  rw [v99_eq]
  rfl

theorem v107_eq : res_v107 V = fun i => mean (m3 V) (i 0) := by
  refine (mean_eq _ _ _ (res_v104 V)).trans ?_
  rw [v104_eq]
  rfl

theorem v108_eq : res_v108 V = fun i => varR (m3 V) (i 0) := by
  refine (var_eq _ _ _ _ _ _ (res_v104 V) _).trans ?_
  rw [v104_eq]
  rfl

theorem v123_eq : res_v123 V = arr2 (h3 V) := by
  refine (norm_eq _ _ _ (res_v104 V) (res_v107 V) (res_v108 V) (V (Proc.devRef .tc main_arg19)) (V (Proc.devRef .tc main_arg20))).trans ?_
  rw [v104_eq, v107_eq, v108_eq]
  rfl

/-! ### Pooling and the head -/

theorem v126_eq : res_v126 V = arr2 (pool (G := 1024) (bI V) (h3 V)) := by
  refine (pool_eq _ _ (res_v125 V) (res_v123 V)).trans ?_
  rw [v123_eq]
  rfl

theorem v131_eq : res_v131 V = arr2 (fun r j => relu (lin (pool (G := 1024) (bI V) (h3 V)) (fw1 V) (fb1 V) r j)) := by
  refine (linrelu_eq _ none _ _ _ (res_v126 V) (V (Proc.devRef .tc main_arg21)) (V (Proc.devRef .tc main_arg22))).trans ?_
  rw [v126_eq]
  rfl

theorem v136_eq : res_v136 V
    = arr2 (fun r k => relu (lin (fun r' j => relu (lin (pool (G := 1024) (bI V) (h3 V)) (fw1 V) (fb1 V) r' j)) (fw2 V) (fb2 V) r k)) := by
  refine (linrelu_eq _ none _ _ _ (res_v131 V) (V (Proc.devRef .tc main_arg23)) (V (Proc.devRef .tc main_arg24))).trans ?_
  rw [v131_eq]
  rfl

theorem v140_eq : res_v140 V = arr2 (head (pool (G := 1024) (bI V) (h3 V)) (fw1 V) (fb1 V) (fw2 V) (fb2 V) (ow V) (ob V)) := by
  refine (lin_eq _ none _ _ (res_v136 V) (V (Proc.devRef .tc main_arg25)) (V (Proc.devRef .tc main_arg26))).trans ?_
  rw [v136_eq]
  rfl

/-- THE REFERENCE'S VALUE. Its last stage is the array of the network with the variance taken as the mean squared
    deviation, over the index columns it computes and its argument arrays read as matrices and rows. -/
theorem out_eq : res_v140 V
    = arr2 (net (fun {N D} => bnR (M := N) (N := D)) (sI V) (dI V) (bI V) (x0 V) (w1a V) (b1a V) (w1b V) (b1b V) (g1 V) (be1 V) (w2a V) (b2a V) (w2b V) (b2b V) (g2 V) (be2 V) (w3a V) (b3a V) (w3b V) (b3b V) (g3 V) (be3 V) (fw1 V) (fb1 V) (fw2 V) (fb2 V) (ow V) (ob V)) :=
  v140_eq V

end Cert.RefStages

end
-- ==== Proof.RefValue.lean ====
import proofs.«135204_j17832704213197_1_alg».proof.Proof.Gen.ReferenceIdeal
import proofs.«135204_j17832704213197_1_alg».proof.Proof.GinSpec
import Idealize.ShloMosaic.Lib.StableHlo.Run
import Idealize.ShloMosaic.PureOps.Ideal
import proofs.«135204_j17832704213197_1_alg».proof.Proof.RefRun
import proofs.«135204_j17832704213197_1_alg».proof.Proof.RefStagesValue

noncomputable section

open Idealize.ShloMosaic Idealize.ShloMosaic.TcCoe Idealize.SL.Sem Idealize.ShloMosaic.ValueIdx

namespace Cert.RefValue

open Cert.ReferenceIdeal Cert.ReferenceIdeal.Gen Cert.Gin Cert.RefRun

/-- The gather's start indices as the host computes them from the edge array: row 0, a negative word wrapped by the node count, as a column. -/
def sI (ei : IVec S2x800000 32) : IVec S800000x1 32 :=
  broadcastInDim S800000x1 ![0] bcast_S800000_S800000x1_0 (select (cmpi .slt (shapeCast S800000 (extractStridedSlice S1x800000 ![0, 0] ei slices_S2x800000_S1x800000_0_0) shapeCasts_S1x800000_S800000) (broadcastInDim S800000 ![] bcast_S_S800000 (constantI S_ 32 0#32))) (addi (shapeCast S800000 (extractStridedSlice S1x800000 ![0, 0] ei slices_S2x800000_S1x800000_0_0) shapeCasts_S1x800000_S800000) (broadcastInDim S800000 ![] bcast_S_S800000 (constantI S_ 32 50000#32))) (shapeCast S800000 (extractStridedSlice S1x800000 ![0, 0] ei slices_S2x800000_S1x800000_0_0) shapeCasts_S1x800000_S800000))
/-- The scatter's indices: row 1 of the edge array, as a column. -/
def dI (ei : IVec S2x800000 32) : IVec S800000x1 32 :=
  broadcastInDim S800000x1 ![0] bcast_S800000_S800000x1_0 (shapeCast S800000 (extractStridedSlice S1x800000 ![1, 0] ei slices_S2x800000_S1x800000_1_0) shapeCasts_S1x800000_S800000)
/-- The pooling scatter's indices: the graph-number vector as a column. -/
def bI (b : IVec S50000 32) : IVec S50000x1 32 :=
  broadcastInDim S50000x1 ![0] bcast_S50000_S50000x1_0 b

variable (m : (ℓ : Loc nD τ sig) → Buf (Elt Ideal) ℓ) (ρ : Dev nD → PrngReg)

-- the post is a conjunction of twenty-eight equations: matching it recurses once per conjunct
set_option maxRecDepth 8192 in
/-- The reference's run, read: every weakly fair execution terminates, nothing faulting, with the result array at the network
    with the variance as the mean squared deviation, and every argument array as launched. -/
theorem run : θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v140)
        = arr2 (net (fun {N D} => bnR (M := N) (N := D))
        (sI (m ((c.tc : Thread nD τ).loc main_arg1))) (dI (m ((c.tc : Thread nD τ).loc main_arg1))) (bI (m ((c.tc : Thread nD τ).loc main_arg2)))
        (mat2 (M := 50000) (N := 114) (m ((c.tc : Thread Cert.ReferenceIdeal.nD Cert.ReferenceIdeal.τ).loc Cert.ReferenceIdeal.main_arg0)))
        (mat2 (M := 114) (N := 198) (m ((c.tc : Thread Cert.ReferenceIdeal.nD Cert.ReferenceIdeal.τ).loc Cert.ReferenceIdeal.main_arg3)))
        (row1 (N := 198) (m ((c.tc : Thread Cert.ReferenceIdeal.nD Cert.ReferenceIdeal.τ).loc Cert.ReferenceIdeal.main_arg4)))
        (mat2 (M := 198) (N := 198) (m ((c.tc : Thread Cert.ReferenceIdeal.nD Cert.ReferenceIdeal.τ).loc Cert.ReferenceIdeal.main_arg5)))
        (row1 (N := 198) (m ((c.tc : Thread Cert.ReferenceIdeal.nD Cert.ReferenceIdeal.τ).loc Cert.ReferenceIdeal.main_arg6)))
        (row1 (N := 198) (m ((c.tc : Thread Cert.ReferenceIdeal.nD Cert.ReferenceIdeal.τ).loc Cert.ReferenceIdeal.main_arg7)))
        (row1 (N := 198) (m ((c.tc : Thread Cert.ReferenceIdeal.nD Cert.ReferenceIdeal.τ).loc Cert.ReferenceIdeal.main_arg8)))
        (mat2 (M := 198) (N := 64) (m ((c.tc : Thread Cert.ReferenceIdeal.nD Cert.ReferenceIdeal.τ).loc Cert.ReferenceIdeal.main_arg9)))
        (row1 (N := 64) (m ((c.tc : Thread Cert.ReferenceIdeal.nD Cert.ReferenceIdeal.τ).loc Cert.ReferenceIdeal.main_arg10)))
        (mat2 (M := 64) (N := 64) (m ((c.tc : Thread Cert.ReferenceIdeal.nD Cert.ReferenceIdeal.τ).loc Cert.ReferenceIdeal.main_arg11)))
        (row1 (N := 64) (m ((c.tc : Thread Cert.ReferenceIdeal.nD Cert.ReferenceIdeal.τ).loc Cert.ReferenceIdeal.main_arg12)))
        (row1 (N := 64) (m ((c.tc : Thread Cert.ReferenceIdeal.nD Cert.ReferenceIdeal.τ).loc Cert.ReferenceIdeal.main_arg13)))
        (row1 (N := 64) (m ((c.tc : Thread Cert.ReferenceIdeal.nD Cert.ReferenceIdeal.τ).loc Cert.ReferenceIdeal.main_arg14)))
        (mat2 (M := 64) (N := 32) (m ((c.tc : Thread Cert.ReferenceIdeal.nD Cert.ReferenceIdeal.τ).loc Cert.ReferenceIdeal.main_arg15)))
        (row1 (N := 32) (m ((c.tc : Thread Cert.ReferenceIdeal.nD Cert.ReferenceIdeal.τ).loc Cert.ReferenceIdeal.main_arg16)))
        (mat2 (M := 32) (N := 32) (m ((c.tc : Thread Cert.ReferenceIdeal.nD Cert.ReferenceIdeal.τ).loc Cert.ReferenceIdeal.main_arg17)))
        (row1 (N := 32) (m ((c.tc : Thread Cert.ReferenceIdeal.nD Cert.ReferenceIdeal.τ).loc Cert.ReferenceIdeal.main_arg18)))
        (row1 (N := 32) (m ((c.tc : Thread Cert.ReferenceIdeal.nD Cert.ReferenceIdeal.τ).loc Cert.ReferenceIdeal.main_arg19)))
        (row1 (N := 32) (m ((c.tc : Thread Cert.ReferenceIdeal.nD Cert.ReferenceIdeal.τ).loc Cert.ReferenceIdeal.main_arg20)))
        (mat2 (M := 32) (N := 16) (m ((c.tc : Thread Cert.ReferenceIdeal.nD Cert.ReferenceIdeal.τ).loc Cert.ReferenceIdeal.main_arg21)))
        (row1 (N := 16) (m ((c.tc : Thread Cert.ReferenceIdeal.nD Cert.ReferenceIdeal.τ).loc Cert.ReferenceIdeal.main_arg22)))
        (mat2 (M := 16) (N := 8) (m ((c.tc : Thread Cert.ReferenceIdeal.nD Cert.ReferenceIdeal.τ).loc Cert.ReferenceIdeal.main_arg23)))
        (row1 (N := 8) (m ((c.tc : Thread Cert.ReferenceIdeal.nD Cert.ReferenceIdeal.τ).loc Cert.ReferenceIdeal.main_arg24)))
        (mat2 (M := 8) (N := 2) (m ((c.tc : Thread Cert.ReferenceIdeal.nD Cert.ReferenceIdeal.τ).loc Cert.ReferenceIdeal.main_arg25)))
        (row1 (N := 2) (m ((c.tc : Thread Cert.ReferenceIdeal.nD Cert.ReferenceIdeal.τ).loc Cert.ReferenceIdeal.main_arg26))))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)) :=
  (θ_run _ _ _).mono (fun _ h c => ⟨(h c).1.trans (Cert.RefStages.out_eq (StableHlo.launchContents m c)), (h c).2⟩)
    (Cert.RefRun.run_args (F := Ideal) m ρ)

end Cert.RefValue

end
-- ==== Proof.GinMath.lean ====
/-
  The one law that joins the two programs, and the finiteness it needs.

  For a column of REAL numbers f₁ … f_M with M the node count and μ = (∑ f)/M, the mean of the squares minus μ² equals the
  mean of the squared deviations from μ:  (∑ f²)/M − μ² = (∑ (f − μ)²)/M  (expand the square; ∑ f = M μ).
  Over the extended reals this needs every entry finite, so this file also shows that every array the network handles is
  real when its float arguments are: sums and products of reals, maxima against zero, and — because a variance is a
  nonnegative real and ε is positive — the reciprocal square root in the normalisation. Hence the network computed with
  either spelling of the variance is the same function of real arguments.
-/
import proofs.«135204_j17832704213197_1_alg».proof.Proof.GinSpec
import Idealize.ShloMosaic.PureOps.Ideal.Laws

noncomputable section

open scoped BigOperators

namespace Cert.Gin

open Idealize.ShloMosaic

/-- Every entry of a matrix is a real number. -/
def R2 {M N : Nat} (f : Mat M N) : Prop := ∀ r c, ∃ x : ℝ, f r c = (x : EReal)
/-- Every entry of a row is a real number. -/
def R1 {N : Nat} (v : Row N) : Prop := ∀ c, ∃ x : ℝ, v c = (x : EReal)

/-! ## The three literals -/

theorem z_eq : z = 0 := Ideal.ofBits_zero_f32

theorem cN_eq : cN = ((50000 : ℝ) : EReal) := by
  unfold cN
  simp [Ideal.ofBits, Ideal.ieee, -EReal.coe_mul]
  norm_num

theorem eps_pos : ∃ e : ℝ, 0 < e ∧ eps = (e : EReal) := by
  unfold eps
  simp [Ideal.ofBits, Ideal.ieee, -EReal.coe_mul]

/-! ## Finite sums of reals -/

theorem sum_coe {ι : Type} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

theorem exists_sum {ι : Type} (s : Finset ι) (f : ι → EReal) (h : ∀ i, ∃ x : ℝ, f i = (x : EReal)) :
    ∃ x : ℝ, ∑ i ∈ s, f i = (x : EReal) := by
  choose g hg using h
  exact ⟨∑ i ∈ s, g i, by simp only [hg]; exact sum_coe s g⟩

/-! ## Realness through the layer's pieces -/

theorem relu_real {x : EReal} (h : ∃ a : ℝ, x = (a : EReal)) : ∃ a : ℝ, relu x = (a : EReal) := by
  obtain ⟨a, rfl⟩ := h
  refine ⟨max a 0, ?_⟩
  unfold relu
  rw [z_eq, ← EReal.coe_zero]
  exact (EReal.coe_strictMono.monotone.map_max).symm

theorem R2_lin {M K N : Nat} {A : Mat M K} {W : Mat K N} {b : Row N} (hA : R2 A) (hW : R2 W) (hb : R1 b) : R2 (lin A W b) := by
  intro r c
  obtain ⟨s, hs⟩ := exists_sum Finset.univ (fun k => A r k * W k c) (fun k => by
    obtain ⟨a, ha⟩ := hA r k
    obtain ⟨w, hw⟩ := hW k c
    exact ⟨a * w, by rw [ha, hw, EReal.coe_mul]⟩)
  obtain ⟨t, ht⟩ := hb c
  exact ⟨s + t, by unfold lin; rw [hs, ht, EReal.coe_add]⟩

theorem R2_mlp {M K H N : Nat} {X A : Mat M K} {Wa : Mat K H} {ba : Row H} {Wb : Mat H N} {bb : Row N}
    (hX : R2 X) (hA : R2 A) (hWa : R2 Wa) (hba : R1 ba) (hWb : R2 Wb) (hbb : R1 bb) : R2 (mlp X A Wa ba Wb bb) := by
  have h0 : R2 (fun r i => X r i + A r i) := fun r i => by
    obtain ⟨a, ha⟩ := hX r i
    obtain ⟨b, hb⟩ := hA r i
    exact ⟨a + b, by show X r i + A r i = _; rw [ha, hb, EReal.coe_add]⟩
  have h1 : R2 (fun r k => relu (lin (fun r'' i => X r'' i + A r'' i) Wa ba r k)) := fun r k => relu_real (R2_lin h0 hWa hba r k)
  exact fun r c => relu_real (R2_lin h1 hWb hbb r c)

theorem R2_agg {N D E : Nat} (hN : 0 < N) (sI dI : IVec ⟨2, ![E, 1]⟩ 32) {X : Mat N D} (hX : R2 X) : R2 (agg hN sI dI X) := by
  intro n k
  obtain ⟨s, hs⟩ := exists_sum (Finset.univ.filter (fun e : Fin E => (dI (ValueIdx.ix2 e (0 : Fin 1))).toInt = (n.val : Int)))
    (fun e => X (rowOf N hN sI e) k) (fun e => hX _ k)
  exact ⟨0 + s, by unfold agg; rw [hs, z_eq, ← EReal.coe_zero, EReal.coe_add]⟩

/-! ## A real column: its sums, mean and the two variances -/

section Column
variable {M N : Nat} (Hm : Mat M N) (f : Fin M → Fin N → ℝ) (hf : ∀ r c, Hm r c = (f r c : EReal))
include hf

theorem csum_coe (c : Fin N) : csum Hm c = ((∑ r, f r c : ℝ) : EReal) := by
  unfold csum
  rw [z_eq, zero_add]
  simp only [hf]
  exact sum_coe _ _

theorem mean_coe (c : Fin N) : mean Hm c = (((∑ r, f r c) * (1 / 50000) : ℝ) : EReal) := by
  unfold mean
  rw [csum_coe Hm f hf, cN_eq, Ideal.div_coe (by norm_num), ← EReal.coe_mul]

theorem varR_coe (c : Fin N) :
    varR Hm c = (((∑ r, (f r c - (∑ r', f r' c) * (1 / 50000)) * (f r c - (∑ r', f r' c) * (1 / 50000))) * (1 / 50000) : ℝ) : EReal) := by
  unfold varR csum
  rw [z_eq, zero_add, cN_eq, Ideal.div_coe (by norm_num)]
  simp only [mean_coe Hm f hf, hf, ← EReal.coe_sub, ← EReal.coe_mul]
  rw [sum_coe, ← EReal.coe_mul]

theorem varK_coe (c : Fin N) :
    varK Hm c = (((∑ r, f r c * f r c) * (1 / 50000) - ((∑ r, f r c) * (1 / 50000)) * ((∑ r, f r c) * (1 / 50000)) : ℝ) : EReal) := by
  unfold varK csum sqm
  rw [z_eq, zero_add, cN_eq, Ideal.div_coe (by norm_num)]
  simp only [mean_coe Hm f hf, hf, ← EReal.coe_mul]
  rw [sum_coe, ← EReal.coe_mul, ← EReal.coe_sub]

/-- THE LAW: with as many rows as the divisor counts, the two variances of a real column agree. -/
theorem varK_eq_varR (hM : (M : ℝ) = 50000) (c : Fin N) : varK Hm c = varR Hm c := by
  rw [varK_coe Hm f hf, varR_coe Hm f hf]
  congr 1
  have e : ∀ μ : ℝ, (∑ r, (f r c - μ) * (f r c - μ)) = (∑ r, f r c * f r c) - 2 * μ * (∑ r, f r c) + (M : ℝ) * (μ * μ) := fun μ => by
    have : ∀ r, (f r c - μ) * (f r c - μ) = f r c * f r c - 2 * μ * f r c + μ * μ := fun r => by ring
    simp only [this, Finset.sum_add_distrib, Finset.sum_sub_distrib, ← Finset.mul_sum, Finset.sum_const, Finset.card_univ,
      Fintype.card_fin, nsmul_eq_mul]
    ring
  rw [e, hM]
  ring

theorem varR_nonneg (c : Fin N) : ∃ v : ℝ, 0 ≤ v ∧ varR Hm c = (v : EReal) :=
  ⟨_, mul_nonneg (Finset.sum_nonneg fun r _ => mul_self_nonneg _) (by norm_num), varR_coe Hm f hf c⟩

end Column

/-- The reciprocal square root of a nonnegative real plus ε is a real. -/
theorem rsqrt_real {v : ℝ} (hv : 0 ≤ v) : ∃ s : ℝ, Ideal.rsqrt ((v : EReal) + eps) = (s : EReal) := by
  obtain ⟨e, he, hee⟩ := eps_pos
  refine ⟨(Real.sqrt (v + e))⁻¹, ?_⟩
  rw [hee, ← EReal.coe_add, Ideal.rsqrt_coe, if_neg (by linarith), if_neg (by linarith)]

/-! ## The normalisation -/

theorem bnK_eq_bnR {M N : Nat} (hM : (M : ℝ) = 50000) {Hm : Mat M N} (h : R2 Hm) (g b : Row N) : bnK Hm g b = bnR Hm g b := by
  choose f hf using h
  unfold bnK bnR
  congr 1
  funext c
  exact varK_eq_varR Hm f hf hM c

theorem R2_bnR {M N : Nat} {Hm : Mat M N} (h : R2 Hm) {g b : Row N} (hg : R1 g) (hb : R1 b) : R2 (bnR Hm g b) := by
  choose f hf using h
  intro r c
  obtain ⟨v, hv, hvv⟩ := varR_nonneg Hm f hf c
  obtain ⟨s, hs⟩ := rsqrt_real hv
  obtain ⟨γ, hγ⟩ := hg c
  obtain ⟨β, hβ⟩ := hb c
  refine ⟨(f r c - (∑ r', f r' c) * (1 / 50000)) * s * γ + β, ?_⟩
  unfold bnR norm
  rw [hvv, hs, hγ, hβ, hf, mean_coe Hm f hf, ← EReal.coe_sub, ← EReal.coe_mul, ← EReal.coe_mul, ← EReal.coe_add]

/-! ## A layer, and the network -/

section Layer
variable {N K H D E : Nat} (hN : 0 < N) (sI dI : IVec ⟨2, ![E, 1]⟩ 32)
  {X : Mat N K} {Wa : Mat K H} {ba : Row H} {Wb : Mat H D} {bb g be : Row D}

theorem layer_eq (hM : (N : ℝ) = 50000) (hX : R2 X) (hWa : R2 Wa) (hba : R1 ba) (hWb : R2 Wb) (hbb : R1 bb) :
    layer bnK hN sI dI X Wa ba Wb bb g be = layer bnR hN sI dI X Wa ba Wb bb g be :=
  bnK_eq_bnR hM (R2_mlp hX (R2_agg hN sI dI hX) hWa hba hWb hbb) g be

theorem R2_layer (hX : R2 X) (hWa : R2 Wa) (hba : R1 ba) (hWb : R2 Wb) (hbb : R1 bb) (hg : R1 g) (hbe : R1 be) :
    R2 (layer bnR hN sI dI X Wa ba Wb bb g be) :=
  R2_bnR (R2_mlp hX (R2_agg hN sI dI hX) hWa hba hWb hbb) hg hbe

end Layer

/-- The network is the same function of real arguments under either spelling of the variance. -/
theorem net_eq (sI dI : IVec ⟨2, ![800000, 1]⟩ 32) (bI : IVec ⟨2, ![50000, 1]⟩ 32) {x : Mat 50000 114}
    {w1a : Mat 114 198} {b1a : Row 198} {w1b : Mat 198 198} {b1b g1 be1 : Row 198}
    {w2a : Mat 198 64} {b2a : Row 64} {w2b : Mat 64 64} {b2b g2 be2 : Row 64}
    {w3a : Mat 64 32} {b3a : Row 32} {w3b : Mat 32 32} {b3b g3 be3 : Row 32}
    (fw1 : Mat 32 16) (fb1 : Row 16) (fw2 : Mat 16 8) (fb2 : Row 8) (ow : Mat 8 2) (ob : Row 2)
    (hx : R2 x) (h1a : R2 w1a) (h1ab : R1 b1a) (h1b : R2 w1b) (h1bb : R1 b1b) (hg1 : R1 g1) (hbe1 : R1 be1)
    (h2a : R2 w2a) (h2ab : R1 b2a) (h2b : R2 w2b) (h2bb : R1 b2b) (hg2 : R1 g2) (hbe2 : R1 be2)
    (h3a : R2 w3a) (h3ab : R1 b3a) (h3b : R2 w3b) (h3bb : R1 b3b) :
    net (fun {N D} => bnR (M := N) (N := D)) sI dI bI x w1a b1a w1b b1b g1 be1 w2a b2a w2b b2b g2 be2 w3a b3a w3b b3b g3 be3 fw1 fb1 fw2 fb2 ow ob
      = net (fun {N D} => bnK (M := N) (N := D)) sI dI bI x w1a b1a w1b b1b g1 be1 w2a b2a w2b b2b g2 be2 w3a b3a w3b b3b g3 be3 fw1 fb1 fw2 fb2 ow ob := by
  have hM : ((50000 : Nat) : ℝ) = 50000 := by norm_num
  have r1 := R2_layer (by decide : 0 < 50000) sI dI hx h1a h1ab h1b h1bb hg1 hbe1
  have r2 := R2_layer (by decide : 0 < 50000) sI dI r1 h2a h2ab h2b h2bb hg2 hbe2
  have e1 := layer_eq (g := g1) (be := be1) (by decide : 0 < 50000) sI dI hM hx h1a h1ab h1b h1bb
  have e2 := layer_eq (g := g2) (be := be2) (by decide : 0 < 50000) sI dI hM r1 h2a h2ab h2b h2bb
  have e3 := layer_eq (g := g3) (be := be3) (by decide : 0 < 50000) sI dI hM r2 h3a h3ab h3b h3bb
  unfold net
  simp only []
  rw [e1, e2, e3]

end Cert.Gin

end
-- ==== Proof.Basic.lean ====
/-
  "Every entry is a real number": the predicate under which sums over the extended reals may be rearranged.
-/
import Mathlib.Data.EReal.Basic

namespace Cert.Spec

/-- Every entry of the family is (the coercion of) a real number: none is `+∞` or `−∞`. -/
def IsReal {ι : Type} (f : ι → EReal) : Prop := ∀ i, ∃ r : ℝ, f i = (r : EReal)

end Cert.Spec
-- ==== Proof.Finite.lean ====
import proofs.«135204_j17832704213197_1_alg».proof.Defs
import proofs.«135204_j17832704213197_1_alg».proof.Proof.Basic
import Idealize.ShloMosaic.Lib.ReduceAll
import Idealize.ShloMosaic.Lib.ValueIdx
import Idealize.ShloMosaic.Lib.IdealHost

noncomputable section

open Idealize.ShloMosaic Idealize.ShloMosaic.TcCoe Idealize.SL.Sem Idealize.ShloMosaic.ValueIdx

namespace Cert.Finite

open Cert.KernelIdeal Cert.Spec

variable [Cert.Pre_finite_inputs.Facts]

/-- Every float argument array of the kernel's program holds real numbers only. -/
structure Args (m : (ℓ : Loc nD τ sig) → Buf (Elt Ideal) ℓ) (c : Dev nD) : Prop where
  a0 : IsReal (m ((c.tc : Thread nD τ).loc main_arg0))
  a3 : IsReal (m ((c.tc : Thread nD τ).loc main_arg3))
  a4 : IsReal (m ((c.tc : Thread nD τ).loc main_arg4))
  a5 : IsReal (m ((c.tc : Thread nD τ).loc main_arg5))
  a6 : IsReal (m ((c.tc : Thread nD τ).loc main_arg6))
  a7 : IsReal (m ((c.tc : Thread nD τ).loc main_arg7))
  a8 : IsReal (m ((c.tc : Thread nD τ).loc main_arg8))
  a9 : IsReal (m ((c.tc : Thread nD τ).loc main_arg9))
  a10 : IsReal (m ((c.tc : Thread nD τ).loc main_arg10))
  a11 : IsReal (m ((c.tc : Thread nD τ).loc main_arg11))
  a12 : IsReal (m ((c.tc : Thread nD τ).loc main_arg12))
  a13 : IsReal (m ((c.tc : Thread nD τ).loc main_arg13))
  a14 : IsReal (m ((c.tc : Thread nD τ).loc main_arg14))
  a15 : IsReal (m ((c.tc : Thread nD τ).loc main_arg15))
  a16 : IsReal (m ((c.tc : Thread nD τ).loc main_arg16))
  a17 : IsReal (m ((c.tc : Thread nD τ).loc main_arg17))
  a18 : IsReal (m ((c.tc : Thread nD τ).loc main_arg18))
  a19 : IsReal (m ((c.tc : Thread nD τ).loc main_arg19))
  a20 : IsReal (m ((c.tc : Thread nD τ).loc main_arg20))
  a21 : IsReal (m ((c.tc : Thread nD τ).loc main_arg21))
  a22 : IsReal (m ((c.tc : Thread nD τ).loc main_arg22))
  a23 : IsReal (m ((c.tc : Thread nD τ).loc main_arg23))
  a24 : IsReal (m ((c.tc : Thread nD τ).loc main_arg24))
  a25 : IsReal (m ((c.tc : Thread nD τ).loc main_arg25))
  a26 : IsReal (m ((c.tc : Thread nD τ).loc main_arg26))

/-- An extended real whose absolute value `max a (-a)` lies below `⊤` is a real number. -/
theorem exists_real_of_abs_lt_top (a : EReal) (h : max a (-a) < ⊤) : ∃ r : ℝ, a = (r : EReal) := by
  induction a using EReal.rec with
  | bot => simp at h
  | coe r => exact ⟨r, rfl⟩
  | top => simp at h

/-- The f32 word `0x7F800000` denotes `+∞`. -/
theorem ofBits_inf_f32 : Ideal.ofBits .f32 0x7F800000#32 = ⊤ := by simp [Ideal.ofBits, Ideal.ieee]

/-- If the conjunction over all entries of `|x| < +∞` holds, then every entry of `x` is a real number.
    The conjunction is a reduction by `and` into a result with a single index; it being 1 makes every
    compared entry 1, that is `max (x i) (-(x i)) < ⊤`, which excludes both infinities. -/
theorem isReal_of_all_abs_lt_inf {s t u : Shape} {axes : List (Fin s.rank)} [Subsingleton t.Idx]
    (x : FVec Ideal s .f32) (hb : (⟨0, ![]⟩ : Shape).BroadcastsInDim s ![])
    (init : IVec u 1) (h : s.ReducesTo axes t) (hu : 0 < u.numel) (j : t.Idx)
    (e : Host.reduce IntOp.andi
          (cmpf .olt (Host.absf x) (broadcastInDim s ![] hb (constant (⟨0, ![]⟩ : Shape) .f32 0x7F800000#32)))
          init h hu j = 1#1) :
    IsReal x := by
  intro i
  have hi := Host.reduce_andi_all _ init h hu j e i
  rw [cmpf_apply, broadcastInDim_scalar_apply, constant_apply, ofBits_inf_f32] at hi
  refine exists_real_of_abs_lt_top (x i) ?_
  change Ideal.cmp .olt (max (x i) (-(x i))) ⊤ = 1#1 at hi
  unfold Ideal.cmp at hi
  by_contra hn
  simp [hn] at hi

/-- The rank-0 shape has a single index. -/
instance : Subsingleton Cert.Pre_finite_inputs.S_.Idx := ⟨fun a b => funext fun d => d.elim0⟩

/-- The precondition says, of every float argument, that each entry's absolute value is below `+∞`: so each entry is real. -/
theorem args_real (m : (ℓ : Loc nD τ sig) → Buf (Elt Ideal) ℓ) (h : Cert.Pre_KernelIdeal m) (c : Dev nD) : Args m c := by
  have h0 := congrFun (h c) ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Cert.Pre_finite_inputs.fn_part7] at h0
  obtain ⟨h1, e26⟩ := IntOp.andi_eq_one.1 h0
  obtain ⟨h2, e25⟩ := IntOp.andi_eq_one.1 h1
  obtain ⟨h3, e24⟩ := IntOp.andi_eq_one.1 h2
  obtain ⟨h4, e23⟩ := IntOp.andi_eq_one.1 h3
  obtain ⟨h5, e22⟩ := IntOp.andi_eq_one.1 h4
  obtain ⟨h6, e21⟩ := IntOp.andi_eq_one.1 h5
  obtain ⟨h7, e20⟩ := IntOp.andi_eq_one.1 h6
  obtain ⟨h8, e19⟩ := IntOp.andi_eq_one.1 h7
  obtain ⟨h9, e18⟩ := IntOp.andi_eq_one.1 h8
  obtain ⟨h10, e17⟩ := IntOp.andi_eq_one.1 h9
  obtain ⟨h11, e16⟩ := IntOp.andi_eq_one.1 h10
  obtain ⟨h12, e15⟩ := IntOp.andi_eq_one.1 h11
  obtain ⟨h13, e14⟩ := IntOp.andi_eq_one.1 h12
  obtain ⟨h14, e13⟩ := IntOp.andi_eq_one.1 h13
  obtain ⟨h15, e12⟩ := IntOp.andi_eq_one.1 h14
  obtain ⟨h16, e11⟩ := IntOp.andi_eq_one.1 h15
  obtain ⟨h17, e10⟩ := IntOp.andi_eq_one.1 h16
  obtain ⟨h18, e9⟩ := IntOp.andi_eq_one.1 h17
  obtain ⟨h19, e8⟩ := IntOp.andi_eq_one.1 h18
  obtain ⟨h20, e7⟩ := IntOp.andi_eq_one.1 h19
  obtain ⟨h21, e6⟩ := IntOp.andi_eq_one.1 h20
  obtain ⟨h22, e5⟩ := IntOp.andi_eq_one.1 h21
  obtain ⟨h23, e4⟩ := IntOp.andi_eq_one.1 h22
  obtain ⟨e0, e3⟩ := IntOp.andi_eq_one.1 h23
  exact {
    a0 := isReal_of_all_abs_lt_inf _ _ _ _ _ _ e0
    a3 := isReal_of_all_abs_lt_inf _ _ _ _ _ _ e3
    a4 := isReal_of_all_abs_lt_inf _ _ _ _ _ _ e4
    a5 := isReal_of_all_abs_lt_inf _ _ _ _ _ _ e5
    a6 := isReal_of_all_abs_lt_inf _ _ _ _ _ _ e6
    a7 := isReal_of_all_abs_lt_inf _ _ _ _ _ _ e7
    a8 := isReal_of_all_abs_lt_inf _ _ _ _ _ _ e8
    a9 := isReal_of_all_abs_lt_inf _ _ _ _ _ _ e9
    a10 := isReal_of_all_abs_lt_inf _ _ _ _ _ _ e10
    a11 := isReal_of_all_abs_lt_inf _ _ _ _ _ _ e11
    a12 := isReal_of_all_abs_lt_inf _ _ _ _ _ _ e12
    a13 := isReal_of_all_abs_lt_inf _ _ _ _ _ _ e13
    a14 := isReal_of_all_abs_lt_inf _ _ _ _ _ _ e14
    a15 := isReal_of_all_abs_lt_inf _ _ _ _ _ _ e15
    a16 := isReal_of_all_abs_lt_inf _ _ _ _ _ _ e16
    a17 := isReal_of_all_abs_lt_inf _ _ _ _ _ _ e17
    a18 := isReal_of_all_abs_lt_inf _ _ _ _ _ _ e18
    a19 := isReal_of_all_abs_lt_inf _ _ _ _ _ _ e19
    a20 := isReal_of_all_abs_lt_inf _ _ _ _ _ _ e20
    a21 := isReal_of_all_abs_lt_inf _ _ _ _ _ _ e21
    a22 := isReal_of_all_abs_lt_inf _ _ _ _ _ _ e22
    a23 := isReal_of_all_abs_lt_inf _ _ _ _ _ _ e23
    a24 := isReal_of_all_abs_lt_inf _ _ _ _ _ _ e24
    a25 := isReal_of_all_abs_lt_inf _ _ _ _ _ _ e25
    a26 := isReal_of_all_abs_lt_inf _ _ _ _ _ _ e26 }

end Cert.Finite

end
-- ==== Proof.lean ====
/-
  A three-layer graph isomorphism network with batch normalisation, pooled per graph and fed to a small perceptron:
  the kernel computes each layer's perceptron and the column sums of its output and of its squares in row blocks of 2000 nodes,
  takes the variance as (mean of squares) − (mean)², and normalises in a second pass; the reference takes the variance as the
  mean squared deviation from the mean. Read over the extended reals the two programs are the same function of finite inputs:
  the block-wise products are rows of the whole products, the accumulated block sums are the whole column sums, and for a column of
  real numbers the two variances agree (proof/Proof/GinMath.lean). The neighbour aggregation and the pooling are the same host
  operations on both sides. The word-level kernel and its idealization are the same text (no rewrite), so `preserves` is trivial.
-/
import proofs.«135204_j17832704213197_1_alg».proof.Defs
import proofs.«135204_j17832704213197_1_alg».proof.Proof.Gen.Kernel
import proofs.«135204_j17832704213197_1_alg».proof.Proof.Gen.Kernel.Skeleton
import proofs.«135204_j17832704213197_1_alg».proof.Proof.Gen.Kernel.Launch
import proofs.«135204_j17832704213197_1_alg».proof.Proof.Gen.Kernel.Points
import proofs.«135204_j17832704213197_1_alg».proof.Proof.Gen.Kernel.Frame
import proofs.«135204_j17832704213197_1_alg».proof.Proof.Gen.KernelIdeal
import proofs.«135204_j17832704213197_1_alg».proof.Proof.Gen.KernelIdeal.Skeleton
import proofs.«135204_j17832704213197_1_alg».proof.Proof.Gen.KernelIdeal.Launch
import proofs.«135204_j17832704213197_1_alg».proof.Proof.Gen.KernelIdeal.Points
import proofs.«135204_j17832704213197_1_alg».proof.Proof.Gen.KernelIdeal.Frame
import proofs.«135204_j17832704213197_1_alg».proof.Proof.Gen.ReferenceIdeal
import proofs.«135204_j17832704213197_1_alg».proof.Proof.Gen.Pre_finite_inputs
import proofs.«135204_j17832704213197_1_alg».proof.Proof.KRun
import proofs.«135204_j17832704213197_1_alg».proof.Proof.KChain
import proofs.«135204_j17832704213197_1_alg».proof.Proof.RefValue
import proofs.«135204_j17832704213197_1_alg».proof.Proof.GinMath
import proofs.«135204_j17832704213197_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Gin

/-- The reference's frame: its run with the result dropped. -/
theorem frame_ref : Cert.frame_ReferenceIdeal := fun m ρ _ =>
  (θ_run Cert.ReferenceIdeal.defs _ _).mono (fun _ h c => (h c).2) (Cert.RefValue.run m ρ)

/-- The two programs' networks agree on argument arrays that are equal and real: the index columns are the same operations of
    the edge array and the graph vector, and with real entries the two spellings of the variance agree in every layer. -/
theorem bridge (a0 a0' : (⟨2, ![50000, 114]⟩ : Shape).Idx → EReal) (a1 a1' : IVec ⟨2, ![2, 800000]⟩ 32) (a2 a2' : IVec ⟨1, ![50000]⟩ 32) (a3 a3' : (⟨2, ![114, 198]⟩ : Shape).Idx → EReal) (a4 a4' : (⟨1, ![198]⟩ : Shape).Idx → EReal) (a5 a5' : (⟨2, ![198, 198]⟩ : Shape).Idx → EReal) (a6 a6' : (⟨1, ![198]⟩ : Shape).Idx → EReal) (a7 a7' : (⟨1, ![198]⟩ : Shape).Idx → EReal) (a8 a8' : (⟨1, ![198]⟩ : Shape).Idx → EReal) (a9 a9' : (⟨2, ![198, 64]⟩ : Shape).Idx → EReal) (a10 a10' : (⟨1, ![64]⟩ : Shape).Idx → EReal) (a11 a11' : (⟨2, ![64, 64]⟩ : Shape).Idx → EReal) (a12 a12' : (⟨1, ![64]⟩ : Shape).Idx → EReal) (a13 a13' : (⟨1, ![64]⟩ : Shape).Idx → EReal) (a14 a14' : (⟨1, ![64]⟩ : Shape).Idx → EReal) (a15 a15' : (⟨2, ![64, 32]⟩ : Shape).Idx → EReal) (a16 a16' : (⟨1, ![32]⟩ : Shape).Idx → EReal) (a17 a17' : (⟨2, ![32, 32]⟩ : Shape).Idx → EReal) (a18 a18' : (⟨1, ![32]⟩ : Shape).Idx → EReal) (a19 a19' : (⟨1, ![32]⟩ : Shape).Idx → EReal) (a20 a20' : (⟨1, ![32]⟩ : Shape).Idx → EReal) (a21 a21' : (⟨2, ![32, 16]⟩ : Shape).Idx → EReal) (a22 a22' : (⟨1, ![16]⟩ : Shape).Idx → EReal) (a23 a23' : (⟨2, ![16, 8]⟩ : Shape).Idx → EReal) (a24 a24' : (⟨1, ![8]⟩ : Shape).Idx → EReal) (a25 a25' : (⟨2, ![8, 2]⟩ : Shape).Idx → EReal) (a26 a26' : (⟨1, ![2]⟩ : Shape).Idx → EReal)
    (e0 : a0' = a0) (e1 : a1' = a1) (e2 : a2' = a2) (e3 : a3' = a3) (e4 : a4' = a4) (e5 : a5' = a5) (e6 : a6' = a6) (e7 : a7' = a7) (e8 : a8' = a8) (e9 : a9' = a9) (e10 : a10' = a10) (e11 : a11' = a11) (e12 : a12' = a12) (e13 : a13' = a13) (e14 : a14' = a14) (e15 : a15' = a15) (e16 : a16' = a16) (e17 : a17' = a17) (e18 : a18' = a18) (e19 : a19' = a19) (e20 : a20' = a20) (e21 : a21' = a21) (e22 : a22' = a22) (e23 : a23' = a23) (e24 : a24' = a24) (e25 : a25' = a25) (e26 : a26' = a26)
    (h0 : Cert.Spec.IsReal a0) (h3 : Cert.Spec.IsReal a3) (h4 : Cert.Spec.IsReal a4) (h5 : Cert.Spec.IsReal a5) (h6 : Cert.Spec.IsReal a6) (h7 : Cert.Spec.IsReal a7) (h8 : Cert.Spec.IsReal a8) (h9 : Cert.Spec.IsReal a9) (h10 : Cert.Spec.IsReal a10) (h11 : Cert.Spec.IsReal a11) (h12 : Cert.Spec.IsReal a12) (h13 : Cert.Spec.IsReal a13) (h14 : Cert.Spec.IsReal a14) (h15 : Cert.Spec.IsReal a15) (h16 : Cert.Spec.IsReal a16) (h17 : Cert.Spec.IsReal a17) (h18 : Cert.Spec.IsReal a18) (h19 : Cert.Spec.IsReal a19) (h20 : Cert.Spec.IsReal a20) (h21 : Cert.Spec.IsReal a21) (h22 : Cert.Spec.IsReal a22) (h23 : Cert.Spec.IsReal a23) (h24 : Cert.Spec.IsReal a24) (h25 : Cert.Spec.IsReal a25) (h26 : Cert.Spec.IsReal a26) :
    arr2 (net (fun {N D} => bnR (M := N) (N := D)) (Cert.RefValue.sI a1') (Cert.RefValue.dI a1') (Cert.RefValue.bI a2')
        (mat2 a0') (mat2 a3') (row1 a4') (mat2 a5') (row1 a6') (row1 a7') (row1 a8') (mat2 a9') (row1 a10') (mat2 a11') (row1 a12') (row1 a13') (row1 a14') (mat2 a15') (row1 a16') (mat2 a17') (row1 a18') (row1 a19') (row1 a20') (mat2 a21') (row1 a22') (mat2 a23') (row1 a24') (mat2 a25') (row1 a26'))
    = arr2 (net (fun {N D} => bnK (M := N) (N := D)) (Cert.KChain.sI a1) (Cert.KChain.dI a1) (Cert.KChain.bI a2)
        (mat2 a0) (mat2 a3) (row1 a4) (mat2 a5) (row1 a6) (row1 a7) (row1 a8) (mat2 a9) (row1 a10) (mat2 a11) (row1 a12) (row1 a13) (row1 a14) (mat2 a15) (row1 a16) (mat2 a17) (row1 a18) (row1 a19) (row1 a20) (mat2 a21) (row1 a22) (mat2 a23) (row1 a24) (mat2 a25) (row1 a26)) := by
  have hs : Cert.RefValue.sI = Cert.KChain.sI := rfl
  have hd : Cert.RefValue.dI = Cert.KChain.dI := rfl
  have hb : Cert.RefValue.bI = Cert.KChain.bI := rfl
  rw [hs, hd, hb]
  subst e0 e1 e2 e3 e4 e5 e6 e7 e8 e9 e10 e11 e12 e13 e14 e15 e16 e17 e18 e19 e20 e21 e22 e23 e24 e25 e26
  exact congrArg arr2 (net_eq _ _ _ _ _ _ _ _ _ (fun r k => h0 (ix2 r k)) (fun r k => h3 (ix2 r k)) (fun k => h4 (ix1 k)) (fun r k => h5 (ix2 r k)) (fun k => h6 (ix1 k)) (fun k => h7 (ix1 k)) (fun k => h8 (ix1 k)) (fun r k => h9 (ix2 r k)) (fun k => h10 (ix1 k)) (fun r k => h11 (ix2 r k)) (fun k => h12 (ix1 k)) (fun k => h13 (ix1 k)) (fun k => h14 (ix1 k)) (fun r k => h15 (ix2 r k)) (fun k => h16 (ix1 k)) (fun r k => h17 (ix2 r k)) (fun k => h18 (ix1 k)))

/-- Both programs run; the kernel's result is the network with the variance as mean square minus squared mean, the reference's
    the network with the variance as mean squared deviation, of the same real arguments: equal. -/
theorem algebraic : Cert.algebraic_KernelIdeal_ReferenceIdeal := by
  intro m ρ m' ρ' hpre hagree
  refine ⟨_, (θ_run Cert.KernelIdeal.defs _ _).mono (fun _ h c => ⟨(h c).1.trans (Cert.KChain.value m ρ c), (h c).2⟩)
    (Cert.KRun.run m ρ), ?_⟩
  refine (θ_run Cert.ReferenceIdeal.defs _ _).mono (fun _ h c => ⟨(h c).1.trans ?_, (h c).2⟩) (Cert.RefValue.run m' ρ')
  obtain ⟨e0, e1, e2, e3, e4, e5, e6, e7, e8, e9, e10, e11, e12, e13, e14, e15, e16, e17, e18, e19, e20, e21, e22, e23, e24, e25, e26⟩ := hagree c
  have A := Cert.Finite.args_real m hpre c
  exact bridge (m ((c.tc : Thread Cert.KernelIdeal.nD Cert.KernelIdeal.τ).loc Cert.KernelIdeal.main_arg0)) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg1)) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg2)) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg3)) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg4)) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg5)) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg6)) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg7)) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg8)) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg9)) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg10)) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg11)) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg12)) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg13)) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg14)) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg15)) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg16)) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg17)) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg18)) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg19)) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg20)) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg21)) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg22)) (m' ((c.tc : Thread Cert.ReferenceIdeal.nD Cert.ReferenceIdeal.τ).loc Cert.ReferenceIdeal.main_arg22)) (m ((c.tc : Thread Cert.KernelIdeal.nD Cert.KernelIdeal.τ).loc Cert.KernelIdeal.main_arg23)) (m' ((c.tc : Thread Cert.ReferenceIdeal.nD Cert.ReferenceIdeal.τ).loc Cert.ReferenceIdeal.main_arg23)) (m ((c.tc : Thread Cert.KernelIdeal.nD Cert.KernelIdeal.τ).loc Cert.KernelIdeal.main_arg24)) (m' ((c.tc : Thread Cert.ReferenceIdeal.nD Cert.ReferenceIdeal.τ).loc Cert.ReferenceIdeal.main_arg24)) (m ((c.tc : Thread Cert.KernelIdeal.nD Cert.KernelIdeal.τ).loc Cert.KernelIdeal.main_arg25)) (m' ((c.tc : Thread Cert.ReferenceIdeal.nD Cert.ReferenceIdeal.τ).loc Cert.ReferenceIdeal.main_arg25)) (m ((c.tc : Thread Cert.KernelIdeal.nD Cert.KernelIdeal.τ).loc Cert.KernelIdeal.main_arg26)) (m' ((c.tc : Thread Cert.ReferenceIdeal.nD Cert.ReferenceIdeal.τ).loc Cert.ReferenceIdeal.main_arg26))
    e0 e1 e2 e3 e4 e5 e6 e7 e8 e9 e10 e11 e12 e13 e14 e15 e16 e17 e18 e19 e20 e21 e22 e23 e24 e25 e26 A.a0 A.a3 A.a4 A.a5 A.a6 A.a7 A.a8 A.a9 A.a10 A.a11 A.a12 A.a13 A.a14 A.a15 A.a16 A.a17 A.a18 A.a19 A.a20 A.a21 A.a22 A.a23 A.a24 A.a25 A.a26

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
